-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S2x524288 : Shape := ⟨2, ![2, 524288]⟩
abbrev S2x131072 : Shape := ⟨2, ![2, 131072]⟩
abbrev S524288x128 : Shape := ⟨2, ![524288, 128]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S524288x128 : S_.BroadcastsInDim S524288x128 (![] : Fin 0 → Fin S524288x128.rank)
  reducesTo_S524288x128_S_d0_1 : S524288x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_

variable [Facts]

def fn_part5 {F : FTy → Type} [FloatOps F] (main_arg21 : FVec F S128 .f32) (main_arg22 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg22
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg17 : FVec F S3x128 .f32) (main_arg18 : FVec F S3x128 .f32) (main_arg19 : FVec F S384x128 .f32) (main_arg20 : FVec F S128 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S3x128 .f32 := Host.absf main_arg17
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg18
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S384x128 .f32 := Host.absf main_arg19
  let main_cst_30 : FVec F S_ .f32 := constant S_ .f32 0x7F800000#32
  let main_v80 : FVec F S384x128 .f32 := broadcastInDim S384x128 ![] bcast_S_S384x128 main_cst_30
  let main_v81 : IVec S384x128 1 := cmpf .olt main_v79 main_v80
  let main_c_31 : IVec S_ 1 := constantI S_ 1 1#1
  let main_v82 : IVec S_ 1 := (fun x v => Host.reduce IntOp.andi x v reducesTo_S384x128_S_d0_1 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg21 main_arg22 main_v83 main_v84 main_cst_32

def fn_part3 {F : FTy → Type} [FloatOps F] (main_arg14 : FVec F S3x128 .f32) (main_arg15 : FVec F S3x128x128 .f32) (main_arg16 : FVec F S3x128 .f32) (main_arg17 : FVec F S3x128 .f32) (main_arg18 : FVec F S3x128 .f32) (main_arg19 : FVec F S384x128 .f32) (main_arg20 : FVec F S128 .f32) (main_arg21 : FVec F S128 .f32) (main_arg22 : FVec F S128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg14
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg15
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg16
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg17 main_arg18 main_arg19 main_arg20 main_arg21 main_arg22 main_v63 main_v67

def fn_part2 {F : FTy → Type} [FloatOps F] (main_arg10 : FVec F S128 .f32) (main_arg11 : FVec F S3x128x128 .f32) (main_arg12 : FVec F S3x128 .f32) (main_arg13 : FVec F S3x128 .f32) (main_arg14 : FVec F S3x128 .f32) (main_arg15 : FVec F S3x128x128 .f32) (main_arg16 : FVec F S3x128 .f32) (main_arg17 : FVec F S3x128 .f32) (main_arg18 : FVec F S3x128 .f32) (main_arg19 : FVec F S384x128 .f32) (main_arg20 : FVec F S128 .f32) (main_arg21 : FVec F S128 .f32) (main_arg22 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128x128 .f32 := Host.absf main_arg11
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg12
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg13
  let main_cst_18 : FVec F S_ .f32 := constant S_ .f32 0x7F800000#32
  let main_v50 : FVec F S3x128 .f32 := broadcastInDim S3x128 ![] bcast_S_S3x128 main_cst_18
  fn_part3 (F := F) main_arg14 main_arg15 main_arg16 main_arg17 main_arg18 main_arg19 main_arg20 main_arg21 main_arg22 main_v48 main_v49 main_v50

def fn_part1 {F : FTy → Type} [FloatOps F] (main_arg7 : FVec F S256x128 .f32) (main_arg8 : FVec F S128 .f32) (main_arg9 : FVec F S256x128 .f32) (main_arg10 : FVec F S128 .f32) (main_arg11 : FVec F S3x128x128 .f32) (main_arg12 : FVec F S3x128 .f32) (main_arg13 : FVec F S3x128 .f32) (main_arg14 : FVec F S3x128 .f32) (main_arg15 : FVec F S3x128x128 .f32) (main_arg16 : FVec F S3x128 .f32) (main_arg17 : FVec F S3x128 .f32) (main_arg18 : FVec F S3x128 .f32) (main_arg19 : FVec F S384x128 .f32) (main_arg20 : FVec F S128 .f32) (main_arg21 : FVec F S128 .f32) (main_arg22 : FVec F S128 .f32) (main_v13 : IVec S_ 1) (main_v16 : IVec S32768x128 1) : IVec S_ 1 :=
  let main_c_5 : IVec S_ 1 := constantI S_ 1 1#1
  let main_v17 : IVec S_ 1 := (fun x v => Host.reduce IntOp.andi x v reducesTo_S32768x128_S_d0_1 h_S_) main_v16 main_c_5
  let main_v18 : IVec S_ 1 := andi main_v13 main_v17
  let main_v19 : FVec F S256x128 .f32 := Host.absf main_arg7
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg9
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_v33

def fn {F : FTy → Type} [FloatOps F] (main_arg0 : FVec F S32768x128 .f32) (main_arg1 : IVec S2x524288 32) (main_arg2 : IVec S2x524288 32) (main_arg3 : IVec S2x131072 32) (main_arg4 : FVec F S524288x128 .f32) (main_arg5 : FVec F S524288x128 .f32) (main_arg6 : FVec F S32768x128 .f32) (main_arg7 : FVec F S256x128 .f32) (main_arg8 : FVec F S128 .f32) (main_arg9 : FVec F S256x128 .f32) (main_arg10 : FVec F S128 .f32) (main_arg11 : FVec F S3x128x128 .f32) (main_arg12 : FVec F S3x128 .f32) (main_arg13 : FVec F S3x128 .f32) (main_arg14 : FVec F S3x128 .f32) (main_arg15 : FVec F S3x128x128 .f32) (main_arg16 : FVec F S3x128 .f32) (main_arg17 : FVec F S3x128 .f32) (main_arg18 : FVec F S3x128 .f32) (main_arg19 : FVec F S384x128 .f32) (main_arg20 : FVec F S128 .f32) (main_arg21 : FVec F S128 .f32) (main_arg22 : FVec F S128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S524288x128 .f32 := Host.absf main_arg4
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S524288x128 .f32 := Host.absf main_arg5
  let main_cst_2 : FVec F S_ .f32 := constant S_ .f32 0x7F800000#32
  let main_v10 : FVec F S524288x128 .f32 := broadcastInDim S524288x128 ![] bcast_S_S524288x128 main_cst_2
  let main_v11 : IVec S524288x128 1 := cmpf .olt main_v9 main_v10
  let main_c_3 : IVec S_ 1 := constantI S_ 1 1#1
  let main_v12 : IVec S_ 1 := (fun x v => Host.reduce IntOp.andi x v reducesTo_S524288x128_S_d0_1 h_S_) main_v11 main_c_3
  let main_v13 : IVec S_ 1 := andi main_v8 main_v12
  let main_v14 : FVec F S32768x128 .f32 := Host.absf main_arg6
  let main_cst_4 : FVec F S_ .f32 := constant S_ .f32 0x7F800000#32
  let main_v15 : FVec F S32768x128 .f32 := broadcastInDim S32768x128 ![] bcast_S_S32768x128 main_cst_4
  let main_v16 : IVec S32768x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S32768x128 : Shape := ⟨2, ![32768, 128]⟩
abbrev S2x524288 : Shape := ⟨2, ![2, 524288]⟩
abbrev S2x131072 : Shape := ⟨2, ![2, 131072]⟩
abbrev S524288x128 : Shape := ⟨2, ![524288, 128]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S128x128 : Shape := ⟨2, ![128, 128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S1x128 : Shape := ⟨2, ![1, 128]⟩
abbrev S8192x128 : Shape := ⟨2, ![8192, 128]⟩
abbrev S1x131072 : Shape := ⟨2, ![1, 131072]⟩
abbrev S131072 : Shape := ⟨1, ![131072]⟩
abbrev S131072x1 : Shape := ⟨2, ![131072, 1]⟩
abbrev S131072x128 : Shape := ⟨2, ![131072, 128]⟩
abbrev S1x32768x128 : Shape := ⟨3, ![1, 32768, 128]⟩
abbrev S3x32768x128 : Shape := ⟨3, ![3, 32768, 128]⟩
abbrev S3x1x128 : Shape := ⟨3, ![3, 1, 128]⟩
abbrev S32768x384 : Shape := ⟨2, ![32768, 384]⟩

abbrev nBuf : Space → Nat
  | .hbm => 251
  | .vmem => 16
  | .smem => 0
  | _ => 0

abbrev hbmTy0_0 (i : Nat) : BufTy := match i % 128 with
  | 0 => ⟨S32768x128, .f32⟩
  | 1 => ⟨S2x524288, .i32⟩
  | 2 => ⟨S2x524288, .i32⟩
  | 3 => ⟨S2x131072, .i32⟩
  | 4 => ⟨S524288x128, .f32⟩
  | 5 => ⟨S524288x128, .f32⟩
  | 6 => ⟨S32768x128, .f32⟩
  | 7 => ⟨S256x128, .f32⟩
  | 8 => ⟨S128, .f32⟩
  | 9 => ⟨S256x128, .f32⟩
  | 10 => ⟨S128, .f32⟩
  | 11 => ⟨S3x128x128, .f32⟩
  | 12 => ⟨S3x128, .f32⟩
  | 13 => ⟨S3x128, .f32⟩
  | 14 => ⟨S3x128, .f32⟩
  | 15 => ⟨S3x128x128, .f32⟩
  | 16 => ⟨S3x128, .f32⟩
  | 17 => ⟨S3x128, .f32⟩
  | 18 => ⟨S3x128, .f32⟩
  | 19 => ⟨S384x128, .f32⟩
  | 20 => ⟨S128, .f32⟩
  | 21 => ⟨S128, .f32⟩
  | 22 => ⟨S128, .f32⟩
  | 23 => ⟨S128x128, .f32⟩
  | 24 => ⟨S128x128, .f32⟩
  | 25 => ⟨S128x128, .f32⟩
  | 26 => ⟨S128x128, .f32⟩
  | 27 => ⟨S32768x128, .f32⟩
  | 28 => ⟨S32768x128, .f32⟩
  | 29 => ⟨S1x524288, .i32⟩
  | 30 => ⟨S524288, .i32⟩
  | 31 => ⟨S_, .i32⟩
  | 32 => ⟨S524288, .i32⟩
  | 33 => ⟨S524288, .i1⟩
  | 34 => ⟨S_, .i32⟩
  | 35 => ⟨S524288, .i32⟩
  | 36 => ⟨S524288, .i32⟩
  | 37 => ⟨S524288, .i32⟩
  | 38 => ⟨S524288x1, .i32⟩
  | 39 => ⟨S524288x128, .f32⟩
  | 40 => ⟨S1x524288, .i32⟩
  | 41 => ⟨S524288, .i32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288x128, .f32⟩
  | 51 => ⟨S1x128, .f32⟩
  | 52 => ⟨S1x128, .f32⟩
  | 53 => ⟨S524288x128, .f32⟩
  | 54 => ⟨S524288x128, .f32⟩
  | 55 => ⟨S1x524288, .i32⟩
  | 56 => ⟨S524288, .i32⟩
  | 57 => ⟨S_, .f32⟩
  | 58 => ⟨S32768x128, .f32⟩
  | 59 => ⟨S524288x1, .i32⟩
  | 60 => ⟨S32768x128, .f32⟩
  | 61 => ⟨S1x524288, .i32⟩
  | 62 => ⟨S524288, .i32⟩
  | 63 => ⟨S_, .f32⟩
  | 64 => ⟨S32768x128, .f32⟩
  | 65 => ⟨S524288x1, .i32⟩
  | 66 => ⟨S32768x128, .f32⟩
  | 67 => ⟨S1x131072, .i32⟩
  | 68 => ⟨S131072, .i32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S131072x1, .i32⟩
  | 77 => ⟨S131072x128, .f32⟩
  | 78 => ⟨S1x131072, .i32⟩
  | 79 => ⟨S131072, .i32⟩
  | 80 => ⟨S_, .f32⟩
  | 81 => ⟨S32768x128, .f32⟩
  | 82 => ⟨S131072x1, .i32⟩
  | 83 => ⟨S32768x128, .f32⟩
  | 84 => ⟨S32768x128, .f32⟩
  | 85 => ⟨S32768x128, .f32⟩
  | 86 => ⟨S32768x128, .f32⟩
  | 87 => ⟨S1x32768x128, .f32⟩
  | 88 => ⟨S1x32768x128, .f32⟩
  | 89 => ⟨S1x32768x128, .f32⟩
  | 90 => ⟨S3x32768x128, .f32⟩
  | 91 => ⟨S3x32768x128, .f32⟩
  | 92 => ⟨S3x1x128, .f32⟩
  | 93 => ⟨S3x32768x128, .f32⟩
  | 94 => ⟨S3x32768x128, .f32⟩
  | 95 => ⟨S3x1x128, .f32⟩
  | 96 => ⟨S3x1x128, .f32⟩
  | 97 => ⟨S_, .f32⟩
  | 98 => ⟨S3x128, .f32⟩
  | 99 => ⟨S3x1x128, .f32⟩
  | 100 => ⟨S_, .f32⟩
  | 101 => ⟨S3x1x128, .f32⟩
  | 102 => ⟨S3x1x128, .f32⟩
  | 103 => ⟨S_, .i32⟩
  | 104 => ⟨S_, .f32⟩
  | 105 => ⟨S3x128, .f32⟩
  | 106 => ⟨S3x1x128, .f32⟩
  | 107 => ⟨S_, .f32⟩
  | 108 => ⟨S3x1x128, .f32⟩
  | 109 => ⟨S3x1x128, .f32⟩
  | 110 => ⟨S3x32768x128, .f32⟩
  | 111 => ⟨S3x32768x128, .f32⟩
  | 112 => ⟨S3x32768x128, .f32⟩
  | 113 => ⟨S_, .f32⟩
  | 114 => ⟨S_, .f32⟩
  | 115 => ⟨S_, .f32⟩
  | 116 => ⟨S_, .f32⟩
  | 117 => ⟨S3x128, .f32⟩
  | 118 => ⟨S3x1x128, .f32⟩
  | 119 => ⟨S3x1x128, .f32⟩
  | 120 => ⟨S3x1x128, .f32⟩
  | 121 => ⟨S_, .f32⟩
  | 122 => ⟨S_, .i1⟩
  | 123 => ⟨S_, .f32⟩
  | 124 => ⟨S_, .f32⟩
  | 125 => ⟨S3x1x128, .f32⟩
  | 126 => ⟨S3x1x128, .f32⟩
  | 127 => ⟨S3x32768x128, .f32⟩
  | _ => ⟨S32768x128, .f32⟩

abbrev hbmTy0_1 (i : Nat) : BufTy := match i % 128 with
  | 0 => ⟨S3x32768x128, .f32⟩
  | 1 => ⟨S_, .f32⟩
  | 2 => ⟨S3x1x128, .f32⟩
  | 3 => ⟨S3x1x128, .f32⟩
  | 4 => ⟨S3x1x128, .f32⟩
  | 5 => ⟨S3x32768x128, .f32⟩
  | 6 => ⟨S3x32768x128, .f32⟩
  | 7 => ⟨S3x32768x128, .f32⟩
  | 8 => ⟨S3x32768x128, .f32⟩
  | 9 => ⟨S3x32768x128, .f32⟩
  | 10 => ⟨S3x32768x128, .f32⟩
  | 11 => ⟨S_, .f32⟩
  | 12 => ⟨S3x32768x128, .f32⟩
  | 13 => ⟨S3x32768x128, .f32⟩
  | 14 => ⟨S3x32768x128, .f32⟩
  | 15 => ⟨S3x1x128, .f32⟩
  | 16 => ⟨S3x32768x128, .f32⟩
  | 17 => ⟨S3x32768x128, .f32⟩
  | 18 => ⟨S3x1x128, .f32⟩
  | 19 => ⟨S3x1x128, .f32⟩
  | 20 => ⟨S_, .f32⟩
  | 21 => ⟨S3x128, .f32⟩
  | 22 => ⟨S3x1x128, .f32⟩
  | 23 => ⟨S_, .f32⟩
  | 24 => ⟨S3x1x128, .f32⟩
  | 25 => ⟨S3x1x128, .f32⟩
  | 26 => ⟨S_, .i32⟩
  | 27 => ⟨S_, .f32⟩
  | 28 => ⟨S3x128, .f32⟩
  | 29 => ⟨S3x1x128, .f32⟩
  | 30 => ⟨S_, .f32⟩
  | 31 => ⟨S3x1x128, .f32⟩
  | 32 => ⟨S3x1x128, .f32⟩
  | 33 => ⟨S3x32768x128, .f32⟩
  | 34 => ⟨S3x32768x128, .f32⟩
  | 35 => ⟨S3x32768x128, .f32⟩
  | 36 => ⟨S_, .f32⟩
  | 37 => ⟨S_, .f32⟩
  | 38 => ⟨S_, .f32⟩
  | 39 => ⟨S_, .f32⟩
  | 40 => ⟨S3x128, .f32⟩
  | 41 => ⟨S3x1x128, .f32⟩
  | 42 => ⟨S3x1x128, .f32⟩
  | 43 => ⟨S3x1x128, .f32⟩
  | 44 => ⟨S_, .f32⟩
  | 45 => ⟨S_, .i1⟩
  | 46 => ⟨S_, .f32⟩
  | 47 => ⟨S_, .f32⟩
  | 48 => ⟨S3x1x128, .f32⟩
  | 49 => ⟨S3x1x128, .f32⟩
  | 50 => ⟨S3x32768x128, .f32⟩
  | 51 => ⟨S3x32768x128, .f32⟩
  | 52 => ⟨S_, .f32⟩
  | 53 => ⟨S3x1x128, .f32⟩
  | 54 => ⟨S3x1x128, .f32⟩
  | 55 => ⟨S3x1x128, .f32⟩
  | 56 => ⟨S3x32768x128, .f32⟩
  | 57 => ⟨S3x32768x128, .f32⟩
  | 58 => ⟨S3x32768x128, .f32⟩
  | 59 => ⟨S3x32768x128, .f32⟩
  | 60 => ⟨S3x32768x128, .f32⟩
  | 61 => ⟨S3x32768x128, .f32⟩
  | 62 => ⟨S_, .f32⟩
  | 63 => ⟨S3x32768x128, .f32⟩
  | 64 => ⟨S3x32768x128, .f32⟩
  | 65 => ⟨S1x32768x128, .f32⟩
  | 66 => ⟨S32768x128, .f32⟩
  | 67 => ⟨S1x32768x128, .f32⟩
  | 68 => ⟨S32768x128, .f32⟩
  | 69 => ⟨S1x32768x128, .f32⟩
  | 70 => ⟨S32768x128, .f32⟩
  | 71 => ⟨S32768x384, .f32⟩
  | 72 => ⟨S32768x128, .f32⟩
  | 73 => ⟨S1x128, .f32⟩
  | 74 => ⟨S32768x128, .f32⟩
  | 75 => ⟨S32768x128, .f32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S32768x128, .f32⟩
  | 90 => ⟨S32768x128, .f32⟩
  | 91 => ⟨S32768x128, .f32⟩
  | 92 => ⟨S_, .f32⟩
  | 93 => ⟨S_, .f32⟩
  | 94 => ⟨S_, .f32⟩
  | 95 => ⟨S_, .f32⟩
  | 96 => ⟨S128, .f32⟩
  | 97 => ⟨S1x128, .f32⟩
  | 98 => ⟨S1x128, .f32⟩
  | 99 => ⟨S1x128, .f32⟩
  | 100 => ⟨S_, .f32⟩
  | 101 => ⟨S_, .i1⟩
  | 102 => ⟨S_, .f32⟩
  | 103 => ⟨S_, .f32⟩
  | 104 => ⟨S1x128, .f32⟩
  | 105 => ⟨S1x128, .f32⟩
  | 106 => ⟨S32768x128, .f32⟩
  | 107 => ⟨S32768x128, .f32⟩
  | 108 => ⟨S_, .f32⟩
  | 109 => ⟨S1x128, .f32⟩
  | 110 => ⟨S1x128, .f32⟩
  | 111 => ⟨S1x128, .f32⟩
  | 112 => ⟨S32768x128, .f32⟩
  | 113 => ⟨S32768x128, .f32⟩
  | 114 => ⟨S1x128, .f32⟩
  | 115 => ⟨S32768x128, .f32⟩
  | 116 => ⟨S32768x128, .f32⟩
  | 117 => ⟨S1x128, .f32⟩
  | 118 => ⟨S32768x128, .f32⟩
  | 119 => ⟨S32768x128, .f32⟩
  | 120 => ⟨S_, .f32⟩
  | 121 => ⟨S32768x128, .f32⟩
  | 122 => ⟨S32768x128, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S128x128, .f32⟩
  | .local _ .vmem, ⟨13, _⟩ => ⟨S1x128, .f32⟩
  | .local _ .vmem, ⟨14, _⟩ => ⟨S8192x128, .f32⟩
  | .local _ .vmem, ⟨15, _⟩ => ⟨S8192x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c : Ref sig .tc := ⟨.hbm, 31, rfl⟩
abbrev main_v8 : Ref sig .tc := ⟨.hbm, 32, rfl⟩
abbrev main_v9 : Ref sig .tc := ⟨.hbm, 33, rfl⟩
abbrev main_c_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_4 : Ref sig .tc := ⟨.hbm, 69, rfl⟩
abbrev main_v40 : Ref sig .tc := ⟨.hbm, 70, rfl⟩
abbrev main_v41 : Ref sig .tc := ⟨.hbm, 71, rfl⟩
abbrev main_c_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_7 : Ref sig .tc := ⟨.hbm, 97, rfl⟩
abbrev main_v65 : Ref sig .tc := ⟨.hbm, 98, rfl⟩
abbrev main_v66 : Ref sig .tc := ⟨.hbm, 99, rfl⟩
abbrev main_cst_8 : Ref sig .tc := ⟨.hbm, 100, rfl⟩
abbrev main_v67 : Ref sig .tc := ⟨.hbm, 101, rfl⟩
abbrev main_v68 : Ref sig .tc := ⟨.hbm, 102, rfl⟩
abbrev main_c_9 : Ref sig .tc := ⟨.hbm, 103, rfl⟩
abbrev main_call0_cst : Ref sig .tc := ⟨.hbm, 104, rfl⟩
abbrev main_call0_v0 : Ref sig .tc := ⟨.hbm, 105, rfl⟩
abbrev main_call0_v1 : Ref sig .tc := ⟨.hbm, 106, rfl⟩
abbrev main_call0_cst_0 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_v5 : Ref sig .tc := ⟨.hbm, 111, rfl⟩
abbrev main_call0_v6 : Ref sig .tc := ⟨.hbm, 112, rfl⟩
abbrev main_call0_v7 : Ref sig .tc := ⟨.hbm, 113, rfl⟩
abbrev main_call0_cst_1 : Ref sig .tc := ⟨.hbm, 114, rfl⟩
abbrev main_call0_v8 : Ref sig .tc := ⟨.hbm, 115, rfl⟩
abbrev main_call0_cst_2 : Ref sig .tc := ⟨.hbm, 116, rfl⟩
abbrev main_call0_v9 : Ref sig .tc := ⟨.hbm, 117, rfl⟩
abbrev main_call0_v10 : Ref sig .tc := ⟨.hbm, 118, rfl⟩
abbrev main_call0_v11 : Ref sig .tc := ⟨.hbm, 119, rfl⟩
abbrev main_call0_v12 : Ref sig .tc := ⟨.hbm, 120, rfl⟩
abbrev main_call0_cst_3 : Ref sig .tc := ⟨.hbm, 121, rfl⟩
abbrev main_call0_v13 : Ref sig .tc := ⟨.hbm, 122, rfl⟩
abbrev main_call0_cst_4 : Ref sig .tc := ⟨.hbm, 123, rfl⟩
abbrev main_call0_call0_v0 : Ref sig .tc := ⟨.hbm, 124, rfl⟩
abbrev main_call0_call0_v1 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_10 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_call1_cst : Ref sig .tc := ⟨.hbm, 139, rfl⟩
abbrev main_call1_v0 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_11 : Ref sig .tc := ⟨.hbm, 148, rfl⟩
abbrev main_v88 : Ref sig .tc := ⟨.hbm, 149, rfl⟩
abbrev main_v89 : Ref sig .tc := ⟨.hbm, 150, rfl⟩
abbrev main_cst_12 : Ref sig .tc := ⟨.hbm, 151, rfl⟩
abbrev main_v90 : Ref sig .tc := ⟨.hbm, 152, rfl⟩
abbrev main_v91 : Ref sig .tc := ⟨.hbm, 153, rfl⟩
abbrev main_c_13 : Ref sig .tc := ⟨.hbm, 154, rfl⟩
abbrev main_call2_cst : Ref sig .tc := ⟨.hbm, 155, rfl⟩
abbrev main_call2_v0 : Ref sig .tc := ⟨.hbm, 156, rfl⟩
abbrev main_call2_v1 : Ref sig .tc := ⟨.hbm, 157, rfl⟩
abbrev main_call2_cst_0 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_call2_v5 : Ref sig .tc := ⟨.hbm, 162, rfl⟩
abbrev main_call2_v6 : Ref sig .tc := ⟨.hbm, 163, rfl⟩
abbrev main_call2_v7 : Ref sig .tc := ⟨.hbm, 164, rfl⟩
abbrev main_call2_cst_1 : Ref sig .tc := ⟨.hbm, 165, rfl⟩
abbrev main_call2_v8 : Ref sig .tc := ⟨.hbm, 166, rfl⟩
abbrev main_call2_cst_2 : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_v12 : Ref sig .tc := ⟨.hbm, 171, rfl⟩
abbrev main_call2_cst_3 : Ref sig .tc := ⟨.hbm, 172, rfl⟩
abbrev main_call2_v13 : Ref sig .tc := ⟨.hbm, 173, rfl⟩
abbrev main_call2_cst_4 : Ref sig .tc := ⟨.hbm, 174, rfl⟩
abbrev main_call2_call0_v0 : Ref sig .tc := ⟨.hbm, 175, rfl⟩
abbrev main_call2_call0_v1 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_14 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_call3_cst : Ref sig .tc := ⟨.hbm, 190, rfl⟩
abbrev main_call3_v0 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_cst_15 : Ref sig .tc := ⟨.hbm, 204, rfl⟩
abbrev main_v116 : Ref sig .tc := ⟨.hbm, 205, rfl⟩
abbrev main_v117 : Ref sig .tc := ⟨.hbm, 206, rfl⟩
abbrev main_cst_16 : Ref sig .tc := ⟨.hbm, 207, rfl⟩
abbrev main_v118 : Ref sig .tc := ⟨.hbm, 208, rfl⟩
abbrev main_v119 : Ref sig .tc := ⟨.hbm, 209, rfl⟩
abbrev main_c_17 : Ref sig .tc := ⟨.hbm, 210, rfl⟩
abbrev main_call4_cst : Ref sig .tc := ⟨.hbm, 211, rfl⟩
abbrev main_call4_v0 : Ref sig .tc := ⟨.hbm, 212, rfl⟩
abbrev main_call4_v1 : Ref sig .tc := ⟨.hbm, 213, rfl⟩
abbrev main_call4_cst_0 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_call4_v5 : Ref sig .tc := ⟨.hbm, 218, rfl⟩
abbrev main_call4_v6 : Ref sig .tc := ⟨.hbm, 219, rfl⟩
abbrev main_call4_v7 : Ref sig .tc := ⟨.hbm, 220, rfl⟩
abbrev main_call4_cst_1 : Ref sig .tc := ⟨.hbm, 221, rfl⟩
abbrev main_call4_v8 : Ref sig .tc := ⟨.hbm, 222, rfl⟩
abbrev main_call4_cst_2 : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_call4_v12 : Ref sig .tc := ⟨.hbm, 227, rfl⟩
abbrev main_call4_cst_3 : Ref sig .tc := ⟨.hbm, 228, rfl⟩
abbrev main_call4_v13 : Ref sig .tc := ⟨.hbm, 229, rfl⟩
abbrev main_call4_cst_4 : Ref sig .tc := ⟨.hbm, 230, rfl⟩
abbrev main_call4_call0_v0 : Ref sig .tc := ⟨.hbm, 231, rfl⟩
abbrev main_call4_call0_v1 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_cst_18 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_call5_cst : Ref sig .tc := ⟨.hbm, 248, rfl⟩
abbrev main_call5_v0 : Ref sig .tc := ⟨.hbm, 249, rfl⟩
abbrev main_v134 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S256x128_S128x128_0_0 : S256x128.Slices ![0, 0] S128x128
  slices_S256x128_S128x128_128_0 : S256x128.Slices ![128, 0] S128x128
  slices_S2x524288_S1x524288_1_0 : S2x524288.Slices ![1, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  slices_S2x524288_S1x524288_0_0 : S2x524288.Slices ![0, 0] S1x524288
  bcast_S_S32768x128 : S_.BroadcastsInDim S32768x128 (![] : Fin 0 → Fin S32768x128.rank)
  slices_S2x131072_S1x131072_0_0 : S2x131072.Slices ![0, 0] S1x131072
  shapeCasts_S1x131072_S131072 : S1x131072.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S2x131072_S1x131072_1_0 : S2x131072.Slices ![1, 0] S1x131072
  bcast_S32768x128_S1x32768x128_1_2 : S32768x128.BroadcastsInDim S1x32768x128 (![1, 2] : Fin 2 → Fin S1x32768x128.rank)
  concatenates_S1x32768x128_S1x32768x128_S1x32768x128_S3x32768x128_d0 : Shape.Concatenates [S1x32768x128, S1x32768x128, S1x32768x128] S3x32768x128 0
  bcast_S3x128_S3x1x128_0_2 : S3x128.BroadcastsInDim S3x1x128 (![0, 2] : Fin 2 → Fin S3x1x128.rank)
  bcast_S3x1x128_S3x32768x128_0_1_2 : S3x1x128.BroadcastsInDim S3x32768x128 (![0, 1, 2] : Fin 3 → Fin S3x32768x128.rank)
  reducesTo_S3x32768x128_S3x128_d1 : S3x32768x128.ReducesTo [1] S3x128
  h_S_ : 0 < S_.numel
  bcast_S_S3x1x128 : S_.BroadcastsInDim S3x1x128 (![] : Fin 0 → Fin S3x1x128.rank)
  bcast_S_S3x32768x128 : S_.BroadcastsInDim S3x32768x128 (![] : Fin 0 → Fin S3x32768x128.rank)
  slices_S3x32768x128_S1x32768x128_0_0_0 : S3x32768x128.Slices ![0, 0, 0] S1x32768x128
  shapeCasts_S1x32768x128_S32768x128 : S1x32768x128.ShapeCasts S32768x128
  slices_S3x32768x128_S1x32768x128_1_0_0 : S3x32768x128.Slices ![1, 0, 0] S1x32768x128
  slices_S3x32768x128_S1x32768x128_2_0_0 : S3x32768x128.Slices ![2, 0, 0] S1x32768x128
  concatenates_S32768x128_S32768x128_S32768x128_S32768x384_d1 : Shape.Concatenates [S32768x128, S32768x128, S32768x128] S32768x384 1
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  reducesTo_S32768x128_S128_d0 : S32768x128.ReducesTo [0] S128
  bcast_S_S1x128 : S_.BroadcastsInDim S1x128 (![] : Fin 0 → Fin S1x128.rank)
  dot_S32768x128_S128x128_S32768x128_1_0_0_1_n_n_wf : DotDims.WF S32768x128 S128x128 S32768x128 [1] [0] [0] [1] [] []
  gather_S32768x128_S524288x1_S524288x128_1_0_n_n_0_1_1128_wf : GatherDims.WF S32768x128 S524288x1 S524288x128 [1] [0] [] [0] [] 1 ![1, 128]
  dot_S8192x128_S128x128_S8192x128_1_0_0_1_n_n_wf : DotDims.WF S8192x128 S128x128 S8192x128 [1] [0] [0] [1] [] []
  scatter_S32768x128_S524288x1_S524288x128_1_0_0_1_wf : ScatterDims.WF S32768x128 S524288x1 S524288x128 [1] [0] [0] 1
  gather_S32768x128_S131072x1_S131072x128_1_0_n_n_0_1_1128_wf : GatherDims.WF S32768x128 S131072x1 S131072x128 [1] [0] [] [0] [] 1 ![1, 128]
  scatter_S32768x128_S131072x1_S131072x128_1_0_0_1_wf : ScatterDims.WF S32768x128 S131072x1 S131072x128 [1] [0] [0] 1
  dot_S3x32768x128_S3x128x128_S3x32768x128_2_1_1_2_0_0_wf : DotDims.WF S3x32768x128 S3x128x128 S3x32768x128 [2] [1] [1] [2] [0] [0]
  dot_S32768x384_S384x128_S32768x128_1_0_0_1_n_n_wf : DotDims.WF S32768x384 S384x128 S32768x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S524288x128.size a
  hwx0_4 : ∀ i : grid0.Coords, EltTy.bits .f32 = 32 ∨ (Rect.block (s := S524288x128) S8192x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S524288x128.size a
  hwx1_0 : ∀ i : grid1.Coords, EltTy.bits .f32 = 32 ∨ (Rect.block (s := S524288x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S524288x128.size a
  hwx1_1 : ∀ i : grid1.Coords, EltTy.bits .f32 = 32 ∨ (Rect.block (s := S524288x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x128.size a ≤ S524288x128.size a
  hwx1_4 : ∀ i : grid1.Coords, EltTy.bits .f32 = 32 ∨ (Rect.block (s := S524288x128) S8192x128.size (cc1_transform_4 i) (hinb1_4 i)).WholeWords (EltTy.packing .f32)

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def gather_S32768x128_S131072x1_S131072x128_1_0_n_n_0_1_1128 : GatherDims S32768x128 S131072x1 S131072x128 where
  offsetDims := [1]
  collapsedSliceDims := [0]
  operandBatchingDims := []
  startIndicesBatchingDims := []
  startIndexMap := [0]
  indexVectorDim := 1
  sliceSizes := ![1, 128]
  wf := gather_S32768x128_S131072x1_S131072x128_1_0_n_n_0_1_1128_wf
def scatter_S32768x128_S131072x1_S131072x128_1_0_0_1 : ScatterDims S32768x128 S131072x1 S131072x128 where
  updateWindowDims := [1]
  insertedWindowDims := [0]
  scatterDimsToOperandDims := [0]
  indexVectorDim := 1
  wf := scatter_S32768x128_S131072x1_S131072x128_1_0_0_1_wf
def dot_S3x32768x128_S3x128x128_S3x32768x128_2_1_1_2_0_0 : DotDims S3x32768x128 S3x128x128 S3x32768x128 where
  lhsContracting := [2]
  rhsContracting := [1]
  lhsNonContracting := [1]
  rhsNonContracting := [2]
  lhsBatch := [0]
  rhsBatch := [0]
  wf := dot_S3x32768x128_S3x128x128_S3x32768x128_2_1_1_2_0_0_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf

abbrev win0_0 : Pipeline.Window sig grid0 :=
  Pipeline.Window.ofSpec (Memref.whole main_v14) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S8192x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x128 : Shape := ⟨2, ![32768, 128]⟩
abbrev S2x524288 : Shape := ⟨2, ![2, 524288]⟩
abbrev S2x131072 : Shape := ⟨2, ![2, 131072]⟩
abbrev S524288x128 : Shape := ⟨2, ![524288, 128]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x256 : Shape := ⟨2, ![524288, 256]⟩
abbrev S1x128 : Shape := ⟨2, ![1, 128]⟩
abbrev S1x131072 : Shape := ⟨2, ![1, 131072]⟩
abbrev S131072 : Shape := ⟨1, ![131072]⟩
abbrev S131072x1 : Shape := ⟨2, ![131072, 1]⟩
abbrev S131072x128 : Shape := ⟨2, ![131072, 128]⟩
abbrev S1x32768x128 : Shape := ⟨3, ![1, 32768, 128]⟩
abbrev S3x32768x128 : Shape := ⟨3, ![3, 32768, 128]⟩
abbrev S3x1x128 : Shape := ⟨3, ![3, 1, 128]⟩
abbrev S32768x384 : Shape := ⟨2, ![32768, 384]⟩

abbrev nBuf : Space → Nat
  | .hbm => 257
  | .vmem => 0
  | .smem => 0
  | _ => 0

abbrev hbmTy0_0 (i : Nat) : BufTy := match i % 128 with
  | 0 => ⟨S32768x128, .f32⟩
  | 1 => ⟨S2x524288, .i32⟩
  | 2 => ⟨S2x524288, .i32⟩
  | 3 => ⟨S2x131072, .i32⟩
  | 4 => ⟨S524288x128, .f32⟩
  | 5 => ⟨S524288x128, .f32⟩
  | 6 => ⟨S32768x128, .f32⟩
  | 7 => ⟨S256x128, .f32⟩
  | 8 => ⟨S128, .f32⟩
  | 9 => ⟨S256x128, .f32⟩
  | 10 => ⟨S128, .f32⟩
  | 11 => ⟨S3x128x128, .f32⟩
  | 12 => ⟨S3x128, .f32⟩
  | 13 => ⟨S3x128, .f32⟩
  | 14 => ⟨S3x128, .f32⟩
  | 15 => ⟨S3x128x128, .f32⟩
  | 16 => ⟨S3x128, .f32⟩
  | 17 => ⟨S3x128, .f32⟩
  | 18 => ⟨S3x128, .f32⟩
  | 19 => ⟨S384x128, .f32⟩
  | 20 => ⟨S128, .f32⟩
  | 21 => ⟨S128, .f32⟩
  | 22 => ⟨S128, .f32⟩
  | 23 => ⟨S1x524288, .i32⟩
  | 24 => ⟨S524288, .i32⟩
  | 25 => ⟨S_, .i32⟩
  | 26 => ⟨S524288, .i32⟩
  | 27 => ⟨S524288, .i1⟩
  | 28 => ⟨S_, .i32⟩
  | 29 => ⟨S524288, .i32⟩
  | 30 => ⟨S524288, .i32⟩
  | 31 => ⟨S524288, .i32⟩
  | 32 => ⟨S524288x1, .i32⟩
  | 33 => ⟨S524288x128, .f32⟩
  | 34 => ⟨S524288x256, .f32⟩
  | 35 => ⟨S524288x128, .f32⟩
  | 36 => ⟨S1x128, .f32⟩
  | 37 => ⟨S524288x128, .f32⟩
  | 38 => ⟨S524288x128, .f32⟩
  | 39 => ⟨S_, .f32⟩
  | 40 => ⟨S524288x128, .f32⟩
  | 41 => ⟨S524288x128, .f32⟩
  | 42 => ⟨S1x524288, .i32⟩
  | 43 => ⟨S524288, .i32⟩
  | 44 => ⟨S_, .f32⟩
  | 45 => ⟨S32768x128, .f32⟩
  | 46 => ⟨S524288x1, .i32⟩
  | 47 => ⟨S32768x128, .f32⟩
  | 48 => ⟨S1x524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S524288x128, .f32⟩
  | 59 => ⟨S524288x256, .f32⟩
  | 60 => ⟨S524288x128, .f32⟩
  | 61 => ⟨S1x128, .f32⟩
  | 62 => ⟨S524288x128, .f32⟩
  | 63 => ⟨S524288x128, .f32⟩
  | 64 => ⟨S_, .f32⟩
  | 65 => ⟨S524288x128, .f32⟩
  | 66 => ⟨S524288x128, .f32⟩
  | 67 => ⟨S1x524288, .i32⟩
  | 68 => ⟨S524288, .i32⟩
  | 69 => ⟨S_, .f32⟩
  | 70 => ⟨S32768x128, .f32⟩
  | 71 => ⟨S524288x1, .i32⟩
  | 72 => ⟨S32768x128, .f32⟩
  | 73 => ⟨S1x131072, .i32⟩
  | 74 => ⟨S131072, .i32⟩
  | 75 => ⟨S_, .i32⟩
  | 76 => ⟨S131072, .i32⟩
  | 77 => ⟨S131072, .i1⟩
  | 78 => ⟨S_, .i32⟩
  | 79 => ⟨S131072, .i32⟩
  | 80 => ⟨S131072, .i32⟩
  | 81 => ⟨S131072, .i32⟩
  | 82 => ⟨S131072x1, .i32⟩
  | 83 => ⟨S131072x128, .f32⟩
  | 84 => ⟨S1x131072, .i32⟩
  | 85 => ⟨S131072, .i32⟩
  | 86 => ⟨S_, .f32⟩
  | 87 => ⟨S32768x128, .f32⟩
  | 88 => ⟨S131072x1, .i32⟩
  | 89 => ⟨S32768x128, .f32⟩
  | 90 => ⟨S32768x128, .f32⟩
  | 91 => ⟨S32768x128, .f32⟩
  | 92 => ⟨S32768x128, .f32⟩
  | 93 => ⟨S1x32768x128, .f32⟩
  | 94 => ⟨S1x32768x128, .f32⟩
  | 95 => ⟨S1x32768x128, .f32⟩
  | 96 => ⟨S3x32768x128, .f32⟩
  | 97 => ⟨S3x32768x128, .f32⟩
  | 98 => ⟨S3x1x128, .f32⟩
  | 99 => ⟨S3x32768x128, .f32⟩
  | 100 => ⟨S3x32768x128, .f32⟩
  | 101 => ⟨S3x1x128, .f32⟩
  | 102 => ⟨S3x1x128, .f32⟩
  | 103 => ⟨S_, .f32⟩
  | 104 => ⟨S3x128, .f32⟩
  | 105 => ⟨S3x1x128, .f32⟩
  | 106 => ⟨S_, .f32⟩
  | 107 => ⟨S3x1x128, .f32⟩
  | 108 => ⟨S3x1x128, .f32⟩
  | 109 => ⟨S_, .i32⟩
  | 110 => ⟨S_, .f32⟩
  | 111 => ⟨S3x128, .f32⟩
  | 112 => ⟨S3x1x128, .f32⟩
  | 113 => ⟨S_, .f32⟩
  | 114 => ⟨S3x1x128, .f32⟩
  | 115 => ⟨S3x1x128, .f32⟩
  | 116 => ⟨S3x32768x128, .f32⟩
  | 117 => ⟨S3x32768x128, .f32⟩
  | 118 => ⟨S3x32768x128, .f32⟩
  | 119 => ⟨S_, .f32⟩
  | 120 => ⟨S_, .f32⟩
  | 121 => ⟨S_, .f32⟩
  | 122 => ⟨S_, .f32⟩
  | 123 => ⟨S3x128, .f32⟩
  | 124 => ⟨S3x1x128, .f32⟩
  | 125 => ⟨S3x1x128, .f32⟩
  | 126 => ⟨S3x1x128, .f32⟩
  | 127 => ⟨S_, .f32⟩
  | _ => ⟨S32768x128, .f32⟩

abbrev hbmTy0_1 (i : Nat) : BufTy := match i % 128 with
  | 0 => ⟨S_, .i1⟩
  | 1 => ⟨S_, .f32⟩
  | 2 => ⟨S_, .f32⟩
  | 3 => ⟨S3x1x128, .f32⟩
  | 4 => ⟨S3x1x128, .f32⟩
  | 5 => ⟨S3x32768x128, .f32⟩
  | 6 => ⟨S3x32768x128, .f32⟩
  | 7 => ⟨S_, .f32⟩
  | 8 => ⟨S3x1x128, .f32⟩
  | 9 => ⟨S3x1x128, .f32⟩
  | 10 => ⟨S3x1x128, .f32⟩
  | 11 => ⟨S3x32768x128, .f32⟩
  | 12 => ⟨S3x32768x128, .f32⟩
  | 13 => ⟨S3x32768x128, .f32⟩
  | 14 => ⟨S3x32768x128, .f32⟩
  | 15 => ⟨S3x32768x128, .f32⟩
  | 16 => ⟨S3x32768x128, .f32⟩
  | 17 => ⟨S_, .f32⟩
  | 18 => ⟨S3x32768x128, .f32⟩
  | 19 => ⟨S3x32768x128, .f32⟩
  | 20 => ⟨S3x32768x128, .f32⟩
  | 21 => ⟨S3x1x128, .f32⟩
  | 22 => ⟨S3x32768x128, .f32⟩
  | 23 => ⟨S3x32768x128, .f32⟩
  | 24 => ⟨S3x1x128, .f32⟩
  | 25 => ⟨S3x1x128, .f32⟩
  | 26 => ⟨S_, .f32⟩
  | 27 => ⟨S3x128, .f32⟩
  | 28 => ⟨S3x1x128, .f32⟩
  | 29 => ⟨S_, .f32⟩
  | 30 => ⟨S3x1x128, .f32⟩
  | 31 => ⟨S3x1x128, .f32⟩
  | 32 => ⟨S_, .i32⟩
  | 33 => ⟨S_, .f32⟩
  | 34 => ⟨S3x128, .f32⟩
  | 35 => ⟨S3x1x128, .f32⟩
  | 36 => ⟨S_, .f32⟩
  | 37 => ⟨S3x1x128, .f32⟩
  | 38 => ⟨S3x1x128, .f32⟩
  | 39 => ⟨S3x32768x128, .f32⟩
  | 40 => ⟨S3x32768x128, .f32⟩
  | 41 => ⟨S3x32768x128, .f32⟩
  | 42 => ⟨S_, .f32⟩
  | 43 => ⟨S_, .f32⟩
  | 44 => ⟨S_, .f32⟩
  | 45 => ⟨S_, .f32⟩
  | 46 => ⟨S3x128, .f32⟩
  | 47 => ⟨S3x1x128, .f32⟩
  | 48 => ⟨S3x1x128, .f32⟩
  | 49 => ⟨S3x1x128, .f32⟩
  | 50 => ⟨S_, .f32⟩
  | 51 => ⟨S_, .i1⟩
  | 52 => ⟨S_, .f32⟩
  | 53 => ⟨S_, .f32⟩
  | 54 => ⟨S3x1x128, .f32⟩
  | 55 => ⟨S3x1x128, .f32⟩
  | 56 => ⟨S3x32768x128, .f32⟩
  | 57 => ⟨S3x32768x128, .f32⟩
  | 58 => ⟨S_, .f32⟩
  | 59 => ⟨S3x1x128, .f32⟩
  | 60 => ⟨S3x1x128, .f32⟩
  | 61 => ⟨S3x1x128, .f32⟩
  | 62 => ⟨S3x32768x128, .f32⟩
  | 63 => ⟨S3x32768x128, .f32⟩
  | 64 => ⟨S3x32768x128, .f32⟩
  | 65 => ⟨S3x32768x128, .f32⟩
  | 66 => ⟨S3x32768x128, .f32⟩
  | 67 => ⟨S3x32768x128, .f32⟩
  | 68 => ⟨S_, .f32⟩
  | 69 => ⟨S3x32768x128, .f32⟩
  | 70 => ⟨S3x32768x128, .f32⟩
  | 71 => ⟨S1x32768x128, .f32⟩
  | 72 => ⟨S32768x128, .f32⟩
  | 73 => ⟨S1x32768x128, .f32⟩
  | 74 => ⟨S32768x128, .f32⟩
  | 75 => ⟨S1x32768x128, .f32⟩
  | 76 => ⟨S32768x128, .f32⟩
  | 77 => ⟨S32768x384, .f32⟩
  | 78 => ⟨S32768x128, .f32⟩
  | 79 => ⟨S1x128, .f32⟩
  | 80 => ⟨S32768x128, .f32⟩
  | 81 => ⟨S32768x128, .f32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S32768x128, .f32⟩
  | 96 => ⟨S32768x128, .f32⟩
  | 97 => ⟨S32768x128, .f32⟩
  | 98 => ⟨S_, .f32⟩
  | 99 => ⟨S_, .f32⟩
  | 100 => ⟨S_, .f32⟩
  | 101 => ⟨S_, .f32⟩
  | 102 => ⟨S128, .f32⟩
  | 103 => ⟨S1x128, .f32⟩
  | 104 => ⟨S1x128, .f32⟩
  | 105 => ⟨S1x128, .f32⟩
  | 106 => ⟨S_, .f32⟩
  | 107 => ⟨S_, .i1⟩
  | 108 => ⟨S_, .f32⟩
  | 109 => ⟨S_, .f32⟩
  | 110 => ⟨S1x128, .f32⟩
  | 111 => ⟨S1x128, .f32⟩
  | 112 => ⟨S32768x128, .f32⟩
  | 113 => ⟨S32768x128, .f32⟩
  | 114 => ⟨S_, .f32⟩
  | 115 => ⟨S1x128, .f32⟩
  | 116 => ⟨S1x128, .f32⟩
  | 117 => ⟨S1x128, .f32⟩
  | 118 => ⟨S32768x128, .f32⟩
  | 119 => ⟨S32768x128, .f32⟩
  | 120 => ⟨S1x128, .f32⟩
  | 121 => ⟨S32768x128, .f32⟩
  | 122 => ⟨S32768x128, .f32⟩
  | 123 => ⟨S1x128, .f32⟩
  | 124 => ⟨S32768x128, .f32⟩
  | 125 => ⟨S32768x128, .f32⟩
  | 126 => ⟨S_, .f32⟩
  | 127 => ⟨S32768x128, .f32⟩
  | _ => ⟨S32768x128, .f32⟩

abbrev hbmTy0_2 (i : Nat) : BufTy := match i % 128 with
  | 0 => ⟨S32768x128, .f32⟩
  | _ => ⟨S32768x128, .f32⟩

abbrev hbmTy (i : Nat) : BufTy := match i / 128 with
  | 0 => hbmTy0_0 i
  | 1 => hbmTy0_1 i
  | 2 => hbmTy0_2 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call0_cst : Ref sig .tc := ⟨.hbm, 39, rfl⟩
abbrev main_call0_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_1 : Ref sig .tc := ⟨.hbm, 50, rfl⟩
abbrev main_v22 : Ref sig .tc := ⟨.hbm, 51, rfl⟩
abbrev main_v23 : Ref sig .tc := ⟨.hbm, 52, rfl⟩
abbrev main_c_2 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call1_cst : Ref sig .tc := ⟨.hbm, 64, rfl⟩
abbrev main_call1_v0 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_4 : Ref sig .tc := ⟨.hbm, 75, rfl⟩
abbrev main_v42 : Ref sig .tc := ⟨.hbm, 76, rfl⟩
abbrev main_v43 : Ref sig .tc := ⟨.hbm, 77, rfl⟩
abbrev main_c_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_6 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_7 : Ref sig .tc := ⟨.hbm, 103, rfl⟩
abbrev main_v67 : Ref sig .tc := ⟨.hbm, 104, rfl⟩
abbrev main_v68 : Ref sig .tc := ⟨.hbm, 105, rfl⟩
abbrev main_cst_8 : Ref sig .tc := ⟨.hbm, 106, rfl⟩
abbrev main_v69 : Ref sig .tc := ⟨.hbm, 107, rfl⟩
abbrev main_v70 : Ref sig .tc := ⟨.hbm, 108, rfl⟩
abbrev main_c_9 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_v12 : Ref sig .tc := ⟨.hbm, 126, rfl⟩
abbrev main_call2_cst_3 : Ref sig .tc := ⟨.hbm, 127, rfl⟩
abbrev main_call2_v13 : Ref sig .tc := ⟨.hbm, 128, rfl⟩
abbrev main_call2_cst_4 : Ref sig .tc := ⟨.hbm, 129, rfl⟩
abbrev main_call2_call0_v0 : Ref sig .tc := ⟨.hbm, 130, rfl⟩
abbrev main_call2_call0_v1 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_10 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_call3_cst : Ref sig .tc := ⟨.hbm, 145, rfl⟩
abbrev main_call3_v0 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_11 : Ref sig .tc := ⟨.hbm, 154, rfl⟩
abbrev main_v90 : Ref sig .tc := ⟨.hbm, 155, rfl⟩
abbrev main_v91 : Ref sig .tc := ⟨.hbm, 156, rfl⟩
abbrev main_cst_12 : Ref sig .tc := ⟨.hbm, 157, rfl⟩
abbrev main_v92 : Ref sig .tc := ⟨.hbm, 158, rfl⟩
abbrev main_v93 : Ref sig .tc := ⟨.hbm, 159, rfl⟩
abbrev main_c_13 : Ref sig .tc := ⟨.hbm, 160, rfl⟩
abbrev main_call4_cst : Ref sig .tc := ⟨.hbm, 161, rfl⟩
abbrev main_call4_v0 : Ref sig .tc := ⟨.hbm, 162, rfl⟩
abbrev main_call4_v1 : Ref sig .tc := ⟨.hbm, 163, rfl⟩
abbrev main_call4_cst_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_v6 : Ref sig .tc := ⟨.hbm, 169, rfl⟩
abbrev main_call4_v7 : Ref sig .tc := ⟨.hbm, 170, rfl⟩
abbrev main_call4_cst_1 : Ref sig .tc := ⟨.hbm, 171, rfl⟩
abbrev main_call4_v8 : Ref sig .tc := ⟨.hbm, 172, rfl⟩
abbrev main_call4_cst_2 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_v12 : Ref sig .tc := ⟨.hbm, 177, rfl⟩
abbrev main_call4_cst_3 : Ref sig .tc := ⟨.hbm, 178, rfl⟩
abbrev main_call4_v13 : Ref sig .tc := ⟨.hbm, 179, rfl⟩
abbrev main_call4_cst_4 : Ref sig .tc := ⟨.hbm, 180, rfl⟩
abbrev main_call4_call0_v0 : Ref sig .tc := ⟨.hbm, 181, rfl⟩
abbrev main_call4_call0_v1 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_cst_14 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_call5_cst : Ref sig .tc := ⟨.hbm, 196, rfl⟩
abbrev main_call5_v0 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_15 : Ref sig .tc := ⟨.hbm, 210, rfl⟩
abbrev main_v118 : Ref sig .tc := ⟨.hbm, 211, rfl⟩
abbrev main_v119 : Ref sig .tc := ⟨.hbm, 212, rfl⟩
abbrev main_cst_16 : Ref sig .tc := ⟨.hbm, 213, rfl⟩
abbrev main_v120 : Ref sig .tc := ⟨.hbm, 214, rfl⟩
abbrev main_v121 : Ref sig .tc := ⟨.hbm, 215, rfl⟩
abbrev main_c_17 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_cst_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_cst_1 : Ref sig .tc := ⟨.hbm, 227, rfl⟩
abbrev main_call6_v8 : Ref sig .tc := ⟨.hbm, 228, rfl⟩
abbrev main_call6_cst_2 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_v12 : Ref sig .tc := ⟨.hbm, 233, rfl⟩
abbrev main_call6_cst_3 : Ref sig .tc := ⟨.hbm, 234, rfl⟩
abbrev main_call6_v13 : Ref sig .tc := ⟨.hbm, 235, rfl⟩
abbrev main_call6_cst_4 : Ref sig .tc := ⟨.hbm, 236, rfl⟩
abbrev main_call6_call0_v0 : Ref sig .tc := ⟨.hbm, 237, rfl⟩
abbrev main_call6_call0_v1 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_cst_18 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_call7_cst : Ref sig .tc := ⟨.hbm, 254, rfl⟩
abbrev main_call7_v0 : Ref sig .tc := ⟨.hbm, 255, rfl⟩
abbrev main_v136 : Ref sig .tc := ⟨.hbm, 256, rfl⟩

abbrev nD : Nat := 1
abbrev τ : Topo := Topo.v7x

variable {F : FTy → Type} [FloatOps F]

class Facts₀ : Prop where
  slices_S2x524288_S1x524288_1_0 : S2x524288.Slices ![1, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  slices_S2x524288_S1x524288_0_0 : S2x524288.Slices ![0, 0] S1x524288
  bcast_S_S32768x128 : S_.BroadcastsInDim S32768x128 (![] : Fin 0 → Fin S32768x128.rank)
  slices_S2x131072_S1x131072_0_0 : S2x131072.Slices ![0, 0] S1x131072
  shapeCasts_S1x131072_S131072 : S1x131072.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S2x131072_S1x131072_1_0 : S2x131072.Slices ![1, 0] S1x131072
  bcast_S32768x128_S1x32768x128_1_2 : S32768x128.BroadcastsInDim S1x32768x128 (![1, 2] : Fin 2 → Fin S1x32768x128.rank)
  concatenates_S1x32768x128_S1x32768x128_S1x32768x128_S3x32768x128_d0 : Shape.Concatenates [S1x32768x128, S1x32768x128, S1x32768x128] S3x32768x128 0
  bcast_S3x128_S3x1x128_0_2 : S3x128.BroadcastsInDim S3x1x128 (![0, 2] : Fin 2 → Fin S3x1x128.rank)
  bcast_S3x1x128_S3x32768x128_0_1_2 : S3x1x128.BroadcastsInDim S3x32768x128 (![0, 1, 2] : Fin 3 → Fin S3x32768x128.rank)
  reducesTo_S3x32768x128_S3x128_d1 : S3x32768x128.ReducesTo [1] S3x128
  h_S_ : 0 < S_.numel
  bcast_S_S3x1x128 : S_.BroadcastsInDim S3x1x128 (![] : Fin 0 → Fin S3x1x128.rank)
  bcast_S_S3x32768x128 : S_.BroadcastsInDim S3x32768x128 (![] : Fin 0 → Fin S3x32768x128.rank)
  slices_S3x32768x128_S1x32768x128_0_0_0 : S3x32768x128.Slices ![0, 0, 0] S1x32768x128
  shapeCasts_S1x32768x128_S32768x128 : S1x32768x128.ShapeCasts S32768x128
  slices_S3x32768x128_S1x32768x128_1_0_0 : S3x32768x128.Slices ![1, 0, 0] S1x32768x128
  slices_S3x32768x128_S1x32768x128_2_0_0 : S3x32768x128.Slices ![2, 0, 0] S1x32768x128
  concatenates_S32768x128_S32768x128_S32768x128_S32768x384_d1 : Shape.Concatenates [S32768x128, S32768x128, S32768x128] S32768x384 1
  bcast_S1x128_S32768x128_0_1 : S1x128.BroadcastsInDim S32768x128 (![0, 1] : Fin 2 → Fin S32768x128.rank)
  reducesTo_S32768x128_S128_d0 : S32768x128.ReducesTo [0] S128
  bcast_S_S1x128 : S_.BroadcastsInDim S1x128 (![] : Fin 0 → Fin S1x128.rank)
  gather_S32768x128_S524288x1_S524288x128_1_0_n_n_0_1_1128_wf : GatherDims.WF S32768x128 S524288x1 S524288x128 [1] [0] [] [0] [] 1 ![1, 128]
  dot_S524288x256_S256x128_S524288x128_1_0_0_1_n_n_wf : DotDims.WF S524288x256 S256x128 S524288x128 [1] [0] [0] [1] [] []
  scatter_S32768x128_S524288x1_S524288x128_1_0_0_1_wf : ScatterDims.WF S32768x128 S524288x1 S524288x128 [1] [0] [0] 1
  gather_S32768x128_S131072x1_S131072x128_1_0_n_n_0_1_1128_wf : GatherDims.WF S32768x128 S131072x1 S131072x128 [1] [0] [] [0] [] 1 ![1, 128]
  scatter_S32768x128_S131072x1_S131072x128_1_0_0_1_wf : ScatterDims.WF S32768x128 S131072x1 S131072x128 [1] [0] [0] 1
  dot_S3x32768x128_S3x128x128_S3x32768x128_2_1_1_2_0_0_wf : DotDims.WF S3x32768x128 S3x128x128 S3x32768x128 [2] [1] [1] [2] [0] [0]
  dot_S32768x384_S384x128_S32768x128_1_0_0_1_n_n_wf : DotDims.WF S32768x384 S384x128 S32768x128 [1] [0] [0] [1] [] []

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def gather_S32768x128_S131072x1_S131072x128_1_0_n_n_0_1_1128 : GatherDims S32768x128 S131072x1 S131072x128 where
  offsetDims := [1]
  collapsedSliceDims := [0]
  operandBatchingDims := []
  startIndicesBatchingDims := []
  startIndexMap := [0]
  indexVectorDim := 1
  sliceSizes := ![1, 128]
  wf := gather_S32768x128_S131072x1_S131072x128_1_0_n_n_0_1_1128_wf
def scatter_S32768x128_S131072x1_S131072x128_1_0_0_1 : ScatterDims S32768x128 S131072x1 S131072x128 where
  updateWindowDims := [1]
  insertedWindowDims := [0]
  scatterDimsToOperandDims := [0]
  indexVectorDim := 1
  wf := scatter_S32768x128_S131072x1_S131072x128_1_0_0_1_wf
def dot_S3x32768x128_S3x128x128_S3x32768x128_2_1_1_2_0_0 : DotDims S3x32768x128 S3x128x128 S3x32768x128 where
  lhsContracting := [2]
  rhsContracting := [1]
  lhsNonContracting := [1]
  rhsNonContracting := [2]
  lhsBatch := [0]
  rhsBatch := [0]
  wf := dot_S3x32768x128_S3x128x128_S3x32768x128_2_1_1_2_0_0_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf

class Facts : Prop extends Facts₀ where

variable [Facts]
-- ==== Proof.KBody.lean ====
/- The two pallas regions of `Cert.Kernel`'s @main, each at a parameter `V` (the TensorCore's buffer contents when the
   region is entered): each window's block at a grid point, what the body leaves in the output window's buffer, the
   body's triple, the pipeline's proof data and the library's body obligation. -/
import proofs.«106179_j53085795779158_2_alg».proof.Proof.Gen.Kernel.Launch
import proofs.«106179_j53085795779158_2_alg».proof.Proof.Gen.Kernel.Skeleton
import proofs.«106179_j53085795779158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-block rectangle of 8192 rows is checked structurally, once per coordinate of the long axis
set_option maxRecDepth 32768

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # Region 0 of @main: custom_call 0, `cc0__msg_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take the whole block -/

abbrev r0_a : Rect S8192x128 := Rect.unit (s := S8192x128) ![0, 0] S8192x128.size Gen.inb_S8192x128_S8192x128_0_0
abbrev r0_b : Rect S128x128 := Rect.unit (s := S128x128) ![0, 0] S128x128.size Gen.inb_S128x128_S128x128_0_0
abbrev r0_c : Rect S1x128 := Rect.unit (s := S1x128) ![0, 0] S1x128.size Gen.inb_S1x128_S1x128_0_0

/-- Window 4's staging buffer after the body, from the four input windows' blocks (in window order): its one store,
    whose payload is max(x0 + x1·x2 + x3, 0) over the loaded blocks. -/
def out0_4 (x0 : Vec F S8192x128 .f32) (x1 : Vec F S8192x128 .f32) (x2 : Vec F S128x128 .f32) (x3 : Vec F S1x128 .f32) : Vec F S8192x128 .f32 :=
  View.canon [⟨r0_a, k0_pay1 (View.ld x1 r0_a) (View.ld x2 r0_b) (View.ld x0 r0_a) (View.ld x3 r0_c)⟩]

/-- The store takes the whole buffer, so it covers it. -/
theorem cover0_4 (p0 : Vec F S8192x128 .f32) (y : S8192x128.Idx) :
    ∃ pc ∈ ([⟨r0_a, p0⟩] : List (View.Piece (Elt F) S8192x128 .f32)), y ∈ pc.1.set :=
  View.cover_of_tiled [⟨r0_a, p0⟩] S8192x128.size (by rfl) y

set_option maxHeartbeats 1000000 in
/-- The kernel body on whole staging memrefs, the inputs' at read contents `x0 … x3` and the output's at anything, runs to
    the continuation holding the inputs' as they were and the output's at `out0_4` of the inputs'. -/
theorem sound_kernel0 (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S8192x128 .f32) (harg5 : arg5.IsWhole)
    (x0 : Vec F S8192x128 .f32) (x1 : Vec F S8192x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__msg_kernel i arg1 harg1 arg2 harg2 arg3 harg3 arg4 harg4 arg5 harg5) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at point `t`
    each input's buffer at its block and the output's at `out0_4` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: custom_call 1, `cc1__msg_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take the whole block -/

abbrev r1_a : Rect S8192x128 := Rect.unit (s := S8192x128) ![0, 0] S8192x128.size Gen.inb_S8192x128_S8192x128_0_0
abbrev r1_b : Rect S128x128 := Rect.unit (s := S128x128) ![0, 0] S128x128.size Gen.inb_S128x128_S128x128_0_0
abbrev r1_c : Rect S1x128 := Rect.unit (s := S1x128) ![0, 0] S1x128.size Gen.inb_S1x128_S1x128_0_0

/-- Window 4's staging buffer after the body, from the four input windows' blocks (in window order): its one store,
    whose payload is max(x0 + x1·x2 + x3, 0) over the loaded blocks. -/
def out1_4 (x0 : Vec F S8192x128 .f32) (x1 : Vec F S8192x128 .f32) (x2 : Vec F S128x128 .f32) (x3 : Vec F S1x128 .f32) : Vec F S8192x128 .f32 :=
  View.canon [⟨r1_a, k1_pay1 (View.ld x1 r1_a) (View.ld x2 r1_b) (View.ld x0 r1_a) (View.ld x3 r1_c)⟩]

/-- The store takes the whole buffer, so it covers it. -/
theorem cover1_4 (p0 : Vec F S8192x128 .f32) (y : S8192x128.Idx) :
    ∃ pc ∈ ([⟨r1_a, p0⟩] : List (View.Piece (Elt F) S8192x128 .f32)), y ∈ pc.1.set :=
  View.cover_of_tiled [⟨r1_a, p0⟩] S8192x128.size (by rfl) y

set_option maxHeartbeats 1000000 in
/-- The kernel body on whole staging memrefs, the inputs' at read contents `x0 … x3` and the output's at anything, runs to
    the continuation holding the inputs' as they were and the output's at `out1_4` of the inputs'. -/
theorem sound_kernel1 (c : Dev nD) (E : Set ℕ) (i : grid1.Coords)
    (arg1 : Memref sig .tc .vmem S8192x128 .f32) (harg1 : arg1.IsWhole) (arg2 : Memref sig .tc .vmem S8192x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S8192x128 .f32) (harg5 : arg5.IsWhole)
    (x0 : Vec F S8192x128 .f32) (x1 : Vec F S8192x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__msg_kernel i arg1 harg1 arg2 harg2 arg3 harg3 arg4 harg4 arg5 harg5) K := by
  simp only [cc1__msg_kernel_eq_skeleton]; unfold cc1__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/- The two pallas regions of `Cert.Kernel`'s @main as segment records over the generated valuations, what each region
   leaves in its output array, and from them the frame. -/
import proofs.«106179_j53085795779158_2_alg».proof.Proof.KBody
import proofs.«106179_j53085795779158_2_alg».proof.Proof.Gen.Kernel.Regions

-- membership in a whole-block rectangle of 8192 rows is checked structurally, once per coordinate of the long axis
set_option maxRecDepth 32768

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents at the regions' boundaries, and what the regions leave -/

/-- Region 0's entry contents read at the TensorCore's references. -/
abbrev VA1 : (c : Dev nD) → (b : Ref sig .tc) → Buf (Elt F) ((c : Thread nD τ).loc b) := fun c b => Gen.V1 m c b

/-- What region 0 leaves in its output array: the pipeline's write-backs folded over the 64 grid points. -/
def X0 (c : Dev nD) : Buf (Elt F) ((c : Thread nD τ).loc main_v26) := (dat0 (fun c b => Gen.V1 m c b) c).arrAt 4 cfg0.N
/-- The buffers after region 0: as entered, the output array at what the region leaves. -/
abbrev W2 (c : Dev nD) : Valuation τ sig (Elt F) := Function.update (Gen.V1 m c) main_v26 (X0 m c)
/-- What region 1 leaves in its output array. -/
def X1 (c : Dev nD) : Buf (Elt F) ((c : Thread nD τ).loc main_v27) := (dat1 (fun c b => W2 m c b) c).arrAt 4 cfg1.N

/-- What the regions leave, in the form the generated valuations read it: item 2 (region 0) leaves `main_v26` at `X0`,
    item 3 (region 1) leaves `main_v27` at `X1`; at every other reference the value is never read. -/
def outs : Gen.Outs (F := F) := fun j r c =>
  if j = 2 then W2 m c r else Function.update (W2 m c) main_v27 (X1 m c) r

theorem outs_2' (c : Dev nD) : outs m 2 main_v26 c = X0 m c := by
  show (if (2 : ℕ) = 2 then W2 m c main_v26 else _) = _
  rw [if_pos rfl]; exact Function.update_self _ _ _

/-- Region 0's output array ends at the pipeline's folded write-backs. -/
theorem outs_2 (c : Dev nD) : outs m 2 main_v26 c = (dat0 (fun c b => Gen.V1 m c b) c).arrAt 4 cfg0.N := outs_2' m c

theorem V2_eq (c : Dev nD) : Gen.V2 m (outs m) c = W2 m c :=
  congrArg (fun v => Function.update (Gen.V1 m c) (Proc.devRef .tc main_v26 : DevRef τ sig) v) (outs_2' m c)

theorem VA2_eq : (fun (c : Dev nD) (b : Ref sig .tc) => Gen.V2 m (outs m) c b) = (fun (c : Dev nD) (b : Ref sig .tc) => W2 m c b) := by
  funext c b; rw [V2_eq]

theorem outs_3' (c : Dev nD) : outs m 3 main_v27 c = X1 m c := by
  show (if (3 : ℕ) = 2 then _ else Function.update (W2 m c) main_v27 (X1 m c) main_v27) = _
  rw [if_neg (by decide)]; exact Function.update_self _ _ _

/-- Region 1's output array ends at the pipeline's folded write-backs, from the contents region 0 left. -/
theorem outs_3 (c : Dev nD) : outs m 3 main_v27 c = (dat1 (fun c b => Gen.V2 m (outs m) c b) c).arrAt 4 cfg1.N := by
  rw [outs_3', VA2_eq]; rfl

/-- Region 0's exit (region 1's entry) contents, and region 1's exit contents, read at the TensorCore's references. -/
abbrev VA2 : (c : Dev nD) → (b : Ref sig .tc) → Buf (Elt F) ((c : Thread nD τ).loc b) := fun c b => Gen.V2 m (outs m) c b
abbrev VA3 : (c : Dev nD) → (b : Ref sig .tc) → Buf (Elt F) ((c : Thread nD τ).loc b) := fun c b => Gen.V3 m (outs m) c b

/-! ## The proof data family and the thread state -/

/-- Every pipeline's proof data, each at its region's entry contents: a literal match on the pipeline index. -/
def pdats : (p : Fin 2) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V2 m (outs m) c b) c

/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)

/-! ## At a region's exit each of its arrays holds what the pipeline leaves and every other buffer what it held -/

theorem in_facts0 : ∀ w : Fin cfg0.W, w ≠ 4 → (cfg0.win w).isOut = false ∧ Pipeline.arrRef spec0 w ∉ ([main_v26] : List (Ref sig .tc)) := by decide

/-- An input window's array is never written back, and is not the region's output array. -/
theorem hF0_in (c : Dev nD) (w : Fin cfg0.W) (hin : (cfg0.win w).isOut = false) (hne : Pipeline.arrRef spec0 w ∉ ([main_v26] : List (Ref sig .tc))) :
    (dat0 (fun c b => Gen.V1 m c b) c).arrAt w cfg0.N = VA2 m c (Pipeline.arrRef spec0 w) := by
  rw [Dat.arrAt_in _ w hin, A_eq0]
  exact (Gen.V2_of m (outs m) c _ hne).symm

/-- The output window's array ends at what the valuation after the region reads there. -/
theorem hF0_4 (c : Dev nD) : (dat0 (fun c b => Gen.V1 m c b) c).arrAt 4 cfg0.N = VA2 m c (Pipeline.arrRef spec0 4) := by
  rw [← outs_2 m c]
  show outs m 2 main_v26 c = Function.update (Gen.V1 m c) (Proc.devRef .tc main_v26 : DevRef τ sig) (outs m 2 main_v26 c) (Proc.devRef .tc main_v26)
  rw [Function.update_self]

theorem hF0 (c : Dev nD) (w : Fin cfg0.W) : (dat0 (fun c b => Gen.V1 m c b) c).arrAt w cfg0.N = VA2 m c (Pipeline.arrRef spec0 w) := by
  by_cases h4 : w = 4
  · subst h4; exact hF0_4 m c
  · exact hF0_in m c w (in_facts0 w h4).1 (in_facts0 w h4).2

theorem hrest0 (c : Dev nD) : ∀ b, b ∉ Finset.univ.image (Pipeline.arrRef spec0) → VA2 m c b = VA1 m c b :=
  fun b hb => Gen.V2_of m (outs m) c b fun h => by
    rw [List.mem_singleton] at h; subst h
    exact hb (Finset.mem_image.mpr ⟨4, Finset.mem_univ _, rfl⟩)

theorem in_facts1 : ∀ w : Fin cfg1.W, w ≠ 4 → (cfg1.win w).isOut = false ∧ Pipeline.arrRef spec1 w ∉ ([main_v27] : List (Ref sig .tc)) := by decide

/-- An input window's array is never written back, and is not the region's output array. -/
theorem hF1_in (c : Dev nD) (w : Fin cfg1.W) (hin : (cfg1.win w).isOut = false) (hne : Pipeline.arrRef spec1 w ∉ ([main_v27] : List (Ref sig .tc))) :
    (dat1 (fun c b => Gen.V2 m (outs m) c b) c).arrAt w cfg1.N = VA3 m c (Pipeline.arrRef spec1 w) := by
  rw [Dat.arrAt_in _ w hin, A_eq1]
  exact (Gen.V3_of m (outs m) c _ hne).symm

/-- The output window's array ends at what the valuation after the region reads there. -/
theorem hF1_4 (c : Dev nD) : (dat1 (fun c b => Gen.V2 m (outs m) c b) c).arrAt 4 cfg1.N = VA3 m c (Pipeline.arrRef spec1 4) := by
  rw [← outs_3 m c]
  show outs m 3 main_v27 c = Function.update (Gen.V2 m (outs m) c) (Proc.devRef .tc main_v27 : DevRef τ sig) (outs m 3 main_v27 c) (Proc.devRef .tc main_v27)
  rw [Function.update_self]

theorem hF1 (c : Dev nD) (w : Fin cfg1.W) : (dat1 (fun c b => Gen.V2 m (outs m) c b) c).arrAt w cfg1.N = VA3 m c (Pipeline.arrRef spec1 w) := by
  by_cases h4 : w = 4
  · subst h4; exact hF1_4 m c
  · exact hF1_in m c w (in_facts1 w h4).1 (in_facts1 w h4).2

theorem hrest1 (c : Dev nD) : ∀ b, b ∉ Finset.univ.image (Pipeline.arrRef spec1) → VA3 m c b = VA2 m c b :=
  fun b hb => Gen.V3_of m (outs m) c b fun h => by
    rw [List.mem_singleton] at h; subst h
    exact hb (Finset.mem_image.mpr ⟨4, Finset.mem_univ _, rfl⟩)

/-! ## The regions as segments -/

-- a library lemma stated over the pinned configuration unifies with the printed one only when unification may unfold
-- plain definitions in a metavariable's type
set_option backward.isDefEq.respectTransparency.types false in
/-- Region 0 (custom_call 0) over the thread state: entered from every unscoped buffer at `VA1`, left at `VA2`. Its
    arrays are split out of the unscoped buffers and put back at the exit contents; the generator register goes into the
    class invariant and comes out; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (VA1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA1 m c) (VA2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 (custom_call 1) over the thread state: entered from every unscoped buffer at `VA2`, left at `VA3`. Its
    arrays are split out of the unscoped buffers and put back at the exit contents; the generator register goes into the
    class invariant and comes out; nothing is owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VA2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VA2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VA2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VA2 m c) (VA3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- The frame: at the compiled mesh, from any memory with zero counters, every weakly fair execution of @main on the
    TensorCores terminates, nothing faulting, and every final state has the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Gen.frame_cond m (EP := emb₁) (ι := ()) (𝒱₀ := Variants.none) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.Kernel.Hand

end
-- ==== Proof.KIBody.lean ====
/- The two pallas regions of `Cert.KernelIdeal`'s @main, each at a parameter `V` (the TensorCore's buffer contents when the
   region is entered): each window's block at a grid point, what the body leaves in the output window's buffer, the
   body's triple, the pipeline's proof data and the library's body obligation. -/
import proofs.«106179_j53085795779158_2_alg».proof.Proof.Gen.KernelIdeal.Launch
import proofs.«106179_j53085795779158_2_alg».proof.Proof.Gen.KernelIdeal.Skeleton
import proofs.«106179_j53085795779158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-block rectangle of 8192 rows is checked structurally, once per coordinate of the long axis
set_option maxRecDepth 32768

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # Region 0 of @main: custom_call 0, `cc0__msg_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take the whole block -/

abbrev r0_a : Rect S8192x128 := Rect.unit (s := S8192x128) ![0, 0] S8192x128.size Gen.inb_S8192x128_S8192x128_0_0
abbrev r0_b : Rect S128x128 := Rect.unit (s := S128x128) ![0, 0] S128x128.size Gen.inb_S128x128_S128x128_0_0
abbrev r0_c : Rect S1x128 := Rect.unit (s := S1x128) ![0, 0] S1x128.size Gen.inb_S1x128_S1x128_0_0

/-- Window 4's staging buffer after the body, from the four input windows' blocks (in window order): its one store,
    whose payload is max(x0 + x1·x2 + x3, 0) over the loaded blocks. -/
def out0_4 (x0 : Vec F S8192x128 .f32) (x1 : Vec F S8192x128 .f32) (x2 : Vec F S128x128 .f32) (x3 : Vec F S1x128 .f32) : Vec F S8192x128 .f32 :=
  View.canon [⟨r0_a, k0_pay1 (View.ld x1 r0_a) (View.ld x2 r0_b) (View.ld x0 r0_a) (View.ld x3 r0_c)⟩]

/-- The store takes the whole buffer, so it covers it. -/
theorem cover0_4 (p0 : Vec F S8192x128 .f32) (y : S8192x128.Idx) :
    ∃ pc ∈ ([⟨r0_a, p0⟩] : List (View.Piece (Elt F) S8192x128 .f32)), y ∈ pc.1.set :=
  View.cover_of_tiled [⟨r0_a, p0⟩] S8192x128.size (by rfl) y

set_option maxHeartbeats 1000000 in
/-- The kernel body on whole staging memrefs, the inputs' at read contents `x0 … x3` and the output's at anything, runs to
    the continuation holding the inputs' as they were and the output's at `out0_4` of the inputs'. -/
theorem sound_kernel0 (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S8192x128 .f32) (harg5 : arg5.IsWhole)
    (x0 : Vec F S8192x128 .f32) (x1 : Vec F S8192x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__msg_kernel i arg1 harg1 arg2 harg2 arg3 harg3 arg4 harg4 arg5 harg5) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at point `t`
    each input's buffer at its block and the output's at `out0_4` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: custom_call 1, `cc1__msg_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take the whole block -/

abbrev r1_a : Rect S8192x128 := Rect.unit (s := S8192x128) ![0, 0] S8192x128.size Gen.inb_S8192x128_S8192x128_0_0
abbrev r1_b : Rect S128x128 := Rect.unit (s := S128x128) ![0, 0] S128x128.size Gen.inb_S128x128_S128x128_0_0
abbrev r1_c : Rect S1x128 := Rect.unit (s := S1x128) ![0, 0] S1x128.size Gen.inb_S1x128_S1x128_0_0

/-- Window 4's staging buffer after the body, from the four input windows' blocks (in window order): its one store,
    whose payload is max(x0 + x1·x2 + x3, 0) over the loaded blocks. -/
def out1_4 (x0 : Vec F S8192x128 .f32) (x1 : Vec F S8192x128 .f32) (x2 : Vec F S128x128 .f32) (x3 : Vec F S1x128 .f32) : Vec F S8192x128 .f32 :=
  View.canon [⟨r1_a, k1_pay1 (View.ld x1 r1_a) (View.ld x2 r1_b) (View.ld x0 r1_a) (View.ld x3 r1_c)⟩]

/-- The store takes the whole buffer, so it covers it. -/
theorem cover1_4 (p0 : Vec F S8192x128 .f32) (y : S8192x128.Idx) :
    ∃ pc ∈ ([⟨r1_a, p0⟩] : List (View.Piece (Elt F) S8192x128 .f32)), y ∈ pc.1.set :=
  View.cover_of_tiled [⟨r1_a, p0⟩] S8192x128.size (by rfl) y

set_option maxHeartbeats 1000000 in
/-- The kernel body on whole staging memrefs, the inputs' at read contents `x0 … x3` and the output's at anything, runs to
    the continuation holding the inputs' as they were and the output's at `out1_4` of the inputs'. -/
theorem sound_kernel1 (c : Dev nD) (E : Set ℕ) (i : grid1.Coords)
    (arg1 : Memref sig .tc .vmem S8192x128 .f32) (harg1 : arg1.IsWhole) (arg2 : Memref sig .tc .vmem S8192x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S8192x128 .f32) (harg5 : arg5.IsWhole)
    (x0 : Vec F S8192x128 .f32) (x1 : Vec F S8192x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__msg_kernel i arg1 harg1 arg2 harg2 arg3 harg3 arg4 harg4 arg5 harg5) K := by
  simp only [cc1__msg_kernel_eq_skeleton]; unfold cc1__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRunCond.lean ====
/- The run of `Cert.KernelIdeal`'s @main from the two regions' segment records, with a post that names every unscoped
   buffer's final contents: the same segments, chaining and launch as the conditional frame, the last thread state read
   whole against the final memory. -/
import proofs.«106179_j53085795779158_2_alg».proof.Proof.Gen.KernelIdeal.Regions

set_option maxRecDepth 1580

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]
variable (m : (ℓ : Loc nD τ sig) → Buf (Elt F) ℓ)

set_option backward.isDefEq.respectTransparency.types false in
/-- Given the two regions' segment records as in the conditional frame, every weakly fair execution of @main from
    memory `m` with zero counters terminates and every final memory holds, on every core, each unscoped buffer at the
    last valuation `V15`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V15 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, hpre0 c, (hpost0 c).trans (hpre1 c), hpost1 c, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = V15 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state read whole against the final memory
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact h
    · iexact HSI

end Cert.KernelIdeal.Hand

end
-- ==== Proof.KIRun.lean ====
/- The two pallas regions of `Cert.KernelIdeal`'s @main as segment records over the generated valuations, what each region
   leaves in its output array, and from them the frame and the run naming every buffer's final contents. -/
import proofs.«106179_j53085795779158_2_alg».proof.Proof.KIBody
import proofs.«106179_j53085795779158_2_alg».proof.Proof.KIRunCond
import proofs.«106179_j53085795779158_2_alg».proof.Proof.Gen.KernelIdeal.Regions

-- membership in a whole-block rectangle of 8192 rows is checked structurally, once per coordinate of the long axis
set_option maxRecDepth 32768

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at the regions' boundaries, and what the regions leave -/

/-- Region 0's entry contents read at the TensorCore's references. -/
abbrev VA1 : (c : Dev nD) → (b : Ref sig .tc) → Buf (Elt F) ((c : Thread nD τ).loc b) := fun c b => Gen.V1 m c b

/-- What region 0 leaves in its output array: the pipeline's write-backs folded over the 64 grid points. -/
def X0 (c : Dev nD) : Buf (Elt F) ((c : Thread nD τ).loc main_v26) := (dat0 (fun c b => Gen.V1 m c b) c).arrAt 4 cfg0.N
/-- The buffers after region 0: as entered, the output array at what the region leaves. -/
abbrev W2 (c : Dev nD) : Valuation τ sig (Elt F) := Function.update (Gen.V1 m c) main_v26 (X0 m c)
/-- What region 1 leaves in its output array. -/
def X1 (c : Dev nD) : Buf (Elt F) ((c : Thread nD τ).loc main_v27) := (dat1 (fun c b => W2 m c b) c).arrAt 4 cfg1.N

/-- What the regions leave, in the form the generated valuations read it: item 2 (region 0) leaves `main_v26` at `X0`,
    item 3 (region 1) leaves `main_v27` at `X1`; at every other reference the value is never read. -/
def outs : Gen.Outs (F := F) := fun j r c =>
  if j = 2 then W2 m c r else Function.update (W2 m c) main_v27 (X1 m c) r

theorem outs_2' (c : Dev nD) : outs m 2 main_v26 c = X0 m c := by
  show (if (2 : ℕ) = 2 then W2 m c main_v26 else _) = _
  rw [if_pos rfl]; exact Function.update_self _ _ _

/-- Region 0's output array ends at the pipeline's folded write-backs. -/
theorem outs_2 (c : Dev nD) : outs m 2 main_v26 c = (dat0 (fun c b => Gen.V1 m c b) c).arrAt 4 cfg0.N := outs_2' m c

theorem V2_eq (c : Dev nD) : Gen.V2 m (outs m) c = W2 m c :=
  congrArg (fun v => Function.update (Gen.V1 m c) (Proc.devRef .tc main_v26 : DevRef τ sig) v) (outs_2' m c)

theorem VA2_eq : (fun (c : Dev nD) (b : Ref sig .tc) => Gen.V2 m (outs m) c b) = (fun (c : Dev nD) (b : Ref sig .tc) => W2 m c b) := by
  funext c b; rw [V2_eq]

theorem outs_3' (c : Dev nD) : outs m 3 main_v27 c = X1 m c := by
  show (if (3 : ℕ) = 2 then _ else Function.update (W2 m c) main_v27 (X1 m c) main_v27) = _
  rw [if_neg (by decide)]; exact Function.update_self _ _ _

/-- Region 1's output array ends at the pipeline's folded write-backs, from the contents region 0 left. -/
theorem outs_3 (c : Dev nD) : outs m 3 main_v27 c = (dat1 (fun c b => Gen.V2 m (outs m) c b) c).arrAt 4 cfg1.N := by
  rw [outs_3', VA2_eq]; rfl

/-- Region 0's exit (region 1's entry) contents, and region 1's exit contents, read at the TensorCore's references. -/
abbrev VA2 : (c : Dev nD) → (b : Ref sig .tc) → Buf (Elt F) ((c : Thread nD τ).loc b) := fun c b => Gen.V2 m (outs m) c b
abbrev VA3 : (c : Dev nD) → (b : Ref sig .tc) → Buf (Elt F) ((c : Thread nD τ).loc b) := fun c b => Gen.V3 m (outs m) c b

/-! ## The proof data family and the thread state -/

/-- Every pipeline's proof data, each at its region's entry contents: a literal match on the pipeline index. -/
def pdats : (p : Fin 2) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V2 m (outs m) c b) c

/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)

/-! ## At a region's exit each of its arrays holds what the pipeline leaves and every other buffer what it held -/

theorem in_facts0 : ∀ w : Fin cfg0.W, w ≠ 4 → (cfg0.win w).isOut = false ∧ Pipeline.arrRef spec0 w ∉ ([main_v26] : List (Ref sig .tc)) := by decide

/-- An input window's array is never written back, and is not the region's output array. -/
theorem hF0_in (c : Dev nD) (w : Fin cfg0.W) (hin : (cfg0.win w).isOut = false) (hne : Pipeline.arrRef spec0 w ∉ ([main_v26] : List (Ref sig .tc))) :
    (dat0 (fun c b => Gen.V1 m c b) c).arrAt w cfg0.N = VA2 m c (Pipeline.arrRef spec0 w) := by
  rw [Dat.arrAt_in _ w hin, A_eq0]
  exact (Gen.V2_of m (outs m) c _ hne).symm

/-- The output window's array ends at what the valuation after the region reads there. -/
theorem hF0_4 (c : Dev nD) : (dat0 (fun c b => Gen.V1 m c b) c).arrAt 4 cfg0.N = VA2 m c (Pipeline.arrRef spec0 4) := by
  rw [← outs_2 m c]
  show outs m 2 main_v26 c = Function.update (Gen.V1 m c) (Proc.devRef .tc main_v26 : DevRef τ sig) (outs m 2 main_v26 c) (Proc.devRef .tc main_v26)
  rw [Function.update_self]

theorem hF0 (c : Dev nD) (w : Fin cfg0.W) : (dat0 (fun c b => Gen.V1 m c b) c).arrAt w cfg0.N = VA2 m c (Pipeline.arrRef spec0 w) := by
  by_cases h4 : w = 4
  · subst h4; exact hF0_4 m c
  · exact hF0_in m c w (in_facts0 w h4).1 (in_facts0 w h4).2

theorem hrest0 (c : Dev nD) : ∀ b, b ∉ Finset.univ.image (Pipeline.arrRef spec0) → VA2 m c b = VA1 m c b :=
  fun b hb => Gen.V2_of m (outs m) c b fun h => by
    rw [List.mem_singleton] at h; subst h
    exact hb (Finset.mem_image.mpr ⟨4, Finset.mem_univ _, rfl⟩)

theorem in_facts1 : ∀ w : Fin cfg1.W, w ≠ 4 → (cfg1.win w).isOut = false ∧ Pipeline.arrRef spec1 w ∉ ([main_v27] : List (Ref sig .tc)) := by decide

/-- An input window's array is never written back, and is not the region's output array. -/
theorem hF1_in (c : Dev nD) (w : Fin cfg1.W) (hin : (cfg1.win w).isOut = false) (hne : Pipeline.arrRef spec1 w ∉ ([main_v27] : List (Ref sig .tc))) :
    (dat1 (fun c b => Gen.V2 m (outs m) c b) c).arrAt w cfg1.N = VA3 m c (Pipeline.arrRef spec1 w) := by
  rw [Dat.arrAt_in _ w hin, A_eq1]
  exact (Gen.V3_of m (outs m) c _ hne).symm

/-- The output window's array ends at what the valuation after the region reads there. -/
theorem hF1_4 (c : Dev nD) : (dat1 (fun c b => Gen.V2 m (outs m) c b) c).arrAt 4 cfg1.N = VA3 m c (Pipeline.arrRef spec1 4) := by
  rw [← outs_3 m c]
  show outs m 3 main_v27 c = Function.update (Gen.V2 m (outs m) c) (Proc.devRef .tc main_v27 : DevRef τ sig) (outs m 3 main_v27 c) (Proc.devRef .tc main_v27)
  rw [Function.update_self]

theorem hF1 (c : Dev nD) (w : Fin cfg1.W) : (dat1 (fun c b => Gen.V2 m (outs m) c b) c).arrAt w cfg1.N = VA3 m c (Pipeline.arrRef spec1 w) := by
  by_cases h4 : w = 4
  · subst h4; exact hF1_4 m c
  · exact hF1_in m c w (in_facts1 w h4).1 (in_facts1 w h4).2

theorem hrest1 (c : Dev nD) : ∀ b, b ∉ Finset.univ.image (Pipeline.arrRef spec1) → VA3 m c b = VA2 m c b :=
  fun b hb => Gen.V3_of m (outs m) c b fun h => by
    rw [List.mem_singleton] at h; subst h
    exact hb (Finset.mem_image.mpr ⟨4, Finset.mem_univ _, rfl⟩)

/-! ## The regions as segments -/

-- a library lemma stated over the pinned configuration unifies with the printed one only when unification may unfold
-- plain definitions in a metavariable's type
set_option backward.isDefEq.respectTransparency.types false in
/-- Region 0 (custom_call 0) over the thread state: entered from every unscoped buffer at `VA1`, left at `VA2`. Its
    arrays are split out of the unscoped buffers and put back at the exit contents; the generator register goes into the
    class invariant and comes out; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (VA1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA1 m c) (VA2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 (custom_call 1) over the thread state: entered from every unscoped buffer at `VA2`, left at `VA3`. Its
    arrays are split out of the unscoped buffers and put back at the exit contents; the generator register goes into the
    class invariant and comes out; nothing is owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VA2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VA2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VA2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VA2 m c) (VA3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame and the run -/

set_option backward.isDefEq.respectTransparency.types false in
/-- The frame: at the compiled mesh, from any memory with zero counters, every weakly fair execution of @main on the
    TensorCores terminates, nothing faulting, and every final state has the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Gen.frame_cond m (EP := emb₁) (ι := ()) (𝒱₀ := Variants.none) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

set_option backward.isDefEq.respectTransparency.types false in
/-- The run: the same executions end with every unscoped buffer, on every core, at the last valuation over what the two
    regions leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V15 m (outs m) c b) :=
  run_cond m (EP := emb₁) (ι := ()) (𝒱₀ := Variants.none) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.Hand

end
-- ==== Proof.RefOps.lean ====
/- The operations of the reference program's @main, in order, as four literal lists whose concatenation is the whole program.
   Each list transcribes the printed program (ReferenceIdeal.lean) statement by statement: a statement's operation as it is printed, and at a call of a
   module-local function the operations of that function's printed body over the call's arguments and the call's own buffers (a call inside it likewise). -/
import proofs.«106179_j53085795779158_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements %0 … %14: the target indices of the first edge set (its second row, wrapped into range), the gathered rows of x joined with the edge attributes, the first dense layer, and the rectifier (the call @relu, result `main_v14`): the "up" messages. 19 operations. -/
abbrev opsUp : List (HloOp τ sig (Elt F)) :=
  [ StableHlo.unary main_arg1 main_v0 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v0 main_v1 rfl shapeCasts_S1x524288_S524288,
    StableHlo.nullary main_c (constantI S_ 32 0#32),
    StableHlo.unary main_c main_v2 (broadcastInDim S524288 ![] bcast_S_S524288 : (⟨S_, .i32⟩ : BufTy).Contents (Elt F) → (⟨S524288, .i32⟩ : BufTy).Contents (Elt F)),
    StableHlo.binary main_v1 main_v2 main_v3 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 32768#32),
    StableHlo.unary main_c_0 main_v4 (broadcastInDim S524288 ![] bcast_S_S524288 : (⟨S_, .i32⟩ : BufTy).Contents (Elt F) → (⟨S524288, .i32⟩ : BufTy).Contents (Elt F)),
    StableHlo.binary main_v1 main_v4 main_v5 (addi : (⟨S524288, .i32⟩ : BufTy).Contents (Elt F) → (⟨S524288, .i32⟩ : BufTy).Contents (Elt F) → (⟨S524288, .i32⟩ : BufTy).Contents (Elt F)),
    StableHlo.ternary main_v3 main_v5 main_v1 main_v6 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v6 main_v7 (broadcastInDim S524288x1 ![0] bcast_S524288_S524288x1_0 : (⟨S524288, .i32⟩ : BufTy).Contents (Elt F) → (⟨S524288x1, .i32⟩ : BufTy).Contents (Elt F)),
    StableHlo.binary main_arg0 main_v7 main_v8 ((fun x i => Host.gather gather_S32768x128_S524288x1_S524288x128_1_0_n_n_0_1_1128 x i) : (⟨S32768x128, .f32⟩ : BufTy).Contents (Elt F) → (⟨S524288x1, .i32⟩ : BufTy).Contents (Elt F) → (⟨S524288x128, .f32⟩ : BufTy).Contents (Elt F)),
    StableHlo.binary main_v8 main_arg4 main_v9 ((fun a b => concatenate S524288x256 1 [⟨S524288x128, a⟩, ⟨S524288x128, b⟩] concatenates_S524288x128_S524288x128_S524288x256_d1) : (⟨S524288x128, .f32⟩ : BufTy).Contents (Elt F) → (⟨S524288x128, .f32⟩ : BufTy).Contents (Elt F) → (⟨S524288x256, .f32⟩ : BufTy).Contents (Elt F)),
    StableHlo.binary main_v9 main_arg7 main_v10 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    StableHlo.unary main_arg8 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S524288x128 ![0, 1] bcast_S1x128_S524288x128_0_1 : (⟨S1x128, .f32⟩ : BufTy).Contents (Elt F) → (⟨S524288x128, .f32⟩ : BufTy).Contents (Elt F)),
    StableHlo.binary main_v10 main_v12 main_v13 (addf : (⟨S524288x128, .f32⟩ : BufTy).Contents (Elt F) → (⟨S524288x128, .f32⟩ : BufTy).Contents (Elt F) → (⟨S524288x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S524288x128, .f32⟩) (broadcastInDim S524288x128 ![] bcast_S_S524288x128),
    StableHlo.TRef.binary (.of main_v13 : StableHlo.TRef sig ⟨S524288x128, .f32⟩) (.of main_call0_v0 : StableHlo.TRef sig ⟨S524288x128, .f32⟩) (.of main_v14 : StableHlo.TRef sig ⟨S524288x128, .f32⟩) maximumf ]

/-- Statements %15 … %19: the first row of the first edge set as scatter indices, the zero accumulator, and the scatter-add of the "up" messages (`main_v19`). 6 operations. -/
abbrev opsUpS : List (HloOp τ sig (Elt F)) :=
  [ StableHlo.unary main_arg1 main_v15 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v15 main_v16 rfl shapeCasts_S1x524288_S524288,
    StableHlo.nullary main_cst (constant S_ .f32 0x00000000#32),
    StableHlo.unary main_cst main_v17 (broadcastInDim S32768x128 ![] bcast_S_S32768x128 : (⟨S_, .f32⟩ : BufTy).Contents (Elt F) → (⟨S32768x128, .f32⟩ : BufTy).Contents (Elt F)),
    StableHlo.unary main_v16 main_v18 (broadcastInDim S524288x1 ![0] bcast_S524288_S524288x1_0 : (⟨S524288, .i32⟩ : BufTy).Contents (Elt F) → (⟨S524288x1, .i32⟩ : BufTy).Contents (Elt F)),
    StableHlo.ternary main_v17 main_v18 main_v14 main_v19 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)) ]

/-- Statements %20 … %34: the same over the second edge set, up to the rectifier (the second call @relu, result `main_v34`): the "down" messages. 19 operations. -/
abbrev opsDn : List (HloOp τ sig (Elt F)) :=
  [ StableHlo.unary main_arg2 main_v20 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v20 main_v21 rfl shapeCasts_S1x524288_S524288,
    StableHlo.nullary main_c_1 (constantI S_ 32 0#32),
    StableHlo.unary main_c_1 main_v22 (broadcastInDim S524288 ![] bcast_S_S524288 : (⟨S_, .i32⟩ : BufTy).Contents (Elt F) → (⟨S524288, .i32⟩ : BufTy).Contents (Elt F)),
    StableHlo.binary main_v21 main_v22 main_v23 (cmpi .slt : (⟨S524288, .i32⟩ : BufTy).Contents (Elt F) → (⟨S524288, .i32⟩ : BufTy).Contents (Elt F) → (⟨S524288, .i1⟩ : BufTy).Contents (Elt F)),
    StableHlo.nullary main_c_2 (constantI S_ 32 32768#32),
    StableHlo.unary main_c_2 main_v24 (broadcastInDim S524288 ![] bcast_S_S524288 : (⟨S_, .i32⟩ : BufTy).Contents (Elt F) → (⟨S524288, .i32⟩ : BufTy).Contents (Elt F)),
    StableHlo.binary main_v21 main_v24 main_v25 (addi : (⟨S524288, .i32⟩ : BufTy).Contents (Elt F) → (⟨S524288, .i32⟩ : BufTy).Contents (Elt F) → (⟨S524288, .i32⟩ : BufTy).Contents (Elt F)),
    StableHlo.ternary main_v23 main_v25 main_v21 main_v26 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v26 main_v27 (broadcastInDim S524288x1 ![0] bcast_S524288_S524288x1_0 : (⟨S524288, .i32⟩ : BufTy).Contents (Elt F) → (⟨S524288x1, .i32⟩ : BufTy).Contents (Elt F)),
    StableHlo.binary main_arg0 main_v27 main_v28 ((fun x i => Host.gather gather_S32768x128_S524288x1_S524288x128_1_0_n_n_0_1_1128 x i) : (⟨S32768x128, .f32⟩ : BufTy).Contents (Elt F) → (⟨S524288x1, .i32⟩ : BufTy).Contents (Elt F) → (⟨S524288x128, .f32⟩ : BufTy).Contents (Elt F)),
    StableHlo.binary main_v28 main_arg5 main_v29 ((fun a b => concatenate S524288x256 1 [⟨S524288x128, a⟩, ⟨S524288x128, b⟩] concatenates_S524288x128_S524288x128_S524288x256_d1) : (⟨S524288x128, .f32⟩ : BufTy).Contents (Elt F) → (⟨S524288x128, .f32⟩ : BufTy).Contents (Elt F) → (⟨S524288x256, .f32⟩ : BufTy).Contents (Elt F)),
    StableHlo.binary main_v29 main_arg9 main_v30 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    StableHlo.unary main_arg10 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S524288x128 ![0, 1] bcast_S1x128_S524288x128_0_1 : (⟨S1x128, .f32⟩ : BufTy).Contents (Elt F) → (⟨S524288x128, .f32⟩ : BufTy).Contents (Elt F)),
    StableHlo.binary main_v30 main_v32 main_v33 (addf : (⟨S524288x128, .f32⟩ : BufTy).Contents (Elt F) → (⟨S524288x128, .f32⟩ : BufTy).Contents (Elt F) → (⟨S524288x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S524288x128, .f32⟩) (broadcastInDim S524288x128 ![] bcast_S_S524288x128),
    StableHlo.TRef.binary (.of main_v33 : StableHlo.TRef sig ⟨S524288x128, .f32⟩) (.of main_call1_v0 : StableHlo.TRef sig ⟨S524288x128, .f32⟩) (.of main_v34 : StableHlo.TRef sig ⟨S524288x128, .f32⟩) maximumf ]

/-- All the rest, to the end (`main_v136`): the second scatter-add, the gather and scatter-add over the third edge set, the three sums with x stacked, the two batched dense layers each with its batch normalisation and rectifier, the join of the three slices, the last dense layer, its batch normalisation and rectifier. 190 operations. -/
abbrev opsTail : List (HloOp τ sig (Elt F)) :=
  [ StableHlo.unary main_arg2 main_v35 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v35 main_v36 rfl shapeCasts_S1x524288_S524288,
    StableHlo.nullary main_cst_3 (constant S_ .f32 0x00000000#32),
    StableHlo.unary main_cst_3 main_v37 (broadcastInDim S32768x128 ![] bcast_S_S32768x128 : (⟨S_, .f32⟩ : BufTy).Contents (Elt F) → (⟨S32768x128, .f32⟩ : BufTy).Contents (Elt F)),
    StableHlo.unary main_v36 main_v38 (broadcastInDim S524288x1 ![0] bcast_S524288_S524288x1_0 : (⟨S524288, .i32⟩ : BufTy).Contents (Elt F) → (⟨S524288x1, .i32⟩ : BufTy).Contents (Elt F)),
    StableHlo.ternary main_v37 main_v38 main_v34 main_v39 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    StableHlo.unary main_arg3 main_v40 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v40 main_v41 rfl shapeCasts_S1x131072_S131072,
    StableHlo.nullary main_c_4 (constantI S_ 32 0#32),
    StableHlo.unary main_c_4 main_v42 (broadcastInDim S131072 ![] bcast_S_S131072 : (⟨S_, .i32⟩ : BufTy).Contents (Elt F) → (⟨S131072, .i32⟩ : BufTy).Contents (Elt F)),
    StableHlo.binary main_v41 main_v42 main_v43 (cmpi .slt : (⟨S131072, .i32⟩ : BufTy).Contents (Elt F) → (⟨S131072, .i32⟩ : BufTy).Contents (Elt F) → (⟨S131072, .i1⟩ : BufTy).Contents (Elt F)),
    StableHlo.nullary main_c_5 (constantI S_ 32 32768#32),
    StableHlo.unary main_c_5 main_v44 (broadcastInDim S131072 ![] bcast_S_S131072 : (⟨S_, .i32⟩ : BufTy).Contents (Elt F) → (⟨S131072, .i32⟩ : BufTy).Contents (Elt F)),
    StableHlo.binary main_v41 main_v44 main_v45 (addi : (⟨S131072, .i32⟩ : BufTy).Contents (Elt F) → (⟨S131072, .i32⟩ : BufTy).Contents (Elt F) → (⟨S131072, .i32⟩ : BufTy).Contents (Elt F)),
    StableHlo.ternary main_v43 main_v45 main_v41 main_v46 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v46 main_v47 (broadcastInDim S131072x1 ![0] bcast_S131072_S131072x1_0 : (⟨S131072, .i32⟩ : BufTy).Contents (Elt F) → (⟨S131072x1, .i32⟩ : BufTy).Contents (Elt F)),
    StableHlo.binary main_arg6 main_v47 main_v48 ((fun x i => Host.gather gather_S32768x128_S131072x1_S131072x128_1_0_n_n_0_1_1128 x i) : (⟨S32768x128, .f32⟩ : BufTy).Contents (Elt F) → (⟨S131072x1, .i32⟩ : BufTy).Contents (Elt F) → (⟨S131072x128, .f32⟩ : BufTy).Contents (Elt F)),
    StableHlo.unary main_arg3 main_v49 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v49 main_v50 rfl shapeCasts_S1x131072_S131072,
    StableHlo.nullary main_cst_6 (constant S_ .f32 0x00000000#32),
    StableHlo.unary main_cst_6 main_v51 (broadcastInDim S32768x128 ![] bcast_S_S32768x128 : (⟨S_, .f32⟩ : BufTy).Contents (Elt F) → (⟨S32768x128, .f32⟩ : BufTy).Contents (Elt F)),
    StableHlo.unary main_v50 main_v52 (broadcastInDim S131072x1 ![0] bcast_S131072_S131072x1_0 : (⟨S131072, .i32⟩ : BufTy).Contents (Elt F) → (⟨S131072x1, .i32⟩ : BufTy).Contents (Elt F)),
    StableHlo.ternary main_v51 main_v52 main_v48 main_v53 ((fun x i u => Host.scatterAdd scatter_S32768x128_S131072x1_S131072x128_1_0_0_1 x i u) : (⟨S32768x128, .f32⟩ : BufTy).Contents (Elt F) → (⟨S131072x1, .i32⟩ : BufTy).Contents (Elt F) → (⟨S131072x128, .f32⟩ : BufTy).Contents (Elt F) → (⟨S32768x128, .f32⟩ : BufTy).Contents (Elt F)),
    StableHlo.binary main_v19 main_arg0 main_v54 (addf : (⟨S32768x128, .f32⟩ : BufTy).Contents (Elt F) → (⟨S32768x128, .f32⟩ : BufTy).Contents (Elt F) → (⟨S32768x128, .f32⟩ : BufTy).Contents (Elt F)),
    StableHlo.binary main_v39 main_arg0 main_v55 (addf : (⟨S32768x128, .f32⟩ : BufTy).Contents (Elt F) → (⟨S32768x128, .f32⟩ : BufTy).Contents (Elt F) → (⟨S32768x128, .f32⟩ : BufTy).Contents (Elt F)),
    StableHlo.binary main_v53 main_arg0 main_v56 (addf : (⟨S32768x128, .f32⟩ : BufTy).Contents (Elt F) → (⟨S32768x128, .f32⟩ : BufTy).Contents (Elt F) → (⟨S32768x128, .f32⟩ : BufTy).Contents (Elt F)),
    StableHlo.unary main_v54 main_v57 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v55 main_v58 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v56 main_v59 (broadcastInDim S1x32768x128 ![1, 2] bcast_S32768x128_S1x32768x128_1_2 : (⟨S32768x128, .f32⟩ : BufTy).Contents (Elt F) → (⟨S1x32768x128, .f32⟩ : BufTy).Contents (Elt F)),
    StableHlo.nary ![main_v57, main_v58, main_v59] main_v60 (fun u => concatenate S3x32768x128 0 [⟨S1x32768x128, u 0⟩, ⟨S1x32768x128, u 1⟩, ⟨S1x32768x128, u 2⟩] concatenates_S1x32768x128_S1x32768x128_S1x32768x128_S3x32768x128_d0),
    StableHlo.binary main_v60 main_arg11 main_v61 ((fun l r => Host.dotGeneral dot_S3x32768x128_S3x128x128_S3x32768x128_2_1_1_2_0_0 none l r) : (⟨S3x32768x128, .f32⟩ : BufTy).Contents (Elt F) → (⟨S3x128x128, .f32⟩ : BufTy).Contents (Elt F) → (⟨S3x32768x128, .f32⟩ : BufTy).Contents (Elt F)),
    StableHlo.unary main_arg12 main_v62 (broadcastInDim S3x1x128 ![0, 2] bcast_S3x128_S3x1x128_0_2 : (⟨S3x128, .f32⟩ : BufTy).Contents (Elt F) → (⟨S3x1x128, .f32⟩ : BufTy).Contents (Elt F)),
    StableHlo.unary main_v62 main_v63 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v61 main_v63 main_v64 (addf : (⟨S3x32768x128, .f32⟩ : BufTy).Contents (Elt F) → (⟨S3x32768x128, .f32⟩ : BufTy).Contents (Elt F) → (⟨S3x32768x128, .f32⟩ : BufTy).Contents (Elt F)),
    StableHlo.unary main_arg13 main_v65 (broadcastInDim S3x1x128 ![0, 2] bcast_S3x128_S3x1x128_0_2 : (⟨S3x128, .f32⟩ : BufTy).Contents (Elt F) → (⟨S3x1x128, .f32⟩ : BufTy).Contents (Elt F)),
    StableHlo.unary main_arg14 main_v66 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_7 (constant S_ .f32 0x00000000#32),
    StableHlo.binary main_v64 main_cst_7 main_v67 ((fun x v => Host.reduceAdd x v reducesTo_S3x32768x128_S3x128_d1 h_S_) : (⟨S3x32768x128, .f32⟩ : BufTy).Contents (Elt F) → (⟨S_, .f32⟩ : BufTy).Contents (Elt F) → (⟨S3x128, .f32⟩ : BufTy).Contents (Elt F)),
    StableHlo.unary main_v67 main_v68 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_8 (constant S_ .f32 0x47000000#32),
    StableHlo.unary main_cst_8 main_v69 (broadcastInDim S3x1x128 ![] bcast_S_S3x1x128 : (⟨S_, .f32⟩ : BufTy).Contents (Elt F) → (⟨S3x1x128, .f32⟩ : BufTy).Contents (Elt F)),
    StableHlo.binary main_v68 main_v69 main_v70 (Host.divf : (⟨S3x1x128, .f32⟩ : BufTy).Contents (Elt F) → (⟨S3x1x128, .f32⟩ : BufTy).Contents (Elt F) → (⟨S3x1x128, .f32⟩ : BufTy).Contents (Elt F)),
    StableHlo.nullary main_c_9 (constantI S_ 32 0#32),
    StableHlo.TRef.nullary (.of main_call2_cst : StableHlo.TRef sig ⟨S_, .f32⟩) (constant S_ .f32 0x00000000#32),
    StableHlo.TRef.binary (.of main_v64 : StableHlo.TRef sig ⟨S3x32768x128, .f32⟩) (.of main_call2_cst : StableHlo.TRef sig ⟨S_, .f32⟩) (.of main_call2_v0 : StableHlo.TRef sig ⟨S3x128, .f32⟩) (fun x v => Host.reduceAdd x v reducesTo_S3x32768x128_S3x128_d1 h_S_),
    StableHlo.TRef.unary (.of main_call2_v0 : StableHlo.TRef sig ⟨S3x128, .f32⟩) (.of main_call2_v1 : StableHlo.TRef sig ⟨S3x1x128, .f32⟩) (broadcastInDim S3x1x128 ![0, 2] bcast_S3x128_S3x1x128_0_2),
    StableHlo.TRef.nullary (.of main_call2_cst_0 : StableHlo.TRef sig ⟨S_, .f32⟩) (constant S_ .f32 0x47000000#32),
    StableHlo.TRef.unary (.of main_call2_cst_0 : StableHlo.TRef sig ⟨S_, .f32⟩) (.of main_call2_v2 : StableHlo.TRef sig ⟨S3x1x128, .f32⟩) (broadcastInDim S3x1x128 ![] bcast_S_S3x1x128),
    StableHlo.TRef.binary (.of main_call2_v1 : StableHlo.TRef sig ⟨S3x1x128, .f32⟩) (.of main_call2_v2 : StableHlo.TRef sig ⟨S3x1x128, .f32⟩) (.of main_call2_v3 : StableHlo.TRef sig ⟨S3x1x128, .f32⟩) Host.divf,
    StableHlo.TRef.unary (.of main_call2_v3 : StableHlo.TRef sig ⟨S3x1x128, .f32⟩) (.of main_call2_v4 : StableHlo.TRef sig ⟨S3x32768x128, .f32⟩) (broadcastInDim S3x32768x128 ![0, 1, 2] bcast_S3x1x128_S3x32768x128_0_1_2),
    StableHlo.TRef.binary (.of main_v64 : StableHlo.TRef sig ⟨S3x32768x128, .f32⟩) (.of main_call2_v4 : StableHlo.TRef sig ⟨S3x32768x128, .f32⟩) (.of main_call2_v5 : StableHlo.TRef sig ⟨S3x32768x128, .f32⟩) subf,
    StableHlo.TRef.binary (.of main_call2_v5 : StableHlo.TRef sig ⟨S3x32768x128, .f32⟩) (.of main_call2_v5 : StableHlo.TRef sig ⟨S3x32768x128, .f32⟩) (.of main_call2_v6 : StableHlo.TRef sig ⟨S3x32768x128, .f32⟩) mulf,
    StableHlo.TRef.unary (.of main_c_9 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S3x32768x128, .f32⟩) (.of main_call2_cst_2 : StableHlo.TRef sig ⟨S_, .f32⟩) (.of main_call2_v9 : StableHlo.TRef sig ⟨S3x128, .f32⟩) (fun x v => Host.reduceAdd x v reducesTo_S3x32768x128_S3x128_d1 h_S_),
    StableHlo.TRef.unary (.of main_call2_v9 : StableHlo.TRef sig ⟨S3x128, .f32⟩) (.of main_call2_v10 : StableHlo.TRef sig ⟨S3x1x128, .f32⟩) (broadcastInDim S3x1x128 ![0, 2] bcast_S3x128_S3x1x128_0_2),
    StableHlo.TRef.unary (.of main_call2_v8 : StableHlo.TRef sig ⟨S_, .f32⟩) (.of main_call2_v11 : StableHlo.TRef sig ⟨S3x1x128, .f32⟩) (broadcastInDim S3x1x128 ![] bcast_S_S3x1x128),
    StableHlo.TRef.binary (.of main_call2_v10 : StableHlo.TRef sig ⟨S3x1x128, .f32⟩) (.of main_call2_v11 : StableHlo.TRef sig ⟨S3x1x128, .f32⟩) (.of main_call2_v12 : StableHlo.TRef sig ⟨S3x1x128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S3x1x128, .f32⟩) (broadcastInDim S3x1x128 ![] bcast_S_S3x1x128),
    StableHlo.TRef.ternary (.of main_call2_v13 : StableHlo.TRef sig ⟨S_, .i1⟩) (.of main_call2_v12 : StableHlo.TRef sig ⟨S3x1x128, .f32⟩) (.of main_call2_call0_v1 : StableHlo.TRef sig ⟨S3x1x128, .f32⟩) (.of main_v71 : StableHlo.TRef sig ⟨S3x1x128, .f32⟩) (fun p a b => select (broadcastInDim S3x1x128 ![] bcast_S_S3x1x128 p) a b),
    StableHlo.unary main_v70 main_v72 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v64 main_v72 main_v73 (subf : (⟨S3x32768x128, .f32⟩ : BufTy).Contents (Elt F) → (⟨S3x32768x128, .f32⟩ : BufTy).Contents (Elt F) → (⟨S3x32768x128, .f32⟩ : BufTy).Contents (Elt F)),
    StableHlo.nullary main_cst_10 (constant S_ .f32 0x3727C5AC#32),
    StableHlo.unary main_cst_10 main_v74 (broadcastInDim S3x1x128 ![] bcast_S_S3x1x128 : (⟨S_, .f32⟩ : BufTy).Contents (Elt F) → (⟨S3x1x128, .f32⟩ : BufTy).Contents (Elt F)),
    StableHlo.binary main_v71 main_v74 main_v75 (addf : (⟨S3x1x128, .f32⟩ : BufTy).Contents (Elt F) → (⟨S3x1x128, .f32⟩ : BufTy).Contents (Elt F) → (⟨S3x1x128, .f32⟩ : BufTy).Contents (Elt F)),
    StableHlo.unary main_v75 main_v76 (Host.rsqrt : (⟨S3x1x128, .f32⟩ : BufTy).Contents (Elt F) → (⟨S3x1x128, .f32⟩ : BufTy).Contents (Elt F)),
    StableHlo.unary main_v76 main_v77 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v73 main_v77 main_v78 (mulf : (⟨S3x32768x128, .f32⟩ : BufTy).Contents (Elt F) → (⟨S3x32768x128, .f32⟩ : BufTy).Contents (Elt F) → (⟨S3x32768x128, .f32⟩ : BufTy).Contents (Elt F)),
    StableHlo.unary main_v65 main_v79 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v78 main_v79 main_v80 (mulf : (⟨S3x32768x128, .f32⟩ : BufTy).Contents (Elt F) → (⟨S3x32768x128, .f32⟩ : BufTy).Contents (Elt F) → (⟨S3x32768x128, .f32⟩ : BufTy).Contents (Elt F)),
    StableHlo.unary main_v66 main_v81 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v80 main_v81 main_v82 (addf : (⟨S3x32768x128, .f32⟩ : BufTy).Contents (Elt F) → (⟨S3x32768x128, .f32⟩ : BufTy).Contents (Elt F) → (⟨S3x32768x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S3x32768x128, .f32⟩) (broadcastInDim S3x32768x128 ![] bcast_S_S3x32768x128),
    StableHlo.TRef.binary (.of main_v82 : StableHlo.TRef sig ⟨S3x32768x128, .f32⟩) (.of main_call3_v0 : StableHlo.TRef sig ⟨S3x32768x128, .f32⟩) (.of main_v83 : StableHlo.TRef sig ⟨S3x32768x128, .f32⟩) maximumf,
    StableHlo.binary main_v83 main_arg15 main_v84 ((fun l r => Host.dotGeneral dot_S3x32768x128_S3x128x128_S3x32768x128_2_1_1_2_0_0 none l r) : (⟨S3x32768x128, .f32⟩ : BufTy).Contents (Elt F) → (⟨S3x128x128, .f32⟩ : BufTy).Contents (Elt F) → (⟨S3x32768x128, .f32⟩ : BufTy).Contents (Elt F)),
    StableHlo.unary main_arg16 main_v85 (broadcastInDim S3x1x128 ![0, 2] bcast_S3x128_S3x1x128_0_2 : (⟨S3x128, .f32⟩ : BufTy).Contents (Elt F) → (⟨S3x1x128, .f32⟩ : BufTy).Contents (Elt F)),
    StableHlo.unary main_v85 main_v86 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v84 main_v86 main_v87 (addf : (⟨S3x32768x128, .f32⟩ : BufTy).Contents (Elt F) → (⟨S3x32768x128, .f32⟩ : BufTy).Contents (Elt F) → (⟨S3x32768x128, .f32⟩ : BufTy).Contents (Elt F)),
    StableHlo.unary main_arg17 main_v88 (broadcastInDim S3x1x128 ![0, 2] bcast_S3x128_S3x1x128_0_2 : (⟨S3x128, .f32⟩ : BufTy).Contents (Elt F) → (⟨S3x1x128, .f32⟩ : BufTy).Contents (Elt F)),
    StableHlo.unary main_arg18 main_v89 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_11 (constant S_ .f32 0x00000000#32),
    StableHlo.binary main_v87 main_cst_11 main_v90 ((fun x v => Host.reduceAdd x v reducesTo_S3x32768x128_S3x128_d1 h_S_) : (⟨S3x32768x128, .f32⟩ : BufTy).Contents (Elt F) → (⟨S_, .f32⟩ : BufTy).Contents (Elt F) → (⟨S3x128, .f32⟩ : BufTy).Contents (Elt F)),
    StableHlo.unary main_v90 main_v91 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_12 (constant S_ .f32 0x47000000#32),
    StableHlo.unary main_cst_12 main_v92 (broadcastInDim S3x1x128 ![] bcast_S_S3x1x128 : (⟨S_, .f32⟩ : BufTy).Contents (Elt F) → (⟨S3x1x128, .f32⟩ : BufTy).Contents (Elt F)),
    StableHlo.binary main_v91 main_v92 main_v93 (Host.divf : (⟨S3x1x128, .f32⟩ : BufTy).Contents (Elt F) → (⟨S3x1x128, .f32⟩ : BufTy).Contents (Elt F) → (⟨S3x1x128, .f32⟩ : BufTy).Contents (Elt F)),
    StableHlo.nullary main_c_13 (constantI S_ 32 0#32),
    StableHlo.TRef.nullary (.of main_call4_cst : StableHlo.TRef sig ⟨S_, .f32⟩) (constant S_ .f32 0x00000000#32),
    StableHlo.TRef.binary (.of main_v87 : StableHlo.TRef sig ⟨S3x32768x128, .f32⟩) (.of main_call4_cst : StableHlo.TRef sig ⟨S_, .f32⟩) (.of main_call4_v0 : StableHlo.TRef sig ⟨S3x128, .f32⟩) (fun x v => Host.reduceAdd x v reducesTo_S3x32768x128_S3x128_d1 h_S_),
    StableHlo.TRef.unary (.of main_call4_v0 : StableHlo.TRef sig ⟨S3x128, .f32⟩) (.of main_call4_v1 : StableHlo.TRef sig ⟨S3x1x128, .f32⟩) (broadcastInDim S3x1x128 ![0, 2] bcast_S3x128_S3x1x128_0_2),
    StableHlo.TRef.nullary (.of main_call4_cst_0 : StableHlo.TRef sig ⟨S_, .f32⟩) (constant S_ .f32 0x47000000#32),
    StableHlo.TRef.unary (.of main_call4_cst_0 : StableHlo.TRef sig ⟨S_, .f32⟩) (.of main_call4_v2 : StableHlo.TRef sig ⟨S3x1x128, .f32⟩) (broadcastInDim S3x1x128 ![] bcast_S_S3x1x128),
    StableHlo.TRef.binary (.of main_call4_v1 : StableHlo.TRef sig ⟨S3x1x128, .f32⟩) (.of main_call4_v2 : StableHlo.TRef sig ⟨S3x1x128, .f32⟩) (.of main_call4_v3 : StableHlo.TRef sig ⟨S3x1x128, .f32⟩) Host.divf,
    StableHlo.TRef.unary (.of main_call4_v3 : StableHlo.TRef sig ⟨S3x1x128, .f32⟩) (.of main_call4_v4 : StableHlo.TRef sig ⟨S3x32768x128, .f32⟩) (broadcastInDim S3x32768x128 ![0, 1, 2] bcast_S3x1x128_S3x32768x128_0_1_2),
    StableHlo.TRef.binary (.of main_v87 : StableHlo.TRef sig ⟨S3x32768x128, .f32⟩) (.of main_call4_v4 : StableHlo.TRef sig ⟨S3x32768x128, .f32⟩) (.of main_call4_v5 : StableHlo.TRef sig ⟨S3x32768x128, .f32⟩) subf,
    StableHlo.TRef.binary (.of main_call4_v5 : StableHlo.TRef sig ⟨S3x32768x128, .f32⟩) (.of main_call4_v5 : StableHlo.TRef sig ⟨S3x32768x128, .f32⟩) (.of main_call4_v6 : StableHlo.TRef sig ⟨S3x32768x128, .f32⟩) mulf,
    StableHlo.TRef.unary (.of main_c_13 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S3x32768x128, .f32⟩) (.of main_call4_cst_2 : StableHlo.TRef sig ⟨S_, .f32⟩) (.of main_call4_v9 : StableHlo.TRef sig ⟨S3x128, .f32⟩) (fun x v => Host.reduceAdd x v reducesTo_S3x32768x128_S3x128_d1 h_S_),
    StableHlo.TRef.unary (.of main_call4_v9 : StableHlo.TRef sig ⟨S3x128, .f32⟩) (.of main_call4_v10 : StableHlo.TRef sig ⟨S3x1x128, .f32⟩) (broadcastInDim S3x1x128 ![0, 2] bcast_S3x128_S3x1x128_0_2),
    StableHlo.TRef.unary (.of main_call4_v8 : StableHlo.TRef sig ⟨S_, .f32⟩) (.of main_call4_v11 : StableHlo.TRef sig ⟨S3x1x128, .f32⟩) (broadcastInDim S3x1x128 ![] bcast_S_S3x1x128),
    StableHlo.TRef.binary (.of main_call4_v10 : StableHlo.TRef sig ⟨S3x1x128, .f32⟩) (.of main_call4_v11 : StableHlo.TRef sig ⟨S3x1x128, .f32⟩) (.of main_call4_v12 : StableHlo.TRef sig ⟨S3x1x128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S3x1x128, .f32⟩) (broadcastInDim S3x1x128 ![] bcast_S_S3x1x128),
    StableHlo.TRef.ternary (.of main_call4_v13 : StableHlo.TRef sig ⟨S_, .i1⟩) (.of main_call4_v12 : StableHlo.TRef sig ⟨S3x1x128, .f32⟩) (.of main_call4_call0_v1 : StableHlo.TRef sig ⟨S3x1x128, .f32⟩) (.of main_v94 : StableHlo.TRef sig ⟨S3x1x128, .f32⟩) (fun p a b => select (broadcastInDim S3x1x128 ![] bcast_S_S3x1x128 p) a b),
    StableHlo.unary main_v93 main_v95 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v87 main_v95 main_v96 (subf : (⟨S3x32768x128, .f32⟩ : BufTy).Contents (Elt F) → (⟨S3x32768x128, .f32⟩ : BufTy).Contents (Elt F) → (⟨S3x32768x128, .f32⟩ : BufTy).Contents (Elt F)),
    StableHlo.nullary main_cst_14 (constant S_ .f32 0x3727C5AC#32),
    StableHlo.unary main_cst_14 main_v97 (broadcastInDim S3x1x128 ![] bcast_S_S3x1x128 : (⟨S_, .f32⟩ : BufTy).Contents (Elt F) → (⟨S3x1x128, .f32⟩ : BufTy).Contents (Elt F)),
    StableHlo.binary main_v94 main_v97 main_v98 (addf : (⟨S3x1x128, .f32⟩ : BufTy).Contents (Elt F) → (⟨S3x1x128, .f32⟩ : BufTy).Contents (Elt F) → (⟨S3x1x128, .f32⟩ : BufTy).Contents (Elt F)),
    StableHlo.unary main_v98 main_v99 (Host.rsqrt : (⟨S3x1x128, .f32⟩ : BufTy).Contents (Elt F) → (⟨S3x1x128, .f32⟩ : BufTy).Contents (Elt F)),
    StableHlo.unary main_v99 main_v100 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v96 main_v100 main_v101 (mulf : (⟨S3x32768x128, .f32⟩ : BufTy).Contents (Elt F) → (⟨S3x32768x128, .f32⟩ : BufTy).Contents (Elt F) → (⟨S3x32768x128, .f32⟩ : BufTy).Contents (Elt F)),
    StableHlo.unary main_v88 main_v102 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v101 main_v102 main_v103 (mulf : (⟨S3x32768x128, .f32⟩ : BufTy).Contents (Elt F) → (⟨S3x32768x128, .f32⟩ : BufTy).Contents (Elt F) → (⟨S3x32768x128, .f32⟩ : BufTy).Contents (Elt F)),
    StableHlo.unary main_v89 main_v104 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v103 main_v104 main_v105 (addf : (⟨S3x32768x128, .f32⟩ : BufTy).Contents (Elt F) → (⟨S3x32768x128, .f32⟩ : BufTy).Contents (Elt F) → (⟨S3x32768x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S3x32768x128, .f32⟩) (broadcastInDim S3x32768x128 ![] bcast_S_S3x32768x128),
    StableHlo.TRef.binary (.of main_v105 : StableHlo.TRef sig ⟨S3x32768x128, .f32⟩) (.of main_call5_v0 : StableHlo.TRef sig ⟨S3x32768x128, .f32⟩) (.of main_v106 : StableHlo.TRef sig ⟨S3x32768x128, .f32⟩) maximumf,
    StableHlo.unary main_v106 main_v107 ((extractStridedSlice S1x32768x128 ![0, 0, 0] · slices_S3x32768x128_S1x32768x128_0_0_0) : (⟨S3x32768x128, .f32⟩ : BufTy).Contents (Elt F) → (⟨S1x32768x128, .f32⟩ : BufTy).Contents (Elt F)),
    StableHlo.reshape main_v107 main_v108 rfl shapeCasts_S1x32768x128_S32768x128,
    StableHlo.unary main_v106 main_v109 ((extractStridedSlice S1x32768x128 ![1, 0, 0] · slices_S3x32768x128_S1x32768x128_1_0_0) : (⟨S3x32768x128, .f32⟩ : BufTy).Contents (Elt F) → (⟨S1x32768x128, .f32⟩ : BufTy).Contents (Elt F)),
    StableHlo.reshape main_v109 main_v110 rfl shapeCasts_S1x32768x128_S32768x128,
    StableHlo.unary main_v106 main_v111 ((extractStridedSlice S1x32768x128 ![2, 0, 0] · slices_S3x32768x128_S1x32768x128_2_0_0) : (⟨S3x32768x128, .f32⟩ : BufTy).Contents (Elt F) → (⟨S1x32768x128, .f32⟩ : BufTy).Contents (Elt F)),
    StableHlo.reshape main_v111 main_v112 rfl shapeCasts_S1x32768x128_S32768x128,
    StableHlo.nary ![main_v108, main_v110, main_v112] main_v113 (fun u => concatenate S32768x384 1 [⟨S32768x128, u 0⟩, ⟨S32768x128, u 1⟩, ⟨S32768x128, u 2⟩] concatenates_S32768x128_S32768x128_S32768x128_S32768x384_d1),
    StableHlo.binary main_v113 main_arg19 main_v114 ((fun l r => Host.dotGeneral dot_S32768x384_S384x128_S32768x128_1_0_0_1_n_n none l r) : (⟨S32768x384, .f32⟩ : BufTy).Contents (Elt F) → (⟨S384x128, .f32⟩ : BufTy).Contents (Elt F) → (⟨S32768x128, .f32⟩ : BufTy).Contents (Elt F)),
    StableHlo.unary main_arg20 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S32768x128 ![0, 1] bcast_S1x128_S32768x128_0_1 : (⟨S1x128, .f32⟩ : BufTy).Contents (Elt F) → (⟨S32768x128, .f32⟩ : BufTy).Contents (Elt F)),
    StableHlo.binary main_v114 main_v116 main_v117 (addf : (⟨S32768x128, .f32⟩ : BufTy).Contents (Elt F) → (⟨S32768x128, .f32⟩ : BufTy).Contents (Elt F) → (⟨S32768x128, .f32⟩ : BufTy).Contents (Elt F)),
    StableHlo.nullary main_cst_15 (constant S_ .f32 0x00000000#32),
    StableHlo.binary main_v117 main_cst_15 main_v118 ((fun x v => Host.reduceAdd x v reducesTo_S32768x128_S128_d0 h_S_) : (⟨S32768x128, .f32⟩ : BufTy).Contents (Elt F) → (⟨S_, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.nullary main_cst_16 (constant S_ .f32 0x47000000#32),
    StableHlo.unary main_cst_16 main_v120 (broadcastInDim S1x128 ![] bcast_S_S1x128 : (⟨S_, .f32⟩ : BufTy).Contents (Elt F) → (⟨S1x128, .f32⟩ : BufTy).Contents (Elt F)),
    StableHlo.binary main_v119 main_v120 main_v121 (Host.divf : (⟨S1x128, .f32⟩ : BufTy).Contents (Elt F) → (⟨S1x128, .f32⟩ : BufTy).Contents (Elt F) → (⟨S1x128, .f32⟩ : BufTy).Contents (Elt F)),
    StableHlo.nullary main_c_17 (constantI S_ 32 0#32),
    StableHlo.TRef.nullary (.of main_call6_cst : StableHlo.TRef sig ⟨S_, .f32⟩) (constant S_ .f32 0x00000000#32),
    StableHlo.TRef.binary (.of main_v117 : StableHlo.TRef sig ⟨S32768x128, .f32⟩) (.of main_call6_cst : StableHlo.TRef sig ⟨S_, .f32⟩) (.of main_call6_v0 : StableHlo.TRef sig ⟨S128, .f32⟩) (fun x v => Host.reduceAdd x v reducesTo_S32768x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47000000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S32768x128, .f32⟩) (broadcastInDim S32768x128 ![0, 1] bcast_S1x128_S32768x128_0_1),
    StableHlo.TRef.binary (.of main_v117 : StableHlo.TRef sig ⟨S32768x128, .f32⟩) (.of main_call6_v4 : StableHlo.TRef sig ⟨S32768x128, .f32⟩) (.of main_call6_v5 : StableHlo.TRef sig ⟨S32768x128, .f32⟩) subf,
    StableHlo.TRef.binary (.of main_call6_v5 : StableHlo.TRef sig ⟨S32768x128, .f32⟩) (.of main_call6_v5 : StableHlo.TRef sig ⟨S32768x128, .f32⟩) (.of main_call6_v6 : StableHlo.TRef sig ⟨S32768x128, .f32⟩) mulf,
    StableHlo.TRef.unary (.of main_c_17 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S32768x128, .f32⟩) (.of main_call6_cst_2 : StableHlo.TRef sig ⟨S_, .f32⟩) (.of main_call6_v9 : StableHlo.TRef sig ⟨S128, .f32⟩) (fun x v => Host.reduceAdd x v reducesTo_S32768x128_S128_d0 h_S_),
    StableHlo.TRef.unary (.of main_call6_v9 : StableHlo.TRef sig ⟨S128, .f32⟩) (.of main_call6_v10 : StableHlo.TRef sig ⟨S1x128, .f32⟩) (broadcastInDim S1x128 ![1] bcast_S128_S1x128_1),
    StableHlo.TRef.unary (.of main_call6_v8 : StableHlo.TRef sig ⟨S_, .f32⟩) (.of main_call6_v11 : StableHlo.TRef sig ⟨S1x128, .f32⟩) (broadcastInDim S1x128 ![] bcast_S_S1x128),
    StableHlo.TRef.binary (.of main_call6_v10 : StableHlo.TRef sig ⟨S1x128, .f32⟩) (.of main_call6_v11 : StableHlo.TRef sig ⟨S1x128, .f32⟩) (.of main_call6_v12 : StableHlo.TRef sig ⟨S1x128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v13 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S1x128, .f32⟩) (broadcastInDim S1x128 ![] bcast_S_S1x128),
    StableHlo.TRef.ternary (.of main_call6_v13 : StableHlo.TRef sig ⟨S_, .i1⟩) (.of main_call6_v12 : StableHlo.TRef sig ⟨S1x128, .f32⟩) (.of main_call6_call0_v1 : StableHlo.TRef sig ⟨S1x128, .f32⟩) (.of main_v122 : StableHlo.TRef sig ⟨S1x128, .f32⟩) (fun p a b => select (broadcastInDim S1x128 ![] bcast_S_S1x128 p) a b),
    StableHlo.unary main_v121 main_v123 (broadcastInDim S32768x128 ![0, 1] bcast_S1x128_S32768x128_0_1 : (⟨S1x128, .f32⟩ : BufTy).Contents (Elt F) → (⟨S32768x128, .f32⟩ : BufTy).Contents (Elt F)),
    StableHlo.binary main_v117 main_v123 main_v124 (subf : (⟨S32768x128, .f32⟩ : BufTy).Contents (Elt F) → (⟨S32768x128, .f32⟩ : BufTy).Contents (Elt F) → (⟨S32768x128, .f32⟩ : BufTy).Contents (Elt F)),
    StableHlo.nullary main_cst_18 (constant S_ .f32 0x3727C5AC#32),
    StableHlo.unary main_cst_18 main_v125 (broadcastInDim S1x128 ![] bcast_S_S1x128 : (⟨S_, .f32⟩ : BufTy).Contents (Elt F) → (⟨S1x128, .f32⟩ : BufTy).Contents (Elt F)),
    StableHlo.binary main_v122 main_v125 main_v126 (addf : (⟨S1x128, .f32⟩ : BufTy).Contents (Elt F) → (⟨S1x128, .f32⟩ : BufTy).Contents (Elt F) → (⟨S1x128, .f32⟩ : BufTy).Contents (Elt F)),
    StableHlo.unary main_v126 main_v127 (Host.rsqrt : (⟨S1x128, .f32⟩ : BufTy).Contents (Elt F) → (⟨S1x128, .f32⟩ : BufTy).Contents (Elt F)),
    StableHlo.unary main_v127 main_v128 (broadcastInDim S32768x128 ![0, 1] bcast_S1x128_S32768x128_0_1 : (⟨S1x128, .f32⟩ : BufTy).Contents (Elt F) → (⟨S32768x128, .f32⟩ : BufTy).Contents (Elt F)),
    StableHlo.binary main_v124 main_v128 main_v129 (mulf : (⟨S32768x128, .f32⟩ : BufTy).Contents (Elt F) → (⟨S32768x128, .f32⟩ : BufTy).Contents (Elt F) → (⟨S32768x128, .f32⟩ : BufTy).Contents (Elt F)),
    StableHlo.unary main_arg21 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S32768x128 ![0, 1] bcast_S1x128_S32768x128_0_1 : (⟨S1x128, .f32⟩ : BufTy).Contents (Elt F) → (⟨S32768x128, .f32⟩ : BufTy).Contents (Elt F)),
    StableHlo.binary main_v129 main_v131 main_v132 (mulf : (⟨S32768x128, .f32⟩ : BufTy).Contents (Elt F) → (⟨S32768x128, .f32⟩ : BufTy).Contents (Elt F) → (⟨S32768x128, .f32⟩ : BufTy).Contents (Elt F)),
    StableHlo.unary main_arg22 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S32768x128 ![0, 1] bcast_S1x128_S32768x128_0_1 : (⟨S1x128, .f32⟩ : BufTy).Contents (Elt F) → (⟨S32768x128, .f32⟩ : BufTy).Contents (Elt F)),
    StableHlo.binary main_v132 main_v134 main_v135 (addf : (⟨S32768x128, .f32⟩ : BufTy).Contents (Elt F) → (⟨S32768x128, .f32⟩ : BufTy).Contents (Elt F) → (⟨S32768x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S32768x128, .f32⟩) (broadcastInDim S32768x128 ![] bcast_S_S32768x128),
    StableHlo.TRef.binary (.of main_v135 : StableHlo.TRef sig ⟨S32768x128, .f32⟩) (.of main_call7_v0 : StableHlo.TRef sig ⟨S32768x128, .f32⟩) (.of main_v136 : StableHlo.TRef sig ⟨S32768x128, .f32⟩) maximumf ]

/-- @main's 234 operations, in order. -/
abbrev ops : List (HloOp τ sig (Elt F)) := opsUp ++ opsUpS ++ opsDn ++ opsTail

end Cert.ReferenceIdeal.Hand

end
-- ==== Proof.RefRunLists.lean ====
/- The same operations listed window by window of the printed @main (main_part0, main_part1, main_part2), each list transcribing its window statement by statement
   as Proof/RefOps.lean does, and for each of the four lists there: every operation touches TensorCore buffers only and determines all it writes, and the list of the references the operations write. -/
import proofs.«106179_j53085795779158_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of `main_part0`, calls inlined: 64. -/
abbrev part0Ops : List (HloOp τ sig (Elt F)) :=
  [ StableHlo.unary main_arg1 main_v0 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v0 main_v1 rfl shapeCasts_S1x524288_S524288,
    StableHlo.nullary main_c (constantI S_ 32 0#32),
    StableHlo.unary main_c main_v2 (broadcastInDim S524288 ![] bcast_S_S524288 : (⟨S_, .i32⟩ : BufTy).Contents (Elt F) → (⟨S524288, .i32⟩ : BufTy).Contents (Elt F)),
    StableHlo.binary main_v1 main_v2 main_v3 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 32768#32),
    StableHlo.unary main_c_0 main_v4 (broadcastInDim S524288 ![] bcast_S_S524288 : (⟨S_, .i32⟩ : BufTy).Contents (Elt F) → (⟨S524288, .i32⟩ : BufTy).Contents (Elt F)),
    StableHlo.binary main_v1 main_v4 main_v5 (addi : (⟨S524288, .i32⟩ : BufTy).Contents (Elt F) → (⟨S524288, .i32⟩ : BufTy).Contents (Elt F) → (⟨S524288, .i32⟩ : BufTy).Contents (Elt F)),
    StableHlo.ternary main_v3 main_v5 main_v1 main_v6 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v6 main_v7 (broadcastInDim S524288x1 ![0] bcast_S524288_S524288x1_0 : (⟨S524288, .i32⟩ : BufTy).Contents (Elt F) → (⟨S524288x1, .i32⟩ : BufTy).Contents (Elt F)),
    StableHlo.binary main_arg0 main_v7 main_v8 ((fun x i => Host.gather gather_S32768x128_S524288x1_S524288x128_1_0_n_n_0_1_1128 x i) : (⟨S32768x128, .f32⟩ : BufTy).Contents (Elt F) → (⟨S524288x1, .i32⟩ : BufTy).Contents (Elt F) → (⟨S524288x128, .f32⟩ : BufTy).Contents (Elt F)),
    StableHlo.binary main_v8 main_arg4 main_v9 ((fun a b => concatenate S524288x256 1 [⟨S524288x128, a⟩, ⟨S524288x128, b⟩] concatenates_S524288x128_S524288x128_S524288x256_d1) : (⟨S524288x128, .f32⟩ : BufTy).Contents (Elt F) → (⟨S524288x128, .f32⟩ : BufTy).Contents (Elt F) → (⟨S524288x256, .f32⟩ : BufTy).Contents (Elt F)),
    StableHlo.binary main_v9 main_arg7 main_v10 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    StableHlo.unary main_arg8 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S524288x128 ![0, 1] bcast_S1x128_S524288x128_0_1 : (⟨S1x128, .f32⟩ : BufTy).Contents (Elt F) → (⟨S524288x128, .f32⟩ : BufTy).Contents (Elt F)),
    StableHlo.binary main_v10 main_v12 main_v13 (addf : (⟨S524288x128, .f32⟩ : BufTy).Contents (Elt F) → (⟨S524288x128, .f32⟩ : BufTy).Contents (Elt F) → (⟨S524288x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S524288x128, .f32⟩) (broadcastInDim S524288x128 ![] bcast_S_S524288x128),
    StableHlo.TRef.binary (.of main_v13 : StableHlo.TRef sig ⟨S524288x128, .f32⟩) (.of main_call0_v0 : StableHlo.TRef sig ⟨S524288x128, .f32⟩) (.of main_v14 : StableHlo.TRef sig ⟨S524288x128, .f32⟩) maximumf,
    StableHlo.unary main_arg1 main_v15 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v15 main_v16 rfl shapeCasts_S1x524288_S524288,
    StableHlo.nullary main_cst (constant S_ .f32 0x00000000#32),
    StableHlo.unary main_cst main_v17 (broadcastInDim S32768x128 ![] bcast_S_S32768x128 : (⟨S_, .f32⟩ : BufTy).Contents (Elt F) → (⟨S32768x128, .f32⟩ : BufTy).Contents (Elt F)),
    StableHlo.unary main_v16 main_v18 (broadcastInDim S524288x1 ![0] bcast_S524288_S524288x1_0 : (⟨S524288, .i32⟩ : BufTy).Contents (Elt F) → (⟨S524288x1, .i32⟩ : BufTy).Contents (Elt F)),
    StableHlo.ternary main_v17 main_v18 main_v14 main_v19 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    StableHlo.unary main_arg2 main_v20 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v20 main_v21 rfl shapeCasts_S1x524288_S524288,
    StableHlo.nullary main_c_1 (constantI S_ 32 0#32),
    StableHlo.unary main_c_1 main_v22 (broadcastInDim S524288 ![] bcast_S_S524288 : (⟨S_, .i32⟩ : BufTy).Contents (Elt F) → (⟨S524288, .i32⟩ : BufTy).Contents (Elt F)),
    StableHlo.binary main_v21 main_v22 main_v23 (cmpi .slt : (⟨S524288, .i32⟩ : BufTy).Contents (Elt F) → (⟨S524288, .i32⟩ : BufTy).Contents (Elt F) → (⟨S524288, .i1⟩ : BufTy).Contents (Elt F)),
    StableHlo.nullary main_c_2 (constantI S_ 32 32768#32),
    StableHlo.unary main_c_2 main_v24 (broadcastInDim S524288 ![] bcast_S_S524288 : (⟨S_, .i32⟩ : BufTy).Contents (Elt F) → (⟨S524288, .i32⟩ : BufTy).Contents (Elt F)),
    StableHlo.binary main_v21 main_v24 main_v25 (addi : (⟨S524288, .i32⟩ : BufTy).Contents (Elt F) → (⟨S524288, .i32⟩ : BufTy).Contents (Elt F) → (⟨S524288, .i32⟩ : BufTy).Contents (Elt F)),
    StableHlo.ternary main_v23 main_v25 main_v21 main_v26 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v26 main_v27 (broadcastInDim S524288x1 ![0] bcast_S524288_S524288x1_0 : (⟨S524288, .i32⟩ : BufTy).Contents (Elt F) → (⟨S524288x1, .i32⟩ : BufTy).Contents (Elt F)),
    StableHlo.binary main_arg0 main_v27 main_v28 ((fun x i => Host.gather gather_S32768x128_S524288x1_S524288x128_1_0_n_n_0_1_1128 x i) : (⟨S32768x128, .f32⟩ : BufTy).Contents (Elt F) → (⟨S524288x1, .i32⟩ : BufTy).Contents (Elt F) → (⟨S524288x128, .f32⟩ : BufTy).Contents (Elt F)),
    StableHlo.binary main_v28 main_arg5 main_v29 ((fun a b => concatenate S524288x256 1 [⟨S524288x128, a⟩, ⟨S524288x128, b⟩] concatenates_S524288x128_S524288x128_S524288x256_d1) : (⟨S524288x128, .f32⟩ : BufTy).Contents (Elt F) → (⟨S524288x128, .f32⟩ : BufTy).Contents (Elt F) → (⟨S524288x256, .f32⟩ : BufTy).Contents (Elt F)),
    StableHlo.binary main_v29 main_arg9 main_v30 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    StableHlo.unary main_arg10 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S524288x128 ![0, 1] bcast_S1x128_S524288x128_0_1 : (⟨S1x128, .f32⟩ : BufTy).Contents (Elt F) → (⟨S524288x128, .f32⟩ : BufTy).Contents (Elt F)),
    StableHlo.binary main_v30 main_v32 main_v33 (addf : (⟨S524288x128, .f32⟩ : BufTy).Contents (Elt F) → (⟨S524288x128, .f32⟩ : BufTy).Contents (Elt F) → (⟨S524288x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S524288x128, .f32⟩) (broadcastInDim S524288x128 ![] bcast_S_S524288x128),
    StableHlo.TRef.binary (.of main_v33 : StableHlo.TRef sig ⟨S524288x128, .f32⟩) (.of main_call1_v0 : StableHlo.TRef sig ⟨S524288x128, .f32⟩) (.of main_v34 : StableHlo.TRef sig ⟨S524288x128, .f32⟩) maximumf,
    StableHlo.unary main_arg2 main_v35 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v35 main_v36 rfl shapeCasts_S1x524288_S524288,
    StableHlo.nullary main_cst_3 (constant S_ .f32 0x00000000#32),
    StableHlo.unary main_cst_3 main_v37 (broadcastInDim S32768x128 ![] bcast_S_S32768x128 : (⟨S_, .f32⟩ : BufTy).Contents (Elt F) → (⟨S32768x128, .f32⟩ : BufTy).Contents (Elt F)),
    StableHlo.unary main_v36 main_v38 (broadcastInDim S524288x1 ![0] bcast_S524288_S524288x1_0 : (⟨S524288, .i32⟩ : BufTy).Contents (Elt F) → (⟨S524288x1, .i32⟩ : BufTy).Contents (Elt F)),
    StableHlo.ternary main_v37 main_v38 main_v34 main_v39 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    StableHlo.unary main_arg3 main_v40 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v40 main_v41 rfl shapeCasts_S1x131072_S131072,
    StableHlo.nullary main_c_4 (constantI S_ 32 0#32),
    StableHlo.unary main_c_4 main_v42 (broadcastInDim S131072 ![] bcast_S_S131072 : (⟨S_, .i32⟩ : BufTy).Contents (Elt F) → (⟨S131072, .i32⟩ : BufTy).Contents (Elt F)),
    StableHlo.binary main_v41 main_v42 main_v43 (cmpi .slt : (⟨S131072, .i32⟩ : BufTy).Contents (Elt F) → (⟨S131072, .i32⟩ : BufTy).Contents (Elt F) → (⟨S131072, .i1⟩ : BufTy).Contents (Elt F)),
    StableHlo.nullary main_c_5 (constantI S_ 32 32768#32),
    StableHlo.unary main_c_5 main_v44 (broadcastInDim S131072 ![] bcast_S_S131072 : (⟨S_, .i32⟩ : BufTy).Contents (Elt F) → (⟨S131072, .i32⟩ : BufTy).Contents (Elt F)),
    StableHlo.binary main_v41 main_v44 main_v45 (addi : (⟨S131072, .i32⟩ : BufTy).Contents (Elt F) → (⟨S131072, .i32⟩ : BufTy).Contents (Elt F) → (⟨S131072, .i32⟩ : BufTy).Contents (Elt F)),
    StableHlo.ternary main_v43 main_v45 main_v41 main_v46 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v46 main_v47 (broadcastInDim S131072x1 ![0] bcast_S131072_S131072x1_0 : (⟨S131072, .i32⟩ : BufTy).Contents (Elt F) → (⟨S131072x1, .i32⟩ : BufTy).Contents (Elt F)),
    StableHlo.binary main_arg6 main_v47 main_v48 ((fun x i => Host.gather gather_S32768x128_S131072x1_S131072x128_1_0_n_n_0_1_1128 x i) : (⟨S32768x128, .f32⟩ : BufTy).Contents (Elt F) → (⟨S131072x1, .i32⟩ : BufTy).Contents (Elt F) → (⟨S131072x128, .f32⟩ : BufTy).Contents (Elt F)),
    StableHlo.unary main_arg3 main_v49 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v49 main_v50 rfl shapeCasts_S1x131072_S131072,
    StableHlo.nullary main_cst_6 (constant S_ .f32 0x00000000#32) ]

/-- The operations of `main_part1`, calls inlined: 106. -/
abbrev part1Ops : List (HloOp τ sig (Elt F)) :=
  [ StableHlo.unary main_cst_6 main_v51 (broadcastInDim S32768x128 ![] bcast_S_S32768x128 : (⟨S_, .f32⟩ : BufTy).Contents (Elt F) → (⟨S32768x128, .f32⟩ : BufTy).Contents (Elt F)),
    StableHlo.unary main_v50 main_v52 (broadcastInDim S131072x1 ![0] bcast_S131072_S131072x1_0 : (⟨S131072, .i32⟩ : BufTy).Contents (Elt F) → (⟨S131072x1, .i32⟩ : BufTy).Contents (Elt F)),
    StableHlo.ternary main_v51 main_v52 main_v48 main_v53 ((fun x i u => Host.scatterAdd scatter_S32768x128_S131072x1_S131072x128_1_0_0_1 x i u) : (⟨S32768x128, .f32⟩ : BufTy).Contents (Elt F) → (⟨S131072x1, .i32⟩ : BufTy).Contents (Elt F) → (⟨S131072x128, .f32⟩ : BufTy).Contents (Elt F) → (⟨S32768x128, .f32⟩ : BufTy).Contents (Elt F)),
    StableHlo.binary main_v19 main_arg0 main_v54 (addf : (⟨S32768x128, .f32⟩ : BufTy).Contents (Elt F) → (⟨S32768x128, .f32⟩ : BufTy).Contents (Elt F) → (⟨S32768x128, .f32⟩ : BufTy).Contents (Elt F)),
    StableHlo.binary main_v39 main_arg0 main_v55 (addf : (⟨S32768x128, .f32⟩ : BufTy).Contents (Elt F) → (⟨S32768x128, .f32⟩ : BufTy).Contents (Elt F) → (⟨S32768x128, .f32⟩ : BufTy).Contents (Elt F)),
    StableHlo.binary main_v53 main_arg0 main_v56 (addf : (⟨S32768x128, .f32⟩ : BufTy).Contents (Elt F) → (⟨S32768x128, .f32⟩ : BufTy).Contents (Elt F) → (⟨S32768x128, .f32⟩ : BufTy).Contents (Elt F)),
    StableHlo.unary main_v54 main_v57 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v55 main_v58 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v56 main_v59 (broadcastInDim S1x32768x128 ![1, 2] bcast_S32768x128_S1x32768x128_1_2 : (⟨S32768x128, .f32⟩ : BufTy).Contents (Elt F) → (⟨S1x32768x128, .f32⟩ : BufTy).Contents (Elt F)),
    StableHlo.nary ![main_v57, main_v58, main_v59] main_v60 (fun u => concatenate S3x32768x128 0 [⟨S1x32768x128, u 0⟩, ⟨S1x32768x128, u 1⟩, ⟨S1x32768x128, u 2⟩] concatenates_S1x32768x128_S1x32768x128_S1x32768x128_S3x32768x128_d0),
    StableHlo.binary main_v60 main_arg11 main_v61 ((fun l r => Host.dotGeneral dot_S3x32768x128_S3x128x128_S3x32768x128_2_1_1_2_0_0 none l r) : (⟨S3x32768x128, .f32⟩ : BufTy).Contents (Elt F) → (⟨S3x128x128, .f32⟩ : BufTy).Contents (Elt F) → (⟨S3x32768x128, .f32⟩ : BufTy).Contents (Elt F)),
    StableHlo.unary main_arg12 main_v62 (broadcastInDim S3x1x128 ![0, 2] bcast_S3x128_S3x1x128_0_2 : (⟨S3x128, .f32⟩ : BufTy).Contents (Elt F) → (⟨S3x1x128, .f32⟩ : BufTy).Contents (Elt F)),
    StableHlo.unary main_v62 main_v63 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v61 main_v63 main_v64 (addf : (⟨S3x32768x128, .f32⟩ : BufTy).Contents (Elt F) → (⟨S3x32768x128, .f32⟩ : BufTy).Contents (Elt F) → (⟨S3x32768x128, .f32⟩ : BufTy).Contents (Elt F)),
    StableHlo.unary main_arg13 main_v65 (broadcastInDim S3x1x128 ![0, 2] bcast_S3x128_S3x1x128_0_2 : (⟨S3x128, .f32⟩ : BufTy).Contents (Elt F) → (⟨S3x1x128, .f32⟩ : BufTy).Contents (Elt F)),
    StableHlo.unary main_arg14 main_v66 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_7 (constant S_ .f32 0x00000000#32),
    StableHlo.binary main_v64 main_cst_7 main_v67 ((fun x v => Host.reduceAdd x v reducesTo_S3x32768x128_S3x128_d1 h_S_) : (⟨S3x32768x128, .f32⟩ : BufTy).Contents (Elt F) → (⟨S_, .f32⟩ : BufTy).Contents (Elt F) → (⟨S3x128, .f32⟩ : BufTy).Contents (Elt F)),
    StableHlo.unary main_v67 main_v68 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_8 (constant S_ .f32 0x47000000#32),
    StableHlo.unary main_cst_8 main_v69 (broadcastInDim S3x1x128 ![] bcast_S_S3x1x128 : (⟨S_, .f32⟩ : BufTy).Contents (Elt F) → (⟨S3x1x128, .f32⟩ : BufTy).Contents (Elt F)),
    StableHlo.binary main_v68 main_v69 main_v70 (Host.divf : (⟨S3x1x128, .f32⟩ : BufTy).Contents (Elt F) → (⟨S3x1x128, .f32⟩ : BufTy).Contents (Elt F) → (⟨S3x1x128, .f32⟩ : BufTy).Contents (Elt F)),
    StableHlo.nullary main_c_9 (constantI S_ 32 0#32),
    StableHlo.TRef.nullary (.of main_call2_cst : StableHlo.TRef sig ⟨S_, .f32⟩) (constant S_ .f32 0x00000000#32),
    StableHlo.TRef.binary (.of main_v64 : StableHlo.TRef sig ⟨S3x32768x128, .f32⟩) (.of main_call2_cst : StableHlo.TRef sig ⟨S_, .f32⟩) (.of main_call2_v0 : StableHlo.TRef sig ⟨S3x128, .f32⟩) (fun x v => Host.reduceAdd x v reducesTo_S3x32768x128_S3x128_d1 h_S_),
    StableHlo.TRef.unary (.of main_call2_v0 : StableHlo.TRef sig ⟨S3x128, .f32⟩) (.of main_call2_v1 : StableHlo.TRef sig ⟨S3x1x128, .f32⟩) (broadcastInDim S3x1x128 ![0, 2] bcast_S3x128_S3x1x128_0_2),
    StableHlo.TRef.nullary (.of main_call2_cst_0 : StableHlo.TRef sig ⟨S_, .f32⟩) (constant S_ .f32 0x47000000#32),
    StableHlo.TRef.unary (.of main_call2_cst_0 : StableHlo.TRef sig ⟨S_, .f32⟩) (.of main_call2_v2 : StableHlo.TRef sig ⟨S3x1x128, .f32⟩) (broadcastInDim S3x1x128 ![] bcast_S_S3x1x128),
    StableHlo.TRef.binary (.of main_call2_v1 : StableHlo.TRef sig ⟨S3x1x128, .f32⟩) (.of main_call2_v2 : StableHlo.TRef sig ⟨S3x1x128, .f32⟩) (.of main_call2_v3 : StableHlo.TRef sig ⟨S3x1x128, .f32⟩) Host.divf,
    StableHlo.TRef.unary (.of main_call2_v3 : StableHlo.TRef sig ⟨S3x1x128, .f32⟩) (.of main_call2_v4 : StableHlo.TRef sig ⟨S3x32768x128, .f32⟩) (broadcastInDim S3x32768x128 ![0, 1, 2] bcast_S3x1x128_S3x32768x128_0_1_2),
    StableHlo.TRef.binary (.of main_v64 : StableHlo.TRef sig ⟨S3x32768x128, .f32⟩) (.of main_call2_v4 : StableHlo.TRef sig ⟨S3x32768x128, .f32⟩) (.of main_call2_v5 : StableHlo.TRef sig ⟨S3x32768x128, .f32⟩) subf,
    StableHlo.TRef.binary (.of main_call2_v5 : StableHlo.TRef sig ⟨S3x32768x128, .f32⟩) (.of main_call2_v5 : StableHlo.TRef sig ⟨S3x32768x128, .f32⟩) (.of main_call2_v6 : StableHlo.TRef sig ⟨S3x32768x128, .f32⟩) mulf,
    StableHlo.TRef.unary (.of main_c_9 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S3x32768x128, .f32⟩) (.of main_call2_cst_2 : StableHlo.TRef sig ⟨S_, .f32⟩) (.of main_call2_v9 : StableHlo.TRef sig ⟨S3x128, .f32⟩) (fun x v => Host.reduceAdd x v reducesTo_S3x32768x128_S3x128_d1 h_S_),
    StableHlo.TRef.unary (.of main_call2_v9 : StableHlo.TRef sig ⟨S3x128, .f32⟩) (.of main_call2_v10 : StableHlo.TRef sig ⟨S3x1x128, .f32⟩) (broadcastInDim S3x1x128 ![0, 2] bcast_S3x128_S3x1x128_0_2),
    StableHlo.TRef.unary (.of main_call2_v8 : StableHlo.TRef sig ⟨S_, .f32⟩) (.of main_call2_v11 : StableHlo.TRef sig ⟨S3x1x128, .f32⟩) (broadcastInDim S3x1x128 ![] bcast_S_S3x1x128),
    StableHlo.TRef.binary (.of main_call2_v10 : StableHlo.TRef sig ⟨S3x1x128, .f32⟩) (.of main_call2_v11 : StableHlo.TRef sig ⟨S3x1x128, .f32⟩) (.of main_call2_v12 : StableHlo.TRef sig ⟨S3x1x128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S3x1x128, .f32⟩) (broadcastInDim S3x1x128 ![] bcast_S_S3x1x128),
    StableHlo.TRef.ternary (.of main_call2_v13 : StableHlo.TRef sig ⟨S_, .i1⟩) (.of main_call2_v12 : StableHlo.TRef sig ⟨S3x1x128, .f32⟩) (.of main_call2_call0_v1 : StableHlo.TRef sig ⟨S3x1x128, .f32⟩) (.of main_v71 : StableHlo.TRef sig ⟨S3x1x128, .f32⟩) (fun p a b => select (broadcastInDim S3x1x128 ![] bcast_S_S3x1x128 p) a b),
    StableHlo.unary main_v70 main_v72 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v64 main_v72 main_v73 (subf : (⟨S3x32768x128, .f32⟩ : BufTy).Contents (Elt F) → (⟨S3x32768x128, .f32⟩ : BufTy).Contents (Elt F) → (⟨S3x32768x128, .f32⟩ : BufTy).Contents (Elt F)),
    StableHlo.nullary main_cst_10 (constant S_ .f32 0x3727C5AC#32),
    StableHlo.unary main_cst_10 main_v74 (broadcastInDim S3x1x128 ![] bcast_S_S3x1x128 : (⟨S_, .f32⟩ : BufTy).Contents (Elt F) → (⟨S3x1x128, .f32⟩ : BufTy).Contents (Elt F)),
    StableHlo.binary main_v71 main_v74 main_v75 (addf : (⟨S3x1x128, .f32⟩ : BufTy).Contents (Elt F) → (⟨S3x1x128, .f32⟩ : BufTy).Contents (Elt F) → (⟨S3x1x128, .f32⟩ : BufTy).Contents (Elt F)),
    StableHlo.unary main_v75 main_v76 (Host.rsqrt : (⟨S3x1x128, .f32⟩ : BufTy).Contents (Elt F) → (⟨S3x1x128, .f32⟩ : BufTy).Contents (Elt F)),
    StableHlo.unary main_v76 main_v77 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v73 main_v77 main_v78 (mulf : (⟨S3x32768x128, .f32⟩ : BufTy).Contents (Elt F) → (⟨S3x32768x128, .f32⟩ : BufTy).Contents (Elt F) → (⟨S3x32768x128, .f32⟩ : BufTy).Contents (Elt F)),
    StableHlo.unary main_v65 main_v79 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v78 main_v79 main_v80 (mulf : (⟨S3x32768x128, .f32⟩ : BufTy).Contents (Elt F) → (⟨S3x32768x128, .f32⟩ : BufTy).Contents (Elt F) → (⟨S3x32768x128, .f32⟩ : BufTy).Contents (Elt F)),
    StableHlo.unary main_v66 main_v81 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v80 main_v81 main_v82 (addf : (⟨S3x32768x128, .f32⟩ : BufTy).Contents (Elt F) → (⟨S3x32768x128, .f32⟩ : BufTy).Contents (Elt F) → (⟨S3x32768x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S3x32768x128, .f32⟩) (broadcastInDim S3x32768x128 ![] bcast_S_S3x32768x128),
    StableHlo.TRef.binary (.of main_v82 : StableHlo.TRef sig ⟨S3x32768x128, .f32⟩) (.of main_call3_v0 : StableHlo.TRef sig ⟨S3x32768x128, .f32⟩) (.of main_v83 : StableHlo.TRef sig ⟨S3x32768x128, .f32⟩) maximumf,
    StableHlo.binary main_v83 main_arg15 main_v84 ((fun l r => Host.dotGeneral dot_S3x32768x128_S3x128x128_S3x32768x128_2_1_1_2_0_0 none l r) : (⟨S3x32768x128, .f32⟩ : BufTy).Contents (Elt F) → (⟨S3x128x128, .f32⟩ : BufTy).Contents (Elt F) → (⟨S3x32768x128, .f32⟩ : BufTy).Contents (Elt F)),
    StableHlo.unary main_arg16 main_v85 (broadcastInDim S3x1x128 ![0, 2] bcast_S3x128_S3x1x128_0_2 : (⟨S3x128, .f32⟩ : BufTy).Contents (Elt F) → (⟨S3x1x128, .f32⟩ : BufTy).Contents (Elt F)),
    StableHlo.unary main_v85 main_v86 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v84 main_v86 main_v87 (addf : (⟨S3x32768x128, .f32⟩ : BufTy).Contents (Elt F) → (⟨S3x32768x128, .f32⟩ : BufTy).Contents (Elt F) → (⟨S3x32768x128, .f32⟩ : BufTy).Contents (Elt F)),
    StableHlo.unary main_arg17 main_v88 (broadcastInDim S3x1x128 ![0, 2] bcast_S3x128_S3x1x128_0_2 : (⟨S3x128, .f32⟩ : BufTy).Contents (Elt F) → (⟨S3x1x128, .f32⟩ : BufTy).Contents (Elt F)),
    StableHlo.unary main_arg18 main_v89 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_11 (constant S_ .f32 0x00000000#32),
    StableHlo.binary main_v87 main_cst_11 main_v90 ((fun x v => Host.reduceAdd x v reducesTo_S3x32768x128_S3x128_d1 h_S_) : (⟨S3x32768x128, .f32⟩ : BufTy).Contents (Elt F) → (⟨S_, .f32⟩ : BufTy).Contents (Elt F) → (⟨S3x128, .f32⟩ : BufTy).Contents (Elt F)),
    StableHlo.unary main_v90 main_v91 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_12 (constant S_ .f32 0x47000000#32),
    StableHlo.unary main_cst_12 main_v92 (broadcastInDim S3x1x128 ![] bcast_S_S3x1x128 : (⟨S_, .f32⟩ : BufTy).Contents (Elt F) → (⟨S3x1x128, .f32⟩ : BufTy).Contents (Elt F)),
    StableHlo.binary main_v91 main_v92 main_v93 (Host.divf : (⟨S3x1x128, .f32⟩ : BufTy).Contents (Elt F) → (⟨S3x1x128, .f32⟩ : BufTy).Contents (Elt F) → (⟨S3x1x128, .f32⟩ : BufTy).Contents (Elt F)),
    StableHlo.nullary main_c_13 (constantI S_ 32 0#32),
    StableHlo.TRef.nullary (.of main_call4_cst : StableHlo.TRef sig ⟨S_, .f32⟩) (constant S_ .f32 0x00000000#32),
    StableHlo.TRef.binary (.of main_v87 : StableHlo.TRef sig ⟨S3x32768x128, .f32⟩) (.of main_call4_cst : StableHlo.TRef sig ⟨S_, .f32⟩) (.of main_call4_v0 : StableHlo.TRef sig ⟨S3x128, .f32⟩) (fun x v => Host.reduceAdd x v reducesTo_S3x32768x128_S3x128_d1 h_S_),
    StableHlo.TRef.unary (.of main_call4_v0 : StableHlo.TRef sig ⟨S3x128, .f32⟩) (.of main_call4_v1 : StableHlo.TRef sig ⟨S3x1x128, .f32⟩) (broadcastInDim S3x1x128 ![0, 2] bcast_S3x128_S3x1x128_0_2),
    StableHlo.TRef.nullary (.of main_call4_cst_0 : StableHlo.TRef sig ⟨S_, .f32⟩) (constant S_ .f32 0x47000000#32),
    StableHlo.TRef.unary (.of main_call4_cst_0 : StableHlo.TRef sig ⟨S_, .f32⟩) (.of main_call4_v2 : StableHlo.TRef sig ⟨S3x1x128, .f32⟩) (broadcastInDim S3x1x128 ![] bcast_S_S3x1x128),
    StableHlo.TRef.binary (.of main_call4_v1 : StableHlo.TRef sig ⟨S3x1x128, .f32⟩) (.of main_call4_v2 : StableHlo.TRef sig ⟨S3x1x128, .f32⟩) (.of main_call4_v3 : StableHlo.TRef sig ⟨S3x1x128, .f32⟩) Host.divf,
    StableHlo.TRef.unary (.of main_call4_v3 : StableHlo.TRef sig ⟨S3x1x128, .f32⟩) (.of main_call4_v4 : StableHlo.TRef sig ⟨S3x32768x128, .f32⟩) (broadcastInDim S3x32768x128 ![0, 1, 2] bcast_S3x1x128_S3x32768x128_0_1_2),
    StableHlo.TRef.binary (.of main_v87 : StableHlo.TRef sig ⟨S3x32768x128, .f32⟩) (.of main_call4_v4 : StableHlo.TRef sig ⟨S3x32768x128, .f32⟩) (.of main_call4_v5 : StableHlo.TRef sig ⟨S3x32768x128, .f32⟩) subf,
    StableHlo.TRef.binary (.of main_call4_v5 : StableHlo.TRef sig ⟨S3x32768x128, .f32⟩) (.of main_call4_v5 : StableHlo.TRef sig ⟨S3x32768x128, .f32⟩) (.of main_call4_v6 : StableHlo.TRef sig ⟨S3x32768x128, .f32⟩) mulf,
    StableHlo.TRef.unary (.of main_c_13 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S3x32768x128, .f32⟩) (.of main_call4_cst_2 : StableHlo.TRef sig ⟨S_, .f32⟩) (.of main_call4_v9 : StableHlo.TRef sig ⟨S3x128, .f32⟩) (fun x v => Host.reduceAdd x v reducesTo_S3x32768x128_S3x128_d1 h_S_),
    StableHlo.TRef.unary (.of main_call4_v9 : StableHlo.TRef sig ⟨S3x128, .f32⟩) (.of main_call4_v10 : StableHlo.TRef sig ⟨S3x1x128, .f32⟩) (broadcastInDim S3x1x128 ![0, 2] bcast_S3x128_S3x1x128_0_2),
    StableHlo.TRef.unary (.of main_call4_v8 : StableHlo.TRef sig ⟨S_, .f32⟩) (.of main_call4_v11 : StableHlo.TRef sig ⟨S3x1x128, .f32⟩) (broadcastInDim S3x1x128 ![] bcast_S_S3x1x128),
    StableHlo.TRef.binary (.of main_call4_v10 : StableHlo.TRef sig ⟨S3x1x128, .f32⟩) (.of main_call4_v11 : StableHlo.TRef sig ⟨S3x1x128, .f32⟩) (.of main_call4_v12 : StableHlo.TRef sig ⟨S3x1x128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S3x1x128, .f32⟩) (broadcastInDim S3x1x128 ![] bcast_S_S3x1x128),
    StableHlo.TRef.ternary (.of main_call4_v13 : StableHlo.TRef sig ⟨S_, .i1⟩) (.of main_call4_v12 : StableHlo.TRef sig ⟨S3x1x128, .f32⟩) (.of main_call4_call0_v1 : StableHlo.TRef sig ⟨S3x1x128, .f32⟩) (.of main_v94 : StableHlo.TRef sig ⟨S3x1x128, .f32⟩) (fun p a b => select (broadcastInDim S3x1x128 ![] bcast_S_S3x1x128 p) a b),
    StableHlo.unary main_v93 main_v95 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v87 main_v95 main_v96 (subf : (⟨S3x32768x128, .f32⟩ : BufTy).Contents (Elt F) → (⟨S3x32768x128, .f32⟩ : BufTy).Contents (Elt F) → (⟨S3x32768x128, .f32⟩ : BufTy).Contents (Elt F)),
    StableHlo.nullary main_cst_14 (constant S_ .f32 0x3727C5AC#32),
    StableHlo.unary main_cst_14 main_v97 (broadcastInDim S3x1x128 ![] bcast_S_S3x1x128 : (⟨S_, .f32⟩ : BufTy).Contents (Elt F) → (⟨S3x1x128, .f32⟩ : BufTy).Contents (Elt F)),
    StableHlo.binary main_v94 main_v97 main_v98 (addf : (⟨S3x1x128, .f32⟩ : BufTy).Contents (Elt F) → (⟨S3x1x128, .f32⟩ : BufTy).Contents (Elt F) → (⟨S3x1x128, .f32⟩ : BufTy).Contents (Elt F)),
    StableHlo.unary main_v98 main_v99 (Host.rsqrt : (⟨S3x1x128, .f32⟩ : BufTy).Contents (Elt F) → (⟨S3x1x128, .f32⟩ : BufTy).Contents (Elt F)),
    StableHlo.unary main_v99 main_v100 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v96 main_v100 main_v101 (mulf : (⟨S3x32768x128, .f32⟩ : BufTy).Contents (Elt F) → (⟨S3x32768x128, .f32⟩ : BufTy).Contents (Elt F) → (⟨S3x32768x128, .f32⟩ : BufTy).Contents (Elt F)),
    StableHlo.unary main_v88 main_v102 (broadcastInDim S3x32768x128 ![0, 1, 2] bcast_S3x1x128_S3x32768x128_0_1_2 : (⟨S3x1x128, .f32⟩ : BufTy).Contents (Elt F) → (⟨S3x32768x128, .f32⟩ : BufTy).Contents (Elt F)) ]

/-- The operations of `main_part2`, calls inlined: 64. -/
abbrev part2Ops : List (HloOp τ sig (Elt F)) :=
  [ StableHlo.binary main_v101 main_v102 main_v103 (mulf : (⟨S3x32768x128, .f32⟩ : BufTy).Contents (Elt F) → (⟨S3x32768x128, .f32⟩ : BufTy).Contents (Elt F) → (⟨S3x32768x128, .f32⟩ : BufTy).Contents (Elt F)),
    StableHlo.unary main_v89 main_v104 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v103 main_v104 main_v105 (addf : (⟨S3x32768x128, .f32⟩ : BufTy).Contents (Elt F) → (⟨S3x32768x128, .f32⟩ : BufTy).Contents (Elt F) → (⟨S3x32768x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S3x32768x128, .f32⟩) (broadcastInDim S3x32768x128 ![] bcast_S_S3x32768x128),
    StableHlo.TRef.binary (.of main_v105 : StableHlo.TRef sig ⟨S3x32768x128, .f32⟩) (.of main_call5_v0 : StableHlo.TRef sig ⟨S3x32768x128, .f32⟩) (.of main_v106 : StableHlo.TRef sig ⟨S3x32768x128, .f32⟩) maximumf,
    StableHlo.unary main_v106 main_v107 ((extractStridedSlice S1x32768x128 ![0, 0, 0] · slices_S3x32768x128_S1x32768x128_0_0_0) : (⟨S3x32768x128, .f32⟩ : BufTy).Contents (Elt F) → (⟨S1x32768x128, .f32⟩ : BufTy).Contents (Elt F)),
    StableHlo.reshape main_v107 main_v108 rfl shapeCasts_S1x32768x128_S32768x128,
    StableHlo.unary main_v106 main_v109 ((extractStridedSlice S1x32768x128 ![1, 0, 0] · slices_S3x32768x128_S1x32768x128_1_0_0) : (⟨S3x32768x128, .f32⟩ : BufTy).Contents (Elt F) → (⟨S1x32768x128, .f32⟩ : BufTy).Contents (Elt F)),
    StableHlo.reshape main_v109 main_v110 rfl shapeCasts_S1x32768x128_S32768x128,
    StableHlo.unary main_v106 main_v111 ((extractStridedSlice S1x32768x128 ![2, 0, 0] · slices_S3x32768x128_S1x32768x128_2_0_0) : (⟨S3x32768x128, .f32⟩ : BufTy).Contents (Elt F) → (⟨S1x32768x128, .f32⟩ : BufTy).Contents (Elt F)),
    StableHlo.reshape main_v111 main_v112 rfl shapeCasts_S1x32768x128_S32768x128,
    StableHlo.nary ![main_v108, main_v110, main_v112] main_v113 (fun u => concatenate S32768x384 1 [⟨S32768x128, u 0⟩, ⟨S32768x128, u 1⟩, ⟨S32768x128, u 2⟩] concatenates_S32768x128_S32768x128_S32768x128_S32768x384_d1),
    StableHlo.binary main_v113 main_arg19 main_v114 ((fun l r => Host.dotGeneral dot_S32768x384_S384x128_S32768x128_1_0_0_1_n_n none l r) : (⟨S32768x384, .f32⟩ : BufTy).Contents (Elt F) → (⟨S384x128, .f32⟩ : BufTy).Contents (Elt F) → (⟨S32768x128, .f32⟩ : BufTy).Contents (Elt F)),
    StableHlo.unary main_arg20 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S32768x128 ![0, 1] bcast_S1x128_S32768x128_0_1 : (⟨S1x128, .f32⟩ : BufTy).Contents (Elt F) → (⟨S32768x128, .f32⟩ : BufTy).Contents (Elt F)),
    StableHlo.binary main_v114 main_v116 main_v117 (addf : (⟨S32768x128, .f32⟩ : BufTy).Contents (Elt F) → (⟨S32768x128, .f32⟩ : BufTy).Contents (Elt F) → (⟨S32768x128, .f32⟩ : BufTy).Contents (Elt F)),
    StableHlo.nullary main_cst_15 (constant S_ .f32 0x00000000#32),
    StableHlo.binary main_v117 main_cst_15 main_v118 ((fun x v => Host.reduceAdd x v reducesTo_S32768x128_S128_d0 h_S_) : (⟨S32768x128, .f32⟩ : BufTy).Contents (Elt F) → (⟨S_, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.nullary main_cst_16 (constant S_ .f32 0x47000000#32),
    StableHlo.unary main_cst_16 main_v120 (broadcastInDim S1x128 ![] bcast_S_S1x128 : (⟨S_, .f32⟩ : BufTy).Contents (Elt F) → (⟨S1x128, .f32⟩ : BufTy).Contents (Elt F)),
    StableHlo.binary main_v119 main_v120 main_v121 (Host.divf : (⟨S1x128, .f32⟩ : BufTy).Contents (Elt F) → (⟨S1x128, .f32⟩ : BufTy).Contents (Elt F) → (⟨S1x128, .f32⟩ : BufTy).Contents (Elt F)),
    StableHlo.nullary main_c_17 (constantI S_ 32 0#32),
    StableHlo.TRef.nullary (.of main_call6_cst : StableHlo.TRef sig ⟨S_, .f32⟩) (constant S_ .f32 0x00000000#32),
    StableHlo.TRef.binary (.of main_v117 : StableHlo.TRef sig ⟨S32768x128, .f32⟩) (.of main_call6_cst : StableHlo.TRef sig ⟨S_, .f32⟩) (.of main_call6_v0 : StableHlo.TRef sig ⟨S128, .f32⟩) (fun x v => Host.reduceAdd x v reducesTo_S32768x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47000000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S32768x128, .f32⟩) (broadcastInDim S32768x128 ![0, 1] bcast_S1x128_S32768x128_0_1),
    StableHlo.TRef.binary (.of main_v117 : StableHlo.TRef sig ⟨S32768x128, .f32⟩) (.of main_call6_v4 : StableHlo.TRef sig ⟨S32768x128, .f32⟩) (.of main_call6_v5 : StableHlo.TRef sig ⟨S32768x128, .f32⟩) subf,
    StableHlo.TRef.binary (.of main_call6_v5 : StableHlo.TRef sig ⟨S32768x128, .f32⟩) (.of main_call6_v5 : StableHlo.TRef sig ⟨S32768x128, .f32⟩) (.of main_call6_v6 : StableHlo.TRef sig ⟨S32768x128, .f32⟩) mulf,
    StableHlo.TRef.unary (.of main_c_17 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S32768x128, .f32⟩) (.of main_call6_cst_2 : StableHlo.TRef sig ⟨S_, .f32⟩) (.of main_call6_v9 : StableHlo.TRef sig ⟨S128, .f32⟩) (fun x v => Host.reduceAdd x v reducesTo_S32768x128_S128_d0 h_S_),
    StableHlo.TRef.unary (.of main_call6_v9 : StableHlo.TRef sig ⟨S128, .f32⟩) (.of main_call6_v10 : StableHlo.TRef sig ⟨S1x128, .f32⟩) (broadcastInDim S1x128 ![1] bcast_S128_S1x128_1),
    StableHlo.TRef.unary (.of main_call6_v8 : StableHlo.TRef sig ⟨S_, .f32⟩) (.of main_call6_v11 : StableHlo.TRef sig ⟨S1x128, .f32⟩) (broadcastInDim S1x128 ![] bcast_S_S1x128),
    StableHlo.TRef.binary (.of main_call6_v10 : StableHlo.TRef sig ⟨S1x128, .f32⟩) (.of main_call6_v11 : StableHlo.TRef sig ⟨S1x128, .f32⟩) (.of main_call6_v12 : StableHlo.TRef sig ⟨S1x128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v13 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S1x128, .f32⟩) (broadcastInDim S1x128 ![] bcast_S_S1x128),
    StableHlo.TRef.ternary (.of main_call6_v13 : StableHlo.TRef sig ⟨S_, .i1⟩) (.of main_call6_v12 : StableHlo.TRef sig ⟨S1x128, .f32⟩) (.of main_call6_call0_v1 : StableHlo.TRef sig ⟨S1x128, .f32⟩) (.of main_v122 : StableHlo.TRef sig ⟨S1x128, .f32⟩) (fun p a b => select (broadcastInDim S1x128 ![] bcast_S_S1x128 p) a b),
    StableHlo.unary main_v121 main_v123 (broadcastInDim S32768x128 ![0, 1] bcast_S1x128_S32768x128_0_1 : (⟨S1x128, .f32⟩ : BufTy).Contents (Elt F) → (⟨S32768x128, .f32⟩ : BufTy).Contents (Elt F)),
    StableHlo.binary main_v117 main_v123 main_v124 (subf : (⟨S32768x128, .f32⟩ : BufTy).Contents (Elt F) → (⟨S32768x128, .f32⟩ : BufTy).Contents (Elt F) → (⟨S32768x128, .f32⟩ : BufTy).Contents (Elt F)),
    StableHlo.nullary main_cst_18 (constant S_ .f32 0x3727C5AC#32),
    StableHlo.unary main_cst_18 main_v125 (broadcastInDim S1x128 ![] bcast_S_S1x128 : (⟨S_, .f32⟩ : BufTy).Contents (Elt F) → (⟨S1x128, .f32⟩ : BufTy).Contents (Elt F)),
    StableHlo.binary main_v122 main_v125 main_v126 (addf : (⟨S1x128, .f32⟩ : BufTy).Contents (Elt F) → (⟨S1x128, .f32⟩ : BufTy).Contents (Elt F) → (⟨S1x128, .f32⟩ : BufTy).Contents (Elt F)),
    StableHlo.unary main_v126 main_v127 (Host.rsqrt : (⟨S1x128, .f32⟩ : BufTy).Contents (Elt F) → (⟨S1x128, .f32⟩ : BufTy).Contents (Elt F)),
    StableHlo.unary main_v127 main_v128 (broadcastInDim S32768x128 ![0, 1] bcast_S1x128_S32768x128_0_1 : (⟨S1x128, .f32⟩ : BufTy).Contents (Elt F) → (⟨S32768x128, .f32⟩ : BufTy).Contents (Elt F)),
    StableHlo.binary main_v124 main_v128 main_v129 (mulf : (⟨S32768x128, .f32⟩ : BufTy).Contents (Elt F) → (⟨S32768x128, .f32⟩ : BufTy).Contents (Elt F) → (⟨S32768x128, .f32⟩ : BufTy).Contents (Elt F)),
    StableHlo.unary main_arg21 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S32768x128 ![0, 1] bcast_S1x128_S32768x128_0_1 : (⟨S1x128, .f32⟩ : BufTy).Contents (Elt F) → (⟨S32768x128, .f32⟩ : BufTy).Contents (Elt F)),
    StableHlo.binary main_v129 main_v131 main_v132 (mulf : (⟨S32768x128, .f32⟩ : BufTy).Contents (Elt F) → (⟨S32768x128, .f32⟩ : BufTy).Contents (Elt F) → (⟨S32768x128, .f32⟩ : BufTy).Contents (Elt F)),
    StableHlo.unary main_arg22 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S32768x128 ![0, 1] bcast_S1x128_S32768x128_0_1 : (⟨S1x128, .f32⟩ : BufTy).Contents (Elt F) → (⟨S32768x128, .f32⟩ : BufTy).Contents (Elt F)),
    StableHlo.binary main_v132 main_v134 main_v135 (addf : (⟨S32768x128, .f32⟩ : BufTy).Contents (Elt F) → (⟨S32768x128, .f32⟩ : BufTy).Contents (Elt F) → (⟨S32768x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S32768x128, .f32⟩) (broadcastInDim S32768x128 ![] bcast_S_S32768x128),
    StableHlo.TRef.binary (.of main_v135 : StableHlo.TRef sig ⟨S32768x128, .f32⟩) (.of main_call7_v0 : StableHlo.TRef sig ⟨S32768x128, .f32⟩) (.of main_v136 : StableHlo.TRef sig ⟨S32768x128, .f32⟩) maximumf ]

theorem opsUp_sub : (opsUp : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem opsUp_fresh : (opsUp : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The references `opsUp`'s operations write, in order. -/
abbrev opsUp_W : List (Ref sig .tc) := [main_v0, main_v1, main_c, main_v2, main_v3, main_c_0, main_v4, main_v5, main_v6, main_v7, main_v8, main_v9, main_v10, main_v11, main_v12, main_v13, main_call0_cst, main_call0_v0, main_v14]
theorem opsUp_writes : (opsUp : List (HloOp τ sig (Elt F))).Forall fun op => op.writes ⊆ (opsUp_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsUpS_sub : (opsUpS : List (HloOp τ sig (Elt F))).Forall fun op => op.bufs ⊆ tcRefs τ sig :=
  ⟨unary_bufs_sub .., reshape_bufs_sub .., nullary_bufs_sub .., unary_bufs_sub .., unary_bufs_sub .., ternary_bufs_sub ..⟩
theorem opsUpS_fresh : (opsUpS : List (HloOp τ sig (Elt F))).Forall fun op => op.fresh = ∅ :=
  ⟨rfl, rfl, rfl, rfl, rfl, rfl⟩
/-- The references `opsUpS`'s operations write, in order. -/
abbrev opsUpS_W : List (Ref sig .tc) := [main_v15, main_v16, main_cst, main_v17, main_v18, main_v19]
theorem opsUpS_writes : (opsUpS : List (HloOp τ sig (Elt F))).Forall fun op => op.writes ⊆ (opsUpS_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsDn_sub : (opsDn : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem opsDn_fresh : (opsDn : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The references `opsDn`'s operations write, in order. -/
abbrev opsDn_W : List (Ref sig .tc) := [main_v20, main_v21, main_c_1, main_v22, main_v23, main_c_2, main_v24, main_v25, main_v26, main_v27, main_v28, main_v29, main_v30, main_v31, main_v32, main_v33, main_call1_cst, main_call1_v0, main_v34]
theorem opsDn_writes : (opsDn : List (HloOp τ sig (Elt F))).Forall fun op => op.writes ⊆ (opsDn_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem opsTail_sub : (opsTail : List (HloOp τ sig (Elt F))).Forall fun op => op.bufs ⊆ tcRefs τ sig :=
  ⟨unary_bufs_sub .., reshape_bufs_sub .., nullary_bufs_sub .., unary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., binary_bufs_sub .., binary_bufs_sub .., binary_bufs_sub .., unary_bufs_sub .., unary_bufs_sub .., unary_bufs_sub .., nary_bufs_sub .., binary_bufs_sub .., unary_bufs_sub .., unary_bufs_sub .., binary_bufs_sub .., unary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., nary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsTail_fresh : (opsTail : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references `opsTail`'s operations write, in order. -/
abbrev opsTail_W : List (Ref sig .tc) := [main_v35, main_v36, main_cst_3, main_v37, main_v38, main_v39, main_v40, main_v41, main_c_4, main_v42, main_v43, main_c_5, main_v44, main_v45, main_v46, main_v47, main_v48, main_v49, main_v50, main_cst_6, main_v51, main_v52, main_v53, main_v54, main_v55, main_v56, main_v57, main_v58, main_v59, main_v60, main_v61, main_v62, main_v63, main_v64, main_v65, main_v66, main_cst_7, main_v67, main_v68, main_cst_8, main_v69, main_v70, main_c_9, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v71, main_v72, main_v73, main_cst_10, main_v74, main_v75, main_v76, main_v77, main_v78, main_v79, main_v80, main_v81, main_v82, main_call3_cst, main_call3_v0, main_v83, main_v84, main_v85, main_v86, main_v87, main_v88, main_v89, main_cst_11, main_v90, main_v91, main_cst_12, main_v92, main_v93, main_c_13, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v94, main_v95, main_v96, main_cst_14, main_v97, main_v98, main_v99, main_v100, main_v101, main_v102, main_v103, main_v104, main_v105, main_call5_cst, main_call5_v0, main_v106, main_v107, main_v108, main_v109, main_v110, main_v111, main_v112, main_v113, main_v114, main_v115, main_v116, main_v117, main_cst_15, main_v118, main_v119, main_cst_16, main_v120, main_v121, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v122, main_v123, main_v124, main_cst_18, main_v125, main_v126, main_v127, main_v128, main_v129, main_v130, main_v131, main_v132, main_v133, main_v134, main_v135, main_call7_cst, main_call7_v0, main_v136]
theorem opsTail_writes : (opsTail : List (HloOp τ sig (Elt F))).Forall fun op => op.writes ⊆ (opsTail_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.ReferenceIdeal.Hand

end
-- ==== Proof.RefRun.lean ====
/- The run of the reference program. @main is the straight line of the operations listed in Proof/RefOps.lean: each window of the printed
   program equals the line of its own operations by unfolding (a call of a module-local function unfolds to the callee's operations over the
   call's buffers), and the windows in sequence are the concatenated line. Every weakly fair execution therefore terminates with each TensorCore
   buffer at the fold of the operations' results over the launch contents; no operation writes an argument's buffer, so each argument ends as launched. -/
import proofs.«106179_j53085795779158_2_alg».proof.Proof.RefRunLists
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the line of its operations -/

/-- The first window is the line of its operations: both sides are the same chain of steps once the two calls of @relu are unfolded. -/
theorem main_part0_eq (c : Dev nD) : main_part0 (F := F) c = seq part0Ops := by chain_rfl
/-- The second window likewise (two calls of @_var, each with its call of @_where, and a call of @relu_0). -/
theorem main_part1_eq (c : Dev nD) : main_part1 (F := F) c = seq part1Ops := by chain_rfl
/-- The third window likewise (calls of @relu_0, @_var_1 with its @_where_2, and @relu_3), closed by the return. -/
theorem main_part2_eq (c : Dev nD) : main_part2 (F := F) c = seq part2Ops := by chain_rfl

/-- The four lists of Proof/RefOps.lean in a row are the three windows' lists in a row: the same 234 operations, cut at other places. -/
theorem ops_eq_parts : (ops : List (HloOp τ sig (Elt F))) = part0Ops ++ (part1Ops ++ part2Ops) := by chain_rfl

/-- @main, the three windows in sequence, is the line of all the operations. -/
theorem main_eq (c : Dev nD) : main (F := F) c = seq ops := by
  show (main_part0 (F := F) c >>= fun _ => main_part1 (F := F) c >>= fun _ => main_part2 (F := F) c) = _
  rw [main_part0_eq, main_part1_eq, main_part2_eq, ops_eq_parts, seq_append, seq_append]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_append.2 ⟨List.forall_append.2 ⟨List.forall_append.2 ⟨opsUp_sub, opsUpS_sub⟩, opsDn_sub⟩, opsTail_sub⟩

/-- Every operation determines all it writes. -/
theorem ops_fresh : ∀ op ∈ (ops : List (HloOp τ sig (Elt F))), op.fresh = ∅ :=
  List.forall_iff_forall_mem.1
    (List.forall_append.2 ⟨List.forall_append.2 ⟨List.forall_append.2 ⟨opsUp_fresh, opsUpS_fresh⟩, opsDn_fresh⟩, opsTail_fresh⟩)

/-! ## The run -/

/-- On every device, for any float values, from any memory with zero counters: every weakly fair execution of @main terminates, and every
    final state has each TensorCore buffer at the fold of the operations' results over the device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## No operation writes an argument -/

/-- The fold over two lines in a row is the fold over the second from the fold over the first. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- A reference none of the four lists writes keeps its contents through the whole line. -/
theorem after_ops_of_not_written (V : Valuation τ sig (Elt F)) {r : Ref sig .tc}
    (h1 : r ∉ opsUp_W) (h2 : r ∉ opsUpS_W) (h3 : r ∉ opsDn_W) (h4 : r ∉ opsTail_W) :
    after ops V (Proc.devRef .tc r) = V (Proc.devRef .tc r) := by
  show after (((opsUp ++ opsUpS) ++ opsDn) ++ opsTail) V _ = _
  rw [after_concat, after_concat, after_concat,
    after_of_writes_sub opsTail _ opsTail_writes h4, after_of_writes_sub opsDn _ opsDn_writes h3,
    after_of_writes_sub opsUpS _ opsUpS_writes h2, after_of_writes_sub opsUp _ opsUp_writes h1]

theorem arg0_kept (V : Valuation τ sig (Elt F)) : after ops V (Proc.devRef .tc main_arg0) = V (Proc.devRef .tc main_arg0) :=
  after_ops_of_not_written V (by decide) (by decide) (by decide) (by decide)
theorem arg1_kept (V : Valuation τ sig (Elt F)) : after ops V (Proc.devRef .tc main_arg1) = V (Proc.devRef .tc main_arg1) :=
  after_ops_of_not_written V (by decide) (by decide) (by decide) (by decide)
theorem arg2_kept (V : Valuation τ sig (Elt F)) : after ops V (Proc.devRef .tc main_arg2) = V (Proc.devRef .tc main_arg2) :=
  after_ops_of_not_written V (by decide) (by decide) (by decide) (by decide)
theorem arg3_kept (V : Valuation τ sig (Elt F)) : after ops V (Proc.devRef .tc main_arg3) = V (Proc.devRef .tc main_arg3) :=
  after_ops_of_not_written V (by decide) (by decide) (by decide) (by decide)
theorem arg4_kept (V : Valuation τ sig (Elt F)) : after ops V (Proc.devRef .tc main_arg4) = V (Proc.devRef .tc main_arg4) :=
  after_ops_of_not_written V (by decide) (by decide) (by decide) (by decide)
theorem arg5_kept (V : Valuation τ sig (Elt F)) : after ops V (Proc.devRef .tc main_arg5) = V (Proc.devRef .tc main_arg5) :=
  after_ops_of_not_written V (by decide) (by decide) (by decide) (by decide)
theorem arg6_kept (V : Valuation τ sig (Elt F)) : after ops V (Proc.devRef .tc main_arg6) = V (Proc.devRef .tc main_arg6) :=
  after_ops_of_not_written V (by decide) (by decide) (by decide) (by decide)
theorem arg7_kept (V : Valuation τ sig (Elt F)) : after ops V (Proc.devRef .tc main_arg7) = V (Proc.devRef .tc main_arg7) :=
  after_ops_of_not_written V (by decide) (by decide) (by decide) (by decide)
theorem arg8_kept (V : Valuation τ sig (Elt F)) : after ops V (Proc.devRef .tc main_arg8) = V (Proc.devRef .tc main_arg8) :=
  after_ops_of_not_written V (by decide) (by decide) (by decide) (by decide)
theorem arg9_kept (V : Valuation τ sig (Elt F)) : after ops V (Proc.devRef .tc main_arg9) = V (Proc.devRef .tc main_arg9) :=
  after_ops_of_not_written V (by decide) (by decide) (by decide) (by decide)
theorem arg10_kept (V : Valuation τ sig (Elt F)) : after ops V (Proc.devRef .tc main_arg10) = V (Proc.devRef .tc main_arg10) :=
  after_ops_of_not_written V (by decide) (by decide) (by decide) (by decide)
theorem arg11_kept (V : Valuation τ sig (Elt F)) : after ops V (Proc.devRef .tc main_arg11) = V (Proc.devRef .tc main_arg11) :=
  after_ops_of_not_written V (by decide) (by decide) (by decide) (by decide)
theorem arg12_kept (V : Valuation τ sig (Elt F)) : after ops V (Proc.devRef .tc main_arg12) = V (Proc.devRef .tc main_arg12) :=
  after_ops_of_not_written V (by decide) (by decide) (by decide) (by decide)
theorem arg13_kept (V : Valuation τ sig (Elt F)) : after ops V (Proc.devRef .tc main_arg13) = V (Proc.devRef .tc main_arg13) :=
  after_ops_of_not_written V (by decide) (by decide) (by decide) (by decide)
theorem arg14_kept (V : Valuation τ sig (Elt F)) : after ops V (Proc.devRef .tc main_arg14) = V (Proc.devRef .tc main_arg14) :=
  after_ops_of_not_written V (by decide) (by decide) (by decide) (by decide)
theorem arg15_kept (V : Valuation τ sig (Elt F)) : after ops V (Proc.devRef .tc main_arg15) = V (Proc.devRef .tc main_arg15) :=
  after_ops_of_not_written V (by decide) (by decide) (by decide) (by decide)
theorem arg16_kept (V : Valuation τ sig (Elt F)) : after ops V (Proc.devRef .tc main_arg16) = V (Proc.devRef .tc main_arg16) :=
  after_ops_of_not_written V (by decide) (by decide) (by decide) (by decide)
theorem arg17_kept (V : Valuation τ sig (Elt F)) : after ops V (Proc.devRef .tc main_arg17) = V (Proc.devRef .tc main_arg17) :=
  after_ops_of_not_written V (by decide) (by decide) (by decide) (by decide)
theorem arg18_kept (V : Valuation τ sig (Elt F)) : after ops V (Proc.devRef .tc main_arg18) = V (Proc.devRef .tc main_arg18) :=
  after_ops_of_not_written V (by decide) (by decide) (by decide) (by decide)
theorem arg19_kept (V : Valuation τ sig (Elt F)) : after ops V (Proc.devRef .tc main_arg19) = V (Proc.devRef .tc main_arg19) :=
  after_ops_of_not_written V (by decide) (by decide) (by decide) (by decide)
theorem arg20_kept (V : Valuation τ sig (Elt F)) : after ops V (Proc.devRef .tc main_arg20) = V (Proc.devRef .tc main_arg20) :=
  after_ops_of_not_written V (by decide) (by decide) (by decide) (by decide)
theorem arg21_kept (V : Valuation τ sig (Elt F)) : after ops V (Proc.devRef .tc main_arg21) = V (Proc.devRef .tc main_arg21) :=
  after_ops_of_not_written V (by decide) (by decide) (by decide) (by decide)
theorem arg22_kept (V : Valuation τ sig (Elt F)) : after ops V (Proc.devRef .tc main_arg22) = V (Proc.devRef .tc main_arg22) :=
  after_ops_of_not_written V (by decide) (by decide) (by decide) (by decide)

/-- No operation writes an argument: after the whole line each argument's buffer holds what it held. -/
theorem arg_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13)
    ∧ after ops V (Proc.devRef .tc main_arg14) = V (Proc.devRef .tc main_arg14)
    ∧ after ops V (Proc.devRef .tc main_arg15) = V (Proc.devRef .tc main_arg15)
    ∧ after ops V (Proc.devRef .tc main_arg16) = V (Proc.devRef .tc main_arg16)
    ∧ after ops V (Proc.devRef .tc main_arg17) = V (Proc.devRef .tc main_arg17)
    ∧ after ops V (Proc.devRef .tc main_arg18) = V (Proc.devRef .tc main_arg18)
    ∧ after ops V (Proc.devRef .tc main_arg19) = V (Proc.devRef .tc main_arg19)
    ∧ after ops V (Proc.devRef .tc main_arg20) = V (Proc.devRef .tc main_arg20)
    ∧ after ops V (Proc.devRef .tc main_arg21) = V (Proc.devRef .tc main_arg21)
    ∧ after ops V (Proc.devRef .tc main_arg22) = V (Proc.devRef .tc main_arg22) :=
  ⟨arg0_kept V, arg1_kept V, arg2_kept V, arg3_kept V, arg4_kept V, arg5_kept V, arg6_kept V, arg7_kept V, arg8_kept V, arg9_kept V, arg10_kept V, arg11_kept V, arg12_kept V, arg13_kept V, arg14_kept V, arg15_kept V, arg16_kept V, arg17_kept V, arg18_kept V, arg19_kept V, arg20_kept V, arg21_kept V, arg22_kept V⟩

/-! ## The frame -/

/-- On every device, from any memory with zero counters: every weakly fair execution of @main terminates with every argument's buffer as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _),
      (h c main_arg10).trans (arg10_kept _),
      (h c main_arg11).trans (arg11_kept _),
      (h c main_arg12).trans (arg12_kept _),
      (h c main_arg13).trans (arg13_kept _),
      (h c main_arg14).trans (arg14_kept _),
      (h c main_arg15).trans (arg15_kept _),
      (h c main_arg16).trans (arg16_kept _),
      (h c main_arg17).trans (arg17_kept _),
      (h c main_arg18).trans (arg18_kept _),
      (h c main_arg19).trans (arg19_kept _),
      (h c main_arg20).trans (arg20_kept _),
      (h c main_arg21).trans (arg21_kept _),
      (h c main_arg22).trans (arg22_kept _)⟩)
    (run m ρ)

end Cert.ReferenceIdeal.Hand

end
-- ==== Proof.MsgSpec.lean ====
/-
  The per-edge message of one layer, as ONE function of its four arrays, index by index, at the extended reals.

  For an array `g` of gathered, already multiplied node rows, the edge attributes `a`, the attribute half `w1` of the
  weight and the bias row `bb`, the message at edge `e` and column `j` is

      max (g[e, j] + Σ_{k < 128} a[e, k] · w1[k, j] + bb[0, j]) 0.

  `G` states it over the whole array of 524288 edges and `GB` over a block of 8192 rows; the two are the same
  formula, so a block of `G`'s arguments gives the block of `G` (`G_apply`, `GB_apply`, `G_block`).

  The law joining the two routes to the messages is the split of a sum over 256 terms into its two halves
  (`sum_split_256`): the product of a concatenated row `[x_r | a_e]` with the stacked weight is the sum of the
  two products. Addition on the extended reals is commutative and associative, so nothing has to be finite.
-/
import Idealize.ShloMosaic.Lib.ValueIdx

noncomputable section

open scoped BigOperators

namespace Cert.Msg

open Idealize.ShloMosaic Idealize.ShloMosaic.ValueIdx

/-- THE MESSAGES of all 524288 edges: at `(e, j)`, `max (g[e, j] + Σ_k a[e, k] · w1[k, j] + bb[0, j]) 0`. -/
def G (g a : (⟨2, ![524288, 128]⟩ : Shape).Idx → EReal) (w1 : (⟨2, ![128, 128]⟩ : Shape).Idx → EReal)
    (bb : (⟨2, ![1, 128]⟩ : Shape).Idx → EReal) : (⟨2, ![524288, 128]⟩ : Shape).Idx → EReal :=
  fun i => max (g i + ∑ k : Fin 128, a (ix2 (i 0 : Fin 524288) k) * w1 (ix2 k (i 1 : Fin 128))
    + bb (ix2 (0 : Fin 1) (i 1 : Fin 128))) 0

/-- The same formula over a block of 8192 edges. -/
def GB (g a : (⟨2, ![8192, 128]⟩ : Shape).Idx → EReal) (w1 : (⟨2, ![128, 128]⟩ : Shape).Idx → EReal)
    (bb : (⟨2, ![1, 128]⟩ : Shape).Idx → EReal) : (⟨2, ![8192, 128]⟩ : Shape).Idx → EReal :=
  fun i => max (g i + ∑ k : Fin 128, a (ix2 (i 0 : Fin 8192) k) * w1 (ix2 k (i 1 : Fin 128))
    + bb (ix2 (0 : Fin 1) (i 1 : Fin 128))) 0

/-- `G` at the edge `e` and column `j`. -/
theorem G_apply (g a : (⟨2, ![524288, 128]⟩ : Shape).Idx → EReal) (w1 : (⟨2, ![128, 128]⟩ : Shape).Idx → EReal)
    (bb : (⟨2, ![1, 128]⟩ : Shape).Idx → EReal) (e : Fin 524288) (j : Fin 128) :
    G g a w1 bb (ix2 e j)
      = max (g (ix2 e j) + ∑ k : Fin 128, a (ix2 e k) * w1 (ix2 k j) + bb (ix2 (0 : Fin 1) j)) 0 := rfl

/-- `GB` at row `p` of the block and column `j`. -/
theorem GB_apply (g a : (⟨2, ![8192, 128]⟩ : Shape).Idx → EReal) (w1 : (⟨2, ![128, 128]⟩ : Shape).Idx → EReal)
    (bb : (⟨2, ![1, 128]⟩ : Shape).Idx → EReal) (p : Fin 8192) (j : Fin 128) :
    GB g a w1 bb (ix2 p j)
      = max (g (ix2 p j) + ∑ k : Fin 128, a (ix2 p k) * w1 (ix2 k j) + bb (ix2 (0 : Fin 1) j)) 0 := rfl

/-- Row `p` of block `t` of the 64 blocks of 8192 edges is the edge `t · 8192 + p`. -/
def edgeOf (t : Fin 64) (p : Fin 8192) : Fin 524288 := ⟨t.val * 8192 + p.val, by have := t.isLt; have := p.isLt; omega⟩

/-- Block `t` of an array of 524288 rows: its rows `t · 8192 + p`. -/
def blockOf (t : Fin 64) (g : (⟨2, ![524288, 128]⟩ : Shape).Idx → EReal) : (⟨2, ![8192, 128]⟩ : Shape).Idx → EReal :=
  fun y => g (ix2 (edgeOf t (y 0 : Fin 8192)) (y 1 : Fin 128))

/-- The block of the messages is the messages of the blocks: `G` at the edge `t · 8192 + p` is `GB` of block `t` of `g` and
    of `a`, at row `p`. -/
theorem G_block (g a : (⟨2, ![524288, 128]⟩ : Shape).Idx → EReal) (w1 : (⟨2, ![128, 128]⟩ : Shape).Idx → EReal)
    (bb : (⟨2, ![1, 128]⟩ : Shape).Idx → EReal) (t : Fin 64) (p : Fin 8192) (j : Fin 128) :
    G g a w1 bb (ix2 (edgeOf t p) j) = GB (blockOf t g) (blockOf t a) w1 bb (ix2 p j) := rfl

/-- A sum of 256 terms is the sum of its first 128 and its last 128. -/
theorem sum_split_256 (f : Fin 256 → EReal) :
    ∑ k : Fin 256, f k = ∑ k : Fin 128, f (Fin.castAdd 128 k) + ∑ k : Fin 128, f (Fin.natAdd 128 k) :=
  Fin.sum_univ_add (a := 128) (b := 128) f

end Cert.Msg

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«106179_j53085795779158_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.MsgPayload.lean ====
/-
  The body's stored value at one index of a block, at the extended reals.

  The body of each of the two calls adds, to a block of gathered rows `v5`, the product of a block `v0` of edge
  attributes with the weight `v2` and the bias row `v9`, and keeps what is at least zero. Read at row `p` and column `q`:

      max (v5[p, q] + Σ_{k < 128} v0[p, k] · v2[k, q] + v9[0, q]) 0.

  The casts of the operands to the narrower format are the identity on extended reals, the shape casts are to the
  same shape, the product accumulates into zero, and the bias row is broadcast along the rows.
-/
import Idealize.ShloMosaic.Lib.ValueLayout
import proofs.«106179_j53085795779158_2_alg».proof.Proof.Gen.KernelIdeal.Skeleton
import proofs.«106179_j53085795779158_2_alg».proof.Proof.LibMatmulRows
import proofs.«106179_j53085795779158_2_alg».proof.Proof.MsgSpec

noncomputable section

open scoped BigOperators

namespace Cert.Msg

open Idealize.ShloMosaic Idealize.ShloMosaic.ValueIdx Cert.KernelIdeal

/-- The value the two bodies share, read at `(p, q)`: stated once over the operations, for any proofs of their side
    conditions. -/
theorem body_apply (d : DotDims S8192x128 S128x128 S8192x128)
    (hlc : d.lhsContracting = [1]) (hrc : d.rhsContracting = [0]) (hln : d.lhsNonContracting = [0])
    (hrn : d.rhsNonContracting = [1]) (hlb : d.lhsBatch = []) (hrb : d.rhsBatch = [])
    (hbf : FTy.bits .bf16 < FTy.bits .f32) (h1 : S128x128.ShapeCasts S128x128) (h2 : S8192x128.ShapeCasts S8192x128)
    (h3 : S1x128.ShapeCasts S1x128) (h4 : S1x128.Broadcasts S8192x128)
    (v0 v5 : FVec Ideal S8192x128 .f32) (v2 : FVec Ideal S128x128 .f32) (v9 : FVec Ideal S1x128 .f32)
    (p : Fin 8192) (q : Fin 128) :
    maximumf (addf (addf (shapeCast S8192x128 v5 h2)
        (matmul d none (truncf .bf16 v0 hbf) (truncf .bf16 (shapeCast S128x128 v2 h1) hbf)
          (constant S8192x128 .f32 0x00000000#32)))
        (broadcastTo S8192x128 (shapeCast S1x128 v9 h3) h4))
      (broadcast S8192x128 (Scalar.ofBits (F := Ideal) .f32 0x00000000#32)) (ix2 p q)
      = max (v5 (ix2 p q) + ∑ k : Fin 128, v0 (ix2 p k) * v2 (ix2 k q) + v9 (ix2 (0 : Fin 1) q)) 0 := by
  rw [shapeCast_self, shapeCast_self, shapeCast_self]
  show max (v5 (ix2 p q)
      + FloatOps.matmul d none (truncf .bf16 v0 hbf) (truncf .bf16 v2 hbf) (constant S8192x128 .f32 0x00000000#32) (ix2 p q)
      + broadcastTo S8192x128 v9 h4 (ix2 p q)) (Ideal.ofBits .f32 0x00000000#32) = _
  rw [Cert.LibMatmulRows.matmul_rows_apply d hlc hrc hln hrn hlb hrb, broadcastTo_1b_ab_apply, Ideal.ofBits_zero_f32]
  rfl

/-- THE FIRST CALL'S STORED VALUE at row `p`, column `q` of a block. -/
theorem k0_pay1_apply (v0 v5 : Vec Ideal S8192x128 .f32) (v2 : Vec Ideal S128x128 .f32) (v9 : Vec Ideal S1x128 .f32)
    (p : Fin 8192) (q : Fin 128) :
    Cert.KernelIdeal.Gen.k0_pay1 (F := Ideal) v0 v2 v5 v9 (ix2 p q)
      = max (v5 (ix2 p q) + ∑ k : Fin 128, v0 (ix2 p k) * v2 (ix2 k q) + v9 (ix2 (0 : Fin 1) q)) 0 :=
  body_apply _ rfl rfl rfl rfl rfl rfl _ _ _ _ _ v0 v5 v2 v9 p q

/-- THE SECOND CALL'S STORED VALUE at row `p`, column `q` of a block: the same text. -/
theorem k1_pay1_apply (v0 v5 : Vec Ideal S8192x128 .f32) (v2 : Vec Ideal S128x128 .f32) (v9 : Vec Ideal S1x128 .f32)
    (p : Fin 8192) (q : Fin 128) :
    Cert.KernelIdeal.Gen.k1_pay1 (F := Ideal) v0 v2 v5 v9 (ix2 p q)
      = max (v5 (ix2 p q) + ∑ k : Fin 128, v0 (ix2 p k) * v2 (ix2 k q) + v9 (ix2 (0 : Fin 1) q)) 0 :=
  body_apply _ rfl rfl rfl rfl rfl rfl _ _ _ _ _ v0 v5 v2 v9 p q

/-- Each call's stored block is the block formula `GB` of its four loads. -/
theorem k0_pay1_eq_GB (v0 v5 : Vec Ideal S8192x128 .f32) (v2 : Vec Ideal S128x128 .f32) (v9 : Vec Ideal S1x128 .f32) :
    Cert.KernelIdeal.Gen.k0_pay1 (F := Ideal) v0 v2 v5 v9 = GB v5 v0 v2 v9 :=
  funext fun j => by rw [eq_ix2 j]; exact k0_pay1_apply v0 v5 v2 v9 _ _

theorem k1_pay1_eq_GB (v0 v5 : Vec Ideal S8192x128 .f32) (v2 : Vec Ideal S128x128 .f32) (v9 : Vec Ideal S1x128 .f32) :
    Cert.KernelIdeal.Gen.k1_pay1 (F := Ideal) v0 v2 v5 v9 = GB v5 v0 v2 v9 :=
  funext fun j => by rw [eq_ix2 j]; exact k1_pay1_apply v0 v5 v2 v9 _ _

end Cert.Msg

end
-- ==== Proof.KBlocks.lean ====
/-
  From blocks to arrays, for the two message blocks of the kernel program. Each block runs at 64 grid points;
  point `t` reads rows `8192 t … 8192 t + 8191` of the gathered products and of the edge attributes, the whole
  lower-half weight and the whole bias row, and writes rows `8192 t …` of the message array. What it writes is
  the block's payload of those reads, which is the message function restricted to those rows; the 64 row blocks
  tile the message array, so after the block the array IS the message function of the arrays the block found.
-/
import proofs.«106179_j53085795779158_2_alg».proof.Proof.KIBody
import proofs.«106179_j53085795779158_2_alg».proof.Proof.MsgSpec
import proofs.«106179_j53085795779158_2_alg».proof.Proof.MsgPayload
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Block 0: the message array it leaves -/

/-- The printed index maps of block 0's windows over its 64 grid points: the two edge-indexed inputs and the output
    move with the point along the rows; the weight and the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Input window 0's block at point `t` is rows `8192 t …` of the gathered products. -/
theorem iblk0_0_apply (c : Dev nD) (t : Fin cfg0.N) (y : S8192x128.Idx) (k : S524288x128.Idx)
    (hk0 : (k 0).val = t.val * 8192 + (y 0).val) (hk1 : (k 1).val = (y 1).val) :
    (iblk0 V c 0 t : Vec Ideal S8192x128 .f32) y = (V c main_v14 : S524288x128.Idx → Elt Ideal .f32) k := by
  obtain ⟨e0, e1, -⟩ := idx_facts0 t
  unfold iblk0
  rw [View.read_apply]
  show V c main_v14 _ = V c main_v14 _
  congr 1
  funext a
  apply Fin.ext
  match a with
  | ⟨0, _⟩ => show win0_0.index t 0 * 8192 + 1 * (y 0).val = (k 0).val; rw [e0, hk0]; omega
  | ⟨1, _⟩ => show win0_0.index t 1 * 128 + 1 * (y 1).val = (k 1).val; rw [e1, hk1]; omega

/-- Input window 1's block at point `t` is rows `8192 t …` of the edge attributes. -/
theorem iblk0_1_apply (c : Dev nD) (t : Fin cfg0.N) (y : S8192x128.Idx) (k : S524288x128.Idx)
    (hk0 : (k 0).val = t.val * 8192 + (y 0).val) (hk1 : (k 1).val = (y 1).val) :
    (iblk0 V c 1 t : Vec Ideal S8192x128 .f32) y = (V c main_arg4 : S524288x128.Idx → Elt Ideal .f32) k := by
  obtain ⟨-, -, e0, e1, -⟩ := idx_facts0 t
  unfold iblk0
  rw [View.read_apply]
  show V c main_arg4 _ = V c main_arg4 _
  congr 1
  funext a
  apply Fin.ext
  match a with
  | ⟨0, _⟩ => show win0_1.index t 0 * 8192 + 1 * (y 0).val = (k 0).val; rw [e0, hk0]; omega
  | ⟨1, _⟩ => show win0_1.index t 1 * 128 + 1 * (y 1).val = (k 1).val; rw [e1, hk1]; omega

/-- Input window 2's block at every point is the whole weight. -/
theorem iblk0_2_apply (c : Dev nD) (t : Fin cfg0.N) (y : S128x128.Idx) :
    (iblk0 V c 2 t : Vec Ideal S128x128 .f32) y = (V c main_v1 : S128x128.Idx → Elt Ideal .f32) y := by
  obtain ⟨-, -, -, -, e0, e1, -⟩ := idx_facts0 t
  unfold iblk0
  rw [View.read_apply]
  show V c main_v1 _ = V c main_v1 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- Input window 3's block at every point is the whole bias row. -/
theorem iblk0_3_apply (c : Dev nD) (t : Fin cfg0.N) (y : S1x128.Idx) :
    (iblk0 V c 3 t : Vec Ideal S1x128 .f32) y = (V c main_v24 : S1x128.Idx → Elt Ideal .f32) y := by
  obtain ⟨-, -, -, -, -, -, e0, e1, -⟩ := idx_facts0 t
  unfold iblk0
  rw [View.read_apply]
  show V c main_v24 _ = V c main_v24 _
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

/-- What point `t` writes back is block `t` of the message function of the arrays as the block finds them. -/
theorem flushed0 (c : Dev nD) (t : Fin cfg0.N) :
    (dat0 V c).flushed 4 t = ((cfg0.win 4).blk t).view.read (Elt Ideal)
      (Cert.Msg.G (V c main_v14) (V c main_arg4) (V c main_v1) (V c main_v24)) := by
  show (cfg0.win 4).cut (grid0.coords t) ((dat0 V c).after 4 t) = _
  rw [after0_4]
  unfold out0_4
  rw [View.canon_unit_zero hz]
  simp only [View.ld_unit_zero (S := S8192x128) hz, View.ld_unit_zero (S := S128x128) hz, View.ld_unit_zero (S := S1x128) hz]
  rw [Cert.Msg.k0_pay1_eq_GB]
  obtain ⟨-, -, -, -, -, -, -, -, e0, e1⟩ := idx_facts0 t
  funext j
  obtain ⟨p, q, rfl⟩ : ∃ (p : Fin 8192) (q : Fin 128), j = ix2 p q := ⟨j 0, j 1, eq_ix2 j⟩
  have ht : t.val < 64 := Nat.lt_of_lt_of_eq t.isLt (show cfg0.N = 64 from N_0)
  have hemb : ((cfg0.win 4).blk t).view.emb (ix2 p q) = ix2 (⟨t.val * 8192 + p.val, by omega⟩ : Fin 524288) q := by
    funext a
    apply Fin.ext
    match a with
    | ⟨0, _⟩ => show win0_4.index t 0 * 8192 + 1 * p.val = t.val * 8192 + p.val; rw [e0]; omega
    | ⟨1, _⟩ => show win0_4.index t 1 * 128 + 1 * q.val = q.val; rw [e1]; omega
  show Cert.Msg.GB (iblk0 V c 0 t) (iblk0 V c 1 t) (iblk0 V c 2 t) (iblk0 V c 3 t) (ix2 p q)
    = Cert.Msg.G (V c main_v14) (V c main_arg4) (V c main_v1) (V c main_v24) (((cfg0.win 4).blk t).view.emb (ix2 p q))
  rw [hemb, Cert.Msg.GB_apply, Cert.Msg.G_apply]
  rw [iblk0_0_apply V c t (ix2 p q) (ix2 (⟨t.val * 8192 + p.val, by omega⟩ : Fin 524288) q) rfl rfl,
    iblk0_3_apply V c t (ix2 (0 : Fin 1) q)]
  congr 2
  congr 1
  refine Finset.sum_congr rfl fun k _ => ?_
  rw [iblk0_1_apply V c t (ix2 p k) (ix2 (⟨t.val * 8192 + p.val, by omega⟩ : Fin 524288) k) rfl rfl,
    iblk0_2_apply V c t (ix2 k q)]

/-- The message array after the block: the message function of the arrays the block finds, at every index (the
    64 row blocks tile the array: row `r` is in block `r / 8192`). -/
theorem final0 (c : Dev nD) : (dat0 V c).arrAt 4 cfg0.N
    = Cert.Msg.G (V c main_v14) (V c main_arg4) (V c main_v1) (V c main_v24) :=
  (dat0 V c).arrAt_eq_of_cover 4 _ (fun t _ => flushed0 V c t) fun i => by
    have hi0 : (i 0).val < 524288 := (i 0).isLt
    have hi1 : (i 1).val < 128 := (i 1).isLt
    have hN : cfg0.N = 64 := N_0
    have hlt : (i 0).val / 8192 < cfg0.N := by rw [hN]; omega
    obtain ⟨-, -, -, -, -, -, -, -, e0, e1⟩ := idx_facts0 ⟨(i 0).val / 8192, hlt⟩
    refine ⟨⟨(i 0).val / 8192, hlt⟩, flush0_4 _, ?_⟩
    show i ∈ ((View.whole main_v26).slice (win0_4.rect ⟨(i 0).val / 8192, hlt⟩)).set
    rw [View.set_slice_whole, Rect.mem_set_unit]
    intro a
    match a with
    | ⟨0, _⟩ => show win0_4.index _ 0 * 8192 ≤ (i 0).val ∧ (i 0).val < win0_4.index _ 0 * 8192 + 8192; rw [e0]; dsimp only; omega
    | ⟨1, _⟩ => show win0_4.index _ 1 * 128 ≤ (i 1).val ∧ (i 1).val < win0_4.index _ 1 * 128 + 128; rw [e1]; omega

/-! ## Block 1: the message array it leaves -/

/-- The printed index maps of block 1's windows over its 64 grid points: the two edge-indexed inputs and the output
    move with the point along the rows; the weight and the bias stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Input window 0's block at point `t` is rows `8192 t …` of the gathered products. -/
theorem iblk1_0_apply (c : Dev nD) (t : Fin cfg1.N) (y : S8192x128.Idx) (k : S524288x128.Idx)
    (hk0 : (k 0).val = t.val * 8192 + (y 0).val) (hk1 : (k 1).val = (y 1).val) :
    (iblk1 V c 0 t : Vec Ideal S8192x128 .f32) y = (V c main_v23 : S524288x128.Idx → Elt Ideal .f32) k := by
  obtain ⟨e0, e1, -⟩ := idx_facts1 t
  unfold iblk1
  rw [View.read_apply]
  show V c main_v23 _ = V c main_v23 _
  congr 1
  funext a
  apply Fin.ext
  match a with
  | ⟨0, _⟩ => show win1_0.index t 0 * 8192 + 1 * (y 0).val = (k 0).val; rw [e0, hk0]; omega
  | ⟨1, _⟩ => show win1_0.index t 1 * 128 + 1 * (y 1).val = (k 1).val; rw [e1, hk1]; omega

/-- Input window 1's block at point `t` is rows `8192 t …` of the edge attributes. -/
theorem iblk1_1_apply (c : Dev nD) (t : Fin cfg1.N) (y : S8192x128.Idx) (k : S524288x128.Idx)
    (hk0 : (k 0).val = t.val * 8192 + (y 0).val) (hk1 : (k 1).val = (y 1).val) :
    (iblk1 V c 1 t : Vec Ideal S8192x128 .f32) y = (V c main_arg5 : S524288x128.Idx → Elt Ideal .f32) k := by
  obtain ⟨-, -, e0, e1, -⟩ := idx_facts1 t
  unfold iblk1
  rw [View.read_apply]
  show V c main_arg5 _ = V c main_arg5 _
  congr 1
  funext a
  apply Fin.ext
  match a with
  | ⟨0, _⟩ => show win1_1.index t 0 * 8192 + 1 * (y 0).val = (k 0).val; rw [e0, hk0]; omega
  | ⟨1, _⟩ => show win1_1.index t 1 * 128 + 1 * (y 1).val = (k 1).val; rw [e1, hk1]; omega

/-- Input window 2's block at every point is the whole weight. -/
theorem iblk1_2_apply (c : Dev nD) (t : Fin cfg1.N) (y : S128x128.Idx) :
    (iblk1 V c 2 t : Vec Ideal S128x128 .f32) y = (V c main_v3 : S128x128.Idx → Elt Ideal .f32) y := by
  obtain ⟨-, -, -, -, e0, e1, -⟩ := idx_facts1 t
  unfold iblk1
  rw [View.read_apply]
  show V c main_v3 _ = V c main_v3 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- Input window 3's block at every point is the whole bias row. -/
theorem iblk1_3_apply (c : Dev nD) (t : Fin cfg1.N) (y : S1x128.Idx) :
    (iblk1 V c 3 t : Vec Ideal S1x128 .f32) y = (V c main_v25 : S1x128.Idx → Elt Ideal .f32) y := by
  obtain ⟨-, -, -, -, -, -, e0, e1, -⟩ := idx_facts1 t
  unfold iblk1
  rw [View.read_apply]
  show V c main_v25 _ = V c main_v25 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- What point `t` writes back is block `t` of the message function of the arrays as the block finds them. -/
theorem flushed1 (c : Dev nD) (t : Fin cfg1.N) :
    (dat1 V c).flushed 4 t = ((cfg1.win 4).blk t).view.read (Elt Ideal)
      (Cert.Msg.G (V c main_v23) (V c main_arg5) (V c main_v3) (V c main_v25)) := by
  show (cfg1.win 4).cut (grid1.coords t) ((dat1 V c).after 4 t) = _
  rw [after1_4]
  unfold out1_4
  rw [View.canon_unit_zero hz]
  simp only [View.ld_unit_zero (S := S8192x128) hz, View.ld_unit_zero (S := S128x128) hz, View.ld_unit_zero (S := S1x128) hz]
  rw [Cert.Msg.k1_pay1_eq_GB]
  obtain ⟨-, -, -, -, -, -, -, -, e0, e1⟩ := idx_facts1 t
  funext j
  obtain ⟨p, q, rfl⟩ : ∃ (p : Fin 8192) (q : Fin 128), j = ix2 p q := ⟨j 0, j 1, eq_ix2 j⟩
  have ht : t.val < 64 := Nat.lt_of_lt_of_eq t.isLt (show cfg1.N = 64 from N_1)
  have hemb : ((cfg1.win 4).blk t).view.emb (ix2 p q) = ix2 (⟨t.val * 8192 + p.val, by omega⟩ : Fin 524288) q := by
    funext a
    apply Fin.ext
    match a with
    | ⟨0, _⟩ => show win1_4.index t 0 * 8192 + 1 * p.val = t.val * 8192 + p.val; rw [e0]; omega
    | ⟨1, _⟩ => show win1_4.index t 1 * 128 + 1 * q.val = q.val; rw [e1]; omega
  show Cert.Msg.GB (iblk1 V c 0 t) (iblk1 V c 1 t) (iblk1 V c 2 t) (iblk1 V c 3 t) (ix2 p q)
    = Cert.Msg.G (V c main_v23) (V c main_arg5) (V c main_v3) (V c main_v25) (((cfg1.win 4).blk t).view.emb (ix2 p q))
  rw [hemb, Cert.Msg.GB_apply, Cert.Msg.G_apply]
  rw [iblk1_0_apply V c t (ix2 p q) (ix2 (⟨t.val * 8192 + p.val, by omega⟩ : Fin 524288) q) rfl rfl,
    iblk1_3_apply V c t (ix2 (0 : Fin 1) q)]
  congr 2
  congr 1
  refine Finset.sum_congr rfl fun k _ => ?_
  rw [iblk1_1_apply V c t (ix2 p k) (ix2 (⟨t.val * 8192 + p.val, by omega⟩ : Fin 524288) k) rfl rfl,
    iblk1_2_apply V c t (ix2 k q)]

/-- The message array after the block: the message function of the arrays the block finds, at every index (the
    64 row blocks tile the array: row `r` is in block `r / 8192`). -/
theorem final1 (c : Dev nD) : (dat1 V c).arrAt 4 cfg1.N
    = Cert.Msg.G (V c main_v23) (V c main_arg5) (V c main_v3) (V c main_v25) :=
  (dat1 V c).arrAt_eq_of_cover 4 _ (fun t _ => flushed1 V c t) fun i => by
    have hi0 : (i 0).val < 524288 := (i 0).isLt
    have hi1 : (i 1).val < 128 := (i 1).isLt
    have hN : cfg1.N = 64 := N_1
    have hlt : (i 0).val / 8192 < cfg1.N := by rw [hN]; omega
    obtain ⟨-, -, -, -, -, -, -, -, e0, e1⟩ := idx_facts1 ⟨(i 0).val / 8192, hlt⟩
    refine ⟨⟨(i 0).val / 8192, hlt⟩, flush1_4 _, ?_⟩
    show i ∈ ((View.whole main_v27).slice (win1_4.rect ⟨(i 0).val / 8192, hlt⟩)).set
    rw [View.set_slice_whole, Rect.mem_set_unit]
    intro a
    match a with
    | ⟨0, _⟩ => show win1_4.index _ 0 * 8192 ≤ (i 0).val ∧ (i 0).val < win1_4.index _ 0 * 8192 + 8192; rw [e0]; dsimp only; omega
    | ⟨1, _⟩ => show win1_4.index _ 1 * 128 ≤ (i 1).val ∧ (i 1).val < win1_4.index _ 1 * 128 + 128; rw [e1]; omega

end Cert.KernelIdeal.Hand

end
-- ==== Proof.LibAfter.lean ====
/-
  The buffers after two lines of host operations run one after the other are the buffers after the second line
  from what the first line leaves: the fold over a concatenation is the composition of the folds.
-/
import Idealize.ShloMosaic.Lib.StableHlo.Run

noncomputable section

namespace Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.KGlue.lean ====
/-
  The kernel program's buffers around its two message blocks. After the second block the program is twelve lines of
  host operations run in order; read as ONE line, what it leaves is a fold from the buffers the second block
  leaves. Those buffers are the ones the first host line leaves, with the two message arrays replaced by what the
  blocks wrote; every other buffer is untouched by the blocks.
-/
import proofs.«106179_j53085795779158_2_alg».proof.Proof.Gen.KernelIdeal.Regions
import proofs.«106179_j53085795779158_2_alg».proof.Proof.LibAfter

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The host operations after the second message block, all twelve lines as one. -/
abbrev tailOps : List (HloOp τ sig (Elt F)) :=
  hostOps2 ++ hostOps2_1 ++ hostOps2_2 ++ hostOps2_3 ++ hostOps2_4 ++ hostOps2_5 ++ hostOps2_6 ++ hostOps2_7 ++ hostOps2_8
    ++ hostOps2_9 ++ hostOps2_10 ++ hostOps2_11

variable (m : (ℓ : Loc nD τ sig) → Buf (Elt F) ℓ) (outs : Gen.Outs (F := F))

/-- The last buffers are the one-line fold from the buffers the second block leaves. -/
theorem V15_eq (c : Dev nD) : Gen.V15 m outs c = after tailOps (Gen.V3 m outs c) := by
  simp only [tailOps, after_append]

/-- After both blocks the first message array holds what the first block wrote. -/
theorem V3_v26 (c : Dev nD) : Gen.V3 m outs c (Proc.devRef .tc main_v26) = outs 2 main_v26 c := by
  show Function.update (Function.update (Gen.V1 m c) _ _) _ _ _ = _
  rw [Function.update_of_ne (by decide), Function.update_self]

/-- After both blocks the second message array holds what the second block wrote. -/
theorem V3_v27 (c : Dev nD) : Gen.V3 m outs c (Proc.devRef .tc main_v27) = outs 3 main_v27 c := by
  show Function.update (Function.update (Gen.V1 m c) _ _) _ _ _ = _
  rw [Function.update_self]

/-- The blocks change no other buffer. -/
theorem V3_of_ne (c : Dev nD) (r : Ref sig .tc) (h26 : r ≠ main_v26) (h27 : r ≠ main_v27) :
    Gen.V3 m outs c (Proc.devRef .tc r) = Gen.V1 m c (Proc.devRef .tc r) := by
  show Function.update (Function.update (Gen.V1 m c) _ _) _ _ _ = _
  rw [Function.update_of_ne (StableHlo.devRef_ne_of_ne h27), Function.update_of_ne (StableHlo.devRef_ne_of_ne h26)]

/-- Before the second block only the first message array has changed. -/
theorem V2_of_ne (c : Dev nD) (r : Ref sig .tc) (h26 : r ≠ main_v26) :
    Gen.V2 m outs c (Proc.devRef .tc r) = Gen.V1 m c (Proc.devRef .tc r) := by
  show Function.update (Gen.V1 m c) _ _ _ = _
  rw [Function.update_of_ne (StableHlo.devRef_ne_of_ne h26)]

end Cert.KernelIdeal.Hand

end
-- ==== Proof.KHost0.lean ====
/-
  What the kernel program's first line of host operations leaves in the buffers the two message blocks read, as
  terms of the argument arrays: the gathered rows of the node table times the upper half of a weight (by the start
  rows read off row 1 of an edge-index pair, a negative one raised by the table's height), the lower half of the
  weight, and the bias viewed as one row; and that the line writes no argument array.
-/
import proofs.«106179_j53085795779158_2_alg».proof.Proof.Gen.KernelIdeal.Regions
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-- Row 1 of an edge-index pair as one column of start rows, a negative entry raised by 32768. -/
def startCol (idx : IVec S2x524288 32) : IVec S524288x1 32 :=
  broadcastInDim S524288x1 ![0] bcast_S524288_S524288x1_0
    (select
      (cmpi CmpIPredicate.slt
        (fun i => shapeCast S524288 (extractStridedSlice S1x524288 ![1, 0] idx slices_S2x524288_S1x524288_1_0) shapeCasts_S1x524288_S524288 i)
        (broadcastInDim S524288 ![] bcast_S_S524288 (constantI S_ 32 0#32)))
      (addi
        (fun i => shapeCast S524288 (extractStridedSlice S1x524288 ![1, 0] idx slices_S2x524288_S1x524288_1_0) shapeCasts_S1x524288_S524288 i)
        (broadcastInDim S524288 ![] bcast_S_S524288 (constantI S_ 32 32768#32)))
      fun i => shapeCast S524288 (extractStridedSlice S1x524288 ![1, 0] idx slices_S2x524288_S1x524288_1_0) shapeCasts_S1x524288_S524288 i)

/-- The node table times the upper half of a weight, its rows gathered at the start rows. -/
def gatheredProduct (x : FVec Ideal S32768x128 .f32) (w : FVec Ideal S256x128 .f32) (idx : IVec S2x524288 32) :
    FVec Ideal S524288x128 .f32 :=
  Host.gather gather_S32768x128_S524288x1_S524288x128_1_0_n_n_0_1_1128
    (Host.dotGeneral (F := Ideal) dot_S32768x128_S128x128_S32768x128_1_0_0_1_n_n none x
      (extractStridedSlice S128x128 ![0, 0] w slices_S256x128_S128x128_0_0))
    (startCol idx)

variable (V : Valuation τ sig (Elt Ideal))

theorem read_v14 : after hostOps0 V (Proc.devRef .tc main_v14)
    = gatheredProduct (V (Proc.devRef .tc main_arg0)) (V (Proc.devRef .tc main_arg7)) (V (Proc.devRef .tc main_arg1)) := by
  simp only [hostOps0]; after_results_simp; rfl

theorem read_v23 : after hostOps0 V (Proc.devRef .tc main_v23)
    = gatheredProduct (V (Proc.devRef .tc main_arg0)) (V (Proc.devRef .tc main_arg9)) (V (Proc.devRef .tc main_arg2)) := by
  simp only [hostOps0]; after_results_simp; rfl

theorem read_v1 : after hostOps0 V (Proc.devRef .tc main_v1)
    = extractStridedSlice S128x128 ![128, 0] (V (Proc.devRef .tc main_arg7)) slices_S256x128_S128x128_128_0 := by
  simp only [hostOps0]; after_results_simp

theorem read_v3 : after hostOps0 V (Proc.devRef .tc main_v3)
    = extractStridedSlice S128x128 ![128, 0] (V (Proc.devRef .tc main_arg9)) slices_S256x128_S128x128_128_0 := by
  simp only [hostOps0]; after_results_simp

theorem read_v24 : after hostOps0 V (Proc.devRef .tc main_v24)
    = shapeCast S1x128 (V (Proc.devRef .tc main_arg8)) shapeCasts_S128_S1x128 := by
  simp only [hostOps0]; after_results_simp; rfl

theorem read_v25 : after hostOps0 V (Proc.devRef .tc main_v25)
    = shapeCast S1x128 (V (Proc.devRef .tc main_arg10)) shapeCasts_S128_S1x128 := by
  simp only [hostOps0]; after_results_simp; rfl

end Cert.KernelIdeal.Hand

end
-- ==== Proof.LibGatherAxis0.lean ====
/-
  `stablehlo.gather` along axis 0 at one column of start indices, read at an index.

  What `x[idx]` lowers to when `idx : [E]` is viewed as `[E, 1]` (index_vector_dim 1): for a flat table
  `x : [N]` the result `[E]` (no offset axis), for a table of rows `x : [N, D]` the result `[E, D]`
  (offset axis 1, whole rows: slice sizes `[1, D]`). In both, result entry `e` (and column `k`) is the table at
  the row `idx[e, 0]` read as a signed integer and clamped into `[0, N - 1]` (and at column `k`).
-/
import Idealize.ShloMosaic.Lib.ValueIdx

noncomputable section

namespace Idealize.ShloMosaic.GatherAxis0

open Idealize.ShloMosaic Idealize.ShloMosaic.ValueIdx

variable {α : Type}

/-- The row of a table of `n` rows a start index reads: the word read signed, clamped into `[0, n - 1]`. -/
def row {w : Nat} (n : Nat) (hn : 0 < n) (x : BitVec w) : Fin n := ⟨min x.toInt.toNat (n - 1), by omega⟩

/-- The start-indices index `[e, 0]` of the result's row `e`. -/
abbrev colIdx {E : Nat} (e : Fin E) : (⟨2, ![E, 1]⟩ : Shape).Idx := ix2 e (⟨0, Nat.one_pos⟩ : Fin 1)

/-- The dimension numbers of a flat table `[N]` gathered at start indices `[E, 1]` into `[E]`. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into `[0, N - 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 (row N hN (idx (colIdx (y 0))))) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = colIdx (y 0) := by
    funext b; refine Fin.ext ?_
    match b with
    | ⟨0, _⟩ => rfl
    | ⟨1, _⟩ => rfl
  rw [hsi]
  rfl

/-- The dimension numbers of a table of rows `[N, D]` gathered whole-row at start indices `[E, 1]` into `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the table at the row `idx[e, 0]`, read signed and clamped into `[0, N - 1]`,
    and column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 (row N hN (idx (colIdx e))) k) := by
  unfold Host.gather
  congr 1
  funext a
  refine Fin.ext ?_
  match a with
  | ⟨0, _⟩ =>
    show (rowDims N D E wf).start (ix2 e k) idx 0 + (rowDims N D E wf).batchCoord (ix2 e k) 0
      + (rowDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e k) ⟨List.idxOf (0 : Fin 2) (rowDims N D E wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D E wf).start (ix2 e k) idx 1 + (rowDims N D E wf).batchCoord (ix2 e k) 1
      + (rowDims N D E wf).offCoord (ix2 e k) 1 = k.val
    rw [GatherDims.batchCoord_eq_zero _ _ _ List.not_mem_nil]
    unfold GatherDims.start
    rw [dif_neg (show (1 : Fin 2) ∉ (rowDims N D E wf).startIndexMap from
      fun h => absurd (List.mem_singleton.mp h) (show ¬ (1 : Fin 2) = 0 by decide))]
    simp only [Nat.add_zero, Nat.zero_add]
    unfold GatherDims.offCoord
    rw [dif_pos (show (1 : Fin 2) ∈ (rowDims N D E wf).sKept from
      (GatherDims.mem_sKept _ _).mpr ⟨fun h => absurd (List.mem_singleton.mp h) (show ¬ (1 : Fin 2) = 0 by decide), List.not_mem_nil⟩)]
    rfl

end Idealize.ShloMosaic.GatherAxis0

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.MsgBridge.lean ====
/-
  The two routes to the per-edge messages are the same function, at the extended reals.

  ONE ROUTE multiplies every node row by the upper half `w0` of the stacked weight first, gathers the product's rows at
  the edges' start nodes, and adds, edge by edge, the product of the edge's attributes with the lower half `w1` and the
  bias: the formula `G`. THE OTHER gathers the node rows, puts each beside its edge's attributes, multiplies the
  256-wide row by the whole stacked weight, adds the bias and keeps what is at least zero.

  At edge `e` and column `j`, with `r` the clamped start node of `e`, both are

      max (Σ_{k < 128} x[r, k] · w[k, j] + Σ_{k < 128} a[e, k] · w[128 + k, j] + b[j]) 0 :

  gathering rows commutes with a product on the right, and a sum over the 256 columns of the concatenated row splits
  into its two halves.
-/
import Idealize.ShloMosaic.Lib.ValueLayout
import proofs.«106179_j53085795779158_2_alg».proof.KernelIdeal
import proofs.«106179_j53085795779158_2_alg».proof.ReferenceIdeal
import proofs.«106179_j53085795779158_2_alg».proof.Proof.LibGatherAxis0
import proofs.«106179_j53085795779158_2_alg».proof.Proof.LibMatmulRows
import proofs.«106179_j53085795779158_2_alg».proof.Proof.LibRowOps
import proofs.«106179_j53085795779158_2_alg».proof.Proof.MsgSpec

noncomputable section

open scoped BigOperators

namespace Cert.Msg

open Idealize.ShloMosaic Idealize.ShloMosaic.ValueIdx

/-! ## Reading lemmas -/

/-- The host's product of an `a × b` by a `b × c` matrix over the shared axis, read at `(p, n)`: the sum of the
    exact products. -/
theorem dotGeneral_rows_apply {a b c : ℕ} {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![a, b]⟩ φ₁) (B : FVec Ideal ⟨2, ![b, c]⟩ φ₂) (p : Fin a) (n : Fin c) :
    FloatOps.dotGeneral d prec sched A B (ix2 p n) = ∑ k : Fin b, A (ix2 p k) * B (ix2 k n) :=
  (Ideal.dotGeneral_apply d prec sched A B (ix2 p n)).trans
    ((Ideal.matmul_constant_zero_apply d none A B (ix2 p n)).symm.trans
      (Cert.LibMatmulRows.matmul_rows_apply d hlc hrc hln hrn hlb hrb A B p n))

/-- Row `k` of the upper half of a stack of 256 rows. -/
def lo (k : Fin 128) : Fin 256 := ⟨k.val, by omega⟩
/-- Row `k` of the lower half: row `128 + k` of the stack. -/
def hi (k : Fin 128) : Fin 256 := ⟨128 + k.val, by omega⟩

/-- A sum over the 256 rows is the sum over the upper half plus the sum over the lower half. -/
theorem sum_lo_hi (f : Fin 256 → EReal) : ∑ k : Fin 256, f k = ∑ k : Fin 128, f (lo k) + ∑ k : Fin 128, f (hi k) :=
  sum_split_256 f

section Halves
variable {α : Type}

/-- The slice of the first 128 rows of a `256 × 128` array reads, at `(k, q)`, row `k`. -/
theorem slice_lo_apply (w : (⟨2, ![256, 128]⟩ : Shape).Idx → α)
    (h : (⟨2, ![256, 128]⟩ : Shape).Slices ![0, 0] ⟨2, ![128, 128]⟩) (k q : Fin 128) :
    extractStridedSlice ⟨2, ![128, 128]⟩ ![0, 0] w h (ix2 k q) = w (ix2 (lo k) q) := by
  refine extractStridedSlice_apply _ w h (ix2 k q) (ix2 (lo k) q) fun ax => ?_
  match ax with
  | ⟨0, _⟩ => show k.val = 0 + k.val; omega
  | ⟨1, _⟩ => show q.val = 0 + q.val; omega

/-- The slice of the last 128 rows of a `256 × 128` array reads, at `(k, q)`, row `128 + k`. -/
theorem slice_hi_apply (w : (⟨2, ![256, 128]⟩ : Shape).Idx → α)
    (h : (⟨2, ![256, 128]⟩ : Shape).Slices ![128, 0] ⟨2, ![128, 128]⟩) (k q : Fin 128) :
    extractStridedSlice ⟨2, ![128, 128]⟩ ![128, 0] w h (ix2 k q) = w (ix2 (hi k) q) := by
  refine extractStridedSlice_apply _ w h (ix2 k q) (ix2 (hi k) q) fun ax => ?_
  match ax with
  | ⟨0, _⟩ => show 128 + k.val = 128 + k.val; rfl
  | ⟨1, _⟩ => show q.val = 0 + q.val; omega

/-- Two `E × 128` arrays side by side read, at a column of the left half, the first. -/
theorem concat_lo_apply {E : ℕ} (u v : (⟨2, ![E, 128]⟩ : Shape).Idx → α)
    (h : Shape.Concatenates [(⟨2, ![E, 128]⟩ : Shape), ⟨2, ![E, 128]⟩] ⟨2, ![E, 256]⟩ 1) (e : Fin E) (k : Fin 128) :
    concatenate ⟨2, ![E, 256]⟩ 1 [⟨⟨2, ![E, 128]⟩, u⟩, ⟨⟨2, ![E, 128]⟩, v⟩] h (ix2 e (lo k)) = u (ix2 e k) := by
  refine concatenate_pair_apply_left 1 u v h (ix2 e (lo k)) rfl (ix2 e k) fun b => ?_
  match b with
  | ⟨0, _⟩ => rfl
  | ⟨1, _⟩ => rfl

/-- Two `E × 128` arrays side by side read, at a column of the right half, the second. -/
theorem concat_hi_apply {E : ℕ} (u v : (⟨2, ![E, 128]⟩ : Shape).Idx → α)
    (h : Shape.Concatenates [(⟨2, ![E, 128]⟩ : Shape), ⟨2, ![E, 128]⟩] ⟨2, ![E, 256]⟩ 1) (e : Fin E) (k : Fin 128) :
    concatenate ⟨2, ![E, 256]⟩ 1 [⟨⟨2, ![E, 128]⟩, u⟩, ⟨⟨2, ![E, 128]⟩, v⟩] h (ix2 e (hi k)) = v (ix2 e k) := by
  refine concatenate_pair_apply_right 1 u v h (ix2 e (hi k)) rfl rfl (ix2 e k) (fun b hb => ?_) ?_
  · match b with
    | ⟨0, _⟩ => rfl
    | ⟨1, _⟩ => exact absurd rfl hb
  · show k.val + 128 = 128 + k.val
    omega

end Halves

/-! ## The value both routes compute -/

/-- The message at edge `e`, column `j`, from the arguments themselves: `r` is the start node of `e`, its word read
    signed and clamped to the node range. -/
def msgAt (x : (⟨2, ![32768, 128]⟩ : Shape).Idx → EReal) (I : IVec ⟨2, ![524288, 1]⟩ 32)
    (a : (⟨2, ![524288, 128]⟩ : Shape).Idx → EReal) (w : (⟨2, ![256, 128]⟩ : Shape).Idx → EReal)
    (b : (⟨1, ![128]⟩ : Shape).Idx → EReal) (e : Fin 524288) (j : Fin 128) : EReal :=
  max (∑ k : Fin 128, x (ix2 (GatherAxis0.row 32768 (by decide) (I (GatherAxis0.colIdx e))) k) * w (ix2 (lo k) j)
    + ∑ k : Fin 128, a (ix2 e k) * w (ix2 (hi k) j) + b (ix1 j)) 0

section Routes
variable [Cert.KernelIdeal.Facts₀] [Cert.ReferenceIdeal.Facts₀]

/-- THE FIRST ROUTE at `(e, j)`: multiply by the upper half, gather, add the attributes' product and the bias. -/
theorem kernel_route_apply (x : FVec Ideal Cert.KernelIdeal.S32768x128 .f32) (I : IVec Cert.KernelIdeal.S524288x1 32)
    (a : FVec Ideal Cert.KernelIdeal.S524288x128 .f32) (w : FVec Ideal Cert.KernelIdeal.S256x128 .f32)
    (b : FVec Ideal Cert.KernelIdeal.S128 .f32) (e : Fin 524288) (j : Fin 128) :
    G (Host.gather Cert.KernelIdeal.gather_S32768x128_S524288x1_S524288x128_1_0_n_n_0_1_1128
        (Host.dotGeneral (F := Ideal) Cert.KernelIdeal.dot_S32768x128_S128x128_S32768x128_1_0_0_1_n_n none x
          (extractStridedSlice Cert.KernelIdeal.S128x128 ![0, 0] w Cert.KernelIdeal.Facts₀.slices_S256x128_S128x128_0_0)) I)
      a
      (extractStridedSlice Cert.KernelIdeal.S128x128 ![128, 0] w Cert.KernelIdeal.Facts₀.slices_S256x128_S128x128_128_0)
      (shapeCast Cert.KernelIdeal.S1x128 b Cert.KernelIdeal.Facts₀.shapeCasts_S128_S1x128) (ix2 e j)
      = msgAt x I a w b e j := by
  rw [G_apply]
  unfold msgAt
  have hg := GatherAxis0.gather_rows_apply (N := 32768) (D := 128) (E := 524288) (by decide)
    Cert.KernelIdeal.Facts₀.gather_S32768x128_S524288x1_S524288x128_1_0_n_n_0_1_1128_wf
    (Host.dotGeneral (F := Ideal) Cert.KernelIdeal.dot_S32768x128_S128x128_S32768x128_1_0_0_1_n_n none x
      (extractStridedSlice Cert.KernelIdeal.S128x128 ![0, 0] w Cert.KernelIdeal.Facts₀.slices_S256x128_S128x128_0_0)) I e j
  have hd := dotGeneral_rows_apply Cert.KernelIdeal.dot_S32768x128_S128x128_S32768x128_1_0_0_1_n_n rfl rfl rfl rfl rfl rfl
    none .single x
    (extractStridedSlice Cert.KernelIdeal.S128x128 ![0, 0] w Cert.KernelIdeal.Facts₀.slices_S256x128_S128x128_0_0)
    (GatherAxis0.row 32768 (by decide) (I (GatherAxis0.colIdx e))) j
  refine congrArg (fun z => max z 0) ?_
  refine congrArg₂ (· + ·) (congrArg₂ (· + ·) ?_ ?_) ?_
  · refine (hg.trans hd).trans (Finset.sum_congr rfl fun k _ => ?_)
    rw [slice_lo_apply]
  · refine Finset.sum_congr rfl fun k _ => ?_
    rw [slice_hi_apply]
  · exact shapeCast_a_1a_apply b _ 0 j

/-- THE SECOND ROUTE at `(e, j)`: gather, put beside the attributes, multiply by the whole stack, add the bias, keep
    what is at least zero. -/
theorem reference_route_apply (x : FVec Ideal Cert.ReferenceIdeal.S32768x128 .f32) (I : IVec Cert.ReferenceIdeal.S524288x1 32)
    (a : FVec Ideal Cert.ReferenceIdeal.S524288x128 .f32) (w : FVec Ideal Cert.ReferenceIdeal.S256x128 .f32)
    (b : FVec Ideal Cert.ReferenceIdeal.S128 .f32) (e : Fin 524288) (j : Fin 128) :
    maximumf
      (addf
        (Host.dotGeneral (F := Ideal) Cert.ReferenceIdeal.dot_S524288x256_S256x128_S524288x128_1_0_0_1_n_n none
          (concatenate Cert.ReferenceIdeal.S524288x256 1
            [⟨Cert.ReferenceIdeal.S524288x128,
              Host.gather Cert.ReferenceIdeal.gather_S32768x128_S524288x1_S524288x128_1_0_n_n_0_1_1128 x I⟩,
             ⟨Cert.ReferenceIdeal.S524288x128, a⟩]
            Cert.ReferenceIdeal.Facts₀.concatenates_S524288x128_S524288x128_S524288x256_d1) w)
        (broadcastInDim Cert.ReferenceIdeal.S524288x128 ![0, 1] Cert.ReferenceIdeal.Facts₀.bcast_S1x128_S524288x128_0_1
          (broadcastInDim Cert.ReferenceIdeal.S1x128 ![1] Cert.ReferenceIdeal.Facts₀.bcast_S128_S1x128_1 b)))
      (broadcastInDim Cert.ReferenceIdeal.S524288x128 ![] Cert.ReferenceIdeal.Facts₀.bcast_S_S524288x128
        (constant (F := Ideal) Cert.ReferenceIdeal.S_ .f32 0x00000000#32)) (ix2 e j)
      = msgAt x I a w b e j := by
  unfold msgAt
  rw [maximumf_apply, addf_apply]
  have hd := dotGeneral_rows_apply Cert.ReferenceIdeal.dot_S524288x256_S256x128_S524288x128_1_0_0_1_n_n rfl rfl rfl rfl rfl rfl
    none .single
    (concatenate Cert.ReferenceIdeal.S524288x256 1
      [⟨Cert.ReferenceIdeal.S524288x128,
        Host.gather Cert.ReferenceIdeal.gather_S32768x128_S524288x1_S524288x128_1_0_n_n_0_1_1128 x I⟩,
       ⟨Cert.ReferenceIdeal.S524288x128, a⟩]
      Cert.ReferenceIdeal.Facts₀.concatenates_S524288x128_S524288x128_S524288x256_d1) w e j
  refine congrArg₂ max (congrArg₂ (· + ·) ?_ ?_) ?_
  · refine (hd.trans (sum_lo_hi _)).trans (congrArg₂ (· + ·) ?_ ?_)
    · refine Finset.sum_congr rfl fun k _ => ?_
      rw [concat_lo_apply]
      exact congrArg (· * w (ix2 (lo k) j))
        (GatherAxis0.gather_rows_apply (N := 32768) (D := 128) (E := 524288) (by decide)
          Cert.ReferenceIdeal.Facts₀.gather_S32768x128_S524288x1_S524288x128_1_0_n_n_0_1_1128_wf x I e k)
    · refine Finset.sum_congr rfl fun k _ => ?_
      rw [concat_hi_apply]
  · exact (Cert.LibRowOps.broadcastInDim_1b_ab_apply _ _ e j).trans (Cert.LibRowOps.broadcastInDim_b_1b_apply _ b 0 j)
  · exact (Cert.LibRowOps.broadcastInDim_scalar_apply _ _ (ix2 e j)).trans Ideal.ofBits_zero_f32

/-- THE TWO ROUTES ARE ONE FUNCTION. -/
theorem msg_eq (x : FVec Ideal Cert.KernelIdeal.S32768x128 .f32) (I : IVec Cert.KernelIdeal.S524288x1 32)
    (a : FVec Ideal Cert.KernelIdeal.S524288x128 .f32) (w : FVec Ideal Cert.KernelIdeal.S256x128 .f32)
    (b : FVec Ideal Cert.KernelIdeal.S128 .f32) :
    G (Host.gather Cert.KernelIdeal.gather_S32768x128_S524288x1_S524288x128_1_0_n_n_0_1_1128
        (Host.dotGeneral (F := Ideal) Cert.KernelIdeal.dot_S32768x128_S128x128_S32768x128_1_0_0_1_n_n none x
          (extractStridedSlice Cert.KernelIdeal.S128x128 ![0, 0] w Cert.KernelIdeal.Facts₀.slices_S256x128_S128x128_0_0)) I)
      a
      (extractStridedSlice Cert.KernelIdeal.S128x128 ![128, 0] w Cert.KernelIdeal.Facts₀.slices_S256x128_S128x128_128_0)
      (shapeCast Cert.KernelIdeal.S1x128 b Cert.KernelIdeal.Facts₀.shapeCasts_S128_S1x128)
      = maximumf
          (addf
            (Host.dotGeneral (F := Ideal) Cert.ReferenceIdeal.dot_S524288x256_S256x128_S524288x128_1_0_0_1_n_n none
              (concatenate Cert.ReferenceIdeal.S524288x256 1
                [⟨Cert.ReferenceIdeal.S524288x128,
                  Host.gather Cert.ReferenceIdeal.gather_S32768x128_S524288x1_S524288x128_1_0_n_n_0_1_1128 x I⟩,
                 ⟨Cert.ReferenceIdeal.S524288x128, a⟩]
                Cert.ReferenceIdeal.Facts₀.concatenates_S524288x128_S524288x128_S524288x256_d1) w)
            (broadcastInDim Cert.ReferenceIdeal.S524288x128 ![0, 1] Cert.ReferenceIdeal.Facts₀.bcast_S1x128_S524288x128_0_1
              (broadcastInDim Cert.ReferenceIdeal.S1x128 ![1] Cert.ReferenceIdeal.Facts₀.bcast_S128_S1x128_1 b)))
          (broadcastInDim Cert.ReferenceIdeal.S524288x128 ![] Cert.ReferenceIdeal.Facts₀.bcast_S_S524288x128
            (constant (F := Ideal) Cert.ReferenceIdeal.S_ .f32 0x00000000#32)) := by
  funext i
  rw [eq_ix2 i]
  exact (kernel_route_apply x I a w b _ _).trans (reference_route_apply x I a w b _ _).symm

end Routes

end Cert.Msg

end
-- ==== Proof.MsgAgree.lean ====
/-
  The message arrays of the two programs agree, as the contents their host operations leave.

  The reference's first fifteen statements leave, in the buffer of its first rectifier's result, the second route
  of MsgBridge applied to its argument arrays, with the column of start rows read off row 1 of the first edge-index
  pair; its statements up to the second rectifier leave the same over the second pair, the second weight and the
  second bias. The kernel program's first line of host operations leaves the pieces of the first route. Where the
  argument arrays agree, the formula `G` of the kernel's pieces is therefore the reference's buffer.
-/
import proofs.«106179_j53085795779158_2_alg».proof.Proof.KHost0
import proofs.«106179_j53085795779158_2_alg».proof.Proof.RefOps
import proofs.«106179_j53085795779158_2_alg».proof.Proof.MsgBridge

noncomputable section

namespace Cert.Msg

open Idealize.ShloMosaic Idealize.ShloMosaic.TcCoe Idealize.SL.Sem Idealize.ShloMosaic.StableHlo

/-! ## The reference's terms -/

section Reference
open Cert.ReferenceIdeal Cert.ReferenceIdeal.Gen

/-- Row 1 of an edge-index pair as one column of start rows, a negative entry raised by 32768: the reference's
    statements %0 to %7. -/
def startColR (idx : IVec S2x524288 32) : IVec S524288x1 32 :=
  broadcastInDim S524288x1 ![0] bcast_S524288_S524288x1_0
    (select
      (cmpi CmpIPredicate.slt
        (fun i => shapeCast S524288 (extractStridedSlice S1x524288 ![1, 0] idx slices_S2x524288_S1x524288_1_0) shapeCasts_S1x524288_S524288 i)
        (broadcastInDim S524288 ![] bcast_S_S524288 (constantI S_ 32 0#32)))
      (addi
        (fun i => shapeCast S524288 (extractStridedSlice S1x524288 ![1, 0] idx slices_S2x524288_S1x524288_1_0) shapeCasts_S1x524288_S524288 i)
        (broadcastInDim S524288 ![] bcast_S_S524288 (constantI S_ 32 32768#32)))
      fun i => shapeCast S524288 (extractStridedSlice S1x524288 ![1, 0] idx slices_S2x524288_S1x524288_1_0) shapeCasts_S1x524288_S524288 i)

/-- The reference's messages over one edge set: gather the node rows at the start rows, put each beside its edge's
    attributes, multiply by the stacked weight, add the bias, keep what is at least zero. -/
def refMsg (x : FVec Ideal S32768x128 .f32) (w : FVec Ideal S256x128 .f32) (idx : IVec S2x524288 32)
    (a : FVec Ideal S524288x128 .f32) (b : FVec Ideal S128 .f32) : FVec Ideal S524288x128 .f32 :=
  maximumf
    (addf
      (Host.dotGeneral (F := Ideal) dot_S524288x256_S256x128_S524288x128_1_0_0_1_n_n none
        (concatenate S524288x256 1
          [⟨S524288x128, Host.gather gather_S32768x128_S524288x1_S524288x128_1_0_n_n_0_1_1128 x (startColR idx)⟩,
           ⟨S524288x128, a⟩]
          concatenates_S524288x128_S524288x128_S524288x256_d1) w)
      (broadcastInDim S524288x128 ![0, 1] bcast_S1x128_S524288x128_0_1 (broadcastInDim S1x128 ![1] bcast_S128_S1x128_1 b)))
    (broadcastInDim S524288x128 ![] bcast_S_S524288x128 (constant (F := Ideal) S_ .f32 0x00000000#32))

variable (V : Valuation τ sig (Elt Ideal))

/-- What the reference's statements up to its first rectifier leave in that rectifier's result. -/
theorem read_up : after Cert.ReferenceIdeal.Hand.opsUp V (Proc.devRef .tc main_v14)
    = refMsg (V (Proc.devRef .tc main_arg0)) (V (Proc.devRef .tc main_arg7)) (V (Proc.devRef .tc main_arg1))
        (V (Proc.devRef .tc main_arg4)) (V (Proc.devRef .tc main_arg8)) := by
  simp only [Cert.ReferenceIdeal.Hand.opsUp]; after_results_simp; rfl

/-- What the reference's statements up to its second rectifier leave in that rectifier's result. -/
theorem read_dn : after (Cert.ReferenceIdeal.Hand.opsUp ++ Cert.ReferenceIdeal.Hand.opsUpS ++ Cert.ReferenceIdeal.Hand.opsDn) V
      (Proc.devRef .tc main_v34)
    = refMsg (V (Proc.devRef .tc main_arg0)) (V (Proc.devRef .tc main_arg9)) (V (Proc.devRef .tc main_arg2))
        (V (Proc.devRef .tc main_arg5)) (V (Proc.devRef .tc main_arg10)) := by
  simp only [Cert.ReferenceIdeal.Hand.opsUp, Cert.ReferenceIdeal.Hand.opsUpS, Cert.ReferenceIdeal.Hand.opsDn,
    List.cons_append, List.nil_append]
  after_results_simp; rfl

end Reference

/-! ## The two routes over the argument arrays -/

/-- The first route's pieces, as the kernel program's host operations compute them from the argument arrays, put
    through `G`, are the reference's messages of the same arrays. -/
theorem route_eq (x : FVec Ideal Cert.KernelIdeal.S32768x128 .f32) (w : FVec Ideal Cert.KernelIdeal.S256x128 .f32)
    (idx : IVec Cert.KernelIdeal.S2x524288 32) (a : FVec Ideal Cert.KernelIdeal.S524288x128 .f32)
    (b : FVec Ideal Cert.KernelIdeal.S128 .f32) :
    G (Cert.KernelIdeal.Hand.gatheredProduct x w idx) a
      (extractStridedSlice Cert.KernelIdeal.S128x128 ![128, 0] w Cert.KernelIdeal.Gen.slices_S256x128_S128x128_128_0)
      (shapeCast Cert.KernelIdeal.S1x128 b Cert.KernelIdeal.Gen.shapeCasts_S128_S1x128)
      = refMsg x w idx a b :=
  msg_eq x (Cert.KernelIdeal.Hand.startCol idx) a w b

/-! ## The agreement -/

/-- THE "UP" MESSAGES AGREE. -/
theorem up_agree (VK : Valuation Cert.KernelIdeal.τ Cert.KernelIdeal.sig (Elt Ideal))
    (VR : Valuation Cert.ReferenceIdeal.τ Cert.ReferenceIdeal.sig (Elt Ideal))
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1))
    (h4 : VK (Proc.devRef .tc Cert.KernelIdeal.main_arg4) = VR (Proc.devRef .tc Cert.ReferenceIdeal.main_arg4))
    (h7 : VK (Proc.devRef .tc Cert.KernelIdeal.main_arg7) = VR (Proc.devRef .tc Cert.ReferenceIdeal.main_arg7))
    (h8 : VK (Proc.devRef .tc Cert.KernelIdeal.main_arg8) = VR (Proc.devRef .tc Cert.ReferenceIdeal.main_arg8)) :
    G (after Cert.KernelIdeal.Gen.hostOps0 VK (Proc.devRef .tc Cert.KernelIdeal.main_v14))
        (VK (Proc.devRef .tc Cert.KernelIdeal.main_arg4))
        (after Cert.KernelIdeal.Gen.hostOps0 VK (Proc.devRef .tc Cert.KernelIdeal.main_v1))
        (after Cert.KernelIdeal.Gen.hostOps0 VK (Proc.devRef .tc Cert.KernelIdeal.main_v24))
      = after Cert.ReferenceIdeal.Hand.opsUp VR (Proc.devRef .tc Cert.ReferenceIdeal.main_v14) := by
  rw [Cert.KernelIdeal.Hand.read_v14, Cert.KernelIdeal.Hand.read_v1, Cert.KernelIdeal.Hand.read_v24, read_up VR,
    ← h0, ← h1, ← h4, ← h7, ← h8]
  exact route_eq _ _ _ _ _

/-- THE "DOWN" MESSAGES AGREE. -/
theorem dn_agree (VK : Valuation Cert.KernelIdeal.τ Cert.KernelIdeal.sig (Elt Ideal))
    (VR : Valuation Cert.ReferenceIdeal.τ Cert.ReferenceIdeal.sig (Elt Ideal))
    (h0 : VK (Proc.devRef .tc Cert.KernelIdeal.main_arg0) = VR (Proc.devRef .tc Cert.ReferenceIdeal.main_arg0))
    (h2 : VK (Proc.devRef .tc Cert.KernelIdeal.main_arg2) = VR (Proc.devRef .tc Cert.ReferenceIdeal.main_arg2))
    (h5 : VK (Proc.devRef .tc Cert.KernelIdeal.main_arg5) = VR (Proc.devRef .tc Cert.ReferenceIdeal.main_arg5))
    (h9 : VK (Proc.devRef .tc Cert.KernelIdeal.main_arg9) = VR (Proc.devRef .tc Cert.ReferenceIdeal.main_arg9))
    (h10 : VK (Proc.devRef .tc Cert.KernelIdeal.main_arg10) = VR (Proc.devRef .tc Cert.ReferenceIdeal.main_arg10)) :
    G (after Cert.KernelIdeal.Gen.hostOps0 VK (Proc.devRef .tc Cert.KernelIdeal.main_v23))
        (VK (Proc.devRef .tc Cert.KernelIdeal.main_arg5))
        (after Cert.KernelIdeal.Gen.hostOps0 VK (Proc.devRef .tc Cert.KernelIdeal.main_v3))
        (after Cert.KernelIdeal.Gen.hostOps0 VK (Proc.devRef .tc Cert.KernelIdeal.main_v25))
      = after (Cert.ReferenceIdeal.Hand.opsUp ++ Cert.ReferenceIdeal.Hand.opsUpS ++ Cert.ReferenceIdeal.Hand.opsDn) VR
          (Proc.devRef .tc Cert.ReferenceIdeal.main_v34) := by
  rw [Cert.KernelIdeal.Hand.read_v23, Cert.KernelIdeal.Hand.read_v3, Cert.KernelIdeal.Hand.read_v25, read_dn VR,
    ← h0, ← h2, ← h5, ← h9, ← h10]
  exact route_eq _ _ _ _ _

end Cert.Msg

end
-- ==== Proof.ChunkListsK.lean ====
/- The kernel program's host operations after its second message block, cut into four consecutive literal lists (the entries as the program's own lists
   hostOps2, hostOps2_1 … hostOps2_11 have them, in order); in a row they are that whole stretch. -/
import proofs.«106179_j53085795779158_2_alg».proof.Proof.KGlue
import proofs.«106179_j53085795779158_2_alg».proof.Proof.Gen.KernelIdeal.Launch

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- Chunk 1 of the stretch: up to the three branches stacked along a new leading axis (last written: `main_v58`). 36 operations. -/
abbrev tailK1 : List (HloOp τ sig (Elt F)) :=
  [ StableHlo.unary main_arg1 main_v28 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v28 main_v29 rfl shapeCasts_S1x524288_S524288,
    StableHlo.nullary main_cst (constant S_ .f32 0x00000000#32),
    StableHlo.unary main_cst main_v30 (broadcastInDim S32768x128 ![] bcast_S_S32768x128 : (⟨S_, .f32⟩ : BufTy).Contents (Elt F) → (⟨S32768x128, .f32⟩ : BufTy).Contents (Elt F)),
    StableHlo.unary main_v29 main_v31 (broadcastInDim S524288x1 ![0] bcast_S524288_S524288x1_0 : (⟨S524288, .i32⟩ : BufTy).Contents (Elt F) → (⟨S524288x1, .i32⟩ : BufTy).Contents (Elt F)),
    StableHlo.ternary main_v30 main_v31 main_v26 main_v32 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    StableHlo.unary main_arg2 main_v33 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v33 main_v34 rfl shapeCasts_S1x524288_S524288,
    StableHlo.nullary main_cst_3 (constant S_ .f32 0x00000000#32),
    StableHlo.unary main_cst_3 main_v35 (broadcastInDim S32768x128 ![] bcast_S_S32768x128 : (⟨S_, .f32⟩ : BufTy).Contents (Elt F) → (⟨S32768x128, .f32⟩ : BufTy).Contents (Elt F)),
    StableHlo.unary main_v34 main_v36 (broadcastInDim S524288x1 ![0] bcast_S524288_S524288x1_0 : (⟨S524288, .i32⟩ : BufTy).Contents (Elt F) → (⟨S524288x1, .i32⟩ : BufTy).Contents (Elt F)),
    StableHlo.ternary main_v35 main_v36 main_v27 main_v37 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    StableHlo.unary main_arg3 main_v38 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v38 main_v39 rfl shapeCasts_S1x131072_S131072,
    StableHlo.nullary main_c_4 (constantI S_ 32 0#32),
    StableHlo.unary main_c_4 main_v40 (broadcastInDim S131072 ![] bcast_S_S131072 : (⟨S_, .i32⟩ : BufTy).Contents (Elt F) → (⟨S131072, .i32⟩ : BufTy).Contents (Elt F)),
    StableHlo.binary main_v39 main_v40 main_v41 (cmpi .slt : (⟨S131072, .i32⟩ : BufTy).Contents (Elt F) → (⟨S131072, .i32⟩ : BufTy).Contents (Elt F) → (⟨S131072, .i1⟩ : BufTy).Contents (Elt F)),
    StableHlo.nullary main_c_5 (constantI S_ 32 32768#32),
    StableHlo.unary main_c_5 main_v42 (broadcastInDim S131072 ![] bcast_S_S131072 : (⟨S_, .i32⟩ : BufTy).Contents (Elt F) → (⟨S131072, .i32⟩ : BufTy).Contents (Elt F)),
    StableHlo.binary main_v39 main_v42 main_v43 (addi : (⟨S131072, .i32⟩ : BufTy).Contents (Elt F) → (⟨S131072, .i32⟩ : BufTy).Contents (Elt F) → (⟨S131072, .i32⟩ : BufTy).Contents (Elt F)),
    StableHlo.ternary main_v41 main_v43 main_v39 main_v44 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v44 main_v45 (broadcastInDim S131072x1 ![0] bcast_S131072_S131072x1_0 : (⟨S131072, .i32⟩ : BufTy).Contents (Elt F) → (⟨S131072x1, .i32⟩ : BufTy).Contents (Elt F)),
    StableHlo.binary main_arg6 main_v45 main_v46 ((fun x i => Host.gather gather_S32768x128_S131072x1_S131072x128_1_0_n_n_0_1_1128 x i) : (⟨S32768x128, .f32⟩ : BufTy).Contents (Elt F) → (⟨S131072x1, .i32⟩ : BufTy).Contents (Elt F) → (⟨S131072x128, .f32⟩ : BufTy).Contents (Elt F)),
    StableHlo.unary main_arg3 main_v47 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v47 main_v48 rfl shapeCasts_S1x131072_S131072,
    StableHlo.nullary main_cst_6 (constant S_ .f32 0x00000000#32),
    StableHlo.unary main_cst_6 main_v49 (broadcastInDim S32768x128 ![] bcast_S_S32768x128 : (⟨S_, .f32⟩ : BufTy).Contents (Elt F) → (⟨S32768x128, .f32⟩ : BufTy).Contents (Elt F)),
    StableHlo.unary main_v48 main_v50 (broadcastInDim S131072x1 ![0] bcast_S131072_S131072x1_0 : (⟨S131072, .i32⟩ : BufTy).Contents (Elt F) → (⟨S131072x1, .i32⟩ : BufTy).Contents (Elt F)),
    StableHlo.ternary main_v49 main_v50 main_v46 main_v51 ((fun x i u => Host.scatterAdd scatter_S32768x128_S131072x1_S131072x128_1_0_0_1 x i u) : (⟨S32768x128, .f32⟩ : BufTy).Contents (Elt F) → (⟨S131072x1, .i32⟩ : BufTy).Contents (Elt F) → (⟨S131072x128, .f32⟩ : BufTy).Contents (Elt F) → (⟨S32768x128, .f32⟩ : BufTy).Contents (Elt F)),
    StableHlo.binary main_v32 main_arg0 main_v52 (addf : (⟨S32768x128, .f32⟩ : BufTy).Contents (Elt F) → (⟨S32768x128, .f32⟩ : BufTy).Contents (Elt F) → (⟨S32768x128, .f32⟩ : BufTy).Contents (Elt F)),
    StableHlo.binary main_v37 main_arg0 main_v53 (addf : (⟨S32768x128, .f32⟩ : BufTy).Contents (Elt F) → (⟨S32768x128, .f32⟩ : BufTy).Contents (Elt F) → (⟨S32768x128, .f32⟩ : BufTy).Contents (Elt F)),
    StableHlo.binary main_v51 main_arg0 main_v54 (addf : (⟨S32768x128, .f32⟩ : BufTy).Contents (Elt F) → (⟨S32768x128, .f32⟩ : BufTy).Contents (Elt F) → (⟨S32768x128, .f32⟩ : BufTy).Contents (Elt F)),
    StableHlo.unary main_v52 main_v55 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v53 main_v56 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v54 main_v57 (broadcastInDim S1x32768x128 ![1, 2] bcast_S32768x128_S1x32768x128_1_2 : (⟨S32768x128, .f32⟩ : BufTy).Contents (Elt F) → (⟨S1x32768x128, .f32⟩ : BufTy).Contents (Elt F)),
    StableHlo.nary ![main_v55, main_v56, main_v57] main_v58 (fun u => concatenate S3x32768x128 0 [⟨S1x32768x128, u 0⟩, ⟨S1x32768x128, u 1⟩, ⟨S1x32768x128, u 2⟩] concatenates_S1x32768x128_S1x32768x128_S1x32768x128_S3x32768x128_d0) ]

/-- Chunk 2 of the stretch: the first normalised batched layer, through its rectifier (last written: `main_v81`). 51 operations. -/
abbrev tailK2 : List (HloOp τ sig (Elt F)) :=
  [ StableHlo.binary main_v58 main_arg11 main_v59 ((fun l r => Host.dotGeneral dot_S3x32768x128_S3x128x128_S3x32768x128_2_1_1_2_0_0 none l r) : (⟨S3x32768x128, .f32⟩ : BufTy).Contents (Elt F) → (⟨S3x128x128, .f32⟩ : BufTy).Contents (Elt F) → (⟨S3x32768x128, .f32⟩ : BufTy).Contents (Elt F)),
    StableHlo.unary main_arg12 main_v60 (broadcastInDim S3x1x128 ![0, 2] bcast_S3x128_S3x1x128_0_2 : (⟨S3x128, .f32⟩ : BufTy).Contents (Elt F) → (⟨S3x1x128, .f32⟩ : BufTy).Contents (Elt F)),
    StableHlo.unary main_v60 main_v61 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v59 main_v61 main_v62 (addf : (⟨S3x32768x128, .f32⟩ : BufTy).Contents (Elt F) → (⟨S3x32768x128, .f32⟩ : BufTy).Contents (Elt F) → (⟨S3x32768x128, .f32⟩ : BufTy).Contents (Elt F)),
    StableHlo.unary main_arg13 main_v63 (broadcastInDim S3x1x128 ![0, 2] bcast_S3x128_S3x1x128_0_2 : (⟨S3x128, .f32⟩ : BufTy).Contents (Elt F) → (⟨S3x1x128, .f32⟩ : BufTy).Contents (Elt F)),
    StableHlo.unary main_arg14 main_v64 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_7 (constant S_ .f32 0x00000000#32),
    StableHlo.binary main_v62 main_cst_7 main_v65 ((fun x v => Host.reduceAdd x v reducesTo_S3x32768x128_S3x128_d1 h_S_) : (⟨S3x32768x128, .f32⟩ : BufTy).Contents (Elt F) → (⟨S_, .f32⟩ : BufTy).Contents (Elt F) → (⟨S3x128, .f32⟩ : BufTy).Contents (Elt F)),
    StableHlo.unary main_v65 main_v66 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_8 (constant S_ .f32 0x47000000#32),
    StableHlo.unary main_cst_8 main_v67 (broadcastInDim S3x1x128 ![] bcast_S_S3x1x128 : (⟨S_, .f32⟩ : BufTy).Contents (Elt F) → (⟨S3x1x128, .f32⟩ : BufTy).Contents (Elt F)),
    StableHlo.binary main_v66 main_v67 main_v68 (Host.divf : (⟨S3x1x128, .f32⟩ : BufTy).Contents (Elt F) → (⟨S3x1x128, .f32⟩ : BufTy).Contents (Elt F) → (⟨S3x1x128, .f32⟩ : BufTy).Contents (Elt F)),
    StableHlo.nullary main_c_9 (constantI S_ 32 0#32),
    StableHlo.TRef.nullary (.of main_call0_cst : StableHlo.TRef sig ⟨S_, .f32⟩) (constant S_ .f32 0x00000000#32),
    StableHlo.TRef.binary (.of main_v62 : StableHlo.TRef sig ⟨S3x32768x128, .f32⟩) (.of main_call0_cst : StableHlo.TRef sig ⟨S_, .f32⟩) (.of main_call0_v0 : StableHlo.TRef sig ⟨S3x128, .f32⟩) (fun x v => Host.reduceAdd x v reducesTo_S3x32768x128_S3x128_d1 h_S_),
    StableHlo.TRef.unary (.of main_call0_v0 : StableHlo.TRef sig ⟨S3x128, .f32⟩) (.of main_call0_v1 : StableHlo.TRef sig ⟨S3x1x128, .f32⟩) (broadcastInDim S3x1x128 ![0, 2] bcast_S3x128_S3x1x128_0_2),
    StableHlo.TRef.nullary (.of main_call0_cst_0 : StableHlo.TRef sig ⟨S_, .f32⟩) (constant S_ .f32 0x47000000#32),
    StableHlo.TRef.unary (.of main_call0_cst_0 : StableHlo.TRef sig ⟨S_, .f32⟩) (.of main_call0_v2 : StableHlo.TRef sig ⟨S3x1x128, .f32⟩) (broadcastInDim S3x1x128 ![] bcast_S_S3x1x128),
    StableHlo.TRef.binary (.of main_call0_v1 : StableHlo.TRef sig ⟨S3x1x128, .f32⟩) (.of main_call0_v2 : StableHlo.TRef sig ⟨S3x1x128, .f32⟩) (.of main_call0_v3 : StableHlo.TRef sig ⟨S3x1x128, .f32⟩) Host.divf,
    StableHlo.TRef.unary (.of main_call0_v3 : StableHlo.TRef sig ⟨S3x1x128, .f32⟩) (.of main_call0_v4 : StableHlo.TRef sig ⟨S3x32768x128, .f32⟩) (broadcastInDim S3x32768x128 ![0, 1, 2] bcast_S3x1x128_S3x32768x128_0_1_2),
    StableHlo.TRef.binary (.of main_v62 : StableHlo.TRef sig ⟨S3x32768x128, .f32⟩) (.of main_call0_v4 : StableHlo.TRef sig ⟨S3x32768x128, .f32⟩) (.of main_call0_v5 : StableHlo.TRef sig ⟨S3x32768x128, .f32⟩) subf,
    StableHlo.TRef.binary (.of main_call0_v5 : StableHlo.TRef sig ⟨S3x32768x128, .f32⟩) (.of main_call0_v5 : StableHlo.TRef sig ⟨S3x32768x128, .f32⟩) (.of main_call0_v6 : StableHlo.TRef sig ⟨S3x32768x128, .f32⟩) mulf,
    StableHlo.TRef.unary (.of main_c_9 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S3x32768x128, .f32⟩) (.of main_call0_cst_2 : StableHlo.TRef sig ⟨S_, .f32⟩) (.of main_call0_v9 : StableHlo.TRef sig ⟨S3x128, .f32⟩) (fun x v => Host.reduceAdd x v reducesTo_S3x32768x128_S3x128_d1 h_S_),
    StableHlo.TRef.unary (.of main_call0_v9 : StableHlo.TRef sig ⟨S3x128, .f32⟩) (.of main_call0_v10 : StableHlo.TRef sig ⟨S3x1x128, .f32⟩) (broadcastInDim S3x1x128 ![0, 2] bcast_S3x128_S3x1x128_0_2),
    StableHlo.TRef.unary (.of main_call0_v8 : StableHlo.TRef sig ⟨S_, .f32⟩) (.of main_call0_v11 : StableHlo.TRef sig ⟨S3x1x128, .f32⟩) (broadcastInDim S3x1x128 ![] bcast_S_S3x1x128),
    StableHlo.TRef.binary (.of main_call0_v10 : StableHlo.TRef sig ⟨S3x1x128, .f32⟩) (.of main_call0_v11 : StableHlo.TRef sig ⟨S3x1x128, .f32⟩) (.of main_call0_v12 : StableHlo.TRef sig ⟨S3x1x128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S3x1x128, .f32⟩) (broadcastInDim S3x1x128 ![] bcast_S_S3x1x128),
    StableHlo.TRef.ternary (.of main_call0_v13 : StableHlo.TRef sig ⟨S_, .i1⟩) (.of main_call0_v12 : StableHlo.TRef sig ⟨S3x1x128, .f32⟩) (.of main_call0_call0_v1 : StableHlo.TRef sig ⟨S3x1x128, .f32⟩) (.of main_v69 : StableHlo.TRef sig ⟨S3x1x128, .f32⟩) (fun p a b => select (broadcastInDim S3x1x128 ![] bcast_S_S3x1x128 p) a b),
    StableHlo.unary main_v68 main_v70 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v62 main_v70 main_v71 (subf : (⟨S3x32768x128, .f32⟩ : BufTy).Contents (Elt F) → (⟨S3x32768x128, .f32⟩ : BufTy).Contents (Elt F) → (⟨S3x32768x128, .f32⟩ : BufTy).Contents (Elt F)),
    StableHlo.nullary main_cst_10 (constant S_ .f32 0x3727C5AC#32),
    StableHlo.unary main_cst_10 main_v72 (broadcastInDim S3x1x128 ![] bcast_S_S3x1x128 : (⟨S_, .f32⟩ : BufTy).Contents (Elt F) → (⟨S3x1x128, .f32⟩ : BufTy).Contents (Elt F)),
    StableHlo.binary main_v69 main_v72 main_v73 (addf : (⟨S3x1x128, .f32⟩ : BufTy).Contents (Elt F) → (⟨S3x1x128, .f32⟩ : BufTy).Contents (Elt F) → (⟨S3x1x128, .f32⟩ : BufTy).Contents (Elt F)),
    StableHlo.unary main_v73 main_v74 (Host.rsqrt : (⟨S3x1x128, .f32⟩ : BufTy).Contents (Elt F) → (⟨S3x1x128, .f32⟩ : BufTy).Contents (Elt F)),
    StableHlo.unary main_v74 main_v75 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v71 main_v75 main_v76 (mulf : (⟨S3x32768x128, .f32⟩ : BufTy).Contents (Elt F) → (⟨S3x32768x128, .f32⟩ : BufTy).Contents (Elt F) → (⟨S3x32768x128, .f32⟩ : BufTy).Contents (Elt F)),
    StableHlo.unary main_v63 main_v77 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v76 main_v77 main_v78 (mulf : (⟨S3x32768x128, .f32⟩ : BufTy).Contents (Elt F) → (⟨S3x32768x128, .f32⟩ : BufTy).Contents (Elt F) → (⟨S3x32768x128, .f32⟩ : BufTy).Contents (Elt F)),
    StableHlo.unary main_v64 main_v79 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v78 main_v79 main_v80 (addf : (⟨S3x32768x128, .f32⟩ : BufTy).Contents (Elt F) → (⟨S3x32768x128, .f32⟩ : BufTy).Contents (Elt F) → (⟨S3x32768x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S3x32768x128, .f32⟩) (broadcastInDim S3x32768x128 ![] bcast_S_S3x32768x128),
    StableHlo.TRef.binary (.of main_v80 : StableHlo.TRef sig ⟨S3x32768x128, .f32⟩) (.of main_call1_v0 : StableHlo.TRef sig ⟨S3x32768x128, .f32⟩) (.of main_v81 : StableHlo.TRef sig ⟨S3x32768x128, .f32⟩) maximumf ]

/-- Chunk 3 of the stretch: the second normalised batched layer, through its rectifier (last written: `main_v104`). 51 operations. -/
abbrev tailK3 : List (HloOp τ sig (Elt F)) :=
  [ StableHlo.binary main_v81 main_arg15 main_v82 ((fun l r => Host.dotGeneral dot_S3x32768x128_S3x128x128_S3x32768x128_2_1_1_2_0_0 none l r) : (⟨S3x32768x128, .f32⟩ : BufTy).Contents (Elt F) → (⟨S3x128x128, .f32⟩ : BufTy).Contents (Elt F) → (⟨S3x32768x128, .f32⟩ : BufTy).Contents (Elt F)),
    StableHlo.unary main_arg16 main_v83 (broadcastInDim S3x1x128 ![0, 2] bcast_S3x128_S3x1x128_0_2 : (⟨S3x128, .f32⟩ : BufTy).Contents (Elt F) → (⟨S3x1x128, .f32⟩ : BufTy).Contents (Elt F)),
    StableHlo.unary main_v83 main_v84 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v82 main_v84 main_v85 (addf : (⟨S3x32768x128, .f32⟩ : BufTy).Contents (Elt F) → (⟨S3x32768x128, .f32⟩ : BufTy).Contents (Elt F) → (⟨S3x32768x128, .f32⟩ : BufTy).Contents (Elt F)),
    StableHlo.unary main_arg17 main_v86 (broadcastInDim S3x1x128 ![0, 2] bcast_S3x128_S3x1x128_0_2 : (⟨S3x128, .f32⟩ : BufTy).Contents (Elt F) → (⟨S3x1x128, .f32⟩ : BufTy).Contents (Elt F)),
    StableHlo.unary main_arg18 main_v87 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_11 (constant S_ .f32 0x00000000#32),
    StableHlo.binary main_v85 main_cst_11 main_v88 ((fun x v => Host.reduceAdd x v reducesTo_S3x32768x128_S3x128_d1 h_S_) : (⟨S3x32768x128, .f32⟩ : BufTy).Contents (Elt F) → (⟨S_, .f32⟩ : BufTy).Contents (Elt F) → (⟨S3x128, .f32⟩ : BufTy).Contents (Elt F)),
    StableHlo.unary main_v88 main_v89 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_12 (constant S_ .f32 0x47000000#32),
    StableHlo.unary main_cst_12 main_v90 (broadcastInDim S3x1x128 ![] bcast_S_S3x1x128 : (⟨S_, .f32⟩ : BufTy).Contents (Elt F) → (⟨S3x1x128, .f32⟩ : BufTy).Contents (Elt F)),
    StableHlo.binary main_v89 main_v90 main_v91 (Host.divf : (⟨S3x1x128, .f32⟩ : BufTy).Contents (Elt F) → (⟨S3x1x128, .f32⟩ : BufTy).Contents (Elt F) → (⟨S3x1x128, .f32⟩ : BufTy).Contents (Elt F)),
    StableHlo.nullary main_c_13 (constantI S_ 32 0#32),
    StableHlo.TRef.nullary (.of main_call2_cst : StableHlo.TRef sig ⟨S_, .f32⟩) (constant S_ .f32 0x00000000#32),
    StableHlo.TRef.binary (.of main_v85 : StableHlo.TRef sig ⟨S3x32768x128, .f32⟩) (.of main_call2_cst : StableHlo.TRef sig ⟨S_, .f32⟩) (.of main_call2_v0 : StableHlo.TRef sig ⟨S3x128, .f32⟩) (fun x v => Host.reduceAdd x v reducesTo_S3x32768x128_S3x128_d1 h_S_),
    StableHlo.TRef.unary (.of main_call2_v0 : StableHlo.TRef sig ⟨S3x128, .f32⟩) (.of main_call2_v1 : StableHlo.TRef sig ⟨S3x1x128, .f32⟩) (broadcastInDim S3x1x128 ![0, 2] bcast_S3x128_S3x1x128_0_2),
    StableHlo.TRef.nullary (.of main_call2_cst_0 : StableHlo.TRef sig ⟨S_, .f32⟩) (constant S_ .f32 0x47000000#32),
    StableHlo.TRef.unary (.of main_call2_cst_0 : StableHlo.TRef sig ⟨S_, .f32⟩) (.of main_call2_v2 : StableHlo.TRef sig ⟨S3x1x128, .f32⟩) (broadcastInDim S3x1x128 ![] bcast_S_S3x1x128),
    StableHlo.TRef.binary (.of main_call2_v1 : StableHlo.TRef sig ⟨S3x1x128, .f32⟩) (.of main_call2_v2 : StableHlo.TRef sig ⟨S3x1x128, .f32⟩) (.of main_call2_v3 : StableHlo.TRef sig ⟨S3x1x128, .f32⟩) Host.divf,
    StableHlo.TRef.unary (.of main_call2_v3 : StableHlo.TRef sig ⟨S3x1x128, .f32⟩) (.of main_call2_v4 : StableHlo.TRef sig ⟨S3x32768x128, .f32⟩) (broadcastInDim S3x32768x128 ![0, 1, 2] bcast_S3x1x128_S3x32768x128_0_1_2),
    StableHlo.TRef.binary (.of main_v85 : StableHlo.TRef sig ⟨S3x32768x128, .f32⟩) (.of main_call2_v4 : StableHlo.TRef sig ⟨S3x32768x128, .f32⟩) (.of main_call2_v5 : StableHlo.TRef sig ⟨S3x32768x128, .f32⟩) subf,
    StableHlo.TRef.binary (.of main_call2_v5 : StableHlo.TRef sig ⟨S3x32768x128, .f32⟩) (.of main_call2_v5 : StableHlo.TRef sig ⟨S3x32768x128, .f32⟩) (.of main_call2_v6 : StableHlo.TRef sig ⟨S3x32768x128, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S3x32768x128, .f32⟩) (.of main_call2_cst_2 : StableHlo.TRef sig ⟨S_, .f32⟩) (.of main_call2_v9 : StableHlo.TRef sig ⟨S3x128, .f32⟩) (fun x v => Host.reduceAdd x v reducesTo_S3x32768x128_S3x128_d1 h_S_),
    StableHlo.TRef.unary (.of main_call2_v9 : StableHlo.TRef sig ⟨S3x128, .f32⟩) (.of main_call2_v10 : StableHlo.TRef sig ⟨S3x1x128, .f32⟩) (broadcastInDim S3x1x128 ![0, 2] bcast_S3x128_S3x1x128_0_2),
    StableHlo.TRef.unary (.of main_call2_v8 : StableHlo.TRef sig ⟨S_, .f32⟩) (.of main_call2_v11 : StableHlo.TRef sig ⟨S3x1x128, .f32⟩) (broadcastInDim S3x1x128 ![] bcast_S_S3x1x128),
    StableHlo.TRef.binary (.of main_call2_v10 : StableHlo.TRef sig ⟨S3x1x128, .f32⟩) (.of main_call2_v11 : StableHlo.TRef sig ⟨S3x1x128, .f32⟩) (.of main_call2_v12 : StableHlo.TRef sig ⟨S3x1x128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S3x1x128, .f32⟩) (broadcastInDim S3x1x128 ![] bcast_S_S3x1x128),
    StableHlo.TRef.ternary (.of main_call2_v13 : StableHlo.TRef sig ⟨S_, .i1⟩) (.of main_call2_v12 : StableHlo.TRef sig ⟨S3x1x128, .f32⟩) (.of main_call2_call0_v1 : StableHlo.TRef sig ⟨S3x1x128, .f32⟩) (.of main_v92 : StableHlo.TRef sig ⟨S3x1x128, .f32⟩) (fun p a b => select (broadcastInDim S3x1x128 ![] bcast_S_S3x1x128 p) a b),
    StableHlo.unary main_v91 main_v93 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v85 main_v93 main_v94 (subf : (⟨S3x32768x128, .f32⟩ : BufTy).Contents (Elt F) → (⟨S3x32768x128, .f32⟩ : BufTy).Contents (Elt F) → (⟨S3x32768x128, .f32⟩ : BufTy).Contents (Elt F)),
    StableHlo.nullary main_cst_14 (constant S_ .f32 0x3727C5AC#32),
    StableHlo.unary main_cst_14 main_v95 (broadcastInDim S3x1x128 ![] bcast_S_S3x1x128 : (⟨S_, .f32⟩ : BufTy).Contents (Elt F) → (⟨S3x1x128, .f32⟩ : BufTy).Contents (Elt F)),
    StableHlo.binary main_v92 main_v95 main_v96 (addf : (⟨S3x1x128, .f32⟩ : BufTy).Contents (Elt F) → (⟨S3x1x128, .f32⟩ : BufTy).Contents (Elt F) → (⟨S3x1x128, .f32⟩ : BufTy).Contents (Elt F)),
    StableHlo.unary main_v96 main_v97 (Host.rsqrt : (⟨S3x1x128, .f32⟩ : BufTy).Contents (Elt F) → (⟨S3x1x128, .f32⟩ : BufTy).Contents (Elt F)),
    StableHlo.unary main_v97 main_v98 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v94 main_v98 main_v99 (mulf : (⟨S3x32768x128, .f32⟩ : BufTy).Contents (Elt F) → (⟨S3x32768x128, .f32⟩ : BufTy).Contents (Elt F) → (⟨S3x32768x128, .f32⟩ : BufTy).Contents (Elt F)),
    StableHlo.unary main_v86 main_v100 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v99 main_v100 main_v101 (mulf : (⟨S3x32768x128, .f32⟩ : BufTy).Contents (Elt F) → (⟨S3x32768x128, .f32⟩ : BufTy).Contents (Elt F) → (⟨S3x32768x128, .f32⟩ : BufTy).Contents (Elt F)),
    StableHlo.unary main_v87 main_v102 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v101 main_v102 main_v103 (addf : (⟨S3x32768x128, .f32⟩ : BufTy).Contents (Elt F) → (⟨S3x32768x128, .f32⟩ : BufTy).Contents (Elt F) → (⟨S3x32768x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S3x32768x128, .f32⟩) (broadcastInDim S3x32768x128 ![] bcast_S_S3x32768x128),
    StableHlo.TRef.binary (.of main_v103 : StableHlo.TRef sig ⟨S3x32768x128, .f32⟩) (.of main_call3_v0 : StableHlo.TRef sig ⟨S3x32768x128, .f32⟩) (.of main_v104 : StableHlo.TRef sig ⟨S3x32768x128, .f32⟩) maximumf ]

/-- Chunk 4 of the stretch: the three slices joined along the feature axis, the last normalised layer and its rectifier (last written: `main_v134`). 58 operations. -/
abbrev tailK4 : List (HloOp τ sig (Elt F)) :=
  [ StableHlo.unary main_v104 main_v105 ((extractStridedSlice S1x32768x128 ![0, 0, 0] · slices_S3x32768x128_S1x32768x128_0_0_0) : (⟨S3x32768x128, .f32⟩ : BufTy).Contents (Elt F) → (⟨S1x32768x128, .f32⟩ : BufTy).Contents (Elt F)),
    StableHlo.reshape main_v105 main_v106 rfl shapeCasts_S1x32768x128_S32768x128,
    StableHlo.unary main_v104 main_v107 ((extractStridedSlice S1x32768x128 ![1, 0, 0] · slices_S3x32768x128_S1x32768x128_1_0_0) : (⟨S3x32768x128, .f32⟩ : BufTy).Contents (Elt F) → (⟨S1x32768x128, .f32⟩ : BufTy).Contents (Elt F)),
    StableHlo.reshape main_v107 main_v108 rfl shapeCasts_S1x32768x128_S32768x128,
    StableHlo.unary main_v104 main_v109 ((extractStridedSlice S1x32768x128 ![2, 0, 0] · slices_S3x32768x128_S1x32768x128_2_0_0) : (⟨S3x32768x128, .f32⟩ : BufTy).Contents (Elt F) → (⟨S1x32768x128, .f32⟩ : BufTy).Contents (Elt F)),
    StableHlo.reshape main_v109 main_v110 rfl shapeCasts_S1x32768x128_S32768x128,
    StableHlo.nary ![main_v106, main_v108, main_v110] main_v111 (fun u => concatenate S32768x384 1 [⟨S32768x128, u 0⟩, ⟨S32768x128, u 1⟩, ⟨S32768x128, u 2⟩] concatenates_S32768x128_S32768x128_S32768x128_S32768x384_d1),
    StableHlo.binary main_v111 main_arg19 main_v112 ((fun l r => Host.dotGeneral dot_S32768x384_S384x128_S32768x128_1_0_0_1_n_n none l r) : (⟨S32768x384, .f32⟩ : BufTy).Contents (Elt F) → (⟨S384x128, .f32⟩ : BufTy).Contents (Elt F) → (⟨S32768x128, .f32⟩ : BufTy).Contents (Elt F)),
    StableHlo.unary main_arg20 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S32768x128 ![0, 1] bcast_S1x128_S32768x128_0_1 : (⟨S1x128, .f32⟩ : BufTy).Contents (Elt F) → (⟨S32768x128, .f32⟩ : BufTy).Contents (Elt F)),
    StableHlo.binary main_v112 main_v114 main_v115 (addf : (⟨S32768x128, .f32⟩ : BufTy).Contents (Elt F) → (⟨S32768x128, .f32⟩ : BufTy).Contents (Elt F) → (⟨S32768x128, .f32⟩ : BufTy).Contents (Elt F)),
    StableHlo.nullary main_cst_15 (constant S_ .f32 0x00000000#32),
    StableHlo.binary main_v115 main_cst_15 main_v116 ((fun x v => Host.reduceAdd x v reducesTo_S32768x128_S128_d0 h_S_) : (⟨S32768x128, .f32⟩ : BufTy).Contents (Elt F) → (⟨S_, .f32⟩ : BufTy).Contents (Elt F) → (⟨S128, .f32⟩ : BufTy).Contents (Elt F)),
    StableHlo.unary main_v116 main_v117 (broadcastInDim S1x128 ![1] bcast_S128_S1x128_1 : (⟨S128, .f32⟩ : BufTy).Contents (Elt F) → (⟨S1x128, .f32⟩ : BufTy).Contents (Elt F)),
    StableHlo.nullary main_cst_16 (constant S_ .f32 0x47000000#32),
    StableHlo.unary main_cst_16 main_v118 (broadcastInDim S1x128 ![] bcast_S_S1x128 : (⟨S_, .f32⟩ : BufTy).Contents (Elt F) → (⟨S1x128, .f32⟩ : BufTy).Contents (Elt F)),
    StableHlo.binary main_v117 main_v118 main_v119 (Host.divf : (⟨S1x128, .f32⟩ : BufTy).Contents (Elt F) → (⟨S1x128, .f32⟩ : BufTy).Contents (Elt F) → (⟨S1x128, .f32⟩ : BufTy).Contents (Elt F)),
    StableHlo.nullary main_c_17 (constantI S_ 32 0#32),
    StableHlo.TRef.nullary (.of main_call4_cst : StableHlo.TRef sig ⟨S_, .f32⟩) (constant S_ .f32 0x00000000#32),
    StableHlo.TRef.binary (.of main_v115 : StableHlo.TRef sig ⟨S32768x128, .f32⟩) (.of main_call4_cst : StableHlo.TRef sig ⟨S_, .f32⟩) (.of main_call4_v0 : StableHlo.TRef sig ⟨S128, .f32⟩) (fun x v => Host.reduceAdd x v reducesTo_S32768x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47000000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S32768x128, .f32⟩) (broadcastInDim S32768x128 ![0, 1] bcast_S1x128_S32768x128_0_1),
    StableHlo.TRef.binary (.of main_v115 : StableHlo.TRef sig ⟨S32768x128, .f32⟩) (.of main_call4_v4 : StableHlo.TRef sig ⟨S32768x128, .f32⟩) (.of main_call4_v5 : StableHlo.TRef sig ⟨S32768x128, .f32⟩) subf,
    StableHlo.TRef.binary (.of main_call4_v5 : StableHlo.TRef sig ⟨S32768x128, .f32⟩) (.of main_call4_v5 : StableHlo.TRef sig ⟨S32768x128, .f32⟩) (.of main_call4_v6 : StableHlo.TRef sig ⟨S32768x128, .f32⟩) mulf,
    StableHlo.TRef.unary (.of main_c_17 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S32768x128, .f32⟩) (.of main_call4_cst_2 : StableHlo.TRef sig ⟨S_, .f32⟩) (.of main_call4_v9 : StableHlo.TRef sig ⟨S128, .f32⟩) (fun x v => Host.reduceAdd x v reducesTo_S32768x128_S128_d0 h_S_),
    StableHlo.TRef.unary (.of main_call4_v9 : StableHlo.TRef sig ⟨S128, .f32⟩) (.of main_call4_v10 : StableHlo.TRef sig ⟨S1x128, .f32⟩) (broadcastInDim S1x128 ![1] bcast_S128_S1x128_1),
    StableHlo.TRef.unary (.of main_call4_v8 : StableHlo.TRef sig ⟨S_, .f32⟩) (.of main_call4_v11 : StableHlo.TRef sig ⟨S1x128, .f32⟩) (broadcastInDim S1x128 ![] bcast_S_S1x128),
    StableHlo.TRef.binary (.of main_call4_v10 : StableHlo.TRef sig ⟨S1x128, .f32⟩) (.of main_call4_v11 : StableHlo.TRef sig ⟨S1x128, .f32⟩) (.of main_call4_v12 : StableHlo.TRef sig ⟨S1x128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S1x128, .f32⟩) (broadcastInDim S1x128 ![] bcast_S_S1x128),
    StableHlo.TRef.ternary (.of main_call4_v13 : StableHlo.TRef sig ⟨S_, .i1⟩) (.of main_call4_v12 : StableHlo.TRef sig ⟨S1x128, .f32⟩) (.of main_call4_call0_v1 : StableHlo.TRef sig ⟨S1x128, .f32⟩) (.of main_v120 : StableHlo.TRef sig ⟨S1x128, .f32⟩) (fun p a b => select (broadcastInDim S1x128 ![] bcast_S_S1x128 p) a b),
    StableHlo.unary main_v119 main_v121 (broadcastInDim S32768x128 ![0, 1] bcast_S1x128_S32768x128_0_1 : (⟨S1x128, .f32⟩ : BufTy).Contents (Elt F) → (⟨S32768x128, .f32⟩ : BufTy).Contents (Elt F)),
    StableHlo.binary main_v115 main_v121 main_v122 (subf : (⟨S32768x128, .f32⟩ : BufTy).Contents (Elt F) → (⟨S32768x128, .f32⟩ : BufTy).Contents (Elt F) → (⟨S32768x128, .f32⟩ : BufTy).Contents (Elt F)),
    StableHlo.nullary main_cst_18 (constant S_ .f32 0x3727C5AC#32),
    StableHlo.unary main_cst_18 main_v123 (broadcastInDim S1x128 ![] bcast_S_S1x128 : (⟨S_, .f32⟩ : BufTy).Contents (Elt F) → (⟨S1x128, .f32⟩ : BufTy).Contents (Elt F)),
    StableHlo.binary main_v120 main_v123 main_v124 (addf : (⟨S1x128, .f32⟩ : BufTy).Contents (Elt F) → (⟨S1x128, .f32⟩ : BufTy).Contents (Elt F) → (⟨S1x128, .f32⟩ : BufTy).Contents (Elt F)),
    StableHlo.unary main_v124 main_v125 (Host.rsqrt : (⟨S1x128, .f32⟩ : BufTy).Contents (Elt F) → (⟨S1x128, .f32⟩ : BufTy).Contents (Elt F)),
    StableHlo.unary main_v125 main_v126 (broadcastInDim S32768x128 ![0, 1] bcast_S1x128_S32768x128_0_1 : (⟨S1x128, .f32⟩ : BufTy).Contents (Elt F) → (⟨S32768x128, .f32⟩ : BufTy).Contents (Elt F)),
    StableHlo.binary main_v122 main_v126 main_v127 (mulf : (⟨S32768x128, .f32⟩ : BufTy).Contents (Elt F) → (⟨S32768x128, .f32⟩ : BufTy).Contents (Elt F) → (⟨S32768x128, .f32⟩ : BufTy).Contents (Elt F)),
    StableHlo.unary main_arg21 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S32768x128 ![0, 1] bcast_S1x128_S32768x128_0_1 : (⟨S1x128, .f32⟩ : BufTy).Contents (Elt F) → (⟨S32768x128, .f32⟩ : BufTy).Contents (Elt F)),
    StableHlo.binary main_v127 main_v129 main_v130 (mulf : (⟨S32768x128, .f32⟩ : BufTy).Contents (Elt F) → (⟨S32768x128, .f32⟩ : BufTy).Contents (Elt F) → (⟨S32768x128, .f32⟩ : BufTy).Contents (Elt F)),
    StableHlo.unary main_arg22 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S32768x128 ![0, 1] bcast_S1x128_S32768x128_0_1 : (⟨S1x128, .f32⟩ : BufTy).Contents (Elt F) → (⟨S32768x128, .f32⟩ : BufTy).Contents (Elt F)),
    StableHlo.binary main_v130 main_v132 main_v133 (addf : (⟨S32768x128, .f32⟩ : BufTy).Contents (Elt F) → (⟨S32768x128, .f32⟩ : BufTy).Contents (Elt F) → (⟨S32768x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S32768x128, .f32⟩) (broadcastInDim S32768x128 ![] bcast_S_S32768x128),
    StableHlo.TRef.binary (.of main_v133 : StableHlo.TRef sig ⟨S32768x128, .f32⟩) (.of main_call5_v0 : StableHlo.TRef sig ⟨S32768x128, .f32⟩) (.of main_v134 : StableHlo.TRef sig ⟨S32768x128, .f32⟩) maximumf ]

/-- The whole stretch is the four chunks in a row. -/
theorem tailOps_eq_chunks : (tailOps : List (HloOp τ sig (Elt F))) = tailK1 ++ (tailK2 ++ (tailK3 ++ tailK4)) := by chain_rfl

end Cert.KernelIdeal.Hand

end
-- ==== Proof.ChunkListsR.lean ====
/- The reference program's operations after the second rectifier (opsTail of Proof/RefOps.lean), cut into four consecutive literal lists, entry by entry; in a row they are opsTail. -/
import proofs.«106179_j53085795779158_2_alg».proof.Proof.RefOps
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Chunk 1 of opsTail: up to the three branches stacked along a new leading axis (last written: `main_v60`). 30 operations. -/
abbrev opsT1 : List (HloOp τ sig (Elt F)) :=
  [ StableHlo.unary main_arg2 main_v35 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v35 main_v36 rfl shapeCasts_S1x524288_S524288,
    StableHlo.nullary main_cst_3 (constant S_ .f32 0x00000000#32),
    StableHlo.unary main_cst_3 main_v37 (broadcastInDim S32768x128 ![] bcast_S_S32768x128 : (⟨S_, .f32⟩ : BufTy).Contents (Elt F) → (⟨S32768x128, .f32⟩ : BufTy).Contents (Elt F)),
    StableHlo.unary main_v36 main_v38 (broadcastInDim S524288x1 ![0] bcast_S524288_S524288x1_0 : (⟨S524288, .i32⟩ : BufTy).Contents (Elt F) → (⟨S524288x1, .i32⟩ : BufTy).Contents (Elt F)),
    StableHlo.ternary main_v37 main_v38 main_v34 main_v39 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    StableHlo.unary main_arg3 main_v40 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v40 main_v41 rfl shapeCasts_S1x131072_S131072,
    StableHlo.nullary main_c_4 (constantI S_ 32 0#32),
    StableHlo.unary main_c_4 main_v42 (broadcastInDim S131072 ![] bcast_S_S131072 : (⟨S_, .i32⟩ : BufTy).Contents (Elt F) → (⟨S131072, .i32⟩ : BufTy).Contents (Elt F)),
    StableHlo.binary main_v41 main_v42 main_v43 (cmpi .slt : (⟨S131072, .i32⟩ : BufTy).Contents (Elt F) → (⟨S131072, .i32⟩ : BufTy).Contents (Elt F) → (⟨S131072, .i1⟩ : BufTy).Contents (Elt F)),
    StableHlo.nullary main_c_5 (constantI S_ 32 32768#32),
    StableHlo.unary main_c_5 main_v44 (broadcastInDim S131072 ![] bcast_S_S131072 : (⟨S_, .i32⟩ : BufTy).Contents (Elt F) → (⟨S131072, .i32⟩ : BufTy).Contents (Elt F)),
    StableHlo.binary main_v41 main_v44 main_v45 (addi : (⟨S131072, .i32⟩ : BufTy).Contents (Elt F) → (⟨S131072, .i32⟩ : BufTy).Contents (Elt F) → (⟨S131072, .i32⟩ : BufTy).Contents (Elt F)),
    StableHlo.ternary main_v43 main_v45 main_v41 main_v46 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v46 main_v47 (broadcastInDim S131072x1 ![0] bcast_S131072_S131072x1_0 : (⟨S131072, .i32⟩ : BufTy).Contents (Elt F) → (⟨S131072x1, .i32⟩ : BufTy).Contents (Elt F)),
    StableHlo.binary main_arg6 main_v47 main_v48 ((fun x i => Host.gather gather_S32768x128_S131072x1_S131072x128_1_0_n_n_0_1_1128 x i) : (⟨S32768x128, .f32⟩ : BufTy).Contents (Elt F) → (⟨S131072x1, .i32⟩ : BufTy).Contents (Elt F) → (⟨S131072x128, .f32⟩ : BufTy).Contents (Elt F)),
    StableHlo.unary main_arg3 main_v49 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v49 main_v50 rfl shapeCasts_S1x131072_S131072,
    StableHlo.nullary main_cst_6 (constant S_ .f32 0x00000000#32),
    StableHlo.unary main_cst_6 main_v51 (broadcastInDim S32768x128 ![] bcast_S_S32768x128 : (⟨S_, .f32⟩ : BufTy).Contents (Elt F) → (⟨S32768x128, .f32⟩ : BufTy).Contents (Elt F)),
    StableHlo.unary main_v50 main_v52 (broadcastInDim S131072x1 ![0] bcast_S131072_S131072x1_0 : (⟨S131072, .i32⟩ : BufTy).Contents (Elt F) → (⟨S131072x1, .i32⟩ : BufTy).Contents (Elt F)),
    StableHlo.ternary main_v51 main_v52 main_v48 main_v53 ((fun x i u => Host.scatterAdd scatter_S32768x128_S131072x1_S131072x128_1_0_0_1 x i u) : (⟨S32768x128, .f32⟩ : BufTy).Contents (Elt F) → (⟨S131072x1, .i32⟩ : BufTy).Contents (Elt F) → (⟨S131072x128, .f32⟩ : BufTy).Contents (Elt F) → (⟨S32768x128, .f32⟩ : BufTy).Contents (Elt F)),
    StableHlo.binary main_v19 main_arg0 main_v54 (addf : (⟨S32768x128, .f32⟩ : BufTy).Contents (Elt F) → (⟨S32768x128, .f32⟩ : BufTy).Contents (Elt F) → (⟨S32768x128, .f32⟩ : BufTy).Contents (Elt F)),
    StableHlo.binary main_v39 main_arg0 main_v55 (addf : (⟨S32768x128, .f32⟩ : BufTy).Contents (Elt F) → (⟨S32768x128, .f32⟩ : BufTy).Contents (Elt F) → (⟨S32768x128, .f32⟩ : BufTy).Contents (Elt F)),
    StableHlo.binary main_v53 main_arg0 main_v56 (addf : (⟨S32768x128, .f32⟩ : BufTy).Contents (Elt F) → (⟨S32768x128, .f32⟩ : BufTy).Contents (Elt F) → (⟨S32768x128, .f32⟩ : BufTy).Contents (Elt F)),
    StableHlo.unary main_v54 main_v57 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v55 main_v58 (broadcastInDim S1x32768x128 ![1, 2] bcast_S32768x128_S1x32768x128_1_2 : (⟨S32768x128, .f32⟩ : BufTy).Contents (Elt F) → (⟨S1x32768x128, .f32⟩ : BufTy).Contents (Elt F)),
    StableHlo.unary main_v56 main_v59 (broadcastInDim S1x32768x128 ![1, 2] bcast_S32768x128_S1x32768x128_1_2 : (⟨S32768x128, .f32⟩ : BufTy).Contents (Elt F) → (⟨S1x32768x128, .f32⟩ : BufTy).Contents (Elt F)),
    StableHlo.nary ![main_v57, main_v58, main_v59] main_v60 (fun u => concatenate S3x32768x128 0 [⟨S1x32768x128, u 0⟩, ⟨S1x32768x128, u 1⟩, ⟨S1x32768x128, u 2⟩] concatenates_S1x32768x128_S1x32768x128_S1x32768x128_S3x32768x128_d0) ]

/-- Chunk 2 of opsTail: the first normalised batched layer, through its rectifier (last written: `main_v83`). 51 operations. -/
abbrev opsT2 : List (HloOp τ sig (Elt F)) :=
  [ StableHlo.binary main_v60 main_arg11 main_v61 ((fun l r => Host.dotGeneral dot_S3x32768x128_S3x128x128_S3x32768x128_2_1_1_2_0_0 none l r) : (⟨S3x32768x128, .f32⟩ : BufTy).Contents (Elt F) → (⟨S3x128x128, .f32⟩ : BufTy).Contents (Elt F) → (⟨S3x32768x128, .f32⟩ : BufTy).Contents (Elt F)),
    StableHlo.unary main_arg12 main_v62 (broadcastInDim S3x1x128 ![0, 2] bcast_S3x128_S3x1x128_0_2 : (⟨S3x128, .f32⟩ : BufTy).Contents (Elt F) → (⟨S3x1x128, .f32⟩ : BufTy).Contents (Elt F)),
    StableHlo.unary main_v62 main_v63 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v61 main_v63 main_v64 (addf : (⟨S3x32768x128, .f32⟩ : BufTy).Contents (Elt F) → (⟨S3x32768x128, .f32⟩ : BufTy).Contents (Elt F) → (⟨S3x32768x128, .f32⟩ : BufTy).Contents (Elt F)),
    StableHlo.unary main_arg13 main_v65 (broadcastInDim S3x1x128 ![0, 2] bcast_S3x128_S3x1x128_0_2 : (⟨S3x128, .f32⟩ : BufTy).Contents (Elt F) → (⟨S3x1x128, .f32⟩ : BufTy).Contents (Elt F)),
    StableHlo.unary main_arg14 main_v66 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_7 (constant S_ .f32 0x00000000#32),
    StableHlo.binary main_v64 main_cst_7 main_v67 ((fun x v => Host.reduceAdd x v reducesTo_S3x32768x128_S3x128_d1 h_S_) : (⟨S3x32768x128, .f32⟩ : BufTy).Contents (Elt F) → (⟨S_, .f32⟩ : BufTy).Contents (Elt F) → (⟨S3x128, .f32⟩ : BufTy).Contents (Elt F)),
    StableHlo.unary main_v67 main_v68 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_8 (constant S_ .f32 0x47000000#32),
    StableHlo.unary main_cst_8 main_v69 (broadcastInDim S3x1x128 ![] bcast_S_S3x1x128 : (⟨S_, .f32⟩ : BufTy).Contents (Elt F) → (⟨S3x1x128, .f32⟩ : BufTy).Contents (Elt F)),
    StableHlo.binary main_v68 main_v69 main_v70 (Host.divf : (⟨S3x1x128, .f32⟩ : BufTy).Contents (Elt F) → (⟨S3x1x128, .f32⟩ : BufTy).Contents (Elt F) → (⟨S3x1x128, .f32⟩ : BufTy).Contents (Elt F)),
    StableHlo.nullary main_c_9 (constantI S_ 32 0#32),
    StableHlo.TRef.nullary (.of main_call2_cst : StableHlo.TRef sig ⟨S_, .f32⟩) (constant S_ .f32 0x00000000#32),
    StableHlo.TRef.binary (.of main_v64 : StableHlo.TRef sig ⟨S3x32768x128, .f32⟩) (.of main_call2_cst : StableHlo.TRef sig ⟨S_, .f32⟩) (.of main_call2_v0 : StableHlo.TRef sig ⟨S3x128, .f32⟩) (fun x v => Host.reduceAdd x v reducesTo_S3x32768x128_S3x128_d1 h_S_),
    StableHlo.TRef.unary (.of main_call2_v0 : StableHlo.TRef sig ⟨S3x128, .f32⟩) (.of main_call2_v1 : StableHlo.TRef sig ⟨S3x1x128, .f32⟩) (broadcastInDim S3x1x128 ![0, 2] bcast_S3x128_S3x1x128_0_2),
    StableHlo.TRef.nullary (.of main_call2_cst_0 : StableHlo.TRef sig ⟨S_, .f32⟩) (constant S_ .f32 0x47000000#32),
    StableHlo.TRef.unary (.of main_call2_cst_0 : StableHlo.TRef sig ⟨S_, .f32⟩) (.of main_call2_v2 : StableHlo.TRef sig ⟨S3x1x128, .f32⟩) (broadcastInDim S3x1x128 ![] bcast_S_S3x1x128),
    StableHlo.TRef.binary (.of main_call2_v1 : StableHlo.TRef sig ⟨S3x1x128, .f32⟩) (.of main_call2_v2 : StableHlo.TRef sig ⟨S3x1x128, .f32⟩) (.of main_call2_v3 : StableHlo.TRef sig ⟨S3x1x128, .f32⟩) Host.divf,
    StableHlo.TRef.unary (.of main_call2_v3 : StableHlo.TRef sig ⟨S3x1x128, .f32⟩) (.of main_call2_v4 : StableHlo.TRef sig ⟨S3x32768x128, .f32⟩) (broadcastInDim S3x32768x128 ![0, 1, 2] bcast_S3x1x128_S3x32768x128_0_1_2),
    StableHlo.TRef.binary (.of main_v64 : StableHlo.TRef sig ⟨S3x32768x128, .f32⟩) (.of main_call2_v4 : StableHlo.TRef sig ⟨S3x32768x128, .f32⟩) (.of main_call2_v5 : StableHlo.TRef sig ⟨S3x32768x128, .f32⟩) subf,
    StableHlo.TRef.binary (.of main_call2_v5 : StableHlo.TRef sig ⟨S3x32768x128, .f32⟩) (.of main_call2_v5 : StableHlo.TRef sig ⟨S3x32768x128, .f32⟩) (.of main_call2_v6 : StableHlo.TRef sig ⟨S3x32768x128, .f32⟩) mulf,
    StableHlo.TRef.unary (.of main_c_9 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S3x32768x128, .f32⟩) (.of main_call2_cst_2 : StableHlo.TRef sig ⟨S_, .f32⟩) (.of main_call2_v9 : StableHlo.TRef sig ⟨S3x128, .f32⟩) (fun x v => Host.reduceAdd x v reducesTo_S3x32768x128_S3x128_d1 h_S_),
    StableHlo.TRef.unary (.of main_call2_v9 : StableHlo.TRef sig ⟨S3x128, .f32⟩) (.of main_call2_v10 : StableHlo.TRef sig ⟨S3x1x128, .f32⟩) (broadcastInDim S3x1x128 ![0, 2] bcast_S3x128_S3x1x128_0_2),
    StableHlo.TRef.unary (.of main_call2_v8 : StableHlo.TRef sig ⟨S_, .f32⟩) (.of main_call2_v11 : StableHlo.TRef sig ⟨S3x1x128, .f32⟩) (broadcastInDim S3x1x128 ![] bcast_S_S3x1x128),
    StableHlo.TRef.binary (.of main_call2_v10 : StableHlo.TRef sig ⟨S3x1x128, .f32⟩) (.of main_call2_v11 : StableHlo.TRef sig ⟨S3x1x128, .f32⟩) (.of main_call2_v12 : StableHlo.TRef sig ⟨S3x1x128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S3x1x128, .f32⟩) (broadcastInDim S3x1x128 ![] bcast_S_S3x1x128),
    StableHlo.TRef.ternary (.of main_call2_v13 : StableHlo.TRef sig ⟨S_, .i1⟩) (.of main_call2_v12 : StableHlo.TRef sig ⟨S3x1x128, .f32⟩) (.of main_call2_call0_v1 : StableHlo.TRef sig ⟨S3x1x128, .f32⟩) (.of main_v71 : StableHlo.TRef sig ⟨S3x1x128, .f32⟩) (fun p a b => select (broadcastInDim S3x1x128 ![] bcast_S_S3x1x128 p) a b),
    StableHlo.unary main_v70 main_v72 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v64 main_v72 main_v73 (subf : (⟨S3x32768x128, .f32⟩ : BufTy).Contents (Elt F) → (⟨S3x32768x128, .f32⟩ : BufTy).Contents (Elt F) → (⟨S3x32768x128, .f32⟩ : BufTy).Contents (Elt F)),
    StableHlo.nullary main_cst_10 (constant S_ .f32 0x3727C5AC#32),
    StableHlo.unary main_cst_10 main_v74 (broadcastInDim S3x1x128 ![] bcast_S_S3x1x128 : (⟨S_, .f32⟩ : BufTy).Contents (Elt F) → (⟨S3x1x128, .f32⟩ : BufTy).Contents (Elt F)),
    StableHlo.binary main_v71 main_v74 main_v75 (addf : (⟨S3x1x128, .f32⟩ : BufTy).Contents (Elt F) → (⟨S3x1x128, .f32⟩ : BufTy).Contents (Elt F) → (⟨S3x1x128, .f32⟩ : BufTy).Contents (Elt F)),
    StableHlo.unary main_v75 main_v76 (Host.rsqrt : (⟨S3x1x128, .f32⟩ : BufTy).Contents (Elt F) → (⟨S3x1x128, .f32⟩ : BufTy).Contents (Elt F)),
    StableHlo.unary main_v76 main_v77 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v73 main_v77 main_v78 (mulf : (⟨S3x32768x128, .f32⟩ : BufTy).Contents (Elt F) → (⟨S3x32768x128, .f32⟩ : BufTy).Contents (Elt F) → (⟨S3x32768x128, .f32⟩ : BufTy).Contents (Elt F)),
    StableHlo.unary main_v65 main_v79 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v78 main_v79 main_v80 (mulf : (⟨S3x32768x128, .f32⟩ : BufTy).Contents (Elt F) → (⟨S3x32768x128, .f32⟩ : BufTy).Contents (Elt F) → (⟨S3x32768x128, .f32⟩ : BufTy).Contents (Elt F)),
    StableHlo.unary main_v66 main_v81 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v80 main_v81 main_v82 (addf : (⟨S3x32768x128, .f32⟩ : BufTy).Contents (Elt F) → (⟨S3x32768x128, .f32⟩ : BufTy).Contents (Elt F) → (⟨S3x32768x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S3x32768x128, .f32⟩) (broadcastInDim S3x32768x128 ![] bcast_S_S3x32768x128),
    StableHlo.TRef.binary (.of main_v82 : StableHlo.TRef sig ⟨S3x32768x128, .f32⟩) (.of main_call3_v0 : StableHlo.TRef sig ⟨S3x32768x128, .f32⟩) (.of main_v83 : StableHlo.TRef sig ⟨S3x32768x128, .f32⟩) maximumf ]

/-- Chunk 3 of opsTail: the second normalised batched layer, through its rectifier (last written: `main_v106`). 51 operations. -/
abbrev opsT3 : List (HloOp τ sig (Elt F)) :=
  [ StableHlo.binary main_v83 main_arg15 main_v84 ((fun l r => Host.dotGeneral dot_S3x32768x128_S3x128x128_S3x32768x128_2_1_1_2_0_0 none l r) : (⟨S3x32768x128, .f32⟩ : BufTy).Contents (Elt F) → (⟨S3x128x128, .f32⟩ : BufTy).Contents (Elt F) → (⟨S3x32768x128, .f32⟩ : BufTy).Contents (Elt F)),
    StableHlo.unary main_arg16 main_v85 (broadcastInDim S3x1x128 ![0, 2] bcast_S3x128_S3x1x128_0_2 : (⟨S3x128, .f32⟩ : BufTy).Contents (Elt F) → (⟨S3x1x128, .f32⟩ : BufTy).Contents (Elt F)),
    StableHlo.unary main_v85 main_v86 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v84 main_v86 main_v87 (addf : (⟨S3x32768x128, .f32⟩ : BufTy).Contents (Elt F) → (⟨S3x32768x128, .f32⟩ : BufTy).Contents (Elt F) → (⟨S3x32768x128, .f32⟩ : BufTy).Contents (Elt F)),
    StableHlo.unary main_arg17 main_v88 (broadcastInDim S3x1x128 ![0, 2] bcast_S3x128_S3x1x128_0_2 : (⟨S3x128, .f32⟩ : BufTy).Contents (Elt F) → (⟨S3x1x128, .f32⟩ : BufTy).Contents (Elt F)),
    StableHlo.unary main_arg18 main_v89 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_11 (constant S_ .f32 0x00000000#32),
    StableHlo.binary main_v87 main_cst_11 main_v90 ((fun x v => Host.reduceAdd x v reducesTo_S3x32768x128_S3x128_d1 h_S_) : (⟨S3x32768x128, .f32⟩ : BufTy).Contents (Elt F) → (⟨S_, .f32⟩ : BufTy).Contents (Elt F) → (⟨S3x128, .f32⟩ : BufTy).Contents (Elt F)),
    StableHlo.unary main_v90 main_v91 (broadcastInDim S3x1x128 ![0, 2] bcast_S3x128_S3x1x128_0_2 : (⟨S3x128, .f32⟩ : BufTy).Contents (Elt F) → (⟨S3x1x128, .f32⟩ : BufTy).Contents (Elt F)),
    StableHlo.nullary main_cst_12 (constant S_ .f32 0x47000000#32),
    StableHlo.unary main_cst_12 main_v92 (broadcastInDim S3x1x128 ![] bcast_S_S3x1x128 : (⟨S_, .f32⟩ : BufTy).Contents (Elt F) → (⟨S3x1x128, .f32⟩ : BufTy).Contents (Elt F)),
    StableHlo.binary main_v91 main_v92 main_v93 (Host.divf : (⟨S3x1x128, .f32⟩ : BufTy).Contents (Elt F) → (⟨S3x1x128, .f32⟩ : BufTy).Contents (Elt F) → (⟨S3x1x128, .f32⟩ : BufTy).Contents (Elt F)),
    StableHlo.nullary main_c_13 (constantI S_ 32 0#32),
    StableHlo.TRef.nullary (.of main_call4_cst : StableHlo.TRef sig ⟨S_, .f32⟩) (constant S_ .f32 0x00000000#32),
    StableHlo.TRef.binary (.of main_v87 : StableHlo.TRef sig ⟨S3x32768x128, .f32⟩) (.of main_call4_cst : StableHlo.TRef sig ⟨S_, .f32⟩) (.of main_call4_v0 : StableHlo.TRef sig ⟨S3x128, .f32⟩) (fun x v => Host.reduceAdd x v reducesTo_S3x32768x128_S3x128_d1 h_S_),
    StableHlo.TRef.unary (.of main_call4_v0 : StableHlo.TRef sig ⟨S3x128, .f32⟩) (.of main_call4_v1 : StableHlo.TRef sig ⟨S3x1x128, .f32⟩) (broadcastInDim S3x1x128 ![0, 2] bcast_S3x128_S3x1x128_0_2),
    StableHlo.TRef.nullary (.of main_call4_cst_0 : StableHlo.TRef sig ⟨S_, .f32⟩) (constant S_ .f32 0x47000000#32),
    StableHlo.TRef.unary (.of main_call4_cst_0 : StableHlo.TRef sig ⟨S_, .f32⟩) (.of main_call4_v2 : StableHlo.TRef sig ⟨S3x1x128, .f32⟩) (broadcastInDim S3x1x128 ![] bcast_S_S3x1x128),
    StableHlo.TRef.binary (.of main_call4_v1 : StableHlo.TRef sig ⟨S3x1x128, .f32⟩) (.of main_call4_v2 : StableHlo.TRef sig ⟨S3x1x128, .f32⟩) (.of main_call4_v3 : StableHlo.TRef sig ⟨S3x1x128, .f32⟩) Host.divf,
    StableHlo.TRef.unary (.of main_call4_v3 : StableHlo.TRef sig ⟨S3x1x128, .f32⟩) (.of main_call4_v4 : StableHlo.TRef sig ⟨S3x32768x128, .f32⟩) (broadcastInDim S3x32768x128 ![0, 1, 2] bcast_S3x1x128_S3x32768x128_0_1_2),
    StableHlo.TRef.binary (.of main_v87 : StableHlo.TRef sig ⟨S3x32768x128, .f32⟩) (.of main_call4_v4 : StableHlo.TRef sig ⟨S3x32768x128, .f32⟩) (.of main_call4_v5 : StableHlo.TRef sig ⟨S3x32768x128, .f32⟩) subf,
    StableHlo.TRef.binary (.of main_call4_v5 : StableHlo.TRef sig ⟨S3x32768x128, .f32⟩) (.of main_call4_v5 : StableHlo.TRef sig ⟨S3x32768x128, .f32⟩) (.of main_call4_v6 : StableHlo.TRef sig ⟨S3x32768x128, .f32⟩) mulf,
    StableHlo.TRef.unary (.of main_c_13 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S3x32768x128, .f32⟩) (.of main_call4_cst_2 : StableHlo.TRef sig ⟨S_, .f32⟩) (.of main_call4_v9 : StableHlo.TRef sig ⟨S3x128, .f32⟩) (fun x v => Host.reduceAdd x v reducesTo_S3x32768x128_S3x128_d1 h_S_),
    StableHlo.TRef.unary (.of main_call4_v9 : StableHlo.TRef sig ⟨S3x128, .f32⟩) (.of main_call4_v10 : StableHlo.TRef sig ⟨S3x1x128, .f32⟩) (broadcastInDim S3x1x128 ![0, 2] bcast_S3x128_S3x1x128_0_2),
    StableHlo.TRef.unary (.of main_call4_v8 : StableHlo.TRef sig ⟨S_, .f32⟩) (.of main_call4_v11 : StableHlo.TRef sig ⟨S3x1x128, .f32⟩) (broadcastInDim S3x1x128 ![] bcast_S_S3x1x128),
    StableHlo.TRef.binary (.of main_call4_v10 : StableHlo.TRef sig ⟨S3x1x128, .f32⟩) (.of main_call4_v11 : StableHlo.TRef sig ⟨S3x1x128, .f32⟩) (.of main_call4_v12 : StableHlo.TRef sig ⟨S3x1x128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S3x1x128, .f32⟩) (broadcastInDim S3x1x128 ![] bcast_S_S3x1x128),
    StableHlo.TRef.ternary (.of main_call4_v13 : StableHlo.TRef sig ⟨S_, .i1⟩) (.of main_call4_v12 : StableHlo.TRef sig ⟨S3x1x128, .f32⟩) (.of main_call4_call0_v1 : StableHlo.TRef sig ⟨S3x1x128, .f32⟩) (.of main_v94 : StableHlo.TRef sig ⟨S3x1x128, .f32⟩) (fun p a b => select (broadcastInDim S3x1x128 ![] bcast_S_S3x1x128 p) a b),
    StableHlo.unary main_v93 main_v95 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v87 main_v95 main_v96 (subf : (⟨S3x32768x128, .f32⟩ : BufTy).Contents (Elt F) → (⟨S3x32768x128, .f32⟩ : BufTy).Contents (Elt F) → (⟨S3x32768x128, .f32⟩ : BufTy).Contents (Elt F)),
    StableHlo.nullary main_cst_14 (constant S_ .f32 0x3727C5AC#32),
    StableHlo.unary main_cst_14 main_v97 (broadcastInDim S3x1x128 ![] bcast_S_S3x1x128 : (⟨S_, .f32⟩ : BufTy).Contents (Elt F) → (⟨S3x1x128, .f32⟩ : BufTy).Contents (Elt F)),
    StableHlo.binary main_v94 main_v97 main_v98 (addf : (⟨S3x1x128, .f32⟩ : BufTy).Contents (Elt F) → (⟨S3x1x128, .f32⟩ : BufTy).Contents (Elt F) → (⟨S3x1x128, .f32⟩ : BufTy).Contents (Elt F)),
    StableHlo.unary main_v98 main_v99 (Host.rsqrt : (⟨S3x1x128, .f32⟩ : BufTy).Contents (Elt F) → (⟨S3x1x128, .f32⟩ : BufTy).Contents (Elt F)),
    StableHlo.unary main_v99 main_v100 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v96 main_v100 main_v101 (mulf : (⟨S3x32768x128, .f32⟩ : BufTy).Contents (Elt F) → (⟨S3x32768x128, .f32⟩ : BufTy).Contents (Elt F) → (⟨S3x32768x128, .f32⟩ : BufTy).Contents (Elt F)),
    StableHlo.unary main_v88 main_v102 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v101 main_v102 main_v103 (mulf : (⟨S3x32768x128, .f32⟩ : BufTy).Contents (Elt F) → (⟨S3x32768x128, .f32⟩ : BufTy).Contents (Elt F) → (⟨S3x32768x128, .f32⟩ : BufTy).Contents (Elt F)),
    StableHlo.unary main_v89 main_v104 (broadcastInDim S3x32768x128 ![0, 1, 2] bcast_S3x1x128_S3x32768x128_0_1_2 : (⟨S3x1x128, .f32⟩ : BufTy).Contents (Elt F) → (⟨S3x32768x128, .f32⟩ : BufTy).Contents (Elt F)),
    StableHlo.binary main_v103 main_v104 main_v105 (addf : (⟨S3x32768x128, .f32⟩ : BufTy).Contents (Elt F) → (⟨S3x32768x128, .f32⟩ : BufTy).Contents (Elt F) → (⟨S3x32768x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S3x32768x128, .f32⟩) (broadcastInDim S3x32768x128 ![] bcast_S_S3x32768x128),
    StableHlo.TRef.binary (.of main_v105 : StableHlo.TRef sig ⟨S3x32768x128, .f32⟩) (.of main_call5_v0 : StableHlo.TRef sig ⟨S3x32768x128, .f32⟩) (.of main_v106 : StableHlo.TRef sig ⟨S3x32768x128, .f32⟩) maximumf ]

/-- Chunk 4 of opsTail: the three slices joined along the feature axis, the last normalised layer and its rectifier (last written: `main_v136`). 58 operations. -/
abbrev opsT4 : List (HloOp τ sig (Elt F)) :=
  [ StableHlo.unary main_v106 main_v107 ((extractStridedSlice S1x32768x128 ![0, 0, 0] · slices_S3x32768x128_S1x32768x128_0_0_0) : (⟨S3x32768x128, .f32⟩ : BufTy).Contents (Elt F) → (⟨S1x32768x128, .f32⟩ : BufTy).Contents (Elt F)),
    StableHlo.reshape main_v107 main_v108 rfl shapeCasts_S1x32768x128_S32768x128,
    StableHlo.unary main_v106 main_v109 ((extractStridedSlice S1x32768x128 ![1, 0, 0] · slices_S3x32768x128_S1x32768x128_1_0_0) : (⟨S3x32768x128, .f32⟩ : BufTy).Contents (Elt F) → (⟨S1x32768x128, .f32⟩ : BufTy).Contents (Elt F)),
    StableHlo.reshape main_v109 main_v110 rfl shapeCasts_S1x32768x128_S32768x128,
    StableHlo.unary main_v106 main_v111 ((extractStridedSlice S1x32768x128 ![2, 0, 0] · slices_S3x32768x128_S1x32768x128_2_0_0) : (⟨S3x32768x128, .f32⟩ : BufTy).Contents (Elt F) → (⟨S1x32768x128, .f32⟩ : BufTy).Contents (Elt F)),
    StableHlo.reshape main_v111 main_v112 rfl shapeCasts_S1x32768x128_S32768x128,
    StableHlo.nary ![main_v108, main_v110, main_v112] main_v113 (fun u => concatenate S32768x384 1 [⟨S32768x128, u 0⟩, ⟨S32768x128, u 1⟩, ⟨S32768x128, u 2⟩] concatenates_S32768x128_S32768x128_S32768x128_S32768x384_d1),
    StableHlo.binary main_v113 main_arg19 main_v114 ((fun l r => Host.dotGeneral dot_S32768x384_S384x128_S32768x128_1_0_0_1_n_n none l r) : (⟨S32768x384, .f32⟩ : BufTy).Contents (Elt F) → (⟨S384x128, .f32⟩ : BufTy).Contents (Elt F) → (⟨S32768x128, .f32⟩ : BufTy).Contents (Elt F)),
    StableHlo.unary main_arg20 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S32768x128 ![0, 1] bcast_S1x128_S32768x128_0_1 : (⟨S1x128, .f32⟩ : BufTy).Contents (Elt F) → (⟨S32768x128, .f32⟩ : BufTy).Contents (Elt F)),
    StableHlo.binary main_v114 main_v116 main_v117 (addf : (⟨S32768x128, .f32⟩ : BufTy).Contents (Elt F) → (⟨S32768x128, .f32⟩ : BufTy).Contents (Elt F) → (⟨S32768x128, .f32⟩ : BufTy).Contents (Elt F)),
    StableHlo.nullary main_cst_15 (constant S_ .f32 0x00000000#32),
    StableHlo.binary main_v117 main_cst_15 main_v118 ((fun x v => Host.reduceAdd x v reducesTo_S32768x128_S128_d0 h_S_) : (⟨S32768x128, .f32⟩ : BufTy).Contents (Elt F) → (⟨S_, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.nullary main_cst_16 (constant S_ .f32 0x47000000#32),
    StableHlo.unary main_cst_16 main_v120 (broadcastInDim S1x128 ![] bcast_S_S1x128 : (⟨S_, .f32⟩ : BufTy).Contents (Elt F) → (⟨S1x128, .f32⟩ : BufTy).Contents (Elt F)),
    StableHlo.binary main_v119 main_v120 main_v121 (Host.divf : (⟨S1x128, .f32⟩ : BufTy).Contents (Elt F) → (⟨S1x128, .f32⟩ : BufTy).Contents (Elt F) → (⟨S1x128, .f32⟩ : BufTy).Contents (Elt F)),
    StableHlo.nullary main_c_17 (constantI S_ 32 0#32),
    StableHlo.TRef.nullary (.of main_call6_cst : StableHlo.TRef sig ⟨S_, .f32⟩) (constant S_ .f32 0x00000000#32),
    StableHlo.TRef.binary (.of main_v117 : StableHlo.TRef sig ⟨S32768x128, .f32⟩) (.of main_call6_cst : StableHlo.TRef sig ⟨S_, .f32⟩) (.of main_call6_v0 : StableHlo.TRef sig ⟨S128, .f32⟩) (fun x v => Host.reduceAdd x v reducesTo_S32768x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47000000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S32768x128, .f32⟩) (broadcastInDim S32768x128 ![0, 1] bcast_S1x128_S32768x128_0_1),
    StableHlo.TRef.binary (.of main_v117 : StableHlo.TRef sig ⟨S32768x128, .f32⟩) (.of main_call6_v4 : StableHlo.TRef sig ⟨S32768x128, .f32⟩) (.of main_call6_v5 : StableHlo.TRef sig ⟨S32768x128, .f32⟩) subf,
    StableHlo.TRef.binary (.of main_call6_v5 : StableHlo.TRef sig ⟨S32768x128, .f32⟩) (.of main_call6_v5 : StableHlo.TRef sig ⟨S32768x128, .f32⟩) (.of main_call6_v6 : StableHlo.TRef sig ⟨S32768x128, .f32⟩) mulf,
    StableHlo.TRef.unary (.of main_c_17 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S32768x128, .f32⟩) (.of main_call6_cst_2 : StableHlo.TRef sig ⟨S_, .f32⟩) (.of main_call6_v9 : StableHlo.TRef sig ⟨S128, .f32⟩) (fun x v => Host.reduceAdd x v reducesTo_S32768x128_S128_d0 h_S_),
    StableHlo.TRef.unary (.of main_call6_v9 : StableHlo.TRef sig ⟨S128, .f32⟩) (.of main_call6_v10 : StableHlo.TRef sig ⟨S1x128, .f32⟩) (broadcastInDim S1x128 ![1] bcast_S128_S1x128_1),
    StableHlo.TRef.unary (.of main_call6_v8 : StableHlo.TRef sig ⟨S_, .f32⟩) (.of main_call6_v11 : StableHlo.TRef sig ⟨S1x128, .f32⟩) (broadcastInDim S1x128 ![] bcast_S_S1x128),
    StableHlo.TRef.binary (.of main_call6_v10 : StableHlo.TRef sig ⟨S1x128, .f32⟩) (.of main_call6_v11 : StableHlo.TRef sig ⟨S1x128, .f32⟩) (.of main_call6_v12 : StableHlo.TRef sig ⟨S1x128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v13 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S1x128, .f32⟩) (broadcastInDim S1x128 ![] bcast_S_S1x128),
    StableHlo.TRef.ternary (.of main_call6_v13 : StableHlo.TRef sig ⟨S_, .i1⟩) (.of main_call6_v12 : StableHlo.TRef sig ⟨S1x128, .f32⟩) (.of main_call6_call0_v1 : StableHlo.TRef sig ⟨S1x128, .f32⟩) (.of main_v122 : StableHlo.TRef sig ⟨S1x128, .f32⟩) (fun p a b => select (broadcastInDim S1x128 ![] bcast_S_S1x128 p) a b),
    StableHlo.unary main_v121 main_v123 (broadcastInDim S32768x128 ![0, 1] bcast_S1x128_S32768x128_0_1 : (⟨S1x128, .f32⟩ : BufTy).Contents (Elt F) → (⟨S32768x128, .f32⟩ : BufTy).Contents (Elt F)),
    StableHlo.binary main_v117 main_v123 main_v124 (subf : (⟨S32768x128, .f32⟩ : BufTy).Contents (Elt F) → (⟨S32768x128, .f32⟩ : BufTy).Contents (Elt F) → (⟨S32768x128, .f32⟩ : BufTy).Contents (Elt F)),
    StableHlo.nullary main_cst_18 (constant S_ .f32 0x3727C5AC#32),
    StableHlo.unary main_cst_18 main_v125 (broadcastInDim S1x128 ![] bcast_S_S1x128 : (⟨S_, .f32⟩ : BufTy).Contents (Elt F) → (⟨S1x128, .f32⟩ : BufTy).Contents (Elt F)),
    StableHlo.binary main_v122 main_v125 main_v126 (addf : (⟨S1x128, .f32⟩ : BufTy).Contents (Elt F) → (⟨S1x128, .f32⟩ : BufTy).Contents (Elt F) → (⟨S1x128, .f32⟩ : BufTy).Contents (Elt F)),
    StableHlo.unary main_v126 main_v127 (Host.rsqrt : (⟨S1x128, .f32⟩ : BufTy).Contents (Elt F) → (⟨S1x128, .f32⟩ : BufTy).Contents (Elt F)),
    StableHlo.unary main_v127 main_v128 (broadcastInDim S32768x128 ![0, 1] bcast_S1x128_S32768x128_0_1 : (⟨S1x128, .f32⟩ : BufTy).Contents (Elt F) → (⟨S32768x128, .f32⟩ : BufTy).Contents (Elt F)),
    StableHlo.binary main_v124 main_v128 main_v129 (mulf : (⟨S32768x128, .f32⟩ : BufTy).Contents (Elt F) → (⟨S32768x128, .f32⟩ : BufTy).Contents (Elt F) → (⟨S32768x128, .f32⟩ : BufTy).Contents (Elt F)),
    StableHlo.unary main_arg21 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S32768x128 ![0, 1] bcast_S1x128_S32768x128_0_1 : (⟨S1x128, .f32⟩ : BufTy).Contents (Elt F) → (⟨S32768x128, .f32⟩ : BufTy).Contents (Elt F)),
    StableHlo.binary main_v129 main_v131 main_v132 (mulf : (⟨S32768x128, .f32⟩ : BufTy).Contents (Elt F) → (⟨S32768x128, .f32⟩ : BufTy).Contents (Elt F) → (⟨S32768x128, .f32⟩ : BufTy).Contents (Elt F)),
    StableHlo.unary main_arg22 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S32768x128 ![0, 1] bcast_S1x128_S32768x128_0_1 : (⟨S1x128, .f32⟩ : BufTy).Contents (Elt F) → (⟨S32768x128, .f32⟩ : BufTy).Contents (Elt F)),
    StableHlo.binary main_v132 main_v134 main_v135 (addf : (⟨S32768x128, .f32⟩ : BufTy).Contents (Elt F) → (⟨S32768x128, .f32⟩ : BufTy).Contents (Elt F) → (⟨S32768x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S32768x128, .f32⟩) (broadcastInDim S32768x128 ![] bcast_S_S32768x128),
    StableHlo.TRef.binary (.of main_v135 : StableHlo.TRef sig ⟨S32768x128, .f32⟩) (.of main_call7_v0 : StableHlo.TRef sig ⟨S32768x128, .f32⟩) (.of main_v136 : StableHlo.TRef sig ⟨S32768x128, .f32⟩) maximumf ]

/-- The operations from the first scatter-add to the stacked branches: the reference's side of the first chunk. -/
abbrev rChunk1 : List (HloOp τ sig (Elt F)) := opsUpS ++ opsDn ++ opsT1

/-- The whole program is the "up" messages, then the four chunks in a row. -/
theorem ops_eq_chunks : (ops : List (HloOp τ sig (Elt F))) = opsUp ++ (rChunk1 ++ (opsT2 ++ (opsT3 ++ opsT4))) := by chain_rfl

end Cert.ReferenceIdeal.Hand

end
-- ==== Proof.NaryReads.lean ====
/-
  The two three-piece concatenations of each program (the three branches stacked along a new leading axis, and the
  three branches' features joined along the feature axis), read at their result buffers with each piece's contents at
  its own buffer, so that reading a line of operations goes on through the pieces.
-/
import proofs.«106179_j53085795779158_2_alg».proof.Proof.Gen.KernelIdeal.Regions
import proofs.«106179_j53085795779158_2_alg».proof.Proof.RefOps
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-- Three node arrays stacked along a new leading axis. -/
def stack3 (A B C : FVec Ideal S1x32768x128 .f32) : FVec Ideal S3x32768x128 .f32 :=
  concatenate S3x32768x128 0 [⟨S1x32768x128, A⟩, ⟨S1x32768x128, B⟩, ⟨S1x32768x128, C⟩] concatenates_S1x32768x128_S1x32768x128_S1x32768x128_S3x32768x128_d0

/-- Three node arrays joined along the feature axis. -/
def join3 (A B C : FVec Ideal S32768x128 .f32) : FVec Ideal S32768x384 .f32 :=
  concatenate S32768x384 1 [⟨S32768x128, A⟩, ⟨S32768x128, B⟩, ⟨S32768x128, C⟩] concatenates_S32768x128_S32768x128_S32768x128_S32768x384_d1

theorem stack_result (hxs hy) (F : Valuation τ sig (Elt Ideal)) :
    (StableHlo.nary (τ := τ) ![main_v55, main_v56, main_v57] main_v58 (fun u => concatenate S3x32768x128 0 [⟨S1x32768x128, u 0⟩, ⟨S1x32768x128, u 1⟩, ⟨S1x32768x128, u 2⟩] concatenates_S1x32768x128_S1x32768x128_S1x32768x128_S3x32768x128_d0) hxs hy).result F (no_index (Proc.devRef .tc main_v58))
      = stack3 (F (Proc.devRef .tc main_v55)) (F (Proc.devRef .tc main_v56)) (F (Proc.devRef .tc main_v57)) :=
  nary_result _ _ _ hxs hy F

theorem join_result (hxs hy) (F : Valuation τ sig (Elt Ideal)) :
    (StableHlo.nary (τ := τ) ![main_v106, main_v108, main_v110] main_v111 (fun u => concatenate S32768x384 1 [⟨S32768x128, u 0⟩, ⟨S32768x128, u 1⟩, ⟨S32768x128, u 2⟩] concatenates_S32768x128_S32768x128_S32768x128_S32768x384_d1) hxs hy).result F (no_index (Proc.devRef .tc main_v111))
      = join3 (F (Proc.devRef .tc main_v106)) (F (Proc.devRef .tc main_v108)) (F (Proc.devRef .tc main_v110)) :=
  nary_result _ _ _ hxs hy F

end Cert.KernelIdeal.Hand

namespace Cert.ReferenceIdeal.Hand

open Cert.ReferenceIdeal Cert.ReferenceIdeal.Gen Idealize.ShloMosaic Idealize.ShloMosaic.TcCoe Idealize.SL.Sem Idealize.ShloMosaic.StableHlo

/-- Three node arrays stacked along a new leading axis. -/
def stack3 (A B C : FVec Ideal S1x32768x128 .f32) : FVec Ideal S3x32768x128 .f32 :=
  concatenate S3x32768x128 0 [⟨S1x32768x128, A⟩, ⟨S1x32768x128, B⟩, ⟨S1x32768x128, C⟩] concatenates_S1x32768x128_S1x32768x128_S1x32768x128_S3x32768x128_d0

/-- Three node arrays joined along the feature axis. -/
def join3 (A B C : FVec Ideal S32768x128 .f32) : FVec Ideal S32768x384 .f32 :=
  concatenate S32768x384 1 [⟨S32768x128, A⟩, ⟨S32768x128, B⟩, ⟨S32768x128, C⟩] concatenates_S32768x128_S32768x128_S32768x128_S32768x384_d1

theorem stack_result (hxs hy) (F : Valuation τ sig (Elt Ideal)) :
    (StableHlo.nary (τ := τ) ![main_v57, main_v58, main_v59] main_v60 (fun u => concatenate S3x32768x128 0 [⟨S1x32768x128, u 0⟩, ⟨S1x32768x128, u 1⟩, ⟨S1x32768x128, u 2⟩] concatenates_S1x32768x128_S1x32768x128_S1x32768x128_S3x32768x128_d0) hxs hy).result F (no_index (Proc.devRef .tc main_v60))
      = stack3 (F (Proc.devRef .tc main_v57)) (F (Proc.devRef .tc main_v58)) (F (Proc.devRef .tc main_v59)) :=
  nary_result _ _ _ hxs hy F

theorem join_result (hxs hy) (F : Valuation τ sig (Elt Ideal)) :
    (StableHlo.nary (τ := τ) ![main_v108, main_v110, main_v112] main_v113 (fun u => concatenate S32768x384 1 [⟨S32768x128, u 0⟩, ⟨S32768x128, u 1⟩, ⟨S32768x128, u 2⟩] concatenates_S32768x128_S32768x128_S32768x128_S32768x384_d1) hxs hy).result F (no_index (Proc.devRef .tc main_v113))
      = join3 (F (Proc.devRef .tc main_v108)) (F (Proc.devRef .tc main_v110)) (F (Proc.devRef .tc main_v112)) :=
  nary_result _ _ _ hxs hy F

end Cert.ReferenceIdeal.Hand

end
-- ==== Proof.ChunkTac.lean ====
/- Reading a line of host operations at a buffer: the fold is unrolled, each operation's result at its own buffer is its function of its operands'
   contents and at any other buffer what was there, and the two three-piece concatenations of each program are read with each piece at its own buffer. -/
import proofs.«106179_j53085795779158_2_alg».proof.Proof.NaryReads

namespace Cert.Tail

open Idealize.ShloMosaic Idealize.ShloMosaic.StableHlo

/-- The results of a line of host operations, in a hypothesis. -/
macro "tail_results_at " h:ident : tactic =>
  `(tactic| (simp (disch := decide) only [after_cons, after_nil,
      nullary_result', unary_result', binary_result', ternary_result', quaternary_result', reshape_result',
      Cert.KernelIdeal.Hand.stack_result, Cert.KernelIdeal.Hand.join_result, Cert.ReferenceIdeal.Hand.stack_result, Cert.ReferenceIdeal.Hand.join_result,
      unaryIndexed_result', binaryIndexed_result',
      nullary_result_ne', unary_result_ne', binary_result_ne', ternary_result_ne', quaternary_result_ne', reshape_result_ne',
      nary_result_ne', unaryIndexed_result_ne', binaryIndexed_result_ne'] at $h:ident))

/-- The results of a line of host operations, in the goal. -/
macro "tail_results_goal" : tactic =>
  `(tactic| (simp (disch := decide) only [after_cons, after_nil,
      nullary_result', unary_result', binary_result', ternary_result', quaternary_result', reshape_result',
      Cert.KernelIdeal.Hand.stack_result, Cert.KernelIdeal.Hand.join_result, Cert.ReferenceIdeal.Hand.stack_result, Cert.ReferenceIdeal.Hand.join_result,
      unaryIndexed_result', binaryIndexed_result',
      nullary_result_ne', unary_result_ne', binary_result_ne', ternary_result_ne', quaternary_result_ne', reshape_result_ne',
      nary_result_ne', unaryIndexed_result_ne', binaryIndexed_result_ne']))

end Cert.Tail
-- ==== Proof.Chunk1.lean ====
/- The two programs' first chunks agree: from equal message arrays (the second one the reference recomputes in this chunk) and equal node features and edge rows,
   the three scatter-adds, the self terms and the stacking give equal results — the same operations over differently numbered buffers, in another order. -/
import proofs.«106179_j53085795779158_2_alg».proof.Proof.ChunkListsK
import proofs.«106179_j53085795779158_2_alg».proof.Proof.ChunkListsR
import proofs.«106179_j53085795779158_2_alg».proof.Proof.ChunkTac
import Idealize.ShloMosaic.PureOps.Ideal

set_option maxHeartbeats 16000000
set_option maxRecDepth 16384

noncomputable section

namespace Cert.Tail

open Idealize.ShloMosaic Idealize.ShloMosaic.TcCoe Idealize.SL.Sem Idealize.ShloMosaic.StableHlo

theorem chunk1 (WK : Valuation Cert.KernelIdeal.τ Cert.KernelIdeal.sig (Elt Ideal))
    (WR : Valuation Cert.ReferenceIdeal.τ Cert.ReferenceIdeal.sig (Elt Ideal))
    (h26 : WK (Proc.devRef .tc Cert.KernelIdeal.main_v26) = WR (Proc.devRef .tc Cert.ReferenceIdeal.main_v14))
    (h27 : WK (Proc.devRef .tc Cert.KernelIdeal.main_v27) = after (Cert.ReferenceIdeal.Hand.opsUpS ++ Cert.ReferenceIdeal.Hand.opsDn) WR (Proc.devRef .tc Cert.ReferenceIdeal.main_v34))
    (ha0 : WK (Proc.devRef .tc Cert.KernelIdeal.main_arg0) = WR (Proc.devRef .tc Cert.ReferenceIdeal.main_arg0))
    (ha1 : WK (Proc.devRef .tc Cert.KernelIdeal.main_arg1) = WR (Proc.devRef .tc Cert.ReferenceIdeal.main_arg1))
    (ha2 : WK (Proc.devRef .tc Cert.KernelIdeal.main_arg2) = WR (Proc.devRef .tc Cert.ReferenceIdeal.main_arg2))
    (ha3 : WK (Proc.devRef .tc Cert.KernelIdeal.main_arg3) = WR (Proc.devRef .tc Cert.ReferenceIdeal.main_arg3))
    (ha6 : WK (Proc.devRef .tc Cert.KernelIdeal.main_arg6) = WR (Proc.devRef .tc Cert.ReferenceIdeal.main_arg6)) :
    after Cert.KernelIdeal.Hand.tailK1 WK (Proc.devRef .tc Cert.KernelIdeal.main_v58)
      = after Cert.ReferenceIdeal.Hand.rChunk1 WR (Proc.devRef .tc Cert.ReferenceIdeal.main_v60) := by
  simp only [Cert.ReferenceIdeal.Hand.opsUpS, Cert.ReferenceIdeal.Hand.opsDn, List.cons_append, List.nil_append,
    StableHlo.TRef.nullary, StableHlo.TRef.unary, StableHlo.TRef.binary, StableHlo.TRef.ternary, StableHlo.TRef.toBuf, StableHlo.TRef.ofBuf,
    StableHlo.TRef.of, cast_eq] at h27
  tail_results_at h27
  simp only [Cert.KernelIdeal.Hand.tailK1, Cert.ReferenceIdeal.Hand.rChunk1, Cert.ReferenceIdeal.Hand.opsUpS, Cert.ReferenceIdeal.Hand.opsDn, Cert.ReferenceIdeal.Hand.opsT1, List.cons_append, List.nil_append,
    StableHlo.TRef.nullary, StableHlo.TRef.unary, StableHlo.TRef.binary, StableHlo.TRef.ternary, StableHlo.TRef.toBuf, StableHlo.TRef.ofBuf,
    StableHlo.TRef.of, cast_eq]
  tail_results_goal
  rw [h26, h27, ha0, ha1, ha2, ha3, ha6]
  first | rfl | fail "final rfl failed"

end Cert.Tail

end
-- ==== Proof.Chunk2.lean ====
/- The two programs' second chunks agree: from equal stacked branches and equal first-layer weights, bias, scale and shift, the batched dense layer,
   its batch normalisation and its rectifier give equal results — the same operations over differently numbered buffers. -/
import proofs.«106179_j53085795779158_2_alg».proof.Proof.ChunkListsK
import proofs.«106179_j53085795779158_2_alg».proof.Proof.ChunkListsR
import proofs.«106179_j53085795779158_2_alg».proof.Proof.ChunkTac
import Idealize.ShloMosaic.PureOps.Ideal

set_option maxHeartbeats 16000000
set_option maxRecDepth 16384

noncomputable section

namespace Cert.Tail

open Idealize.ShloMosaic Idealize.ShloMosaic.TcCoe Idealize.SL.Sem Idealize.ShloMosaic.StableHlo

theorem chunk2 (WK : Valuation Cert.KernelIdeal.τ Cert.KernelIdeal.sig (Elt Ideal))
    (WR : Valuation Cert.ReferenceIdeal.τ Cert.ReferenceIdeal.sig (Elt Ideal))
    (hin : WK (Proc.devRef .tc Cert.KernelIdeal.main_v58) = WR (Proc.devRef .tc Cert.ReferenceIdeal.main_v60))
    (ha11 : WK (Proc.devRef .tc Cert.KernelIdeal.main_arg11) = WR (Proc.devRef .tc Cert.ReferenceIdeal.main_arg11))
    (ha12 : WK (Proc.devRef .tc Cert.KernelIdeal.main_arg12) = WR (Proc.devRef .tc Cert.ReferenceIdeal.main_arg12))
    (ha13 : WK (Proc.devRef .tc Cert.KernelIdeal.main_arg13) = WR (Proc.devRef .tc Cert.ReferenceIdeal.main_arg13))
    (ha14 : WK (Proc.devRef .tc Cert.KernelIdeal.main_arg14) = WR (Proc.devRef .tc Cert.ReferenceIdeal.main_arg14)) :
    after Cert.KernelIdeal.Hand.tailK2 WK (Proc.devRef .tc Cert.KernelIdeal.main_v81)
      = after Cert.ReferenceIdeal.Hand.opsT2 WR (Proc.devRef .tc Cert.ReferenceIdeal.main_v83) := by
  simp only [Cert.KernelIdeal.Hand.tailK2, Cert.ReferenceIdeal.Hand.opsT2, List.cons_append, List.nil_append,
    StableHlo.TRef.nullary, StableHlo.TRef.unary, StableHlo.TRef.binary, StableHlo.TRef.ternary, StableHlo.TRef.toBuf, StableHlo.TRef.ofBuf,
    StableHlo.TRef.of, cast_eq]
  tail_results_goal
  rw [hin, ha11, ha12, ha13, ha14]
  first | rfl | fail "final rfl failed"

end Cert.Tail

end
-- ==== Proof.Chunk3.lean ====
/- The two programs' third chunks agree: from equal rectified first-layer arrays and equal second-layer weights, bias, scale and shift, the batched dense layer,
   its batch normalisation and its rectifier give equal results — the same operations over differently numbered buffers. -/
import proofs.«106179_j53085795779158_2_alg».proof.Proof.ChunkListsK
import proofs.«106179_j53085795779158_2_alg».proof.Proof.ChunkListsR
import proofs.«106179_j53085795779158_2_alg».proof.Proof.ChunkTac
import Idealize.ShloMosaic.PureOps.Ideal

set_option maxHeartbeats 16000000
set_option maxRecDepth 16384

noncomputable section

namespace Cert.Tail

open Idealize.ShloMosaic Idealize.ShloMosaic.TcCoe Idealize.SL.Sem Idealize.ShloMosaic.StableHlo

theorem chunk3 (WK : Valuation Cert.KernelIdeal.τ Cert.KernelIdeal.sig (Elt Ideal))
    (WR : Valuation Cert.ReferenceIdeal.τ Cert.ReferenceIdeal.sig (Elt Ideal))
    (hin : WK (Proc.devRef .tc Cert.KernelIdeal.main_v81) = WR (Proc.devRef .tc Cert.ReferenceIdeal.main_v83))
    (ha15 : WK (Proc.devRef .tc Cert.KernelIdeal.main_arg15) = WR (Proc.devRef .tc Cert.ReferenceIdeal.main_arg15))
    (ha16 : WK (Proc.devRef .tc Cert.KernelIdeal.main_arg16) = WR (Proc.devRef .tc Cert.ReferenceIdeal.main_arg16))
    (ha17 : WK (Proc.devRef .tc Cert.KernelIdeal.main_arg17) = WR (Proc.devRef .tc Cert.ReferenceIdeal.main_arg17))
    (ha18 : WK (Proc.devRef .tc Cert.KernelIdeal.main_arg18) = WR (Proc.devRef .tc Cert.ReferenceIdeal.main_arg18)) :
    after Cert.KernelIdeal.Hand.tailK3 WK (Proc.devRef .tc Cert.KernelIdeal.main_v104)
      = after Cert.ReferenceIdeal.Hand.opsT3 WR (Proc.devRef .tc Cert.ReferenceIdeal.main_v106) := by
  simp only [Cert.KernelIdeal.Hand.tailK3, Cert.ReferenceIdeal.Hand.opsT3, List.cons_append, List.nil_append,
    StableHlo.TRef.nullary, StableHlo.TRef.unary, StableHlo.TRef.binary, StableHlo.TRef.ternary, StableHlo.TRef.toBuf, StableHlo.TRef.ofBuf,
    StableHlo.TRef.of, cast_eq]
  tail_results_goal
  rw [hin, ha15, ha16, ha17, ha18]
  first | rfl | fail "final rfl failed"

end Cert.Tail

end
-- ==== Proof.Chunk4.lean ====
/- The two programs' last chunks agree: from equal rectified second-layer arrays and equal last-layer weights, bias, scale and shift, the three slices joined,
   the last dense layer, its batch normalisation and its rectifier give equal results — the same operations over differently numbered buffers. -/
import proofs.«106179_j53085795779158_2_alg».proof.Proof.ChunkListsK
import proofs.«106179_j53085795779158_2_alg».proof.Proof.ChunkListsR
import proofs.«106179_j53085795779158_2_alg».proof.Proof.ChunkTac
import Idealize.ShloMosaic.PureOps.Ideal

set_option maxHeartbeats 16000000
set_option maxRecDepth 16384

noncomputable section

namespace Cert.Tail

open Idealize.ShloMosaic Idealize.ShloMosaic.TcCoe Idealize.SL.Sem Idealize.ShloMosaic.StableHlo

theorem chunk4 (WK : Valuation Cert.KernelIdeal.τ Cert.KernelIdeal.sig (Elt Ideal))
    (WR : Valuation Cert.ReferenceIdeal.τ Cert.ReferenceIdeal.sig (Elt Ideal))
    (hin : WK (Proc.devRef .tc Cert.KernelIdeal.main_v104) = WR (Proc.devRef .tc Cert.ReferenceIdeal.main_v106))
    (ha19 : WK (Proc.devRef .tc Cert.KernelIdeal.main_arg19) = WR (Proc.devRef .tc Cert.ReferenceIdeal.main_arg19))
    (ha20 : WK (Proc.devRef .tc Cert.KernelIdeal.main_arg20) = WR (Proc.devRef .tc Cert.ReferenceIdeal.main_arg20))
    (ha21 : WK (Proc.devRef .tc Cert.KernelIdeal.main_arg21) = WR (Proc.devRef .tc Cert.ReferenceIdeal.main_arg21))
    (ha22 : WK (Proc.devRef .tc Cert.KernelIdeal.main_arg22) = WR (Proc.devRef .tc Cert.ReferenceIdeal.main_arg22)) :
    after Cert.KernelIdeal.Hand.tailK4 WK (Proc.devRef .tc Cert.KernelIdeal.main_v134)
      = after Cert.ReferenceIdeal.Hand.opsT4 WR (Proc.devRef .tc Cert.ReferenceIdeal.main_v136) := by
  simp only [Cert.KernelIdeal.Hand.tailK4, Cert.ReferenceIdeal.Hand.opsT4, List.cons_append, List.nil_append,
    StableHlo.TRef.nullary, StableHlo.TRef.unary, StableHlo.TRef.binary, StableHlo.TRef.ternary, StableHlo.TRef.toBuf, StableHlo.TRef.ofBuf,
    StableHlo.TRef.of, cast_eq]
  tail_results_goal
  rw [hin, ha19, ha20, ha21, ha22]
  first | rfl | fail "final rfl failed"

end Cert.Tail

end
-- ==== Proof.ChunkFrameK.lean ====
/- What the first three chunks of the kernel program's last stretch write: each chunk's list of written references. -/
import proofs.«106179_j53085795779158_2_alg».proof.Proof.ChunkListsK

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The references `tailK1`'s operations write, in order. -/
abbrev tailK1_W : List (Ref sig .tc) := [main_v28, main_v29, main_cst, main_v30, main_v31, main_v32, main_v33, main_v34, main_cst_3, main_v35, main_v36, main_v37, main_v38, main_v39, main_c_4, main_v40, main_v41, main_c_5, main_v42, main_v43, main_v44, main_v45, main_v46, main_v47, main_v48, main_cst_6, main_v49, main_v50, main_v51, main_v52, main_v53, main_v54, main_v55, main_v56, main_v57, main_v58]
theorem tailK1_writes : (tailK1 : List (HloOp τ sig (Elt F))).Forall fun op => op.writes ⊆ (tailK1_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The references `tailK2`'s operations write, in order. -/
abbrev tailK2_W : List (Ref sig .tc) := [main_v59, main_v60, main_v61, main_v62, main_v63, main_v64, main_cst_7, main_v65, main_v66, main_cst_8, main_v67, main_v68, main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v69, main_v70, main_v71, main_cst_10, main_v72, main_v73, main_v74, main_v75, main_v76, main_v77, main_v78, main_v79, main_v80, main_call1_cst, main_call1_v0, main_v81]
theorem tailK2_writes : (tailK2 : List (HloOp τ sig (Elt F))).Forall fun op => op.writes ⊆ (tailK2_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The references `tailK3`'s operations write, in order. -/
abbrev tailK3_W : List (Ref sig .tc) := [main_v82, main_v83, main_v84, main_v85, main_v86, main_v87, main_cst_11, main_v88, main_v89, main_cst_12, main_v90, main_v91, main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v92, main_v93, main_v94, main_cst_14, main_v95, main_v96, main_v97, main_v98, main_v99, main_v100, main_v101, main_v102, main_v103, main_call3_cst, main_call3_v0, main_v104]
theorem tailK3_writes : (tailK3 : List (HloOp τ sig (Elt F))).Forall fun op => op.writes ⊆ (tailK3_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.KernelIdeal.Hand

end
-- ==== Proof.ChunkFrameR.lean ====
/- What the first three chunks of opsTail write: each chunk's list of written references. -/
import proofs.«106179_j53085795779158_2_alg».proof.Proof.ChunkListsR

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references `opsT1`'s operations write, in order. -/
abbrev opsT1_W : List (Ref sig .tc) := [main_v35, main_v36, main_cst_3, main_v37, main_v38, main_v39, main_v40, main_v41, main_c_4, main_v42, main_v43, main_c_5, main_v44, main_v45, main_v46, main_v47, main_v48, main_v49, main_v50, main_cst_6, main_v51, main_v52, main_v53, main_v54, main_v55, main_v56, main_v57, main_v58, main_v59, main_v60]
theorem opsT1_writes : (opsT1 : List (HloOp τ sig (Elt F))).Forall fun op => op.writes ⊆ (opsT1_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The references `opsT2`'s operations write, in order. -/
abbrev opsT2_W : List (Ref sig .tc) := [main_v61, main_v62, main_v63, main_v64, main_v65, main_v66, main_cst_7, main_v67, main_v68, main_cst_8, main_v69, main_v70, main_c_9, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v71, main_v72, main_v73, main_cst_10, main_v74, main_v75, main_v76, main_v77, main_v78, main_v79, main_v80, main_v81, main_v82, main_call3_cst, main_call3_v0, main_v83]
theorem opsT2_writes : (opsT2 : List (HloOp τ sig (Elt F))).Forall fun op => op.writes ⊆ (opsT2_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The references `opsT3`'s operations write, in order. -/
abbrev opsT3_W : List (Ref sig .tc) := [main_v84, main_v85, main_v86, main_v87, main_v88, main_v89, main_cst_11, main_v90, main_v91, main_cst_12, main_v92, main_v93, main_c_13, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v94, main_v95, main_v96, main_cst_14, main_v97, main_v98, main_v99, main_v100, main_v101, main_v102, main_v103, main_v104, main_v105, main_call5_cst, main_call5_v0, main_v106]
theorem opsT3_writes : (opsT3 : List (HloOp τ sig (Elt F))).Forall fun op => op.writes ⊆ (opsT3_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.ReferenceIdeal.Hand

end
-- ==== Proof.ChunkTail.lean ====
/- The two programs' last stretches agree, chunk by chunk: each program's stretch is four chunks in a row, corresponding chunks give equal results from equal
   inputs, and no chunk writes an argument array, so the equalities of the inputs pass from each chunk to the next. -/
import proofs.«106179_j53085795779158_2_alg».proof.Proof.Chunk1
import proofs.«106179_j53085795779158_2_alg».proof.Proof.Chunk2
import proofs.«106179_j53085795779158_2_alg».proof.Proof.Chunk3
import proofs.«106179_j53085795779158_2_alg».proof.Proof.Chunk4
import proofs.«106179_j53085795779158_2_alg».proof.Proof.ChunkFrameK
import proofs.«106179_j53085795779158_2_alg».proof.Proof.ChunkFrameR
import proofs.«106179_j53085795779158_2_alg».proof.Proof.RefRunLists

set_option maxRecDepth 16384

noncomputable section

namespace Cert.Tail

open Idealize.ShloMosaic Idealize.ShloMosaic.TcCoe Idealize.SL.Sem Idealize.ShloMosaic.StableHlo

section Keeps
variable {F : FTy → Type} [FloatOps F]

/-- A reference the kernel program's first chunk does not write keeps its contents through it; likewise the second and third. -/
theorem keepK1 (V : Valuation Cert.KernelIdeal.τ Cert.KernelIdeal.sig (Elt F)) {r : Ref Cert.KernelIdeal.sig .tc} (h : r ∉ Cert.KernelIdeal.Hand.tailK1_W) :
    after Cert.KernelIdeal.Hand.tailK1 V (Proc.devRef .tc r) = V (Proc.devRef .tc r) := after_of_writes_sub _ V Cert.KernelIdeal.Hand.tailK1_writes h
theorem keepK2 (V : Valuation Cert.KernelIdeal.τ Cert.KernelIdeal.sig (Elt F)) {r : Ref Cert.KernelIdeal.sig .tc} (h : r ∉ Cert.KernelIdeal.Hand.tailK2_W) :
    after Cert.KernelIdeal.Hand.tailK2 V (Proc.devRef .tc r) = V (Proc.devRef .tc r) := after_of_writes_sub _ V Cert.KernelIdeal.Hand.tailK2_writes h
theorem keepK3 (V : Valuation Cert.KernelIdeal.τ Cert.KernelIdeal.sig (Elt F)) {r : Ref Cert.KernelIdeal.sig .tc} (h : r ∉ Cert.KernelIdeal.Hand.tailK3_W) :
    after Cert.KernelIdeal.Hand.tailK3 V (Proc.devRef .tc r) = V (Proc.devRef .tc r) := after_of_writes_sub _ V Cert.KernelIdeal.Hand.tailK3_writes h

/-- A reference the reference program's "up" messages do not write keeps its contents through them; likewise through each later chunk. -/
theorem keepR0 (V : Valuation Cert.ReferenceIdeal.τ Cert.ReferenceIdeal.sig (Elt F)) {r : Ref Cert.ReferenceIdeal.sig .tc} (h : r ∉ Cert.ReferenceIdeal.Hand.opsUp_W) :
    after Cert.ReferenceIdeal.Hand.opsUp V (Proc.devRef .tc r) = V (Proc.devRef .tc r) := after_of_writes_sub _ V Cert.ReferenceIdeal.Hand.opsUp_writes h
theorem keepR1 (V : Valuation Cert.ReferenceIdeal.τ Cert.ReferenceIdeal.sig (Elt F)) {r : Ref Cert.ReferenceIdeal.sig .tc}
    (h1 : r ∉ Cert.ReferenceIdeal.Hand.opsUpS_W) (h2 : r ∉ Cert.ReferenceIdeal.Hand.opsDn_W) (h3 : r ∉ Cert.ReferenceIdeal.Hand.opsT1_W) :
    after Cert.ReferenceIdeal.Hand.rChunk1 V (Proc.devRef .tc r) = V (Proc.devRef .tc r) := by
  show after ((Cert.ReferenceIdeal.Hand.opsUpS ++ Cert.ReferenceIdeal.Hand.opsDn) ++ Cert.ReferenceIdeal.Hand.opsT1) V _ = _
  rw [after_append, after_append, after_of_writes_sub Cert.ReferenceIdeal.Hand.opsT1 _ Cert.ReferenceIdeal.Hand.opsT1_writes h3,
    after_of_writes_sub Cert.ReferenceIdeal.Hand.opsDn _ Cert.ReferenceIdeal.Hand.opsDn_writes h2, after_of_writes_sub Cert.ReferenceIdeal.Hand.opsUpS _ Cert.ReferenceIdeal.Hand.opsUpS_writes h1]
theorem keepR2 (V : Valuation Cert.ReferenceIdeal.τ Cert.ReferenceIdeal.sig (Elt F)) {r : Ref Cert.ReferenceIdeal.sig .tc} (h : r ∉ Cert.ReferenceIdeal.Hand.opsT2_W) :
    after Cert.ReferenceIdeal.Hand.opsT2 V (Proc.devRef .tc r) = V (Proc.devRef .tc r) := after_of_writes_sub _ V Cert.ReferenceIdeal.Hand.opsT2_writes h
theorem keepR3 (V : Valuation Cert.ReferenceIdeal.τ Cert.ReferenceIdeal.sig (Elt F)) {r : Ref Cert.ReferenceIdeal.sig .tc} (h : r ∉ Cert.ReferenceIdeal.Hand.opsT3_W) :
    after Cert.ReferenceIdeal.Hand.opsT3 V (Proc.devRef .tc r) = V (Proc.devRef .tc r) := after_of_writes_sub _ V Cert.ReferenceIdeal.Hand.opsT3_writes h

end Keeps

theorem tail_agree_chunked (VK : Valuation Cert.KernelIdeal.τ Cert.KernelIdeal.sig (Elt Ideal))
    (VR : Valuation Cert.ReferenceIdeal.τ Cert.ReferenceIdeal.sig (Elt Ideal))
    (h26 : VK (Proc.devRef .tc Cert.KernelIdeal.main_v26)
      = after Cert.ReferenceIdeal.Hand.opsUp VR (Proc.devRef .tc Cert.ReferenceIdeal.main_v14))
    (h27 : VK (Proc.devRef .tc Cert.KernelIdeal.main_v27)
      = after (Cert.ReferenceIdeal.Hand.opsUp ++ Cert.ReferenceIdeal.Hand.opsUpS ++ Cert.ReferenceIdeal.Hand.opsDn) VR
          (Proc.devRef .tc Cert.ReferenceIdeal.main_v34))
    (ha0 : VK (Proc.devRef .tc Cert.KernelIdeal.main_arg0) = VR (Proc.devRef .tc Cert.ReferenceIdeal.main_arg0))
    (ha1 : VK (Proc.devRef .tc Cert.KernelIdeal.main_arg1) = VR (Proc.devRef .tc Cert.ReferenceIdeal.main_arg1))
    (ha2 : VK (Proc.devRef .tc Cert.KernelIdeal.main_arg2) = VR (Proc.devRef .tc Cert.ReferenceIdeal.main_arg2))
    (ha3 : VK (Proc.devRef .tc Cert.KernelIdeal.main_arg3) = VR (Proc.devRef .tc Cert.ReferenceIdeal.main_arg3))
    (ha6 : VK (Proc.devRef .tc Cert.KernelIdeal.main_arg6) = VR (Proc.devRef .tc Cert.ReferenceIdeal.main_arg6))
    (ha11 : VK (Proc.devRef .tc Cert.KernelIdeal.main_arg11) = VR (Proc.devRef .tc Cert.ReferenceIdeal.main_arg11))
    (ha12 : VK (Proc.devRef .tc Cert.KernelIdeal.main_arg12) = VR (Proc.devRef .tc Cert.ReferenceIdeal.main_arg12))
    (ha13 : VK (Proc.devRef .tc Cert.KernelIdeal.main_arg13) = VR (Proc.devRef .tc Cert.ReferenceIdeal.main_arg13))
    (ha14 : VK (Proc.devRef .tc Cert.KernelIdeal.main_arg14) = VR (Proc.devRef .tc Cert.ReferenceIdeal.main_arg14))
    (ha15 : VK (Proc.devRef .tc Cert.KernelIdeal.main_arg15) = VR (Proc.devRef .tc Cert.ReferenceIdeal.main_arg15))
    (ha16 : VK (Proc.devRef .tc Cert.KernelIdeal.main_arg16) = VR (Proc.devRef .tc Cert.ReferenceIdeal.main_arg16))
    (ha17 : VK (Proc.devRef .tc Cert.KernelIdeal.main_arg17) = VR (Proc.devRef .tc Cert.ReferenceIdeal.main_arg17))
    (ha18 : VK (Proc.devRef .tc Cert.KernelIdeal.main_arg18) = VR (Proc.devRef .tc Cert.ReferenceIdeal.main_arg18))
    (ha19 : VK (Proc.devRef .tc Cert.KernelIdeal.main_arg19) = VR (Proc.devRef .tc Cert.ReferenceIdeal.main_arg19))
    (ha20 : VK (Proc.devRef .tc Cert.KernelIdeal.main_arg20) = VR (Proc.devRef .tc Cert.ReferenceIdeal.main_arg20))
    (ha21 : VK (Proc.devRef .tc Cert.KernelIdeal.main_arg21) = VR (Proc.devRef .tc Cert.ReferenceIdeal.main_arg21))
    (ha22 : VK (Proc.devRef .tc Cert.KernelIdeal.main_arg22) = VR (Proc.devRef .tc Cert.ReferenceIdeal.main_arg22)) :
    after Cert.KernelIdeal.Hand.tailOps VK (Proc.devRef .tc Cert.KernelIdeal.main_v134)
      = after Cert.ReferenceIdeal.Hand.ops VR (Proc.devRef .tc Cert.ReferenceIdeal.main_v136) := by
  -- the second message array against the reference's, read from the buffers the "up" messages leave
  have h27' : VK (Proc.devRef .tc Cert.KernelIdeal.main_v27) = after (Cert.ReferenceIdeal.Hand.opsUpS ++ Cert.ReferenceIdeal.Hand.opsDn) (after Cert.ReferenceIdeal.Hand.opsUp VR) (Proc.devRef .tc Cert.ReferenceIdeal.main_v34) :=
    h27.trans (by simp only [after_append])
  -- the argument arrays at the start of each chunk
  have a0_0 := (ha0).trans (keepR0 VR (r := Cert.ReferenceIdeal.main_arg0) (by decide)).symm
  have a0_1 := (ha1).trans (keepR0 VR (r := Cert.ReferenceIdeal.main_arg1) (by decide)).symm
  have a0_2 := (ha2).trans (keepR0 VR (r := Cert.ReferenceIdeal.main_arg2) (by decide)).symm
  have a0_3 := (ha3).trans (keepR0 VR (r := Cert.ReferenceIdeal.main_arg3) (by decide)).symm
  have a0_6 := (ha6).trans (keepR0 VR (r := Cert.ReferenceIdeal.main_arg6) (by decide)).symm
  have a1_11 := ((keepK1 VK (r := Cert.KernelIdeal.main_arg11) (by decide)).trans ha11).trans ((keepR1 (after Cert.ReferenceIdeal.Hand.opsUp VR) (r := Cert.ReferenceIdeal.main_arg11) (by decide) (by decide) (by decide)).trans (keepR0 VR (r := Cert.ReferenceIdeal.main_arg11) (by decide))).symm
  have a1_12 := ((keepK1 VK (r := Cert.KernelIdeal.main_arg12) (by decide)).trans ha12).trans ((keepR1 (after Cert.ReferenceIdeal.Hand.opsUp VR) (r := Cert.ReferenceIdeal.main_arg12) (by decide) (by decide) (by decide)).trans (keepR0 VR (r := Cert.ReferenceIdeal.main_arg12) (by decide))).symm
  have a1_13 := ((keepK1 VK (r := Cert.KernelIdeal.main_arg13) (by decide)).trans ha13).trans ((keepR1 (after Cert.ReferenceIdeal.Hand.opsUp VR) (r := Cert.ReferenceIdeal.main_arg13) (by decide) (by decide) (by decide)).trans (keepR0 VR (r := Cert.ReferenceIdeal.main_arg13) (by decide))).symm
  have a1_14 := ((keepK1 VK (r := Cert.KernelIdeal.main_arg14) (by decide)).trans ha14).trans ((keepR1 (after Cert.ReferenceIdeal.Hand.opsUp VR) (r := Cert.ReferenceIdeal.main_arg14) (by decide) (by decide) (by decide)).trans (keepR0 VR (r := Cert.ReferenceIdeal.main_arg14) (by decide))).symm
  have a2_15 := (((keepK2 (after Cert.KernelIdeal.Hand.tailK1 VK) (r := Cert.KernelIdeal.main_arg15) (by decide)).trans (keepK1 VK (r := Cert.KernelIdeal.main_arg15) (by decide))).trans ha15).trans (((keepR2 (after Cert.ReferenceIdeal.Hand.rChunk1 (after Cert.ReferenceIdeal.Hand.opsUp VR)) (r := Cert.ReferenceIdeal.main_arg15) (by decide)).trans (keepR1 (after Cert.ReferenceIdeal.Hand.opsUp VR) (r := Cert.ReferenceIdeal.main_arg15) (by decide) (by decide) (by decide))).trans (keepR0 VR (r := Cert.ReferenceIdeal.main_arg15) (by decide))).symm
  have a2_16 := (((keepK2 (after Cert.KernelIdeal.Hand.tailK1 VK) (r := Cert.KernelIdeal.main_arg16) (by decide)).trans (keepK1 VK (r := Cert.KernelIdeal.main_arg16) (by decide))).trans ha16).trans (((keepR2 (after Cert.ReferenceIdeal.Hand.rChunk1 (after Cert.ReferenceIdeal.Hand.opsUp VR)) (r := Cert.ReferenceIdeal.main_arg16) (by decide)).trans (keepR1 (after Cert.ReferenceIdeal.Hand.opsUp VR) (r := Cert.ReferenceIdeal.main_arg16) (by decide) (by decide) (by decide))).trans (keepR0 VR (r := Cert.ReferenceIdeal.main_arg16) (by decide))).symm
  have a2_17 := (((keepK2 (after Cert.KernelIdeal.Hand.tailK1 VK) (r := Cert.KernelIdeal.main_arg17) (by decide)).trans (keepK1 VK (r := Cert.KernelIdeal.main_arg17) (by decide))).trans ha17).trans (((keepR2 (after Cert.ReferenceIdeal.Hand.rChunk1 (after Cert.ReferenceIdeal.Hand.opsUp VR)) (r := Cert.ReferenceIdeal.main_arg17) (by decide)).trans (keepR1 (after Cert.ReferenceIdeal.Hand.opsUp VR) (r := Cert.ReferenceIdeal.main_arg17) (by decide) (by decide) (by decide))).trans (keepR0 VR (r := Cert.ReferenceIdeal.main_arg17) (by decide))).symm
  have a2_18 := (((keepK2 (after Cert.KernelIdeal.Hand.tailK1 VK) (r := Cert.KernelIdeal.main_arg18) (by decide)).trans (keepK1 VK (r := Cert.KernelIdeal.main_arg18) (by decide))).trans ha18).trans (((keepR2 (after Cert.ReferenceIdeal.Hand.rChunk1 (after Cert.ReferenceIdeal.Hand.opsUp VR)) (r := Cert.ReferenceIdeal.main_arg18) (by decide)).trans (keepR1 (after Cert.ReferenceIdeal.Hand.opsUp VR) (r := Cert.ReferenceIdeal.main_arg18) (by decide) (by decide) (by decide))).trans (keepR0 VR (r := Cert.ReferenceIdeal.main_arg18) (by decide))).symm
  have a3_19 := ((((keepK3 (after Cert.KernelIdeal.Hand.tailK2 (after Cert.KernelIdeal.Hand.tailK1 VK)) (r := Cert.KernelIdeal.main_arg19) (by decide)).trans (keepK2 (after Cert.KernelIdeal.Hand.tailK1 VK) (r := Cert.KernelIdeal.main_arg19) (by decide))).trans (keepK1 VK (r := Cert.KernelIdeal.main_arg19) (by decide))).trans ha19).trans ((((keepR3 (after Cert.ReferenceIdeal.Hand.opsT2 (after Cert.ReferenceIdeal.Hand.rChunk1 (after Cert.ReferenceIdeal.Hand.opsUp VR))) (r := Cert.ReferenceIdeal.main_arg19) (by decide)).trans (keepR2 (after Cert.ReferenceIdeal.Hand.rChunk1 (after Cert.ReferenceIdeal.Hand.opsUp VR)) (r := Cert.ReferenceIdeal.main_arg19) (by decide))).trans (keepR1 (after Cert.ReferenceIdeal.Hand.opsUp VR) (r := Cert.ReferenceIdeal.main_arg19) (by decide) (by decide) (by decide))).trans (keepR0 VR (r := Cert.ReferenceIdeal.main_arg19) (by decide))).symm
  have a3_20 := ((((keepK3 (after Cert.KernelIdeal.Hand.tailK2 (after Cert.KernelIdeal.Hand.tailK1 VK)) (r := Cert.KernelIdeal.main_arg20) (by decide)).trans (keepK2 (after Cert.KernelIdeal.Hand.tailK1 VK) (r := Cert.KernelIdeal.main_arg20) (by decide))).trans (keepK1 VK (r := Cert.KernelIdeal.main_arg20) (by decide))).trans ha20).trans ((((keepR3 (after Cert.ReferenceIdeal.Hand.opsT2 (after Cert.ReferenceIdeal.Hand.rChunk1 (after Cert.ReferenceIdeal.Hand.opsUp VR))) (r := Cert.ReferenceIdeal.main_arg20) (by decide)).trans (keepR2 (after Cert.ReferenceIdeal.Hand.rChunk1 (after Cert.ReferenceIdeal.Hand.opsUp VR)) (r := Cert.ReferenceIdeal.main_arg20) (by decide))).trans (keepR1 (after Cert.ReferenceIdeal.Hand.opsUp VR) (r := Cert.ReferenceIdeal.main_arg20) (by decide) (by decide) (by decide))).trans (keepR0 VR (r := Cert.ReferenceIdeal.main_arg20) (by decide))).symm
  have a3_21 := ((((keepK3 (after Cert.KernelIdeal.Hand.tailK2 (after Cert.KernelIdeal.Hand.tailK1 VK)) (r := Cert.KernelIdeal.main_arg21) (by decide)).trans (keepK2 (after Cert.KernelIdeal.Hand.tailK1 VK) (r := Cert.KernelIdeal.main_arg21) (by decide))).trans (keepK1 VK (r := Cert.KernelIdeal.main_arg21) (by decide))).trans ha21).trans ((((keepR3 (after Cert.ReferenceIdeal.Hand.opsT2 (after Cert.ReferenceIdeal.Hand.rChunk1 (after Cert.ReferenceIdeal.Hand.opsUp VR))) (r := Cert.ReferenceIdeal.main_arg21) (by decide)).trans (keepR2 (after Cert.ReferenceIdeal.Hand.rChunk1 (after Cert.ReferenceIdeal.Hand.opsUp VR)) (r := Cert.ReferenceIdeal.main_arg21) (by decide))).trans (keepR1 (after Cert.ReferenceIdeal.Hand.opsUp VR) (r := Cert.ReferenceIdeal.main_arg21) (by decide) (by decide) (by decide))).trans (keepR0 VR (r := Cert.ReferenceIdeal.main_arg21) (by decide))).symm
  have a3_22 := ((((keepK3 (after Cert.KernelIdeal.Hand.tailK2 (after Cert.KernelIdeal.Hand.tailK1 VK)) (r := Cert.KernelIdeal.main_arg22) (by decide)).trans (keepK2 (after Cert.KernelIdeal.Hand.tailK1 VK) (r := Cert.KernelIdeal.main_arg22) (by decide))).trans (keepK1 VK (r := Cert.KernelIdeal.main_arg22) (by decide))).trans ha22).trans ((((keepR3 (after Cert.ReferenceIdeal.Hand.opsT2 (after Cert.ReferenceIdeal.Hand.rChunk1 (after Cert.ReferenceIdeal.Hand.opsUp VR))) (r := Cert.ReferenceIdeal.main_arg22) (by decide)).trans (keepR2 (after Cert.ReferenceIdeal.Hand.rChunk1 (after Cert.ReferenceIdeal.Hand.opsUp VR)) (r := Cert.ReferenceIdeal.main_arg22) (by decide))).trans (keepR1 (after Cert.ReferenceIdeal.Hand.opsUp VR) (r := Cert.ReferenceIdeal.main_arg22) (by decide) (by decide) (by decide))).trans (keepR0 VR (r := Cert.ReferenceIdeal.main_arg22) (by decide))).symm
  have c1 := chunk1 VK (after Cert.ReferenceIdeal.Hand.opsUp VR) h26 h27' a0_0 a0_1 a0_2 a0_3 a0_6
  have c2 := chunk2 (after Cert.KernelIdeal.Hand.tailK1 VK) (after Cert.ReferenceIdeal.Hand.rChunk1 (after Cert.ReferenceIdeal.Hand.opsUp VR)) c1 a1_11 a1_12 a1_13 a1_14
  have c3 := chunk3 (after Cert.KernelIdeal.Hand.tailK2 (after Cert.KernelIdeal.Hand.tailK1 VK)) (after Cert.ReferenceIdeal.Hand.opsT2 (after Cert.ReferenceIdeal.Hand.rChunk1 (after Cert.ReferenceIdeal.Hand.opsUp VR))) c2 a2_15 a2_16 a2_17 a2_18
  have c4 := chunk4 (after Cert.KernelIdeal.Hand.tailK3 (after Cert.KernelIdeal.Hand.tailK2 (after Cert.KernelIdeal.Hand.tailK1 VK))) (after Cert.ReferenceIdeal.Hand.opsT3 (after Cert.ReferenceIdeal.Hand.opsT2 (after Cert.ReferenceIdeal.Hand.rChunk1 (after Cert.ReferenceIdeal.Hand.opsUp VR)))) c3 a3_19 a3_20 a3_21 a3_22
  rw [Cert.KernelIdeal.Hand.tailOps_eq_chunks, Cert.ReferenceIdeal.Hand.ops_eq_chunks,
    after_append Cert.KernelIdeal.Hand.tailK1, after_append Cert.KernelIdeal.Hand.tailK2, after_append Cert.KernelIdeal.Hand.tailK3,
    after_append Cert.ReferenceIdeal.Hand.opsUp, after_append Cert.ReferenceIdeal.Hand.rChunk1, after_append Cert.ReferenceIdeal.Hand.opsT2, after_append Cert.ReferenceIdeal.Hand.opsT3]
  exact c4

end Cert.Tail

end
-- ==== Proof.ValueEq.lean ====
/-
  The whole value: the kernel program's result array equals the reference's. The kernel program's last buffers
  are the one-line fold of its last host stretches from the buffers its two message blocks leave; those blocks
  leave the message function of what the first host line prepared, which is the reference's own message arrays
  (the sum over the 256 concatenated features split at 128, the row gather commuting with the product); every
  other input of the last stretches is an argument array, the same on both sides; and the last stretches are the
  reference's own operations.
-/
import proofs.«106179_j53085795779158_2_alg».proof.Proof.KIRun
import proofs.«106179_j53085795779158_2_alg».proof.Proof.KBlocks
import proofs.«106179_j53085795779158_2_alg».proof.Proof.KGlue
import proofs.«106179_j53085795779158_2_alg».proof.Proof.MsgAgree
import proofs.«106179_j53085795779158_2_alg».proof.Proof.ChunkTail

noncomputable section

namespace Cert.Value

open Idealize.ShloMosaic Idealize.ShloMosaic.TcCoe Idealize.SL.Sem Idealize.ShloMosaic.StableHlo

open Cert.KernelIdeal in
theorem value_eq (m : (ℓ : Loc Cert.KernelIdeal.nD Cert.KernelIdeal.τ Cert.KernelIdeal.sig) → Buf (Elt Ideal) ℓ)
    (VR : Valuation Cert.ReferenceIdeal.τ Cert.ReferenceIdeal.sig (Elt Ideal)) (c : Dev Cert.KernelIdeal.nD)
    (a0 : Gen.V0 m c (Proc.devRef .tc Cert.KernelIdeal.main_arg0) = VR (Proc.devRef .tc Cert.ReferenceIdeal.main_arg0))
    (a1 : Gen.V0 m c (Proc.devRef .tc Cert.KernelIdeal.main_arg1) = VR (Proc.devRef .tc Cert.ReferenceIdeal.main_arg1))
    (a2 : Gen.V0 m c (Proc.devRef .tc Cert.KernelIdeal.main_arg2) = VR (Proc.devRef .tc Cert.ReferenceIdeal.main_arg2))
    (a3 : Gen.V0 m c (Proc.devRef .tc Cert.KernelIdeal.main_arg3) = VR (Proc.devRef .tc Cert.ReferenceIdeal.main_arg3))
    (a4 : Gen.V0 m c (Proc.devRef .tc Cert.KernelIdeal.main_arg4) = VR (Proc.devRef .tc Cert.ReferenceIdeal.main_arg4))
    (a5 : Gen.V0 m c (Proc.devRef .tc Cert.KernelIdeal.main_arg5) = VR (Proc.devRef .tc Cert.ReferenceIdeal.main_arg5))
    (a6 : Gen.V0 m c (Proc.devRef .tc Cert.KernelIdeal.main_arg6) = VR (Proc.devRef .tc Cert.ReferenceIdeal.main_arg6))
    (a7 : Gen.V0 m c (Proc.devRef .tc Cert.KernelIdeal.main_arg7) = VR (Proc.devRef .tc Cert.ReferenceIdeal.main_arg7))
    (a8 : Gen.V0 m c (Proc.devRef .tc Cert.KernelIdeal.main_arg8) = VR (Proc.devRef .tc Cert.ReferenceIdeal.main_arg8))
    (a9 : Gen.V0 m c (Proc.devRef .tc Cert.KernelIdeal.main_arg9) = VR (Proc.devRef .tc Cert.ReferenceIdeal.main_arg9))
    (a10 : Gen.V0 m c (Proc.devRef .tc Cert.KernelIdeal.main_arg10) = VR (Proc.devRef .tc Cert.ReferenceIdeal.main_arg10))
    (a11 : Gen.V0 m c (Proc.devRef .tc Cert.KernelIdeal.main_arg11) = VR (Proc.devRef .tc Cert.ReferenceIdeal.main_arg11))
    (a12 : Gen.V0 m c (Proc.devRef .tc Cert.KernelIdeal.main_arg12) = VR (Proc.devRef .tc Cert.ReferenceIdeal.main_arg12))
    (a13 : Gen.V0 m c (Proc.devRef .tc Cert.KernelIdeal.main_arg13) = VR (Proc.devRef .tc Cert.ReferenceIdeal.main_arg13))
    (a14 : Gen.V0 m c (Proc.devRef .tc Cert.KernelIdeal.main_arg14) = VR (Proc.devRef .tc Cert.ReferenceIdeal.main_arg14))
    (a15 : Gen.V0 m c (Proc.devRef .tc Cert.KernelIdeal.main_arg15) = VR (Proc.devRef .tc Cert.ReferenceIdeal.main_arg15))
    (a16 : Gen.V0 m c (Proc.devRef .tc Cert.KernelIdeal.main_arg16) = VR (Proc.devRef .tc Cert.ReferenceIdeal.main_arg16))
    (a17 : Gen.V0 m c (Proc.devRef .tc Cert.KernelIdeal.main_arg17) = VR (Proc.devRef .tc Cert.ReferenceIdeal.main_arg17))
    (a18 : Gen.V0 m c (Proc.devRef .tc Cert.KernelIdeal.main_arg18) = VR (Proc.devRef .tc Cert.ReferenceIdeal.main_arg18))
    (a19 : Gen.V0 m c (Proc.devRef .tc Cert.KernelIdeal.main_arg19) = VR (Proc.devRef .tc Cert.ReferenceIdeal.main_arg19))
    (a20 : Gen.V0 m c (Proc.devRef .tc Cert.KernelIdeal.main_arg20) = VR (Proc.devRef .tc Cert.ReferenceIdeal.main_arg20))
    (a21 : Gen.V0 m c (Proc.devRef .tc Cert.KernelIdeal.main_arg21) = VR (Proc.devRef .tc Cert.ReferenceIdeal.main_arg21))
    (a22 : Gen.V0 m c (Proc.devRef .tc Cert.KernelIdeal.main_arg22) = VR (Proc.devRef .tc Cert.ReferenceIdeal.main_arg22)) :
    Gen.V15 m (Hand.outs m) c (Proc.devRef .tc Cert.KernelIdeal.main_v134)
      = after Cert.ReferenceIdeal.Hand.ops VR (Proc.devRef .tc Cert.ReferenceIdeal.main_v136) := by
  rw [Hand.V15_eq]
  have arg : ∀ r : Ref Cert.KernelIdeal.sig .tc, r ≠ main_v26 → r ≠ main_v27 → r ∉ Gen.hostOps0_W →
      Gen.V3 m (Hand.outs m) c (Proc.devRef .tc r) = Gen.V0 m c (Proc.devRef .tc r) := fun r h26 h27 hW =>
    (Hand.V3_of_ne m (Hand.outs m) c r h26 h27).trans (Gen.V1_of m c r hW)
  refine Cert.Tail.tail_agree_chunked _ VR ?_ ?_
    ((arg main_arg0 (by decide) (by decide) (by decide)).trans a0)
    ((arg main_arg1 (by decide) (by decide) (by decide)).trans a1)
    ((arg main_arg2 (by decide) (by decide) (by decide)).trans a2)
    ((arg main_arg3 (by decide) (by decide) (by decide)).trans a3)
    ((arg main_arg6 (by decide) (by decide) (by decide)).trans a6)
    ((arg main_arg11 (by decide) (by decide) (by decide)).trans a11)
    ((arg main_arg12 (by decide) (by decide) (by decide)).trans a12)
    ((arg main_arg13 (by decide) (by decide) (by decide)).trans a13)
    ((arg main_arg14 (by decide) (by decide) (by decide)).trans a14)
    ((arg main_arg15 (by decide) (by decide) (by decide)).trans a15)
    ((arg main_arg16 (by decide) (by decide) (by decide)).trans a16)
    ((arg main_arg17 (by decide) (by decide) (by decide)).trans a17)
    ((arg main_arg18 (by decide) (by decide) (by decide)).trans a18)
    ((arg main_arg19 (by decide) (by decide) (by decide)).trans a19)
    ((arg main_arg20 (by decide) (by decide) (by decide)).trans a20)
    ((arg main_arg21 (by decide) (by decide) (by decide)).trans a21)
    ((arg main_arg22 (by decide) (by decide) (by decide)).trans a22)
  · -- the first message array
    rw [Hand.V3_v26, Hand.outs_2, Hand.final0]
    have e4 : Gen.V1 m c (Proc.devRef .tc main_arg4) = Gen.V0 m c (Proc.devRef .tc main_arg4) := Gen.V1_of m c main_arg4 (by decide)
    show Cert.Msg.G (after Gen.hostOps0 (Gen.V0 m c) (Proc.devRef .tc main_v14)) (Gen.V1 m c (Proc.devRef .tc main_arg4))
      (after Gen.hostOps0 (Gen.V0 m c) (Proc.devRef .tc main_v1)) (after Gen.hostOps0 (Gen.V0 m c) (Proc.devRef .tc main_v24)) = _
    rw [e4]
    exact Cert.Msg.up_agree (Gen.V0 m c) VR a0 a1 a4 a7 a8
  · -- the second message array
    rw [Hand.V3_v27, Hand.outs_3, Hand.final1]
    have e23 : Gen.V2 m (Hand.outs m) c (Proc.devRef .tc main_v23) = Gen.V1 m c (Proc.devRef .tc main_v23) := Hand.V2_of_ne m _ c main_v23 (by decide)
    have e3 : Gen.V2 m (Hand.outs m) c (Proc.devRef .tc main_v3) = Gen.V1 m c (Proc.devRef .tc main_v3) := Hand.V2_of_ne m _ c main_v3 (by decide)
    have e25 : Gen.V2 m (Hand.outs m) c (Proc.devRef .tc main_v25) = Gen.V1 m c (Proc.devRef .tc main_v25) := Hand.V2_of_ne m _ c main_v25 (by decide)
    have e5 : Gen.V2 m (Hand.outs m) c (Proc.devRef .tc main_arg5) = Gen.V0 m c (Proc.devRef .tc main_arg5) :=
      (Hand.V2_of_ne m _ c main_arg5 (by decide)).trans (Gen.V1_of m c main_arg5 (by decide))
    show Cert.Msg.G (Gen.V2 m (Hand.outs m) c (Proc.devRef .tc main_v23)) (Gen.V2 m (Hand.outs m) c (Proc.devRef .tc main_arg5))
      (Gen.V2 m (Hand.outs m) c (Proc.devRef .tc main_v3)) (Gen.V2 m (Hand.outs m) c (Proc.devRef .tc main_v25)) = _
    rw [e23, e3, e25, e5]
    exact Cert.Msg.dn_agree (Gen.V0 m c) VR a0 a2 a5 a9 a10

end Cert.Value

end
-- ==== Proof.lean ====
/-
  The certificate. A graph message-passing layer: per edge, relu of a linear map of the source node's features
  concatenated with the edge's attributes, summed into the target nodes, then three normalised layers. The kernel
  program splits the linear map at the concatenation — the node half is applied once per node on the host and its
  rows gathered, the attribute half is a block product inside two launched blocks — where the reference
  multiplies the concatenation. On the extended reals the two are the same function: a finite sum over 256
  features is the sum of its two halves, and gathering rows commutes with a product on the right; everything after
  the message arrays is the same operations on both sides.

  The three frames: each launched block's body is run once at a symbolic grid point and its segment record given to
  the conditional frame of the kernel program's host side; the reference is a straight line of host operations.
  The idealisation rewrote nothing, so its statement is trivial.
-/
import proofs.«106179_j53085795779158_2_alg».proof.Defs
import proofs.«106179_j53085795779158_2_alg».proof.Proof.Gen.Kernel
import proofs.«106179_j53085795779158_2_alg».proof.Proof.Gen.Kernel.Skeleton
import proofs.«106179_j53085795779158_2_alg».proof.Proof.Gen.Kernel.Launch
import proofs.«106179_j53085795779158_2_alg».proof.Proof.Gen.Kernel.Regions
import proofs.«106179_j53085795779158_2_alg».proof.Proof.Gen.Kernel.Points
import proofs.«106179_j53085795779158_2_alg».proof.Proof.Gen.KernelIdeal
import proofs.«106179_j53085795779158_2_alg».proof.Proof.Gen.KernelIdeal.Skeleton
import proofs.«106179_j53085795779158_2_alg».proof.Proof.Gen.KernelIdeal.Launch
import proofs.«106179_j53085795779158_2_alg».proof.Proof.Gen.KernelIdeal.Regions
import proofs.«106179_j53085795779158_2_alg».proof.Proof.Gen.KernelIdeal.Points
import proofs.«106179_j53085795779158_2_alg».proof.Proof.Gen.ReferenceIdeal
import proofs.«106179_j53085795779158_2_alg».proof.Proof.Gen.Pre_finite_inputs
import proofs.«106179_j53085795779158_2_alg».proof.Proof.KRun
import proofs.«106179_j53085795779158_2_alg».proof.Proof.KIRun
import proofs.«106179_j53085795779158_2_alg».proof.Proof.RefRun
import proofs.«106179_j53085795779158_2_alg».proof.Proof.ValueEq
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- Both idealised programs run; the kernel program's result array is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V15 m (Cert.KernelIdeal.Hand.outs m) c (Proc.devRef .tc Cert.KernelIdeal.main_v134), ?_, ?_⟩
  · refine (θ_run _ _ _).mono (fun r h c => ?_) (Cert.KernelIdeal.Hand.run_all m ρ)
    have hb : ∀ (b : Ref Cert.KernelIdeal.sig .tc), ¬ (Proc.devRef .tc b : DevRef Cert.KernelIdeal.τ Cert.KernelIdeal.sig).isScoped →
        r.2.mem ((c.tc : Thread Cert.KernelIdeal.nD Cert.KernelIdeal.τ).loc b) = Cert.KernelIdeal.Gen.V15 m (Cert.KernelIdeal.Hand.outs m) c (Proc.devRef .tc b) :=
      fun b hs => h c (Proc.devRef .tc b) (Finset.mem_filter.mpr ⟨StableHlo.devRef_mem_tcRefs b, hs⟩)
    exact ⟨hb Cert.KernelIdeal.main_v134 (by decide),
      (hb Cert.KernelIdeal.main_arg0 (by decide)).trans (Cert.KernelIdeal.Gen.V15_main_arg0 m _ c),
      (hb Cert.KernelIdeal.main_arg1 (by decide)).trans (Cert.KernelIdeal.Gen.V15_main_arg1 m _ c),
      (hb Cert.KernelIdeal.main_arg2 (by decide)).trans (Cert.KernelIdeal.Gen.V15_main_arg2 m _ c),
      (hb Cert.KernelIdeal.main_arg3 (by decide)).trans (Cert.KernelIdeal.Gen.V15_main_arg3 m _ c),
      (hb Cert.KernelIdeal.main_arg4 (by decide)).trans (Cert.KernelIdeal.Gen.V15_main_arg4 m _ c),
      (hb Cert.KernelIdeal.main_arg5 (by decide)).trans (Cert.KernelIdeal.Gen.V15_main_arg5 m _ c),
      (hb Cert.KernelIdeal.main_arg6 (by decide)).trans (Cert.KernelIdeal.Gen.V15_main_arg6 m _ c),
      (hb Cert.KernelIdeal.main_arg7 (by decide)).trans (Cert.KernelIdeal.Gen.V15_main_arg7 m _ c),
      (hb Cert.KernelIdeal.main_arg8 (by decide)).trans (Cert.KernelIdeal.Gen.V15_main_arg8 m _ c),
      (hb Cert.KernelIdeal.main_arg9 (by decide)).trans (Cert.KernelIdeal.Gen.V15_main_arg9 m _ c),
      (hb Cert.KernelIdeal.main_arg10 (by decide)).trans (Cert.KernelIdeal.Gen.V15_main_arg10 m _ c),
      (hb Cert.KernelIdeal.main_arg11 (by decide)).trans (Cert.KernelIdeal.Gen.V15_main_arg11 m _ c),
      (hb Cert.KernelIdeal.main_arg12 (by decide)).trans (Cert.KernelIdeal.Gen.V15_main_arg12 m _ c),
      (hb Cert.KernelIdeal.main_arg13 (by decide)).trans (Cert.KernelIdeal.Gen.V15_main_arg13 m _ c),
      (hb Cert.KernelIdeal.main_arg14 (by decide)).trans (Cert.KernelIdeal.Gen.V15_main_arg14 m _ c),
      (hb Cert.KernelIdeal.main_arg15 (by decide)).trans (Cert.KernelIdeal.Gen.V15_main_arg15 m _ c),
      (hb Cert.KernelIdeal.main_arg16 (by decide)).trans (Cert.KernelIdeal.Gen.V15_main_arg16 m _ c),
      (hb Cert.KernelIdeal.main_arg17 (by decide)).trans (Cert.KernelIdeal.Gen.V15_main_arg17 m _ c),
      (hb Cert.KernelIdeal.main_arg18 (by decide)).trans (Cert.KernelIdeal.Gen.V15_main_arg18 m _ c),
      (hb Cert.KernelIdeal.main_arg19 (by decide)).trans (Cert.KernelIdeal.Gen.V15_main_arg19 m _ c),
      (hb Cert.KernelIdeal.main_arg20 (by decide)).trans (Cert.KernelIdeal.Gen.V15_main_arg20 m _ c),
      (hb Cert.KernelIdeal.main_arg21 (by decide)).trans (Cert.KernelIdeal.Gen.V15_main_arg21 m _ c),
      (hb Cert.KernelIdeal.main_arg22 (by decide)).trans (Cert.KernelIdeal.Gen.V15_main_arg22 m _ c)⟩
  · refine (θ_run _ _ _).mono (fun r h c => ?_) (Cert.ReferenceIdeal.Hand.run m' ρ')
    obtain ⟨b0, b1, b2, b3, b4, b5, b6, b7, b8, b9, b10, b11, b12, b13, b14, b15, b16, b17, b18, b19, b20, b21, b22⟩ := hagree c
    exact ⟨(h c Cert.ReferenceIdeal.main_v136).trans (Cert.Value.value_eq m (launchContents m' c) c
        b0.symm b1.symm b2.symm b3.symm b4.symm b5.symm b6.symm b7.symm b8.symm b9.symm b10.symm b11.symm b12.symm b13.symm b14.symm b15.symm b16.symm b17.symm b18.symm b19.symm b20.symm b21.symm b22.symm).symm,
      (h c Cert.ReferenceIdeal.main_arg0).trans (Cert.ReferenceIdeal.Hand.arg0_kept _),
      (h c Cert.ReferenceIdeal.main_arg1).trans (Cert.ReferenceIdeal.Hand.arg1_kept _),
      (h c Cert.ReferenceIdeal.main_arg2).trans (Cert.ReferenceIdeal.Hand.arg2_kept _),
      (h c Cert.ReferenceIdeal.main_arg3).trans (Cert.ReferenceIdeal.Hand.arg3_kept _),
      (h c Cert.ReferenceIdeal.main_arg4).trans (Cert.ReferenceIdeal.Hand.arg4_kept _),
      (h c Cert.ReferenceIdeal.main_arg5).trans (Cert.ReferenceIdeal.Hand.arg5_kept _),
      (h c Cert.ReferenceIdeal.main_arg6).trans (Cert.ReferenceIdeal.Hand.arg6_kept _),
      (h c Cert.ReferenceIdeal.main_arg7).trans (Cert.ReferenceIdeal.Hand.arg7_kept _),
      (h c Cert.ReferenceIdeal.main_arg8).trans (Cert.ReferenceIdeal.Hand.arg8_kept _),
      (h c Cert.ReferenceIdeal.main_arg9).trans (Cert.ReferenceIdeal.Hand.arg9_kept _),
      (h c Cert.ReferenceIdeal.main_arg10).trans (Cert.ReferenceIdeal.Hand.arg10_kept _),
      (h c Cert.ReferenceIdeal.main_arg11).trans (Cert.ReferenceIdeal.Hand.arg11_kept _),
      (h c Cert.ReferenceIdeal.main_arg12).trans (Cert.ReferenceIdeal.Hand.arg12_kept _),
      (h c Cert.ReferenceIdeal.main_arg13).trans (Cert.ReferenceIdeal.Hand.arg13_kept _),
      (h c Cert.ReferenceIdeal.main_arg14).trans (Cert.ReferenceIdeal.Hand.arg14_kept _),
      (h c Cert.ReferenceIdeal.main_arg15).trans (Cert.ReferenceIdeal.Hand.arg15_kept _),
      (h c Cert.ReferenceIdeal.main_arg16).trans (Cert.ReferenceIdeal.Hand.arg16_kept _),
      (h c Cert.ReferenceIdeal.main_arg17).trans (Cert.ReferenceIdeal.Hand.arg17_kept _),
      (h c Cert.ReferenceIdeal.main_arg18).trans (Cert.ReferenceIdeal.Hand.arg18_kept _),
      (h c Cert.ReferenceIdeal.main_arg19).trans (Cert.ReferenceIdeal.Hand.arg19_kept _),
      (h c Cert.ReferenceIdeal.main_arg20).trans (Cert.ReferenceIdeal.Hand.arg20_kept _),
      (h c Cert.ReferenceIdeal.main_arg21).trans (Cert.ReferenceIdeal.Hand.arg21_kept _),
      (h c Cert.ReferenceIdeal.main_arg22).trans (Cert.ReferenceIdeal.Hand.arg22_kept _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
